-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128 : Shape := ⟨3, ![32, 128, 128]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel

variable [Facts]

def fn {F : FTy → Type} [FloatOps F] (main_arg0 : FVec F S32x128x128 .f32) (main_arg1 : FVec F S32x128x128 .f32) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  let main_v4 : FVec F S32x128x128 .f32 := Host.absf main_arg1
  let main_cst_0 : FVec F S_ .f32 := constant S_ .f32 0x7F800000#32
  let main_v5 : FVec F S32x128x128 .f32 := broadcastInDim S32x128x128 ![] bcast_S_S32x128x128 main_cst_0
  let main_v6 : IVec S32x128x128 1 := cmpf .olt main_v4 main_v5
  let main_c_1 : IVec S_ 1 := constantI S_ 1 1#1
  let main_v7 : IVec S_ 1 := (fun x v => Host.reduce IntOp.andi x v reducesTo_S32x128x128_S_d0_1_2 h_S_) main_v6 main_c_1
  let main_v8 : IVec S_ 1 := andi main_v3 main_v7
  main_v8
-- ==== Kernel.lean ====
abbrev S32x128x128 : Shape := ⟨3, ![32, 128, 128]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S8192 : Shape := ⟨1, ![8192]⟩
abbrev S8192x1 : Shape := ⟨2, ![8192, 1]⟩
abbrev S1024x1 : Shape := ⟨2, ![1024, 1]⟩
abbrev S1024x128 : Shape := ⟨2, ![1024, 128]⟩
abbrev S1024x1024 : Shape := ⟨2, ![1024, 1024]⟩
abbrev S1024 : Shape := ⟨1, ![1024]⟩

abbrev nBuf : Space → Nat
  | .hbm => 39
  | .vmem => 8
  | .smem => 0
  | _ => 0

abbrev bufTy : (tb : Table) → Fin (tcTables nBuf tb) → BufTy
  | .hbm, ⟨0, _⟩ => ⟨S32x128x128, .f32⟩
  | .hbm, ⟨1, _⟩ => ⟨S32x128x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x128, .f32⟩
  | .hbm, ⟨23, _⟩ => ⟨S4096x128, .f32⟩
  | .hbm, ⟨24, _⟩ => ⟨S8192x128, .f32⟩
  | .hbm, ⟨25, _⟩ => ⟨S8192x128, .bf16⟩
  | .hbm, ⟨26, _⟩ => ⟨S4096x128, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1024x128, .bf16⟩
  | .local _ .vmem, ⟨3, _⟩ => ⟨S1024x128, .bf16⟩
  | .local _ .vmem, ⟨4, _⟩ => ⟨S8192x128, .bf16⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v19 : BitVec 32 := Scalar.muli arg6 c1_i32_9
  let v20 : BitVec 32 := Scalar.addi c0_i32_10 v19
  let c1024_i32_11 : BitVec 32 := 1024#32
  let v21 : BitVec 32 := Scalar.muli v20 c1024_i32_11
  v21
def k0_off1 (k0_t1 : Fin k0_t1_loop.trips) : Fin 2 → Nat :=
  let c0_i32_10 : BitVec 32 := 0#32
  let c0_i32 : BitVec 32 := 0#32
  let c1_i32 : BitVec 32 := 1#32
  let arg6 : BitVec 32 := Scf.iv c0_i32 c1_i32 k0_t1
  let c1_i32_9 : BitVec 32 := 1#32
  let v19 : BitVec 32 := Scalar.muli arg6 c1_i32_9
  let v20 : BitVec 32 := Scalar.addi c0_i32_10 v19
  let c1024_i32_11 : BitVec 32 := 1024#32
  let v21 : BitVec 32 := Scalar.muli v20 c1024_i32_11
  let v22 : BitVec 32 := v21
  let v23 : Index := Scalar.indexCast v22
  let c0_12 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x128x128_S4096x128 : S32x128x128.ShapeCasts S4096x128
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  concatenates_S4096_S4096_S8192_d0 : Shape.Concatenates [S4096, S4096] S8192 0
  bcast_S8192_S8192x1_0 : S8192.BroadcastsInDim S8192x1 (![0] : Fin 1 → Fin S8192x1.rank)
  bcast_S_S8192x1 : S_.BroadcastsInDim S8192x1 (![] : Fin 0 → Fin S8192x1.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d0_w32 : S1024x1024.Iotas .tc 32 [0]
  h_S1024x128 : 0 < S1024x128.numel
  shapeCasts_S1024x128_S1024x128 : S1024x128.ShapeCasts S1024x128
  inb_S1024x128_S1024x128_0_0 : ∀ a, (![0, 0] : Fin 2 → Nat) a + S1024x128.size a ≤ S1024x128.size a
  iota_S1024x1024_d1_w32 : S1024x1024.Iotas .tc 32 [1]
  reduces_S1024x1024_S1024 : S1024x1024.Reduces [1] S1024
  shapeCasts_S1024_S1024x1 : S1024.ShapeCasts S1024x1
  reducesTo_S8192x1_S_d0_1 : S8192x1.ReducesTo [0, 1] S_
  dot_S1024x128_S1024x128_S1024x1024_1_1_0_0_n_n_wf : DotDims.WF S1024x128 S1024x128 S1024x1024 [1] [1] [0] [0] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_v25) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x128 : Shape := ⟨3, ![32, 128, 128]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩
abbrev S67108864 : Shape := ⟨1, ![67108864]⟩
abbrev S67108863 : Shape := ⟨1, ![67108863]⟩
abbrev S8191x8193 : Shape := ⟨2, ![8191, 8193]⟩
abbrev S8191x8192 : Shape := ⟨2, ![8191, 8192]⟩
abbrev S8192x8191 : Shape := ⟨2, ![8192, 8191]⟩
abbrev S8192x1 : Shape := ⟨2, ![8192, 1]⟩

abbrev nBuf : Space → Nat
  | .hbm => 106
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S32x128x128, .f32⟩
  | .hbm, ⟨2, _⟩ => ⟨S4096x128, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x128, .f32⟩
  | .hbm, ⟨23, _⟩ => ⟨S4096x128, .f32⟩
  | .hbm, ⟨24, _⟩ => ⟨S8192x128, .f32⟩
  | .hbm, ⟨25, _⟩ => ⟨S128x8192, .f32⟩
  | .hbm, ⟨26, _⟩ => ⟨S8192x8192, .f32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S_, .i32⟩
  | .hbm, ⟨40, _⟩ => ⟨S4096, .i32⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096x1, .i32⟩
  | .hbm, ⟨47, _⟩ => ⟨S4096x1, .i32⟩
  | .hbm, ⟨48, _⟩ => ⟨S4096x2, .i32⟩
  | .hbm, ⟨49, _⟩ => ⟨S4096, .f32⟩
  | .hbm, ⟨50, _⟩ => ⟨S4096, .i32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S4096, .i32⟩
  | .hbm, ⟨69, _⟩ => ⟨S4096x1, .i32⟩
  | .hbm, ⟨70, _⟩ => ⟨S4096x1, .i32⟩
  | .hbm, ⟨71, _⟩ => ⟨S4096x2, .i32⟩
  | .hbm, ⟨72, _⟩ => ⟨S4096, .f32⟩
  | .hbm, ⟨73, _⟩ => ⟨S8192, .f32⟩
  | .hbm, ⟨74, _⟩ => ⟨S67108864, .f32⟩
  | .hbm, ⟨75, _⟩ => ⟨S67108863, .f32⟩
  | .hbm, ⟨76, _⟩ => ⟨S8191x8193, .f32⟩
  | .hbm, ⟨77, _⟩ => ⟨S8191x8192, .f32⟩
  | .hbm, ⟨78, _⟩ => ⟨S8192x8191, .f32⟩
  | .hbm, ⟨79, _⟩ => ⟨S8192x1, .f32⟩
  | .hbm, ⟨80, _⟩ => ⟨S8192x8192, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S8192x1, .f32⟩
  | .hbm, ⟨90, _⟩ => ⟨S8192x8192, .f32⟩
  | .hbm, ⟨91, _⟩ => ⟨S8192x8192, .f32⟩
  | .hbm, ⟨92, _⟩ => ⟨S8192x8192, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1, .f32⟩
  | .hbm, ⟨97, _⟩ => ⟨S8192x8192, .f32⟩
  | .hbm, ⟨98, _⟩ => ⟨S8192x8192, .f32⟩
  | .hbm, ⟨99, _⟩ => ⟨S8192x1, .f32⟩
  | .hbm, ⟨100, _⟩ => ⟨S8192, .f32⟩
  | .hbm, ⟨101, _⟩ => ⟨S8192, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_c : Ref sig .tc := ⟨.hbm, 29, rfl⟩
abbrev main_call0_v2 : Ref sig .tc := ⟨.hbm, 30, rfl⟩
abbrev main_call0_v3 : Ref sig .tc := ⟨.hbm, 31, rfl⟩
abbrev main_call0_c_0 : Ref sig .tc := ⟨.hbm, 32, rfl⟩
abbrev main_call0_v4 : Ref sig .tc := ⟨.hbm, 33, rfl⟩
abbrev main_call0_v5 : Ref sig .tc := ⟨.hbm, 34, rfl⟩
abbrev main_call0_c_1 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c_2 : Ref sig .tc := ⟨.hbm, 39, rfl⟩
abbrev main_call0_v9 : Ref sig .tc := ⟨.hbm, 40, rfl⟩
abbrev main_call0_v10 : Ref sig .tc := ⟨.hbm, 41, rfl⟩
abbrev main_call0_c_3 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_v21 : Ref sig .tc := ⟨.hbm, 49, rfl⟩
abbrev main_call1_v0 : Ref sig .tc := ⟨.hbm, 50, rfl⟩
abbrev main_call1_v1 : Ref sig .tc := ⟨.hbm, 51, rfl⟩
abbrev main_call1_c : Ref sig .tc := ⟨.hbm, 52, rfl⟩
abbrev main_call1_v2 : Ref sig .tc := ⟨.hbm, 53, rfl⟩
abbrev main_call1_v3 : Ref sig .tc := ⟨.hbm, 54, rfl⟩
abbrev main_call1_c_0 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c_2 : Ref sig .tc := ⟨.hbm, 62, rfl⟩
abbrev main_call1_v9 : Ref sig .tc := ⟨.hbm, 63, rfl⟩
abbrev main_call1_v10 : Ref sig .tc := ⟨.hbm, 64, rfl⟩
abbrev main_call1_c_3 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_v15 : Ref sig .tc := ⟨.hbm, 70, rfl⟩
abbrev main_call1_v16 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_cst_3 : Ref sig .tc := ⟨.hbm, 81, rfl⟩
abbrev main_v31 : Ref sig .tc := ⟨.hbm, 82, rfl⟩
abbrev main_v32 : Ref sig .tc := ⟨.hbm, 83, rfl⟩
abbrev main_call2_cst : Ref sig .tc := ⟨.hbm, 84, rfl⟩
abbrev main_call2_v0 : Ref sig .tc := ⟨.hbm, 85, rfl⟩
abbrev main_call2_cst_0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_cst_1 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_cst_4 : Ref sig .tc := ⟨.hbm, 102, rfl⟩
abbrev main_v37 : Ref sig .tc := ⟨.hbm, 103, rfl⟩
abbrev main_cst_5 : Ref sig .tc := ⟨.hbm, 104, rfl⟩
abbrev main_v38 : Ref sig .tc := ⟨.hbm, 105, rfl⟩

abbrev nD : Nat := 1
abbrev τ : Topo := Topo.v7x

variable {F : FTy → Type} [FloatOps F]

class Facts₀ : Prop where
  shapeCasts_S32x128x128_S4096x128 : S32x128x128.ShapeCasts S4096x128
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  shapeCasts_S8192x8192_S67108864 : S8192x8192.ShapeCasts S67108864
  slices_S67108864_S67108863_0 : S67108864.Slices ![0] S67108863
  shapeCasts_S67108863_S8191x8193 : S67108863.ShapeCasts S8191x8193
  slices_S8191x8193_S8191x8192_0_1 : S8191x8193.Slices ![0, 1] S8191x8192
  shapeCasts_S8191x8192_S8192x8191 : S8191x8192.ShapeCasts S8192x8191
  bcast_S8192_S8192x1_0 : S8192.BroadcastsInDim S8192x1 (![0] : Fin 1 → Fin S8192x1.rank)
  concatenates_S8192x1_S8192x8191_S8192x8192_d1 : Shape.Concatenates [S8192x1, S8192x8191] S8192x8192 1
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  slices_S8192x8192_S8192x1_0_0 : S8192x8192.Slices ![0, 0] S8192x1
  shapeCasts_S8192x1_S8192 : S8192x1.ShapeCasts S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.RefRun.lean ====
/-
  The reference's @main as a straight line of host operations, and its run.

  @main is 104 host operations in order; the three functions it calls are inlined, each call's operations standing in the
  call's place on the call's own buffers. No buffer and no semaphore of the signature is scoped, every operation touches
  TensorCore buffers only, and none allocates. So every weakly fair execution from a memory with zero counters terminates,
  and in every final state each TensorCore buffer holds the fold of the operations' results over its launch contents.
-/
import proofs.«164084_j41266045780374_2_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 104 operations, in order (a called function's operations stand in its call's place). -/
abbrev ops : List (HloOp τ sig (Elt F)) :=
  [ reshape main_arg0 main_v0 rfl shapeCasts_S32x128x128_S4096x128,
    binary main_v0 main_v0 main_v1 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v1 main_cst main_v2 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v2 main_v3 (broadcastInDim S4096x1 ![0] bcast_S4096_S4096x1_0 : (⟨S4096, .f32⟩ : BufTy).Contents (Elt F) → (⟨S4096x1, .f32⟩ : BufTy).Contents (Elt F)),
    unary main_v3 main_v4 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v5 (broadcastInDim S4096x1 ![] bcast_S_S4096x1 : (⟨S_, .f32⟩ : BufTy).Contents (Elt F) → (⟨S4096x1, .f32⟩ : BufTy).Contents (Elt F)),
    binary main_v4 main_v5 main_v6 (maximumf : (⟨S4096x1, .f32⟩ : BufTy).Contents (Elt F) → (⟨S4096x1, .f32⟩ : BufTy).Contents (Elt F) → (⟨S4096x1, .f32⟩ : BufTy).Contents (Elt F)),
    unary main_v6 main_v7 (broadcastInDim S4096x128 ![0, 1] bcast_S4096x1_S4096x128_0_1 : (⟨S4096x1, .f32⟩ : BufTy).Contents (Elt F) → (⟨S4096x128, .f32⟩ : BufTy).Contents (Elt F)),
    binary main_v0 main_v7 main_v8 (Host.divf : (⟨S4096x128, .f32⟩ : BufTy).Contents (Elt F) → (⟨S4096x128, .f32⟩ : BufTy).Contents (Elt F) → (⟨S4096x128, .f32⟩ : BufTy).Contents (Elt F)),
    reshape main_arg1 main_v9 rfl shapeCasts_S32x128x128_S4096x128,
    binary main_v9 main_v9 main_v10 (mulf : (⟨S4096x128, .f32⟩ : BufTy).Contents (Elt F) → (⟨S4096x128, .f32⟩ : BufTy).Contents (Elt F) → (⟨S4096x128, .f32⟩ : BufTy).Contents (Elt F)),
    nullary main_cst_1 (constant S_ .f32 0x00000000#32),
    binary main_v10 main_cst_1 main_v11 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v11 main_v12 (broadcastInDim S4096x1 ![0] bcast_S4096_S4096x1_0 : (⟨S4096, .f32⟩ : BufTy).Contents (Elt F) → (⟨S4096x1, .f32⟩ : BufTy).Contents (Elt F)),
    unary main_v12 main_v13 (Host.sqrt : (⟨S4096x1, .f32⟩ : BufTy).Contents (Elt F) → (⟨S4096x1, .f32⟩ : BufTy).Contents (Elt F)),
    nullary main_cst_2 (constant S_ .f32 0x2B8CBCCC#32),
    unary main_cst_2 main_v14 (broadcastInDim S4096x1 ![] bcast_S_S4096x1 : (⟨S_, .f32⟩ : BufTy).Contents (Elt F) → (⟨S4096x1, .f32⟩ : BufTy).Contents (Elt F)),
    binary main_v13 main_v14 main_v15 (maximumf : (⟨S4096x1, .f32⟩ : BufTy).Contents (Elt F) → (⟨S4096x1, .f32⟩ : BufTy).Contents (Elt F) → (⟨S4096x1, .f32⟩ : BufTy).Contents (Elt F)),
    unary main_v15 main_v16 (broadcastInDim S4096x128 ![0, 1] bcast_S4096x1_S4096x128_0_1 : (⟨S4096x1, .f32⟩ : BufTy).Contents (Elt F) → (⟨S4096x128, .f32⟩ : BufTy).Contents (Elt F)),
    binary main_v9 main_v16 main_v17 (Host.divf : (⟨S4096x128, .f32⟩ : BufTy).Contents (Elt F) → (⟨S4096x128, .f32⟩ : BufTy).Contents (Elt F) → (⟨S4096x128, .f32⟩ : BufTy).Contents (Elt F)),
    binary main_v8 main_v17 main_v18 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    unary main_v18 main_v19 ((transpose S128x8192 [1, 0] · transposes_S8192x128_S128x8192_1_0) : (⟨S8192x128, .f32⟩ : BufTy).Contents (Elt F) → (⟨S128x8192, .f32⟩ : BufTy).Contents (Elt F)),
    binary main_v18 main_v19 main_v20 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    TRef.nullary (TRef.of (T := ⟨S4096, .i32⟩) main_call0_v0) (iotaInDim S4096 32 0),
    TRef.nullary (TRef.of (T := ⟨S4096, .i32⟩) main_call0_v1) (iotaInDim S4096 32 0),
    TRef.nullary (TRef.of (T := ⟨S_, .i32⟩) main_call0_c) (constantI S_ 32 4096#32),
    TRef.unary (TRef.of (T := ⟨S_, .i32⟩) main_call0_c) (TRef.of (T := ⟨S4096, .i32⟩) main_call0_v2) (broadcastInDim S4096 ![] bcast_S_S4096),
    TRef.binary (TRef.of (T := ⟨S4096, .i32⟩) main_call0_v2) (TRef.of (T := ⟨S4096, .i32⟩) main_call0_v1) (TRef.of (T := ⟨S4096, .i32⟩) main_call0_v3) addi,
    TRef.nullary (TRef.of (T := ⟨S_, .i32⟩) main_call0_c_0) (constantI S_ 32 0#32),
    TRef.unary (TRef.of (T := ⟨S_, .i32⟩) main_call0_c_0) (TRef.of (T := ⟨S4096, .i32⟩) main_call0_v4) (broadcastInDim S4096 ![] bcast_S_S4096),
    TRef.binary (TRef.of (T := ⟨S4096, .i32⟩) main_call0_v0) (TRef.of (T := ⟨S4096, .i32⟩) main_call0_v4) (TRef.of (T := ⟨S4096, .i1⟩) main_call0_v5) (cmpi .slt),
    TRef.nullary (TRef.of (T := ⟨S_, .i32⟩) main_call0_c_1) (constantI S_ 32 8192#32),
    TRef.unary (TRef.of (T := ⟨S_, .i32⟩) main_call0_c_1) (TRef.of (T := ⟨S4096, .i32⟩) main_call0_v6) (broadcastInDim S4096 ![] bcast_S_S4096),
    TRef.binary (TRef.of (T := ⟨S4096, .i32⟩) main_call0_v0) (TRef.of (T := ⟨S4096, .i32⟩) main_call0_v6) (TRef.of (T := ⟨S4096, .i32⟩) main_call0_v7) addi,
    TRef.ternary (TRef.of (T := ⟨S4096, .i1⟩) main_call0_v5) (TRef.of (T := ⟨S4096, .i32⟩) main_call0_v7) (TRef.of (T := ⟨S4096, .i32⟩) main_call0_v0) (TRef.of (T := ⟨S4096, .i32⟩) main_call0_v8) select,
    TRef.nullary (TRef.of (T := ⟨S_, .i32⟩) main_call0_c_2) (constantI S_ 32 0#32),
    TRef.unary (TRef.of (T := ⟨S_, .i32⟩) main_call0_c_2) (TRef.of (T := ⟨S4096, .i32⟩) main_call0_v9) (broadcastInDim S4096 ![] bcast_S_S4096),
    TRef.binary (TRef.of (T := ⟨S4096, .i32⟩) main_call0_v3) (TRef.of (T := ⟨S4096, .i32⟩) main_call0_v9) (TRef.of (T := ⟨S4096, .i1⟩) main_call0_v10) (cmpi .slt),
    TRef.nullary (TRef.of (T := ⟨S_, .i32⟩) main_call0_c_3) (constantI S_ 32 8192#32),
    TRef.unary (TRef.of (T := ⟨S_, .i32⟩) main_call0_c_3) (TRef.of (T := ⟨S4096, .i32⟩) main_call0_v11) (broadcastInDim S4096 ![] bcast_S_S4096),
    TRef.binary (TRef.of (T := ⟨S4096, .i32⟩) main_call0_v3) (TRef.of (T := ⟨S4096, .i32⟩) main_call0_v11) (TRef.of (T := ⟨S4096, .i32⟩) main_call0_v12) addi,
    TRef.ternary (TRef.of (T := ⟨S4096, .i1⟩) main_call0_v10) (TRef.of (T := ⟨S4096, .i32⟩) main_call0_v12) (TRef.of (T := ⟨S4096, .i32⟩) main_call0_v3) (TRef.of (T := ⟨S4096, .i32⟩) main_call0_v13) select,
    TRef.unary (TRef.of (T := ⟨S4096, .i32⟩) main_call0_v8) (TRef.of (T := ⟨S4096x1, .i32⟩) main_call0_v14) (broadcastInDim S4096x1 ![0] bcast_S4096_S4096x1_0),
    TRef.unary (TRef.of (T := ⟨S4096, .i32⟩) main_call0_v13) (TRef.of (T := ⟨S4096x1, .i32⟩) main_call0_v15) (broadcastInDim S4096x1 ![0] bcast_S4096_S4096x1_0),
    TRef.binary (TRef.of (T := ⟨S4096x1, .i32⟩) main_call0_v14) (TRef.of (T := ⟨S4096x1, .i32⟩) main_call0_v15) (TRef.of (T := ⟨S4096x2, .i32⟩) main_call0_v16) (fun a b => concatenate S4096x2 1 [⟨S4096x1, a⟩, ⟨S4096x1, b⟩] concatenates_S4096x1_S4096x1_S4096x2_d1),
    TRef.binary (TRef.of (T := ⟨S8192x8192, .f32⟩) main_v20) (TRef.of (T := ⟨S4096x2, .i32⟩) main_call0_v16) (TRef.of (T := ⟨S4096, .f32⟩) main_v21) (fun x i => Host.gather gather_S8192x8192_S4096x2_S4096_n_01_n_n_01_1_11 x i),
    TRef.nullary (TRef.of (T := ⟨S4096, .i32⟩) main_call1_v0) (iotaInDim S4096 32 0),
    TRef.nullary (TRef.of (T := ⟨S4096, .i32⟩) main_call1_v1) (iotaInDim S4096 32 0),
    TRef.nullary (TRef.of (T := ⟨S_, .i32⟩) main_call1_c) (constantI S_ 32 4096#32),
    TRef.unary (TRef.of (T := ⟨S_, .i32⟩) main_call1_c) (TRef.of (T := ⟨S4096, .i32⟩) main_call1_v2) (broadcastInDim S4096 ![] bcast_S_S4096),
    TRef.binary (TRef.of (T := ⟨S4096, .i32⟩) main_call1_v2) (TRef.of (T := ⟨S4096, .i32⟩) main_call1_v1) (TRef.of (T := ⟨S4096, .i32⟩) main_call1_v3) addi,
    TRef.nullary (TRef.of (T := ⟨S_, .i32⟩) main_call1_c_0) (constantI S_ 32 0#32),
    TRef.unary (TRef.of (T := ⟨S_, .i32⟩) main_call1_c_0) (TRef.of (T := ⟨S4096, .i32⟩) main_call1_v4) (broadcastInDim S4096 ![] bcast_S_S4096),
    TRef.binary (TRef.of (T := ⟨S4096, .i32⟩) main_call1_v3) (TRef.of (T := ⟨S4096, .i32⟩) main_call1_v4) (TRef.of (T := ⟨S4096, .i1⟩) main_call1_v5) (cmpi .slt),
    TRef.nullary (TRef.of (T := ⟨S_, .i32⟩) main_call1_c_1) (constantI S_ 32 8192#32),
    TRef.unary (TRef.of (T := ⟨S_, .i32⟩) main_call1_c_1) (TRef.of (T := ⟨S4096, .i32⟩) main_call1_v6) (broadcastInDim S4096 ![] bcast_S_S4096),
    TRef.binary (TRef.of (T := ⟨S4096, .i32⟩) main_call1_v3) (TRef.of (T := ⟨S4096, .i32⟩) main_call1_v6) (TRef.of (T := ⟨S4096, .i32⟩) main_call1_v7) addi,
    TRef.ternary (TRef.of (T := ⟨S4096, .i1⟩) main_call1_v5) (TRef.of (T := ⟨S4096, .i32⟩) main_call1_v7) (TRef.of (T := ⟨S4096, .i32⟩) main_call1_v3) (TRef.of (T := ⟨S4096, .i32⟩) main_call1_v8) select,
    TRef.nullary (TRef.of (T := ⟨S_, .i32⟩) main_call1_c_2) (constantI S_ 32 0#32),
    TRef.unary (TRef.of (T := ⟨S_, .i32⟩) main_call1_c_2) (TRef.of (T := ⟨S4096, .i32⟩) main_call1_v9) (broadcastInDim S4096 ![] bcast_S_S4096),
    TRef.binary (TRef.of (T := ⟨S4096, .i32⟩) main_call1_v0) (TRef.of (T := ⟨S4096, .i32⟩) main_call1_v9) (TRef.of (T := ⟨S4096, .i1⟩) main_call1_v10) (cmpi .slt),
    TRef.nullary (TRef.of (T := ⟨S_, .i32⟩) main_call1_c_3) (constantI S_ 32 8192#32),
    TRef.unary (TRef.of (T := ⟨S_, .i32⟩) main_call1_c_3) (TRef.of (T := ⟨S4096, .i32⟩) main_call1_v11) (broadcastInDim S4096 ![] bcast_S_S4096),
    TRef.binary (TRef.of (T := ⟨S4096, .i32⟩) main_call1_v0) (TRef.of (T := ⟨S4096, .i32⟩) main_call1_v11) (TRef.of (T := ⟨S4096, .i32⟩) main_call1_v12) addi,
    TRef.ternary (TRef.of (T := ⟨S4096, .i1⟩) main_call1_v10) (TRef.of (T := ⟨S4096, .i32⟩) main_call1_v12) (TRef.of (T := ⟨S4096, .i32⟩) main_call1_v0) (TRef.of (T := ⟨S4096, .i32⟩) main_call1_v13) select,
    TRef.unary (TRef.of (T := ⟨S4096, .i32⟩) main_call1_v8) (TRef.of (T := ⟨S4096x1, .i32⟩) main_call1_v14) (broadcastInDim S4096x1 ![0] bcast_S4096_S4096x1_0),
    TRef.unary (TRef.of (T := ⟨S4096, .i32⟩) main_call1_v13) (TRef.of (T := ⟨S4096x1, .i32⟩) main_call1_v15) (broadcastInDim S4096x1 ![0] bcast_S4096_S4096x1_0),
    TRef.binary (TRef.of (T := ⟨S4096x1, .i32⟩) main_call1_v14) (TRef.of (T := ⟨S4096x1, .i32⟩) main_call1_v15) (TRef.of (T := ⟨S4096x2, .i32⟩) main_call1_v16) (fun a b => concatenate S4096x2 1 [⟨S4096x1, a⟩, ⟨S4096x1, b⟩] concatenates_S4096x1_S4096x1_S4096x2_d1),
    TRef.binary (TRef.of (T := ⟨S8192x8192, .f32⟩) main_v20) (TRef.of (T := ⟨S4096x2, .i32⟩) main_call1_v16) (TRef.of (T := ⟨S4096, .f32⟩) main_v22) (fun x i => Host.gather gather_S8192x8192_S4096x2_S4096_n_01_n_n_01_1_11 x i),
    binary main_v21 main_v22 main_v23 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    reshape main_v20 main_v24 rfl shapeCasts_S8192x8192_S67108864,
    unary main_v24 main_v25 ((extractStridedSlice S67108863 ![0] · slices_S67108864_S67108863_0) : (⟨S67108864, .f32⟩ : BufTy).Contents (Elt F) → (⟨S67108863, .f32⟩ : BufTy).Contents (Elt F)),
    reshape main_v25 main_v26 rfl shapeCasts_S67108863_S8191x8193,
    unary main_v26 main_v27 ((extractStridedSlice S8191x8192 ![0, 1] · slices_S8191x8193_S8191x8192_0_1) : (⟨S8191x8193, .f32⟩ : BufTy).Contents (Elt F) → (⟨S8191x8192, .f32⟩ : BufTy).Contents (Elt F)),
    reshape main_v27 main_v28 rfl shapeCasts_S8191x8192_S8192x8191,
    unary main_v23 main_v29 (broadcastInDim S8192x1 ![0] bcast_S8192_S8192x1_0 : (⟨S8192, .f32⟩ : BufTy).Contents (Elt F) → (⟨S8192x1, .f32⟩ : BufTy).Contents (Elt F)),
    binary main_v29 main_v28 main_v30 ((fun a b => concatenate S8192x8192 1 [⟨S8192x1, a⟩, ⟨S8192x8191, b⟩] concatenates_S8192x1_S8192x8191_S8192x8192_d1) : (⟨S8192x1, .f32⟩ : BufTy).Contents (Elt F) → (⟨S8192x8191, .f32⟩ : BufTy).Contents (Elt F) → (⟨S8192x8192, .f32⟩ : BufTy).Contents (Elt F)),
    nullary main_cst_3 (constant S_ .f32 0x3F000000#32),
    unary main_cst_3 main_v31 (broadcastInDim S8192x8192 ![] bcast_S_S8192x8192 : (⟨S_, .f32⟩ : BufTy).Contents (Elt F) → (⟨S8192x8192, .f32⟩ : BufTy).Contents (Elt F)),
    binary main_v30 main_v31 main_v32 (Host.divf : (⟨S8192x8192, .f32⟩ : BufTy).Contents (Elt F) → (⟨S8192x8192, .f32⟩ : BufTy).Contents (Elt F) → (⟨S8192x8192, .f32⟩ : BufTy).Contents (Elt F)),
    TRef.nullary (TRef.of (T := ⟨S_, .f32⟩) main_call2_cst) (constant S_ .f32 0xFF800000#32),
    TRef.binary (TRef.of (T := ⟨S8192x8192, .f32⟩) main_v32) (TRef.of (T := ⟨S_, .f32⟩) main_call2_cst) (TRef.of (T := ⟨S8192, .f32⟩) main_call2_v0) (fun x v => Host.reduce FloatOps.maximumf x v reducesTo_S8192x8192_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x8192, .f32⟩) main_call2_v4) (broadcastInDim S8192x8192 ![0, 1] bcast_S8192x1_S8192x8192_0_1),
    TRef.binary (TRef.of (T := ⟨S8192x8192, .f32⟩) main_v32) (TRef.of (T := ⟨S8192x8192, .f32⟩) main_call2_v4) (TRef.of (T := ⟨S8192x8192, .f32⟩) main_call2_v5) subf,
    TRef.unary (TRef.of (T := ⟨S8192x8192, .f32⟩) main_call2_v5) (TRef.of (T := ⟨S8192x8192, .f32⟩) main_call2_v6) Host.exp,
    TRef.nullary (TRef.of (T := ⟨S_, .f32⟩) main_call2_cst_1) (constant S_ .f32 0x00000000#32),
    TRef.binary (TRef.of (T := ⟨S8192x8192, .f32⟩) main_call2_v6) (TRef.of (T := ⟨S_, .f32⟩) main_call2_cst_1) (TRef.of (T := ⟨S8192, .f32⟩) main_call2_v7) (fun x v => Host.reduceAdd x v reducesTo_S8192x8192_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x8192, .f32⟩) main_call2_v10) (broadcastInDim S8192x8192 ![0, 1] bcast_S8192x1_S8192x8192_0_1),
    TRef.binary (TRef.of (T := ⟨S8192x8192, .f32⟩) main_call2_v5) (TRef.of (T := ⟨S8192x8192, .f32⟩) main_call2_v10) (TRef.of (T := ⟨S8192x8192, .f32⟩) main_v33) subf,
    unary main_v33 main_v34 ((extractStridedSlice S8192x1 ![0, 0] · slices_S8192x8192_S8192x1_0_0) : (⟨S8192x8192, .f32⟩ : BufTy).Contents (Elt F) → (⟨S8192x1, .f32⟩ : BufTy).Contents (Elt F)),
    reshape main_v34 main_v35 rfl shapeCasts_S8192x1_S8192,
    unary main_v35 main_v36 (Host.negf : (⟨S8192, .f32⟩ : BufTy).Contents (Elt F) → (⟨S8192, .f32⟩ : BufTy).Contents (Elt F)),
    nullary main_cst_4 (constant S_ .f32 0x00000000#32),
    binary main_v36 main_cst_4 main_v37 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_5 (constant S_ .f32 0x46000000#32),
    binary main_v37 main_cst_5 main_v38 (Host.divf : (⟨S_, .f32⟩ : BufTy).Contents (Elt F) → (⟨S_, .f32⟩ : BufTy).Contents (Elt F) → (⟨S_, .f32⟩ : BufTy).Contents (Elt F)) ]

set_option maxRecDepth 8192 in
/-- @main is that straight line: both sides are one sequence of the same operations once the called functions' bodies
    are unfolded at their calls. -/
theorem main_eq (c : Dev nD) : main (F := F) c = seq ops := by chain_rfl

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

set_option maxRecDepth 8192 in
/-- Every operation reads and writes TensorCore buffers only. -/
theorem ops_sub : (ops : List (HloOp τ sig (Elt F))).Forall fun op => op.bufs ⊆ tcRefs τ sig :=
  ⟨reshape_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub .., reshape_bufs_sub .., unary_bufs_sub .., reshape_bufs_sub .., unary_bufs_sub .., reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

set_option maxRecDepth 8192 in
/-- On every device, for any float values, from any memory with zero counters: every weakly fair execution of @main
    terminates with each TensorCore buffer at the fold of the operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.HandRun

end
-- ==== Proof.RefAfter.lean ====
/-
  The reference's 104 operations, read one buffer at a time at the ideal instance. They form a straight line in which
  every operation writes one buffer of its own, once, from buffers written earlier or from the two inputs; so what a
  buffer holds after all of them is the operation that wrote it applied to what its operands hold after all of them.
  Buffer by buffer this is the stage of the two inputs that the reference's stage definitions name: the result buffer
  holds the last stage, and the two inputs are never written. With the run of the operation list this gives the
  reference's run: every weakly fair execution terminates with the result at the last stage and the inputs unchanged.

  Inside the called functions an operation's function is wrapped in casts along the equation between a buffer's type and
  the type of the value it holds. Such a cast is removed by the heterogeneous equality of a term with itself, never by
  unfolding the operation under it: a row maximum is a fold over all 67108864 positions of the matrix.
-/
import proofs.«164084_j41266045780374_2_alg».proof.Proof.RefRun
import proofs.«164084_j41266045780374_2_alg».proof.Proof.ReadP
import Idealize.ShloMosaic.Lib.Pipeline.Frame

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Read

variable (m : (ℓ : Loc nD τ sig) → Buf (Elt Ideal) ℓ)

/-! ## The 104 operations as a straight line: each writes one buffer of its own, once -/

/-- The operations, at the ideal instance. -/
abbrev opsI : List (HloOp τ sig (Elt Ideal)) := ops (F := Ideal)
/-- Their result buffers, in order. -/
def outs : List (Ref sig .tc) :=
  [main_v0, main_v1, main_cst, main_v2, main_v3, main_v4, main_cst_0, main_v5, main_v6, main_v7, main_v8, main_v9, main_v10, main_cst_1, main_v11, main_v12, main_v13, main_cst_2, main_v14, main_v15, main_v16, main_v17, main_v18, main_v19, main_v20, main_call0_v0, main_call0_v1, main_call0_c, main_call0_v2, main_call0_v3, main_call0_c_0, main_call0_v4, main_call0_v5, main_call0_c_1, main_call0_v6, main_call0_v7, main_call0_v8, main_call0_c_2, main_call0_v9, main_call0_v10, main_call0_c_3, main_call0_v11, main_call0_v12, main_call0_v13, main_call0_v14, main_call0_v15, main_call0_v16, main_v21, main_call1_v0, main_call1_v1, main_call1_c, main_call1_v2, main_call1_v3, main_call1_c_0, main_call1_v4, main_call1_v5, main_call1_c_1, main_call1_v6, main_call1_v7, main_call1_v8, main_call1_c_2, main_call1_v9, main_call1_v10, main_call1_c_3, main_call1_v11, main_call1_v12, main_call1_v13, main_call1_v14, main_call1_v15, main_call1_v16, main_v22, main_v23, main_v24, main_v25, main_v26, main_v27, main_v28, main_v29, main_v30, main_cst_3, main_v31, main_v32, main_call2_cst, main_call2_v0, main_call2_cst_0, main_call2_v1, main_call2_v2, main_call2_v3, main_call2_v4, main_call2_v5, main_call2_v6, main_call2_cst_1, main_call2_v7, main_call2_v8, main_call2_v9, main_call2_v10, main_v33, main_v34, main_v35, main_v36, main_cst_4, main_v37, main_cst_5, main_v38]

theorem ops_len : (opsI).length = 104 := rfl
theorem outs_len : outs.length = 104 := rfl
theorem outs_nodup : outs.Nodup := by decide

/-- Operation `j` writes result buffer `j` and nothing else. -/
theorem writes_outs (j : Nat) (hj : j < 104) :
    ((opsI)[j]'(by rw [ops_len]; exact hj)).writes = {Proc.devRef (τ := τ) .tc (outs[j]'(by rw [outs_len]; exact hj))} := by
  interval_cases j <;> rfl

/-- Core `c`'s buffer contents after the first `n` operations. -/
def U (n : Nat) (c : Dev nD) : Valuation τ sig (Elt Ideal) := after ((opsI).take n) (launchContents m c)
/-- Core `c`'s buffer contents after all of them. -/
abbrev Wf (c : Dev nD) : Valuation τ sig (Elt Ideal) := after opsI (launchContents m c)

theorem U_all (c : Dev nD) : U m 104 c = Wf m c := rfl

/-- One more operation. -/
theorem U_succ (n : Nat) (hn : n < 104) (c : Dev nD) :
    U m (n + 1) c = ((opsI)[n]'(by rw [ops_len]; exact hn)).result (U m n c) := by
  unfold U
  rw [List.take_succ, List.getElem?_eq_getElem (by rw [ops_len]; exact hn), Option.toList_some, StableHlo.after_append,
    after_cons, after_nil]

/-- A result buffer is not written again by later operations. -/
theorem U_stable (c : Dev nD) (k : Nat) (hk : k < 104) : ∀ d, k + 1 + d ≤ 104 →
    U m (k + 1 + d) c (Proc.devRef .tc (outs[k]'(by rw [outs_len]; exact hk)))
      = U m (k + 1) c (Proc.devRef .tc (outs[k]'(by rw [outs_len]; exact hk)))
  | 0, _ => rfl
  | d + 1, h => by
    have hn : k + 1 + d < 104 := by omega
    rw [show k + 1 + (d + 1) = (k + 1 + d) + 1 from rfl, U_succ m (k + 1 + d) hn c, HloOp.result_of_not_mem,
      U_stable c k hk d (by omega)]
    rw [writes_outs _ hn, Finset.mem_singleton]
    refine devRef_ne_of_ne fun e => ?_
    have := (List.Nodup.getElem_inj_iff outs_nodup).mp e
    omega

/-- What is left in result buffer `k` is what operation `k` computes from the contents before it. -/
theorem final (c : Dev nD) (k : Nat) (hk : k < 104) :
    Wf m c (Proc.devRef .tc (outs[k]'(by rw [outs_len]; exact hk)))
      = ((opsI)[k]'(by rw [ops_len]; exact hk)).result (U m k c) (Proc.devRef .tc (outs[k]'(by rw [outs_len]; exact hk))) := by
  have h := U_stable m c k hk (104 - (k + 1)) (by omega)
  rw [show k + 1 + (104 - (k + 1)) = 104 by omega, U_all] at h
  rw [h, U_succ m k hk c]

/-- Before operation `n` an earlier result buffer `k` already holds its final contents. -/
theorem U_eq_final (c : Dev nD) (k n : Nat) (hk : k < n) (hn : n ≤ 104) :
    U m n c (Proc.devRef .tc (outs[k]'(by rw [outs_len]; omega))) = Wf m c (Proc.devRef .tc (outs[k]'(by rw [outs_len]; omega))) := by
  have h1 := U_stable m c k (by omega) (n - (k + 1)) (by omega)
  have h2 := U_stable m c k (by omega) (104 - (k + 1)) (by omega)
  rw [show k + 1 + (n - (k + 1)) = n by omega] at h1
  rw [show k + 1 + (104 - (k + 1)) = 104 by omega, U_all] at h2
  rw [h1, h2]

/-- A buffer no operation writes keeps the launch memory's contents. -/
theorem U_arg (c : Dev nD) (r : Ref sig .tc) (hr : r ∉ outs) : ∀ n, n ≤ 104 → U m n c (Proc.devRef .tc r) = m (c, Proc.devRef .tc r)
  | 0, _ => rfl
  | n + 1, h => by
    have hn : n < 104 := by omega
    rw [U_succ m n hn c, HloOp.result_of_not_mem, U_arg c r hr n (by omega)]
    rw [writes_outs _ hn, Finset.mem_singleton]
    exact devRef_ne_of_ne fun e => hr (e ▸ List.getElem_mem _)

/-! ## Each buffer after all the operations is the reference's stage -/

theorem after_v0 (c : Dev nD) : Wf m c (Proc.devRef .tc main_v0) = val_main_v0 (F := Ideal) (m ((c.tc : Thread nD τ).loc main_arg0)) := by
  have h0 : U m 0 c (Proc.devRef .tc main_arg0) = (m ((c.tc : Thread nD τ).loc main_arg0)) := U_arg m c main_arg0 (by decide) 0 (by decide)
  refine (final m c 0 (by decide)).trans ?_
  show (reshape main_arg0 main_v0 rfl shapeCasts_S32x128x128_S4096x128 : HloOp τ sig (Elt Ideal)).result (U m 0 c) (Proc.devRef .tc main_v0) = _
  rw [reshape_result]
  rw [h0]
  rfl

theorem after_v1 (c : Dev nD) : Wf m c (Proc.devRef .tc main_v1) = val_main_v1 (F := Ideal) (m ((c.tc : Thread nD τ).loc main_arg0)) := by
  have h0 : U m 1 c (Proc.devRef .tc main_v0) = val_main_v0 (F := Ideal) (m ((c.tc : Thread nD τ).loc main_arg0)) := (U_eq_final m c 0 1 (by decide) (by decide)).trans (after_v0 m c)
  refine (final m c 1 (by decide)).trans ?_
  show (binary main_v0 main_v0 main_v1 (mulf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 1 c) (Proc.devRef .tc main_v1) = _
  rw [binary_result]
  rw [h0]
  rfl

theorem after_cst (c : Dev nD) : Wf m c (Proc.devRef .tc main_cst) = val_main_cst (F := Ideal) := by
  refine (final m c 2 (by decide)).trans ?_
  show (nullary main_cst (constant (F := Ideal) S_ .f32 0x00000000#32) : HloOp τ sig (Elt Ideal)).result (U m 2 c) (Proc.devRef .tc main_cst) = _
  rw [nullary_result]
  rfl

theorem after_v2 (c : Dev nD) : Wf m c (Proc.devRef .tc main_v2) = val_main_v2 (F := Ideal) (m ((c.tc : Thread nD τ).loc main_arg0)) := by
  have h0 : U m 3 c (Proc.devRef .tc main_v1) = val_main_v1 (F := Ideal) (m ((c.tc : Thread nD τ).loc main_arg0)) := (U_eq_final m c 1 3 (by decide) (by decide)).trans (after_v1 m c)
  have h1 : U m 3 c (Proc.devRef .tc main_cst) = val_main_cst (F := Ideal) := (U_eq_final m c 2 3 (by decide) (by decide)).trans (after_cst m c)
  refine (final m c 3 (by decide)).trans ?_
  show (binary main_v1 main_cst main_v2 ((fun x v => Host.reduceAdd (F := Ideal) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) : HloOp τ sig (Elt Ideal)).result (U m 3 c) (Proc.devRef .tc main_v2) = _
  rw [binary_result]
  rw [h0, h1]
  rfl

theorem after_v3 (c : Dev nD) : Wf m c (Proc.devRef .tc main_v3) = val_main_v3 (F := Ideal) (m ((c.tc : Thread nD τ).loc main_arg0)) := by
  have h0 : U m 4 c (Proc.devRef .tc main_v2) = val_main_v2 (F := Ideal) (m ((c.tc : Thread nD τ).loc main_arg0)) := (U_eq_final m c 3 4 (by decide) (by decide)).trans (after_v2 m c)
  refine (final m c 4 (by decide)).trans ?_
  show (unary main_v2 main_v3 (broadcastInDim S4096x1 ![0] bcast_S4096_S4096x1_0 : (⟨S4096, .f32⟩ : BufTy).Contents (Elt Ideal) → (⟨S4096x1, .f32⟩ : BufTy).Contents (Elt Ideal)) : HloOp τ sig (Elt Ideal)).result (U m 4 c) (Proc.devRef .tc main_v3) = _
  rw [unary_result]
  rw [h0]
  rfl

theorem after_v4 (c : Dev nD) : Wf m c (Proc.devRef .tc main_v4) = val_main_v4 (F := Ideal) (m ((c.tc : Thread nD τ).loc main_arg0)) := by
  have h0 : U m 5 c (Proc.devRef .tc main_v3) = val_main_v3 (F := Ideal) (m ((c.tc : Thread nD τ).loc main_arg0)) := (U_eq_final m c 4 5 (by decide) (by decide)).trans (after_v3 m c)
  refine (final m c 5 (by decide)).trans ?_
  show (unary main_v3 main_v4 (Host.sqrt (F := Ideal) : (⟨S4096x1, .f32⟩ : BufTy).Contents (Elt Ideal) → (⟨S4096x1, .f32⟩ : BufTy).Contents (Elt Ideal)) : HloOp τ sig (Elt Ideal)).result (U m 5 c) (Proc.devRef .tc main_v4) = _
  rw [unary_result]
  rw [h0]
  rfl

theorem after_cst_0 (c : Dev nD) : Wf m c (Proc.devRef .tc main_cst_0) = val_main_cst_0 (F := Ideal) := by
  refine (final m c 6 (by decide)).trans ?_
  show (nullary main_cst_0 (constant (F := Ideal) S_ .f32 0x2B8CBCCC#32) : HloOp τ sig (Elt Ideal)).result (U m 6 c) (Proc.devRef .tc main_cst_0) = _
  rw [nullary_result]
  rfl

theorem after_v5 (c : Dev nD) : Wf m c (Proc.devRef .tc main_v5) = val_main_v5 (F := Ideal) := by
  have h0 : U m 7 c (Proc.devRef .tc main_cst_0) = val_main_cst_0 (F := Ideal) := (U_eq_final m c 6 7 (by decide) (by decide)).trans (after_cst_0 m c)
  refine (final m c 7 (by decide)).trans ?_
  show (unary main_cst_0 main_v5 (broadcastInDim S4096x1 ![] bcast_S_S4096x1 : (⟨S_, .f32⟩ : BufTy).Contents (Elt Ideal) → (⟨S4096x1, .f32⟩ : BufTy).Contents (Elt Ideal)) : HloOp τ sig (Elt Ideal)).result (U m 7 c) (Proc.devRef .tc main_v5) = _
  rw [unary_result]
  rw [h0]
  rfl

theorem after_v6 (c : Dev nD) : Wf m c (Proc.devRef .tc main_v6) = val_main_v6 (F := Ideal) (m ((c.tc : Thread nD τ).loc main_arg0)) := by
  have h0 : U m 8 c (Proc.devRef .tc main_v4) = val_main_v4 (F := Ideal) (m ((c.tc : Thread nD τ).loc main_arg0)) := (U_eq_final m c 5 8 (by decide) (by decide)).trans (after_v4 m c)
  have h1 : U m 8 c (Proc.devRef .tc main_v5) = val_main_v5 (F := Ideal) := (U_eq_final m c 7 8 (by decide) (by decide)).trans (after_v5 m c)
  refine (final m c 8 (by decide)).trans ?_
  show (binary main_v4 main_v5 main_v6 (maximumf (F := Ideal) : (⟨S4096x1, .f32⟩ : BufTy).Contents (Elt Ideal) → (⟨S4096x1, .f32⟩ : BufTy).Contents (Elt Ideal) → (⟨S4096x1, .f32⟩ : BufTy).Contents (Elt Ideal)) : HloOp τ sig (Elt Ideal)).result (U m 8 c) (Proc.devRef .tc main_v6) = _
  rw [binary_result]
  rw [h0, h1]
  rfl

theorem after_v7 (c : Dev nD) : Wf m c (Proc.devRef .tc main_v7) = val_main_v7 (F := Ideal) (m ((c.tc : Thread nD τ).loc main_arg0)) := by
  have h0 : U m 9 c (Proc.devRef .tc main_v6) = val_main_v6 (F := Ideal) (m ((c.tc : Thread nD τ).loc main_arg0)) := (U_eq_final m c 8 9 (by decide) (by decide)).trans (after_v6 m c)
  refine (final m c 9 (by decide)).trans ?_
  show (unary main_v6 main_v7 (broadcastInDim S4096x128 ![0, 1] bcast_S4096x1_S4096x128_0_1 : (⟨S4096x1, .f32⟩ : BufTy).Contents (Elt Ideal) → (⟨S4096x128, .f32⟩ : BufTy).Contents (Elt Ideal)) : HloOp τ sig (Elt Ideal)).result (U m 9 c) (Proc.devRef .tc main_v7) = _
  rw [unary_result]
  rw [h0]
  rfl

theorem after_v8 (c : Dev nD) : Wf m c (Proc.devRef .tc main_v8) = val_main_v8 (F := Ideal) (m ((c.tc : Thread nD τ).loc main_arg0)) := by
  have h0 : U m 10 c (Proc.devRef .tc main_v0) = val_main_v0 (F := Ideal) (m ((c.tc : Thread nD τ).loc main_arg0)) := (U_eq_final m c 0 10 (by decide) (by decide)).trans (after_v0 m c)
  have h1 : U m 10 c (Proc.devRef .tc main_v7) = val_main_v7 (F := Ideal) (m ((c.tc : Thread nD τ).loc main_arg0)) := (U_eq_final m c 9 10 (by decide) (by decide)).trans (after_v7 m c)
  refine (final m c 10 (by decide)).trans ?_
  show (binary main_v0 main_v7 main_v8 (Host.divf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 10 c) (Proc.devRef .tc main_v8) = _
  rw [binary_result]
  rw [h0, h1]
  rfl

theorem after_v9 (c : Dev nD) : Wf m c (Proc.devRef .tc main_v9) = val_main_v9 (F := Ideal) (m ((c.tc : Thread nD τ).loc main_arg1)) := by
  have h0 : U m 11 c (Proc.devRef .tc main_arg1) = (m ((c.tc : Thread nD τ).loc main_arg1)) := U_arg m c main_arg1 (by decide) 11 (by decide)
  refine (final m c 11 (by decide)).trans ?_
  show (reshape main_arg1 main_v9 rfl shapeCasts_S32x128x128_S4096x128 : HloOp τ sig (Elt Ideal)).result (U m 11 c) (Proc.devRef .tc main_v9) = _
  rw [reshape_result]
  rw [h0]
  rfl

theorem after_v10 (c : Dev nD) : Wf m c (Proc.devRef .tc main_v10) = val_main_v10 (F := Ideal) (m ((c.tc : Thread nD τ).loc main_arg1)) := by
  have h0 : U m 12 c (Proc.devRef .tc main_v9) = val_main_v9 (F := Ideal) (m ((c.tc : Thread nD τ).loc main_arg1)) := (U_eq_final m c 11 12 (by decide) (by decide)).trans (after_v9 m c)
  refine (final m c 12 (by decide)).trans ?_
  show (binary main_v9 main_v9 main_v10 (mulf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 12 c) (Proc.devRef .tc main_v10) = _
  rw [binary_result]
  rw [h0]
  rfl

theorem after_cst_1 (c : Dev nD) : Wf m c (Proc.devRef .tc main_cst_1) = val_main_cst_1 (F := Ideal) := by
  refine (final m c 13 (by decide)).trans ?_
  show (nullary main_cst_1 (constant (F := Ideal) S_ .f32 0x00000000#32) : HloOp τ sig (Elt Ideal)).result (U m 13 c) (Proc.devRef .tc main_cst_1) = _
  rw [nullary_result]
  rfl

theorem after_v11 (c : Dev nD) : Wf m c (Proc.devRef .tc main_v11) = val_main_v11 (F := Ideal) (m ((c.tc : Thread nD τ).loc main_arg1)) := by
  have h0 : U m 14 c (Proc.devRef .tc main_v10) = val_main_v10 (F := Ideal) (m ((c.tc : Thread nD τ).loc main_arg1)) := (U_eq_final m c 12 14 (by decide) (by decide)).trans (after_v10 m c)
  have h1 : U m 14 c (Proc.devRef .tc main_cst_1) = val_main_cst_1 (F := Ideal) := (U_eq_final m c 13 14 (by decide) (by decide)).trans (after_cst_1 m c)
  refine (final m c 14 (by decide)).trans ?_
  show (binary main_v10 main_cst_1 main_v11 ((fun x v => Host.reduceAdd (F := Ideal) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) : HloOp τ sig (Elt Ideal)).result (U m 14 c) (Proc.devRef .tc main_v11) = _
  rw [binary_result]
  rw [h0, h1]
  rfl

theorem after_v12 (c : Dev nD) : Wf m c (Proc.devRef .tc main_v12) = val_main_v12 (F := Ideal) (m ((c.tc : Thread nD τ).loc main_arg1)) := by
  have h0 : U m 15 c (Proc.devRef .tc main_v11) = val_main_v11 (F := Ideal) (m ((c.tc : Thread nD τ).loc main_arg1)) := (U_eq_final m c 14 15 (by decide) (by decide)).trans (after_v11 m c)
  refine (final m c 15 (by decide)).trans ?_
  show (unary main_v11 main_v12 (broadcastInDim S4096x1 ![0] bcast_S4096_S4096x1_0 : (⟨S4096, .f32⟩ : BufTy).Contents (Elt Ideal) → (⟨S4096x1, .f32⟩ : BufTy).Contents (Elt Ideal)) : HloOp τ sig (Elt Ideal)).result (U m 15 c) (Proc.devRef .tc main_v12) = _
  rw [unary_result]
  rw [h0]
  rfl

theorem after_v13 (c : Dev nD) : Wf m c (Proc.devRef .tc main_v13) = val_main_v13 (F := Ideal) (m ((c.tc : Thread nD τ).loc main_arg1)) := by
  have h0 : U m 16 c (Proc.devRef .tc main_v12) = val_main_v12 (F := Ideal) (m ((c.tc : Thread nD τ).loc main_arg1)) := (U_eq_final m c 15 16 (by decide) (by decide)).trans (after_v12 m c)
  refine (final m c 16 (by decide)).trans ?_
  show (unary main_v12 main_v13 (Host.sqrt (F := Ideal) : (⟨S4096x1, .f32⟩ : BufTy).Contents (Elt Ideal) → (⟨S4096x1, .f32⟩ : BufTy).Contents (Elt Ideal)) : HloOp τ sig (Elt Ideal)).result (U m 16 c) (Proc.devRef .tc main_v13) = _
  rw [unary_result]
  rw [h0]
  rfl

theorem after_cst_2 (c : Dev nD) : Wf m c (Proc.devRef .tc main_cst_2) = val_main_cst_2 (F := Ideal) := by
  refine (final m c 17 (by decide)).trans ?_
  show (nullary main_cst_2 (constant (F := Ideal) S_ .f32 0x2B8CBCCC#32) : HloOp τ sig (Elt Ideal)).result (U m 17 c) (Proc.devRef .tc main_cst_2) = _
  rw [nullary_result]
  rfl

theorem after_v14 (c : Dev nD) : Wf m c (Proc.devRef .tc main_v14) = val_main_v14 (F := Ideal) := by
  have h0 : U m 18 c (Proc.devRef .tc main_cst_2) = val_main_cst_2 (F := Ideal) := (U_eq_final m c 17 18 (by decide) (by decide)).trans (after_cst_2 m c)
  refine (final m c 18 (by decide)).trans ?_
  show (unary main_cst_2 main_v14 (broadcastInDim S4096x1 ![] bcast_S_S4096x1 : (⟨S_, .f32⟩ : BufTy).Contents (Elt Ideal) → (⟨S4096x1, .f32⟩ : BufTy).Contents (Elt Ideal)) : HloOp τ sig (Elt Ideal)).result (U m 18 c) (Proc.devRef .tc main_v14) = _
  rw [unary_result]
  rw [h0]
  rfl

theorem after_v15 (c : Dev nD) : Wf m c (Proc.devRef .tc main_v15) = val_main_v15 (F := Ideal) (m ((c.tc : Thread nD τ).loc main_arg1)) := by
  have h0 : U m 19 c (Proc.devRef .tc main_v13) = val_main_v13 (F := Ideal) (m ((c.tc : Thread nD τ).loc main_arg1)) := (U_eq_final m c 16 19 (by decide) (by decide)).trans (after_v13 m c)
  have h1 : U m 19 c (Proc.devRef .tc main_v14) = val_main_v14 (F := Ideal) := (U_eq_final m c 18 19 (by decide) (by decide)).trans (after_v14 m c)
  refine (final m c 19 (by decide)).trans ?_
  show (binary main_v13 main_v14 main_v15 (maximumf (F := Ideal) : (⟨S4096x1, .f32⟩ : BufTy).Contents (Elt Ideal) → (⟨S4096x1, .f32⟩ : BufTy).Contents (Elt Ideal) → (⟨S4096x1, .f32⟩ : BufTy).Contents (Elt Ideal)) : HloOp τ sig (Elt Ideal)).result (U m 19 c) (Proc.devRef .tc main_v15) = _
  rw [binary_result]
  rw [h0, h1]
  rfl

theorem after_v16 (c : Dev nD) : Wf m c (Proc.devRef .tc main_v16) = val_main_v16 (F := Ideal) (m ((c.tc : Thread nD τ).loc main_arg1)) := by
  have h0 : U m 20 c (Proc.devRef .tc main_v15) = val_main_v15 (F := Ideal) (m ((c.tc : Thread nD τ).loc main_arg1)) := (U_eq_final m c 19 20 (by decide) (by decide)).trans (after_v15 m c)
  refine (final m c 20 (by decide)).trans ?_
  show (unary main_v15 main_v16 (broadcastInDim S4096x128 ![0, 1] bcast_S4096x1_S4096x128_0_1 : (⟨S4096x1, .f32⟩ : BufTy).Contents (Elt Ideal) → (⟨S4096x128, .f32⟩ : BufTy).Contents (Elt Ideal)) : HloOp τ sig (Elt Ideal)).result (U m 20 c) (Proc.devRef .tc main_v16) = _
  rw [unary_result]
  rw [h0]
  rfl

theorem after_v17 (c : Dev nD) : Wf m c (Proc.devRef .tc main_v17) = val_main_v17 (F := Ideal) (m ((c.tc : Thread nD τ).loc main_arg1)) := by
  have h0 : U m 21 c (Proc.devRef .tc main_v9) = val_main_v9 (F := Ideal) (m ((c.tc : Thread nD τ).loc main_arg1)) := (U_eq_final m c 11 21 (by decide) (by decide)).trans (after_v9 m c)
  have h1 : U m 21 c (Proc.devRef .tc main_v16) = val_main_v16 (F := Ideal) (m ((c.tc : Thread nD τ).loc main_arg1)) := (U_eq_final m c 20 21 (by decide) (by decide)).trans (after_v16 m c)
  refine (final m c 21 (by decide)).trans ?_
  show (binary main_v9 main_v16 main_v17 (Host.divf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 21 c) (Proc.devRef .tc main_v17) = _
  rw [binary_result]
  rw [h0, h1]
  rfl

theorem after_v18 (c : Dev nD) : Wf m c (Proc.devRef .tc main_v18) = val_main_v18 (F := Ideal) (m ((c.tc : Thread nD τ).loc main_arg0)) (m ((c.tc : Thread nD τ).loc main_arg1)) := by
  have h0 : U m 22 c (Proc.devRef .tc main_v8) = val_main_v8 (F := Ideal) (m ((c.tc : Thread nD τ).loc main_arg0)) := (U_eq_final m c 10 22 (by decide) (by decide)).trans (after_v8 m c)
  have h1 : U m 22 c (Proc.devRef .tc main_v17) = val_main_v17 (F := Ideal) (m ((c.tc : Thread nD τ).loc main_arg1)) := (U_eq_final m c 21 22 (by decide) (by decide)).trans (after_v17 m c)
  refine (final m c 22 (by decide)).trans ?_
  show (binary main_v8 main_v17 main_v18 ((fun a b => concatenate S8192x128 0 [⟨S4096x128, a⟩, ⟨S4096x128, b⟩] concatenates_S4096x128_S4096x128_S8192x128_d0) : (⟨S4096x128, .f32⟩ : BufTy).Contents (Elt Ideal) → (⟨S4096x128, .f32⟩ : BufTy).Contents (Elt Ideal) → (⟨S8192x128, .f32⟩ : BufTy).Contents (Elt Ideal)) : HloOp τ sig (Elt Ideal)).result (U m 22 c) (Proc.devRef .tc main_v18) = _
  rw [binary_result]
  rw [h0, h1]
  rfl

theorem after_v19 (c : Dev nD) : Wf m c (Proc.devRef .tc main_v19) = val_main_v19 (F := Ideal) (m ((c.tc : Thread nD τ).loc main_arg0)) (m ((c.tc : Thread nD τ).loc main_arg1)) := by
  have h0 : U m 23 c (Proc.devRef .tc main_v18) = val_main_v18 (F := Ideal) (m ((c.tc : Thread nD τ).loc main_arg0)) (m ((c.tc : Thread nD τ).loc main_arg1)) := (U_eq_final m c 22 23 (by decide) (by decide)).trans (after_v18 m c)
  refine (final m c 23 (by decide)).trans ?_
  show (unary main_v18 main_v19 ((transpose S128x8192 [1, 0] · transposes_S8192x128_S128x8192_1_0) : (⟨S8192x128, .f32⟩ : BufTy).Contents (Elt Ideal) → (⟨S128x8192, .f32⟩ : BufTy).Contents (Elt Ideal)) : HloOp τ sig (Elt Ideal)).result (U m 23 c) (Proc.devRef .tc main_v19) = _
  rw [unary_result]
  rw [h0]
  rfl

theorem after_v20 (c : Dev nD) : Wf m c (Proc.devRef .tc main_v20) = val_main_v20 (F := Ideal) (m ((c.tc : Thread nD τ).loc main_arg0)) (m ((c.tc : Thread nD τ).loc main_arg1)) := by
  have h0 : U m 24 c (Proc.devRef .tc main_v18) = val_main_v18 (F := Ideal) (m ((c.tc : Thread nD τ).loc main_arg0)) (m ((c.tc : Thread nD τ).loc main_arg1)) := (U_eq_final m c 22 24 (by decide) (by decide)).trans (after_v18 m c)
  have h1 : U m 24 c (Proc.devRef .tc main_v19) = val_main_v19 (F := Ideal) (m ((c.tc : Thread nD τ).loc main_arg0)) (m ((c.tc : Thread nD τ).loc main_arg1)) := (U_eq_final m c 23 24 (by decide) (by decide)).trans (after_v19 m c)
  refine (final m c 24 (by decide)).trans ?_
  show (binary main_v18 main_v19 main_v20 ((fun l r => Host.dotGeneral (F := Ideal) dot_S8192x128_S128x8192_S8192x8192_1_0_0_1_n_n none l r) : (⟨S8192x128, .f32⟩ : BufTy).Contents (Elt Ideal) → (⟨S128x8192, .f32⟩ : BufTy).Contents (Elt Ideal) → (⟨S8192x8192, .f32⟩ : BufTy).Contents (Elt Ideal)) : HloOp τ sig (Elt Ideal)).result (U m 24 c) (Proc.devRef .tc main_v20) = _
  rw [binary_result]
  rw [h0, h1]
  rfl

theorem after_call0_v0 (c : Dev nD) : Wf m c (Proc.devRef .tc main_call0_v0) = val_main_call0_v0 (F := Ideal) := by
  refine (final m c 25 (by decide)).trans ?_
  show (TRef.nullary (TRef.of (T := ⟨S4096, .i32⟩) main_call0_v0) (iotaInDim S4096 32 0) : HloOp τ sig (Elt Ideal)).result (U m 25 c) (Proc.devRef .tc main_call0_v0) = _
  rw [nullary_result]
  unfold val_main_call0_v0
  exact cast_eq_iff_heq.mpr HEq.rfl

theorem after_call0_v1 (c : Dev nD) : Wf m c (Proc.devRef .tc main_call0_v1) = val_main_call0_v1 (F := Ideal) := by
  refine (final m c 26 (by decide)).trans ?_
  show (TRef.nullary (TRef.of (T := ⟨S4096, .i32⟩) main_call0_v1) (iotaInDim S4096 32 0) : HloOp τ sig (Elt Ideal)).result (U m 26 c) (Proc.devRef .tc main_call0_v1) = _
  rw [nullary_result]
  unfold val_main_call0_v1
  exact cast_eq_iff_heq.mpr HEq.rfl

theorem after_call0_c (c : Dev nD) : Wf m c (Proc.devRef .tc main_call0_c) = val_main_call0_c (F := Ideal) := by
  refine (final m c 27 (by decide)).trans ?_
  show (TRef.nullary (TRef.of (T := ⟨S_, .i32⟩) main_call0_c) (constantI S_ 32 4096#32) : HloOp τ sig (Elt Ideal)).result (U m 27 c) (Proc.devRef .tc main_call0_c) = _
  rw [nullary_result]
  unfold val_main_call0_c
  exact cast_eq_iff_heq.mpr HEq.rfl

theorem after_call0_v2 (c : Dev nD) : Wf m c (Proc.devRef .tc main_call0_v2) = val_main_call0_v2 (F := Ideal) := by
  have h0 : U m 28 c (Proc.devRef .tc main_call0_c) = val_main_call0_c (F := Ideal) := (U_eq_final m c 27 28 (by decide) (by decide)).trans (after_call0_c m c)
  have e0 : (TRef.of (sig := sig) (T := ⟨S_, .i32⟩) main_call0_c).ofBuf (Val := Elt Ideal) (val_main_call0_c (F := Ideal)) = val_main_call0_c (F := Ideal) := cast_eq_iff_heq.mpr HEq.rfl
  refine (final m c 28 (by decide)).trans ?_
  show (TRef.unary (TRef.of (T := ⟨S_, .i32⟩) main_call0_c) (TRef.of (T := ⟨S4096, .i32⟩) main_call0_v2) (broadcastInDim S4096 ![] bcast_S_S4096) : HloOp τ sig (Elt Ideal)).result (U m 28 c) (Proc.devRef .tc main_call0_v2) = _
  rw [unary_result]
  dsimp only
  rw [h0, e0]
  unfold val_main_call0_v2
  exact cast_eq_iff_heq.mpr HEq.rfl

theorem after_call0_v3 (c : Dev nD) : Wf m c (Proc.devRef .tc main_call0_v3) = val_main_call0_v3 (F := Ideal) := by
  have h0 : U m 29 c (Proc.devRef .tc main_call0_v2) = val_main_call0_v2 (F := Ideal) := (U_eq_final m c 28 29 (by decide) (by decide)).trans (after_call0_v2 m c)
  have h1 : U m 29 c (Proc.devRef .tc main_call0_v1) = val_main_call0_v1 (F := Ideal) := (U_eq_final m c 26 29 (by decide) (by decide)).trans (after_call0_v1 m c)
  have e0 : (TRef.of (sig := sig) (T := ⟨S4096, .i32⟩) main_call0_v2).ofBuf (Val := Elt Ideal) (val_main_call0_v2 (F := Ideal)) = val_main_call0_v2 (F := Ideal) := cast_eq_iff_heq.mpr HEq.rfl
  have e1 : (TRef.of (sig := sig) (T := ⟨S4096, .i32⟩) main_call0_v1).ofBuf (Val := Elt Ideal) (val_main_call0_v1 (F := Ideal)) = val_main_call0_v1 (F := Ideal) := cast_eq_iff_heq.mpr HEq.rfl
  refine (final m c 29 (by decide)).trans ?_
  show (TRef.binary (TRef.of (T := ⟨S4096, .i32⟩) main_call0_v2) (TRef.of (T := ⟨S4096, .i32⟩) main_call0_v1) (TRef.of (T := ⟨S4096, .i32⟩) main_call0_v3) addi : HloOp τ sig (Elt Ideal)).result (U m 29 c) (Proc.devRef .tc main_call0_v3) = _
  rw [binary_result]
  dsimp only
  rw [h0, h1, e0, e1]
  unfold val_main_call0_v3
  exact cast_eq_iff_heq.mpr HEq.rfl

theorem after_call0_c_0 (c : Dev nD) : Wf m c (Proc.devRef .tc main_call0_c_0) = val_main_call0_c_0 (F := Ideal) := by
  refine (final m c 30 (by decide)).trans ?_
  show (TRef.nullary (TRef.of (T := ⟨S_, .i32⟩) main_call0_c_0) (constantI S_ 32 0#32) : HloOp τ sig (Elt Ideal)).result (U m 30 c) (Proc.devRef .tc main_call0_c_0) = _
  rw [nullary_result]
  unfold val_main_call0_c_0
  exact cast_eq_iff_heq.mpr HEq.rfl

theorem after_call0_v4 (c : Dev nD) : Wf m c (Proc.devRef .tc main_call0_v4) = val_main_call0_v4 (F := Ideal) := by
  have h0 : U m 31 c (Proc.devRef .tc main_call0_c_0) = val_main_call0_c_0 (F := Ideal) := (U_eq_final m c 30 31 (by decide) (by decide)).trans (after_call0_c_0 m c)
  have e0 : (TRef.of (sig := sig) (T := ⟨S_, .i32⟩) main_call0_c_0).ofBuf (Val := Elt Ideal) (val_main_call0_c_0 (F := Ideal)) = val_main_call0_c_0 (F := Ideal) := cast_eq_iff_heq.mpr HEq.rfl
  refine (final m c 31 (by decide)).trans ?_
  show (TRef.unary (TRef.of (T := ⟨S_, .i32⟩) main_call0_c_0) (TRef.of (T := ⟨S4096, .i32⟩) main_call0_v4) (broadcastInDim S4096 ![] bcast_S_S4096) : HloOp τ sig (Elt Ideal)).result (U m 31 c) (Proc.devRef .tc main_call0_v4) = _
  rw [unary_result]
  dsimp only
  rw [h0, e0]
  unfold val_main_call0_v4
  exact cast_eq_iff_heq.mpr HEq.rfl

theorem after_call0_v5 (c : Dev nD) : Wf m c (Proc.devRef .tc main_call0_v5) = val_main_call0_v5 (F := Ideal) := by
  have h0 : U m 32 c (Proc.devRef .tc main_call0_v0) = val_main_call0_v0 (F := Ideal) := (U_eq_final m c 25 32 (by decide) (by decide)).trans (after_call0_v0 m c)
  have h1 : U m 32 c (Proc.devRef .tc main_call0_v4) = val_main_call0_v4 (F := Ideal) := (U_eq_final m c 31 32 (by decide) (by decide)).trans (after_call0_v4 m c)
  have e0 : (TRef.of (sig := sig) (T := ⟨S4096, .i32⟩) main_call0_v0).ofBuf (Val := Elt Ideal) (val_main_call0_v0 (F := Ideal)) = val_main_call0_v0 (F := Ideal) := cast_eq_iff_heq.mpr HEq.rfl
  have e1 : (TRef.of (sig := sig) (T := ⟨S4096, .i32⟩) main_call0_v4).ofBuf (Val := Elt Ideal) (val_main_call0_v4 (F := Ideal)) = val_main_call0_v4 (F := Ideal) := cast_eq_iff_heq.mpr HEq.rfl
  refine (final m c 32 (by decide)).trans ?_
  show (TRef.binary (TRef.of (T := ⟨S4096, .i32⟩) main_call0_v0) (TRef.of (T := ⟨S4096, .i32⟩) main_call0_v4) (TRef.of (T := ⟨S4096, .i1⟩) main_call0_v5) (cmpi .slt) : HloOp τ sig (Elt Ideal)).result (U m 32 c) (Proc.devRef .tc main_call0_v5) = _
  rw [binary_result]
  dsimp only
  rw [h0, h1, e0, e1]
  unfold val_main_call0_v5
  exact cast_eq_iff_heq.mpr HEq.rfl

theorem after_call0_c_1 (c : Dev nD) : Wf m c (Proc.devRef .tc main_call0_c_1) = val_main_call0_c_1 (F := Ideal) := by
  refine (final m c 33 (by decide)).trans ?_
  show (TRef.nullary (TRef.of (T := ⟨S_, .i32⟩) main_call0_c_1) (constantI S_ 32 8192#32) : HloOp τ sig (Elt Ideal)).result (U m 33 c) (Proc.devRef .tc main_call0_c_1) = _
  rw [nullary_result]
  unfold val_main_call0_c_1
  exact cast_eq_iff_heq.mpr HEq.rfl

theorem after_call0_v6 (c : Dev nD) : Wf m c (Proc.devRef .tc main_call0_v6) = val_main_call0_v6 (F := Ideal) := by
  have h0 : U m 34 c (Proc.devRef .tc main_call0_c_1) = val_main_call0_c_1 (F := Ideal) := (U_eq_final m c 33 34 (by decide) (by decide)).trans (after_call0_c_1 m c)
  have e0 : (TRef.of (sig := sig) (T := ⟨S_, .i32⟩) main_call0_c_1).ofBuf (Val := Elt Ideal) (val_main_call0_c_1 (F := Ideal)) = val_main_call0_c_1 (F := Ideal) := cast_eq_iff_heq.mpr HEq.rfl
  refine (final m c 34 (by decide)).trans ?_
  show (TRef.unary (TRef.of (T := ⟨S_, .i32⟩) main_call0_c_1) (TRef.of (T := ⟨S4096, .i32⟩) main_call0_v6) (broadcastInDim S4096 ![] bcast_S_S4096) : HloOp τ sig (Elt Ideal)).result (U m 34 c) (Proc.devRef .tc main_call0_v6) = _
  rw [unary_result]
  dsimp only
  rw [h0, e0]
  unfold val_main_call0_v6
  exact cast_eq_iff_heq.mpr HEq.rfl

theorem after_call0_v7 (c : Dev nD) : Wf m c (Proc.devRef .tc main_call0_v7) = val_main_call0_v7 (F := Ideal) := by
  have h0 : U m 35 c (Proc.devRef .tc main_call0_v0) = val_main_call0_v0 (F := Ideal) := (U_eq_final m c 25 35 (by decide) (by decide)).trans (after_call0_v0 m c)
  have h1 : U m 35 c (Proc.devRef .tc main_call0_v6) = val_main_call0_v6 (F := Ideal) := (U_eq_final m c 34 35 (by decide) (by decide)).trans (after_call0_v6 m c)
  have e0 : (TRef.of (sig := sig) (T := ⟨S4096, .i32⟩) main_call0_v0).ofBuf (Val := Elt Ideal) (val_main_call0_v0 (F := Ideal)) = val_main_call0_v0 (F := Ideal) := cast_eq_iff_heq.mpr HEq.rfl
  have e1 : (TRef.of (sig := sig) (T := ⟨S4096, .i32⟩) main_call0_v6).ofBuf (Val := Elt Ideal) (val_main_call0_v6 (F := Ideal)) = val_main_call0_v6 (F := Ideal) := cast_eq_iff_heq.mpr HEq.rfl
  refine (final m c 35 (by decide)).trans ?_
  show (TRef.binary (TRef.of (T := ⟨S4096, .i32⟩) main_call0_v0) (TRef.of (T := ⟨S4096, .i32⟩) main_call0_v6) (TRef.of (T := ⟨S4096, .i32⟩) main_call0_v7) addi : HloOp τ sig (Elt Ideal)).result (U m 35 c) (Proc.devRef .tc main_call0_v7) = _
  rw [binary_result]
  dsimp only
  rw [h0, h1, e0, e1]
  unfold val_main_call0_v7
  exact cast_eq_iff_heq.mpr HEq.rfl

theorem after_call0_v8 (c : Dev nD) : Wf m c (Proc.devRef .tc main_call0_v8) = val_main_call0_v8 (F := Ideal) := by
  have h0 : U m 36 c (Proc.devRef .tc main_call0_v5) = val_main_call0_v5 (F := Ideal) := (U_eq_final m c 32 36 (by decide) (by decide)).trans (after_call0_v5 m c)
  have h1 : U m 36 c (Proc.devRef .tc main_call0_v7) = val_main_call0_v7 (F := Ideal) := (U_eq_final m c 35 36 (by decide) (by decide)).trans (after_call0_v7 m c)
  have h2 : U m 36 c (Proc.devRef .tc main_call0_v0) = val_main_call0_v0 (F := Ideal) := (U_eq_final m c 25 36 (by decide) (by decide)).trans (after_call0_v0 m c)
  have e0 : (TRef.of (sig := sig) (T := ⟨S4096, .i1⟩) main_call0_v5).ofBuf (Val := Elt Ideal) (val_main_call0_v5 (F := Ideal)) = val_main_call0_v5 (F := Ideal) := cast_eq_iff_heq.mpr HEq.rfl
  have e1 : (TRef.of (sig := sig) (T := ⟨S4096, .i32⟩) main_call0_v7).ofBuf (Val := Elt Ideal) (val_main_call0_v7 (F := Ideal)) = val_main_call0_v7 (F := Ideal) := cast_eq_iff_heq.mpr HEq.rfl
  have e2 : (TRef.of (sig := sig) (T := ⟨S4096, .i32⟩) main_call0_v0).ofBuf (Val := Elt Ideal) (val_main_call0_v0 (F := Ideal)) = val_main_call0_v0 (F := Ideal) := cast_eq_iff_heq.mpr HEq.rfl
  refine (final m c 36 (by decide)).trans ?_
  show (TRef.ternary (TRef.of (T := ⟨S4096, .i1⟩) main_call0_v5) (TRef.of (T := ⟨S4096, .i32⟩) main_call0_v7) (TRef.of (T := ⟨S4096, .i32⟩) main_call0_v0) (TRef.of (T := ⟨S4096, .i32⟩) main_call0_v8) select : HloOp τ sig (Elt Ideal)).result (U m 36 c) (Proc.devRef .tc main_call0_v8) = _
  rw [ternary_result]
  dsimp only
  rw [h0, h1, h2, e0, e1, e2]
  unfold val_main_call0_v8
  exact cast_eq_iff_heq.mpr HEq.rfl

theorem after_call0_c_2 (c : Dev nD) : Wf m c (Proc.devRef .tc main_call0_c_2) = val_main_call0_c_2 (F := Ideal) := by
  refine (final m c 37 (by decide)).trans ?_
  show (TRef.nullary (TRef.of (T := ⟨S_, .i32⟩) main_call0_c_2) (constantI S_ 32 0#32) : HloOp τ sig (Elt Ideal)).result (U m 37 c) (Proc.devRef .tc main_call0_c_2) = _
  rw [nullary_result]
  unfold val_main_call0_c_2
  exact cast_eq_iff_heq.mpr HEq.rfl

theorem after_call0_v9 (c : Dev nD) : Wf m c (Proc.devRef .tc main_call0_v9) = val_main_call0_v9 (F := Ideal) := by
  have h0 : U m 38 c (Proc.devRef .tc main_call0_c_2) = val_main_call0_c_2 (F := Ideal) := (U_eq_final m c 37 38 (by decide) (by decide)).trans (after_call0_c_2 m c)
  have e0 : (TRef.of (sig := sig) (T := ⟨S_, .i32⟩) main_call0_c_2).ofBuf (Val := Elt Ideal) (val_main_call0_c_2 (F := Ideal)) = val_main_call0_c_2 (F := Ideal) := cast_eq_iff_heq.mpr HEq.rfl
  refine (final m c 38 (by decide)).trans ?_
  show (TRef.unary (TRef.of (T := ⟨S_, .i32⟩) main_call0_c_2) (TRef.of (T := ⟨S4096, .i32⟩) main_call0_v9) (broadcastInDim S4096 ![] bcast_S_S4096) : HloOp τ sig (Elt Ideal)).result (U m 38 c) (Proc.devRef .tc main_call0_v9) = _
  rw [unary_result]
  dsimp only
  rw [h0, e0]
  unfold val_main_call0_v9
  exact cast_eq_iff_heq.mpr HEq.rfl

theorem after_call0_v10 (c : Dev nD) : Wf m c (Proc.devRef .tc main_call0_v10) = val_main_call0_v10 (F := Ideal) := by
  have h0 : U m 39 c (Proc.devRef .tc main_call0_v3) = val_main_call0_v3 (F := Ideal) := (U_eq_final m c 29 39 (by decide) (by decide)).trans (after_call0_v3 m c)
  have h1 : U m 39 c (Proc.devRef .tc main_call0_v9) = val_main_call0_v9 (F := Ideal) := (U_eq_final m c 38 39 (by decide) (by decide)).trans (after_call0_v9 m c)
  have e0 : (TRef.of (sig := sig) (T := ⟨S4096, .i32⟩) main_call0_v3).ofBuf (Val := Elt Ideal) (val_main_call0_v3 (F := Ideal)) = val_main_call0_v3 (F := Ideal) := cast_eq_iff_heq.mpr HEq.rfl
  have e1 : (TRef.of (sig := sig) (T := ⟨S4096, .i32⟩) main_call0_v9).ofBuf (Val := Elt Ideal) (val_main_call0_v9 (F := Ideal)) = val_main_call0_v9 (F := Ideal) := cast_eq_iff_heq.mpr HEq.rfl
  refine (final m c 39 (by decide)).trans ?_
  show (TRef.binary (TRef.of (T := ⟨S4096, .i32⟩) main_call0_v3) (TRef.of (T := ⟨S4096, .i32⟩) main_call0_v9) (TRef.of (T := ⟨S4096, .i1⟩) main_call0_v10) (cmpi .slt) : HloOp τ sig (Elt Ideal)).result (U m 39 c) (Proc.devRef .tc main_call0_v10) = _
  rw [binary_result]
  dsimp only
  rw [h0, h1, e0, e1]
  unfold val_main_call0_v10
  exact cast_eq_iff_heq.mpr HEq.rfl

theorem after_call0_c_3 (c : Dev nD) : Wf m c (Proc.devRef .tc main_call0_c_3) = val_main_call0_c_3 (F := Ideal) := by
  refine (final m c 40 (by decide)).trans ?_
  show (TRef.nullary (TRef.of (T := ⟨S_, .i32⟩) main_call0_c_3) (constantI S_ 32 8192#32) : HloOp τ sig (Elt Ideal)).result (U m 40 c) (Proc.devRef .tc main_call0_c_3) = _
  rw [nullary_result]
  unfold val_main_call0_c_3
  exact cast_eq_iff_heq.mpr HEq.rfl

theorem after_call0_v11 (c : Dev nD) : Wf m c (Proc.devRef .tc main_call0_v11) = val_main_call0_v11 (F := Ideal) := by
  have h0 : U m 41 c (Proc.devRef .tc main_call0_c_3) = val_main_call0_c_3 (F := Ideal) := (U_eq_final m c 40 41 (by decide) (by decide)).trans (after_call0_c_3 m c)
  have e0 : (TRef.of (sig := sig) (T := ⟨S_, .i32⟩) main_call0_c_3).ofBuf (Val := Elt Ideal) (val_main_call0_c_3 (F := Ideal)) = val_main_call0_c_3 (F := Ideal) := cast_eq_iff_heq.mpr HEq.rfl
  refine (final m c 41 (by decide)).trans ?_
  show (TRef.unary (TRef.of (T := ⟨S_, .i32⟩) main_call0_c_3) (TRef.of (T := ⟨S4096, .i32⟩) main_call0_v11) (broadcastInDim S4096 ![] bcast_S_S4096) : HloOp τ sig (Elt Ideal)).result (U m 41 c) (Proc.devRef .tc main_call0_v11) = _
  rw [unary_result]
  dsimp only
  rw [h0, e0]
  unfold val_main_call0_v11
  exact cast_eq_iff_heq.mpr HEq.rfl

theorem after_call0_v12 (c : Dev nD) : Wf m c (Proc.devRef .tc main_call0_v12) = val_main_call0_v12 (F := Ideal) := by
  have h0 : U m 42 c (Proc.devRef .tc main_call0_v3) = val_main_call0_v3 (F := Ideal) := (U_eq_final m c 29 42 (by decide) (by decide)).trans (after_call0_v3 m c)
  have h1 : U m 42 c (Proc.devRef .tc main_call0_v11) = val_main_call0_v11 (F := Ideal) := (U_eq_final m c 41 42 (by decide) (by decide)).trans (after_call0_v11 m c)
  have e0 : (TRef.of (sig := sig) (T := ⟨S4096, .i32⟩) main_call0_v3).ofBuf (Val := Elt Ideal) (val_main_call0_v3 (F := Ideal)) = val_main_call0_v3 (F := Ideal) := cast_eq_iff_heq.mpr HEq.rfl
  have e1 : (TRef.of (sig := sig) (T := ⟨S4096, .i32⟩) main_call0_v11).ofBuf (Val := Elt Ideal) (val_main_call0_v11 (F := Ideal)) = val_main_call0_v11 (F := Ideal) := cast_eq_iff_heq.mpr HEq.rfl
  refine (final m c 42 (by decide)).trans ?_
  show (TRef.binary (TRef.of (T := ⟨S4096, .i32⟩) main_call0_v3) (TRef.of (T := ⟨S4096, .i32⟩) main_call0_v11) (TRef.of (T := ⟨S4096, .i32⟩) main_call0_v12) addi : HloOp τ sig (Elt Ideal)).result (U m 42 c) (Proc.devRef .tc main_call0_v12) = _
  rw [binary_result]
  dsimp only
  rw [h0, h1, e0, e1]
  unfold val_main_call0_v12
  exact cast_eq_iff_heq.mpr HEq.rfl

theorem after_call0_v13 (c : Dev nD) : Wf m c (Proc.devRef .tc main_call0_v13) = val_main_call0_v13 (F := Ideal) := by
  have h0 : U m 43 c (Proc.devRef .tc main_call0_v10) = val_main_call0_v10 (F := Ideal) := (U_eq_final m c 39 43 (by decide) (by decide)).trans (after_call0_v10 m c)
  have h1 : U m 43 c (Proc.devRef .tc main_call0_v12) = val_main_call0_v12 (F := Ideal) := (U_eq_final m c 42 43 (by decide) (by decide)).trans (after_call0_v12 m c)
  have h2 : U m 43 c (Proc.devRef .tc main_call0_v3) = val_main_call0_v3 (F := Ideal) := (U_eq_final m c 29 43 (by decide) (by decide)).trans (after_call0_v3 m c)
  have e0 : (TRef.of (sig := sig) (T := ⟨S4096, .i1⟩) main_call0_v10).ofBuf (Val := Elt Ideal) (val_main_call0_v10 (F := Ideal)) = val_main_call0_v10 (F := Ideal) := cast_eq_iff_heq.mpr HEq.rfl
  have e1 : (TRef.of (sig := sig) (T := ⟨S4096, .i32⟩) main_call0_v12).ofBuf (Val := Elt Ideal) (val_main_call0_v12 (F := Ideal)) = val_main_call0_v12 (F := Ideal) := cast_eq_iff_heq.mpr HEq.rfl
  have e2 : (TRef.of (sig := sig) (T := ⟨S4096, .i32⟩) main_call0_v3).ofBuf (Val := Elt Ideal) (val_main_call0_v3 (F := Ideal)) = val_main_call0_v3 (F := Ideal) := cast_eq_iff_heq.mpr HEq.rfl
  refine (final m c 43 (by decide)).trans ?_
  show (TRef.ternary (TRef.of (T := ⟨S4096, .i1⟩) main_call0_v10) (TRef.of (T := ⟨S4096, .i32⟩) main_call0_v12) (TRef.of (T := ⟨S4096, .i32⟩) main_call0_v3) (TRef.of (T := ⟨S4096, .i32⟩) main_call0_v13) select : HloOp τ sig (Elt Ideal)).result (U m 43 c) (Proc.devRef .tc main_call0_v13) = _
  rw [ternary_result]
  dsimp only
  rw [h0, h1, h2, e0, e1, e2]
  unfold val_main_call0_v13
  exact cast_eq_iff_heq.mpr HEq.rfl

theorem after_call0_v14 (c : Dev nD) : Wf m c (Proc.devRef .tc main_call0_v14) = val_main_call0_v14 (F := Ideal) := by
  have h0 : U m 44 c (Proc.devRef .tc main_call0_v8) = val_main_call0_v8 (F := Ideal) := (U_eq_final m c 36 44 (by decide) (by decide)).trans (after_call0_v8 m c)
  have e0 : (TRef.of (sig := sig) (T := ⟨S4096, .i32⟩) main_call0_v8).ofBuf (Val := Elt Ideal) (val_main_call0_v8 (F := Ideal)) = val_main_call0_v8 (F := Ideal) := cast_eq_iff_heq.mpr HEq.rfl
  refine (final m c 44 (by decide)).trans ?_
  show (TRef.unary (TRef.of (T := ⟨S4096, .i32⟩) main_call0_v8) (TRef.of (T := ⟨S4096x1, .i32⟩) main_call0_v14) (broadcastInDim S4096x1 ![0] bcast_S4096_S4096x1_0) : HloOp τ sig (Elt Ideal)).result (U m 44 c) (Proc.devRef .tc main_call0_v14) = _
  rw [unary_result]
  dsimp only
  rw [h0, e0]
  unfold val_main_call0_v14
  exact cast_eq_iff_heq.mpr HEq.rfl

theorem after_call0_v15 (c : Dev nD) : Wf m c (Proc.devRef .tc main_call0_v15) = val_main_call0_v15 (F := Ideal) := by
  have h0 : U m 45 c (Proc.devRef .tc main_call0_v13) = val_main_call0_v13 (F := Ideal) := (U_eq_final m c 43 45 (by decide) (by decide)).trans (after_call0_v13 m c)
  have e0 : (TRef.of (sig := sig) (T := ⟨S4096, .i32⟩) main_call0_v13).ofBuf (Val := Elt Ideal) (val_main_call0_v13 (F := Ideal)) = val_main_call0_v13 (F := Ideal) := cast_eq_iff_heq.mpr HEq.rfl
  refine (final m c 45 (by decide)).trans ?_
  show (TRef.unary (TRef.of (T := ⟨S4096, .i32⟩) main_call0_v13) (TRef.of (T := ⟨S4096x1, .i32⟩) main_call0_v15) (broadcastInDim S4096x1 ![0] bcast_S4096_S4096x1_0) : HloOp τ sig (Elt Ideal)).result (U m 45 c) (Proc.devRef .tc main_call0_v15) = _
  rw [unary_result]
  dsimp only
  rw [h0, e0]
  unfold val_main_call0_v15
  exact cast_eq_iff_heq.mpr HEq.rfl

theorem after_call0_v16 (c : Dev nD) : Wf m c (Proc.devRef .tc main_call0_v16) = val_main_call0_v16 (F := Ideal) := by
  have h0 : U m 46 c (Proc.devRef .tc main_call0_v14) = val_main_call0_v14 (F := Ideal) := (U_eq_final m c 44 46 (by decide) (by decide)).trans (after_call0_v14 m c)
  have h1 : U m 46 c (Proc.devRef .tc main_call0_v15) = val_main_call0_v15 (F := Ideal) := (U_eq_final m c 45 46 (by decide) (by decide)).trans (after_call0_v15 m c)
  have e0 : (TRef.of (sig := sig) (T := ⟨S4096x1, .i32⟩) main_call0_v14).ofBuf (Val := Elt Ideal) (val_main_call0_v14 (F := Ideal)) = val_main_call0_v14 (F := Ideal) := cast_eq_iff_heq.mpr HEq.rfl
  have e1 : (TRef.of (sig := sig) (T := ⟨S4096x1, .i32⟩) main_call0_v15).ofBuf (Val := Elt Ideal) (val_main_call0_v15 (F := Ideal)) = val_main_call0_v15 (F := Ideal) := cast_eq_iff_heq.mpr HEq.rfl
  refine (final m c 46 (by decide)).trans ?_
  show (TRef.binary (TRef.of (T := ⟨S4096x1, .i32⟩) main_call0_v14) (TRef.of (T := ⟨S4096x1, .i32⟩) main_call0_v15) (TRef.of (T := ⟨S4096x2, .i32⟩) main_call0_v16) (fun a b => concatenate S4096x2 1 [⟨S4096x1, a⟩, ⟨S4096x1, b⟩] concatenates_S4096x1_S4096x1_S4096x2_d1) : HloOp τ sig (Elt Ideal)).result (U m 46 c) (Proc.devRef .tc main_call0_v16) = _
  rw [binary_result]
  dsimp only
  rw [h0, h1, e0, e1]
  unfold val_main_call0_v16
  exact cast_eq_iff_heq.mpr HEq.rfl

theorem after_v21 (c : Dev nD) : Wf m c (Proc.devRef .tc main_v21) = val_main_v21 (F := Ideal) (m ((c.tc : Thread nD τ).loc main_arg0)) (m ((c.tc : Thread nD τ).loc main_arg1)) := by
  have h0 : U m 47 c (Proc.devRef .tc main_v20) = val_main_v20 (F := Ideal) (m ((c.tc : Thread nD τ).loc main_arg0)) (m ((c.tc : Thread nD τ).loc main_arg1)) := (U_eq_final m c 24 47 (by decide) (by decide)).trans (after_v20 m c)
  have h1 : U m 47 c (Proc.devRef .tc main_call0_v16) = val_main_call0_v16 (F := Ideal) := (U_eq_final m c 46 47 (by decide) (by decide)).trans (after_call0_v16 m c)
  have e0 : (TRef.of (sig := sig) (T := ⟨S8192x8192, .f32⟩) main_v20).ofBuf (Val := Elt Ideal) (val_main_v20 (F := Ideal) (m ((c.tc : Thread nD τ).loc main_arg0)) (m ((c.tc : Thread nD τ).loc main_arg1))) = val_main_v20 (F := Ideal) (m ((c.tc : Thread nD τ).loc main_arg0)) (m ((c.tc : Thread nD τ).loc main_arg1)) := cast_eq_iff_heq.mpr HEq.rfl
  have e1 : (TRef.of (sig := sig) (T := ⟨S4096x2, .i32⟩) main_call0_v16).ofBuf (Val := Elt Ideal) (val_main_call0_v16 (F := Ideal)) = val_main_call0_v16 (F := Ideal) := cast_eq_iff_heq.mpr HEq.rfl
  refine (final m c 47 (by decide)).trans ?_
  show (TRef.binary (TRef.of (T := ⟨S8192x8192, .f32⟩) main_v20) (TRef.of (T := ⟨S4096x2, .i32⟩) main_call0_v16) (TRef.of (T := ⟨S4096, .f32⟩) main_v21) (fun x i => Host.gather gather_S8192x8192_S4096x2_S4096_n_01_n_n_01_1_11 x i) : HloOp τ sig (Elt Ideal)).result (U m 47 c) (Proc.devRef .tc main_v21) = _
  rw [binary_result]
  dsimp only
  rw [h0, h1, e0, e1]
  unfold val_main_v21
  exact cast_eq_iff_heq.mpr HEq.rfl

theorem after_call1_v0 (c : Dev nD) : Wf m c (Proc.devRef .tc main_call1_v0) = val_main_call1_v0 (F := Ideal) := by
  refine (final m c 48 (by decide)).trans ?_
  show (TRef.nullary (TRef.of (T := ⟨S4096, .i32⟩) main_call1_v0) (iotaInDim S4096 32 0) : HloOp τ sig (Elt Ideal)).result (U m 48 c) (Proc.devRef .tc main_call1_v0) = _
  rw [nullary_result]
  unfold val_main_call1_v0
  exact cast_eq_iff_heq.mpr HEq.rfl

theorem after_call1_v1 (c : Dev nD) : Wf m c (Proc.devRef .tc main_call1_v1) = val_main_call1_v1 (F := Ideal) := by
  refine (final m c 49 (by decide)).trans ?_
  show (TRef.nullary (TRef.of (T := ⟨S4096, .i32⟩) main_call1_v1) (iotaInDim S4096 32 0) : HloOp τ sig (Elt Ideal)).result (U m 49 c) (Proc.devRef .tc main_call1_v1) = _
  rw [nullary_result]
  unfold val_main_call1_v1
  exact cast_eq_iff_heq.mpr HEq.rfl

theorem after_call1_c (c : Dev nD) : Wf m c (Proc.devRef .tc main_call1_c) = val_main_call1_c (F := Ideal) := by
  refine (final m c 50 (by decide)).trans ?_
  show (TRef.nullary (TRef.of (T := ⟨S_, .i32⟩) main_call1_c) (constantI S_ 32 4096#32) : HloOp τ sig (Elt Ideal)).result (U m 50 c) (Proc.devRef .tc main_call1_c) = _
  rw [nullary_result]
  unfold val_main_call1_c
  exact cast_eq_iff_heq.mpr HEq.rfl

theorem after_call1_v2 (c : Dev nD) : Wf m c (Proc.devRef .tc main_call1_v2) = val_main_call1_v2 (F := Ideal) := by
  have h0 : U m 51 c (Proc.devRef .tc main_call1_c) = val_main_call1_c (F := Ideal) := (U_eq_final m c 50 51 (by decide) (by decide)).trans (after_call1_c m c)
  have e0 : (TRef.of (sig := sig) (T := ⟨S_, .i32⟩) main_call1_c).ofBuf (Val := Elt Ideal) (val_main_call1_c (F := Ideal)) = val_main_call1_c (F := Ideal) := cast_eq_iff_heq.mpr HEq.rfl
  refine (final m c 51 (by decide)).trans ?_
  show (TRef.unary (TRef.of (T := ⟨S_, .i32⟩) main_call1_c) (TRef.of (T := ⟨S4096, .i32⟩) main_call1_v2) (broadcastInDim S4096 ![] bcast_S_S4096) : HloOp τ sig (Elt Ideal)).result (U m 51 c) (Proc.devRef .tc main_call1_v2) = _
  rw [unary_result]
  dsimp only
  rw [h0, e0]
  unfold val_main_call1_v2
  exact cast_eq_iff_heq.mpr HEq.rfl

theorem after_call1_v3 (c : Dev nD) : Wf m c (Proc.devRef .tc main_call1_v3) = val_main_call1_v3 (F := Ideal) := by
  have h0 : U m 52 c (Proc.devRef .tc main_call1_v2) = val_main_call1_v2 (F := Ideal) := (U_eq_final m c 51 52 (by decide) (by decide)).trans (after_call1_v2 m c)
  have h1 : U m 52 c (Proc.devRef .tc main_call1_v1) = val_main_call1_v1 (F := Ideal) := (U_eq_final m c 49 52 (by decide) (by decide)).trans (after_call1_v1 m c)
  have e0 : (TRef.of (sig := sig) (T := ⟨S4096, .i32⟩) main_call1_v2).ofBuf (Val := Elt Ideal) (val_main_call1_v2 (F := Ideal)) = val_main_call1_v2 (F := Ideal) := cast_eq_iff_heq.mpr HEq.rfl
  have e1 : (TRef.of (sig := sig) (T := ⟨S4096, .i32⟩) main_call1_v1).ofBuf (Val := Elt Ideal) (val_main_call1_v1 (F := Ideal)) = val_main_call1_v1 (F := Ideal) := cast_eq_iff_heq.mpr HEq.rfl
  refine (final m c 52 (by decide)).trans ?_
  show (TRef.binary (TRef.of (T := ⟨S4096, .i32⟩) main_call1_v2) (TRef.of (T := ⟨S4096, .i32⟩) main_call1_v1) (TRef.of (T := ⟨S4096, .i32⟩) main_call1_v3) addi : HloOp τ sig (Elt Ideal)).result (U m 52 c) (Proc.devRef .tc main_call1_v3) = _
  rw [binary_result]
  dsimp only
  rw [h0, h1, e0, e1]
  unfold val_main_call1_v3
  exact cast_eq_iff_heq.mpr HEq.rfl

theorem after_call1_c_0 (c : Dev nD) : Wf m c (Proc.devRef .tc main_call1_c_0) = val_main_call1_c_0 (F := Ideal) := by
  refine (final m c 53 (by decide)).trans ?_
  show (TRef.nullary (TRef.of (T := ⟨S_, .i32⟩) main_call1_c_0) (constantI S_ 32 0#32) : HloOp τ sig (Elt Ideal)).result (U m 53 c) (Proc.devRef .tc main_call1_c_0) = _
  rw [nullary_result]
  unfold val_main_call1_c_0
  exact cast_eq_iff_heq.mpr HEq.rfl

theorem after_call1_v4 (c : Dev nD) : Wf m c (Proc.devRef .tc main_call1_v4) = val_main_call1_v4 (F := Ideal) := by
  have h0 : U m 54 c (Proc.devRef .tc main_call1_c_0) = val_main_call1_c_0 (F := Ideal) := (U_eq_final m c 53 54 (by decide) (by decide)).trans (after_call1_c_0 m c)
  have e0 : (TRef.of (sig := sig) (T := ⟨S_, .i32⟩) main_call1_c_0).ofBuf (Val := Elt Ideal) (val_main_call1_c_0 (F := Ideal)) = val_main_call1_c_0 (F := Ideal) := cast_eq_iff_heq.mpr HEq.rfl
  refine (final m c 54 (by decide)).trans ?_
  show (TRef.unary (TRef.of (T := ⟨S_, .i32⟩) main_call1_c_0) (TRef.of (T := ⟨S4096, .i32⟩) main_call1_v4) (broadcastInDim S4096 ![] bcast_S_S4096) : HloOp τ sig (Elt Ideal)).result (U m 54 c) (Proc.devRef .tc main_call1_v4) = _
  rw [unary_result]
  dsimp only
  rw [h0, e0]
  unfold val_main_call1_v4
  exact cast_eq_iff_heq.mpr HEq.rfl

theorem after_call1_v5 (c : Dev nD) : Wf m c (Proc.devRef .tc main_call1_v5) = val_main_call1_v5 (F := Ideal) := by
  have h0 : U m 55 c (Proc.devRef .tc main_call1_v3) = val_main_call1_v3 (F := Ideal) := (U_eq_final m c 52 55 (by decide) (by decide)).trans (after_call1_v3 m c)
  have h1 : U m 55 c (Proc.devRef .tc main_call1_v4) = val_main_call1_v4 (F := Ideal) := (U_eq_final m c 54 55 (by decide) (by decide)).trans (after_call1_v4 m c)
  have e0 : (TRef.of (sig := sig) (T := ⟨S4096, .i32⟩) main_call1_v3).ofBuf (Val := Elt Ideal) (val_main_call1_v3 (F := Ideal)) = val_main_call1_v3 (F := Ideal) := cast_eq_iff_heq.mpr HEq.rfl
  have e1 : (TRef.of (sig := sig) (T := ⟨S4096, .i32⟩) main_call1_v4).ofBuf (Val := Elt Ideal) (val_main_call1_v4 (F := Ideal)) = val_main_call1_v4 (F := Ideal) := cast_eq_iff_heq.mpr HEq.rfl
  refine (final m c 55 (by decide)).trans ?_
  show (TRef.binary (TRef.of (T := ⟨S4096, .i32⟩) main_call1_v3) (TRef.of (T := ⟨S4096, .i32⟩) main_call1_v4) (TRef.of (T := ⟨S4096, .i1⟩) main_call1_v5) (cmpi .slt) : HloOp τ sig (Elt Ideal)).result (U m 55 c) (Proc.devRef .tc main_call1_v5) = _
  rw [binary_result]
  dsimp only
  rw [h0, h1, e0, e1]
  unfold val_main_call1_v5
  exact cast_eq_iff_heq.mpr HEq.rfl

theorem after_call1_c_1 (c : Dev nD) : Wf m c (Proc.devRef .tc main_call1_c_1) = val_main_call1_c_1 (F := Ideal) := by
  refine (final m c 56 (by decide)).trans ?_
  show (TRef.nullary (TRef.of (T := ⟨S_, .i32⟩) main_call1_c_1) (constantI S_ 32 8192#32) : HloOp τ sig (Elt Ideal)).result (U m 56 c) (Proc.devRef .tc main_call1_c_1) = _
  rw [nullary_result]
  unfold val_main_call1_c_1
  exact cast_eq_iff_heq.mpr HEq.rfl

theorem after_call1_v6 (c : Dev nD) : Wf m c (Proc.devRef .tc main_call1_v6) = val_main_call1_v6 (F := Ideal) := by
  have h0 : U m 57 c (Proc.devRef .tc main_call1_c_1) = val_main_call1_c_1 (F := Ideal) := (U_eq_final m c 56 57 (by decide) (by decide)).trans (after_call1_c_1 m c)
  have e0 : (TRef.of (sig := sig) (T := ⟨S_, .i32⟩) main_call1_c_1).ofBuf (Val := Elt Ideal) (val_main_call1_c_1 (F := Ideal)) = val_main_call1_c_1 (F := Ideal) := cast_eq_iff_heq.mpr HEq.rfl
  refine (final m c 57 (by decide)).trans ?_
  show (TRef.unary (TRef.of (T := ⟨S_, .i32⟩) main_call1_c_1) (TRef.of (T := ⟨S4096, .i32⟩) main_call1_v6) (broadcastInDim S4096 ![] bcast_S_S4096) : HloOp τ sig (Elt Ideal)).result (U m 57 c) (Proc.devRef .tc main_call1_v6) = _
  rw [unary_result]
  dsimp only
  rw [h0, e0]
  unfold val_main_call1_v6
  exact cast_eq_iff_heq.mpr HEq.rfl

theorem after_call1_v7 (c : Dev nD) : Wf m c (Proc.devRef .tc main_call1_v7) = val_main_call1_v7 (F := Ideal) := by
  have h0 : U m 58 c (Proc.devRef .tc main_call1_v3) = val_main_call1_v3 (F := Ideal) := (U_eq_final m c 52 58 (by decide) (by decide)).trans (after_call1_v3 m c)
  have h1 : U m 58 c (Proc.devRef .tc main_call1_v6) = val_main_call1_v6 (F := Ideal) := (U_eq_final m c 57 58 (by decide) (by decide)).trans (after_call1_v6 m c)
  have e0 : (TRef.of (sig := sig) (T := ⟨S4096, .i32⟩) main_call1_v3).ofBuf (Val := Elt Ideal) (val_main_call1_v3 (F := Ideal)) = val_main_call1_v3 (F := Ideal) := cast_eq_iff_heq.mpr HEq.rfl
  have e1 : (TRef.of (sig := sig) (T := ⟨S4096, .i32⟩) main_call1_v6).ofBuf (Val := Elt Ideal) (val_main_call1_v6 (F := Ideal)) = val_main_call1_v6 (F := Ideal) := cast_eq_iff_heq.mpr HEq.rfl
  refine (final m c 58 (by decide)).trans ?_
  show (TRef.binary (TRef.of (T := ⟨S4096, .i32⟩) main_call1_v3) (TRef.of (T := ⟨S4096, .i32⟩) main_call1_v6) (TRef.of (T := ⟨S4096, .i32⟩) main_call1_v7) addi : HloOp τ sig (Elt Ideal)).result (U m 58 c) (Proc.devRef .tc main_call1_v7) = _
  rw [binary_result]
  dsimp only
  rw [h0, h1, e0, e1]
  unfold val_main_call1_v7
  exact cast_eq_iff_heq.mpr HEq.rfl

theorem after_call1_v8 (c : Dev nD) : Wf m c (Proc.devRef .tc main_call1_v8) = val_main_call1_v8 (F := Ideal) := by
  have h0 : U m 59 c (Proc.devRef .tc main_call1_v5) = val_main_call1_v5 (F := Ideal) := (U_eq_final m c 55 59 (by decide) (by decide)).trans (after_call1_v5 m c)
  have h1 : U m 59 c (Proc.devRef .tc main_call1_v7) = val_main_call1_v7 (F := Ideal) := (U_eq_final m c 58 59 (by decide) (by decide)).trans (after_call1_v7 m c)
  have h2 : U m 59 c (Proc.devRef .tc main_call1_v3) = val_main_call1_v3 (F := Ideal) := (U_eq_final m c 52 59 (by decide) (by decide)).trans (after_call1_v3 m c)
  have e0 : (TRef.of (sig := sig) (T := ⟨S4096, .i1⟩) main_call1_v5).ofBuf (Val := Elt Ideal) (val_main_call1_v5 (F := Ideal)) = val_main_call1_v5 (F := Ideal) := cast_eq_iff_heq.mpr HEq.rfl
  have e1 : (TRef.of (sig := sig) (T := ⟨S4096, .i32⟩) main_call1_v7).ofBuf (Val := Elt Ideal) (val_main_call1_v7 (F := Ideal)) = val_main_call1_v7 (F := Ideal) := cast_eq_iff_heq.mpr HEq.rfl
  have e2 : (TRef.of (sig := sig) (T := ⟨S4096, .i32⟩) main_call1_v3).ofBuf (Val := Elt Ideal) (val_main_call1_v3 (F := Ideal)) = val_main_call1_v3 (F := Ideal) := cast_eq_iff_heq.mpr HEq.rfl
  refine (final m c 59 (by decide)).trans ?_
  show (TRef.ternary (TRef.of (T := ⟨S4096, .i1⟩) main_call1_v5) (TRef.of (T := ⟨S4096, .i32⟩) main_call1_v7) (TRef.of (T := ⟨S4096, .i32⟩) main_call1_v3) (TRef.of (T := ⟨S4096, .i32⟩) main_call1_v8) select : HloOp τ sig (Elt Ideal)).result (U m 59 c) (Proc.devRef .tc main_call1_v8) = _
  rw [ternary_result]
  dsimp only
  rw [h0, h1, h2, e0, e1, e2]
  unfold val_main_call1_v8
  exact cast_eq_iff_heq.mpr HEq.rfl

theorem after_call1_c_2 (c : Dev nD) : Wf m c (Proc.devRef .tc main_call1_c_2) = val_main_call1_c_2 (F := Ideal) := by
  refine (final m c 60 (by decide)).trans ?_
  show (TRef.nullary (TRef.of (T := ⟨S_, .i32⟩) main_call1_c_2) (constantI S_ 32 0#32) : HloOp τ sig (Elt Ideal)).result (U m 60 c) (Proc.devRef .tc main_call1_c_2) = _
  rw [nullary_result]
  unfold val_main_call1_c_2
  exact cast_eq_iff_heq.mpr HEq.rfl

theorem after_call1_v9 (c : Dev nD) : Wf m c (Proc.devRef .tc main_call1_v9) = val_main_call1_v9 (F := Ideal) := by
  have h0 : U m 61 c (Proc.devRef .tc main_call1_c_2) = val_main_call1_c_2 (F := Ideal) := (U_eq_final m c 60 61 (by decide) (by decide)).trans (after_call1_c_2 m c)
  have e0 : (TRef.of (sig := sig) (T := ⟨S_, .i32⟩) main_call1_c_2).ofBuf (Val := Elt Ideal) (val_main_call1_c_2 (F := Ideal)) = val_main_call1_c_2 (F := Ideal) := cast_eq_iff_heq.mpr HEq.rfl
  refine (final m c 61 (by decide)).trans ?_
  show (TRef.unary (TRef.of (T := ⟨S_, .i32⟩) main_call1_c_2) (TRef.of (T := ⟨S4096, .i32⟩) main_call1_v9) (broadcastInDim S4096 ![] bcast_S_S4096) : HloOp τ sig (Elt Ideal)).result (U m 61 c) (Proc.devRef .tc main_call1_v9) = _
  rw [unary_result]
  dsimp only
  rw [h0, e0]
  unfold val_main_call1_v9
  exact cast_eq_iff_heq.mpr HEq.rfl

theorem after_call1_v10 (c : Dev nD) : Wf m c (Proc.devRef .tc main_call1_v10) = val_main_call1_v10 (F := Ideal) := by
  have h0 : U m 62 c (Proc.devRef .tc main_call1_v0) = val_main_call1_v0 (F := Ideal) := (U_eq_final m c 48 62 (by decide) (by decide)).trans (after_call1_v0 m c)
  have h1 : U m 62 c (Proc.devRef .tc main_call1_v9) = val_main_call1_v9 (F := Ideal) := (U_eq_final m c 61 62 (by decide) (by decide)).trans (after_call1_v9 m c)
  have e0 : (TRef.of (sig := sig) (T := ⟨S4096, .i32⟩) main_call1_v0).ofBuf (Val := Elt Ideal) (val_main_call1_v0 (F := Ideal)) = val_main_call1_v0 (F := Ideal) := cast_eq_iff_heq.mpr HEq.rfl
  have e1 : (TRef.of (sig := sig) (T := ⟨S4096, .i32⟩) main_call1_v9).ofBuf (Val := Elt Ideal) (val_main_call1_v9 (F := Ideal)) = val_main_call1_v9 (F := Ideal) := cast_eq_iff_heq.mpr HEq.rfl
  refine (final m c 62 (by decide)).trans ?_
  show (TRef.binary (TRef.of (T := ⟨S4096, .i32⟩) main_call1_v0) (TRef.of (T := ⟨S4096, .i32⟩) main_call1_v9) (TRef.of (T := ⟨S4096, .i1⟩) main_call1_v10) (cmpi .slt) : HloOp τ sig (Elt Ideal)).result (U m 62 c) (Proc.devRef .tc main_call1_v10) = _
  rw [binary_result]
  dsimp only
  rw [h0, h1, e0, e1]
  unfold val_main_call1_v10
  exact cast_eq_iff_heq.mpr HEq.rfl

theorem after_call1_c_3 (c : Dev nD) : Wf m c (Proc.devRef .tc main_call1_c_3) = val_main_call1_c_3 (F := Ideal) := by
  refine (final m c 63 (by decide)).trans ?_
  show (TRef.nullary (TRef.of (T := ⟨S_, .i32⟩) main_call1_c_3) (constantI S_ 32 8192#32) : HloOp τ sig (Elt Ideal)).result (U m 63 c) (Proc.devRef .tc main_call1_c_3) = _
  rw [nullary_result]
  unfold val_main_call1_c_3
  exact cast_eq_iff_heq.mpr HEq.rfl

theorem after_call1_v11 (c : Dev nD) : Wf m c (Proc.devRef .tc main_call1_v11) = val_main_call1_v11 (F := Ideal) := by
  have h0 : U m 64 c (Proc.devRef .tc main_call1_c_3) = val_main_call1_c_3 (F := Ideal) := (U_eq_final m c 63 64 (by decide) (by decide)).trans (after_call1_c_3 m c)
  have e0 : (TRef.of (sig := sig) (T := ⟨S_, .i32⟩) main_call1_c_3).ofBuf (Val := Elt Ideal) (val_main_call1_c_3 (F := Ideal)) = val_main_call1_c_3 (F := Ideal) := cast_eq_iff_heq.mpr HEq.rfl
  refine (final m c 64 (by decide)).trans ?_
  show (TRef.unary (TRef.of (T := ⟨S_, .i32⟩) main_call1_c_3) (TRef.of (T := ⟨S4096, .i32⟩) main_call1_v11) (broadcastInDim S4096 ![] bcast_S_S4096) : HloOp τ sig (Elt Ideal)).result (U m 64 c) (Proc.devRef .tc main_call1_v11) = _
  rw [unary_result]
  dsimp only
  rw [h0, e0]
  unfold val_main_call1_v11
  exact cast_eq_iff_heq.mpr HEq.rfl

theorem after_call1_v12 (c : Dev nD) : Wf m c (Proc.devRef .tc main_call1_v12) = val_main_call1_v12 (F := Ideal) := by
  have h0 : U m 65 c (Proc.devRef .tc main_call1_v0) = val_main_call1_v0 (F := Ideal) := (U_eq_final m c 48 65 (by decide) (by decide)).trans (after_call1_v0 m c)
  have h1 : U m 65 c (Proc.devRef .tc main_call1_v11) = val_main_call1_v11 (F := Ideal) := (U_eq_final m c 64 65 (by decide) (by decide)).trans (after_call1_v11 m c)
  have e0 : (TRef.of (sig := sig) (T := ⟨S4096, .i32⟩) main_call1_v0).ofBuf (Val := Elt Ideal) (val_main_call1_v0 (F := Ideal)) = val_main_call1_v0 (F := Ideal) := cast_eq_iff_heq.mpr HEq.rfl
  have e1 : (TRef.of (sig := sig) (T := ⟨S4096, .i32⟩) main_call1_v11).ofBuf (Val := Elt Ideal) (val_main_call1_v11 (F := Ideal)) = val_main_call1_v11 (F := Ideal) := cast_eq_iff_heq.mpr HEq.rfl
  refine (final m c 65 (by decide)).trans ?_
  show (TRef.binary (TRef.of (T := ⟨S4096, .i32⟩) main_call1_v0) (TRef.of (T := ⟨S4096, .i32⟩) main_call1_v11) (TRef.of (T := ⟨S4096, .i32⟩) main_call1_v12) addi : HloOp τ sig (Elt Ideal)).result (U m 65 c) (Proc.devRef .tc main_call1_v12) = _
  rw [binary_result]
  dsimp only
  rw [h0, h1, e0, e1]
  unfold val_main_call1_v12
  exact cast_eq_iff_heq.mpr HEq.rfl

theorem after_call1_v13 (c : Dev nD) : Wf m c (Proc.devRef .tc main_call1_v13) = val_main_call1_v13 (F := Ideal) := by
  have h0 : U m 66 c (Proc.devRef .tc main_call1_v10) = val_main_call1_v10 (F := Ideal) := (U_eq_final m c 62 66 (by decide) (by decide)).trans (after_call1_v10 m c)
  have h1 : U m 66 c (Proc.devRef .tc main_call1_v12) = val_main_call1_v12 (F := Ideal) := (U_eq_final m c 65 66 (by decide) (by decide)).trans (after_call1_v12 m c)
  have h2 : U m 66 c (Proc.devRef .tc main_call1_v0) = val_main_call1_v0 (F := Ideal) := (U_eq_final m c 48 66 (by decide) (by decide)).trans (after_call1_v0 m c)
  have e0 : (TRef.of (sig := sig) (T := ⟨S4096, .i1⟩) main_call1_v10).ofBuf (Val := Elt Ideal) (val_main_call1_v10 (F := Ideal)) = val_main_call1_v10 (F := Ideal) := cast_eq_iff_heq.mpr HEq.rfl
  have e1 : (TRef.of (sig := sig) (T := ⟨S4096, .i32⟩) main_call1_v12).ofBuf (Val := Elt Ideal) (val_main_call1_v12 (F := Ideal)) = val_main_call1_v12 (F := Ideal) := cast_eq_iff_heq.mpr HEq.rfl
  have e2 : (TRef.of (sig := sig) (T := ⟨S4096, .i32⟩) main_call1_v0).ofBuf (Val := Elt Ideal) (val_main_call1_v0 (F := Ideal)) = val_main_call1_v0 (F := Ideal) := cast_eq_iff_heq.mpr HEq.rfl
  refine (final m c 66 (by decide)).trans ?_
  show (TRef.ternary (TRef.of (T := ⟨S4096, .i1⟩) main_call1_v10) (TRef.of (T := ⟨S4096, .i32⟩) main_call1_v12) (TRef.of (T := ⟨S4096, .i32⟩) main_call1_v0) (TRef.of (T := ⟨S4096, .i32⟩) main_call1_v13) select : HloOp τ sig (Elt Ideal)).result (U m 66 c) (Proc.devRef .tc main_call1_v13) = _
  rw [ternary_result]
  dsimp only
  rw [h0, h1, h2, e0, e1, e2]
  unfold val_main_call1_v13
  exact cast_eq_iff_heq.mpr HEq.rfl

theorem after_call1_v14 (c : Dev nD) : Wf m c (Proc.devRef .tc main_call1_v14) = val_main_call1_v14 (F := Ideal) := by
  have h0 : U m 67 c (Proc.devRef .tc main_call1_v8) = val_main_call1_v8 (F := Ideal) := (U_eq_final m c 59 67 (by decide) (by decide)).trans (after_call1_v8 m c)
  have e0 : (TRef.of (sig := sig) (T := ⟨S4096, .i32⟩) main_call1_v8).ofBuf (Val := Elt Ideal) (val_main_call1_v8 (F := Ideal)) = val_main_call1_v8 (F := Ideal) := cast_eq_iff_heq.mpr HEq.rfl
  refine (final m c 67 (by decide)).trans ?_
  show (TRef.unary (TRef.of (T := ⟨S4096, .i32⟩) main_call1_v8) (TRef.of (T := ⟨S4096x1, .i32⟩) main_call1_v14) (broadcastInDim S4096x1 ![0] bcast_S4096_S4096x1_0) : HloOp τ sig (Elt Ideal)).result (U m 67 c) (Proc.devRef .tc main_call1_v14) = _
  rw [unary_result]
  dsimp only
  rw [h0, e0]
  unfold val_main_call1_v14
  exact cast_eq_iff_heq.mpr HEq.rfl

theorem after_call1_v15 (c : Dev nD) : Wf m c (Proc.devRef .tc main_call1_v15) = val_main_call1_v15 (F := Ideal) := by
  have h0 : U m 68 c (Proc.devRef .tc main_call1_v13) = val_main_call1_v13 (F := Ideal) := (U_eq_final m c 66 68 (by decide) (by decide)).trans (after_call1_v13 m c)
  have e0 : (TRef.of (sig := sig) (T := ⟨S4096, .i32⟩) main_call1_v13).ofBuf (Val := Elt Ideal) (val_main_call1_v13 (F := Ideal)) = val_main_call1_v13 (F := Ideal) := cast_eq_iff_heq.mpr HEq.rfl
  refine (final m c 68 (by decide)).trans ?_
  show (TRef.unary (TRef.of (T := ⟨S4096, .i32⟩) main_call1_v13) (TRef.of (T := ⟨S4096x1, .i32⟩) main_call1_v15) (broadcastInDim S4096x1 ![0] bcast_S4096_S4096x1_0) : HloOp τ sig (Elt Ideal)).result (U m 68 c) (Proc.devRef .tc main_call1_v15) = _
  rw [unary_result]
  dsimp only
  rw [h0, e0]
  unfold val_main_call1_v15
  exact cast_eq_iff_heq.mpr HEq.rfl

theorem after_call1_v16 (c : Dev nD) : Wf m c (Proc.devRef .tc main_call1_v16) = val_main_call1_v16 (F := Ideal) := by
  have h0 : U m 69 c (Proc.devRef .tc main_call1_v14) = val_main_call1_v14 (F := Ideal) := (U_eq_final m c 67 69 (by decide) (by decide)).trans (after_call1_v14 m c)
  have h1 : U m 69 c (Proc.devRef .tc main_call1_v15) = val_main_call1_v15 (F := Ideal) := (U_eq_final m c 68 69 (by decide) (by decide)).trans (after_call1_v15 m c)
  have e0 : (TRef.of (sig := sig) (T := ⟨S4096x1, .i32⟩) main_call1_v14).ofBuf (Val := Elt Ideal) (val_main_call1_v14 (F := Ideal)) = val_main_call1_v14 (F := Ideal) := cast_eq_iff_heq.mpr HEq.rfl
  have e1 : (TRef.of (sig := sig) (T := ⟨S4096x1, .i32⟩) main_call1_v15).ofBuf (Val := Elt Ideal) (val_main_call1_v15 (F := Ideal)) = val_main_call1_v15 (F := Ideal) := cast_eq_iff_heq.mpr HEq.rfl
  refine (final m c 69 (by decide)).trans ?_
  show (TRef.binary (TRef.of (T := ⟨S4096x1, .i32⟩) main_call1_v14) (TRef.of (T := ⟨S4096x1, .i32⟩) main_call1_v15) (TRef.of (T := ⟨S4096x2, .i32⟩) main_call1_v16) (fun a b => concatenate S4096x2 1 [⟨S4096x1, a⟩, ⟨S4096x1, b⟩] concatenates_S4096x1_S4096x1_S4096x2_d1) : HloOp τ sig (Elt Ideal)).result (U m 69 c) (Proc.devRef .tc main_call1_v16) = _
  rw [binary_result]
  dsimp only
  rw [h0, h1, e0, e1]
  unfold val_main_call1_v16
  exact cast_eq_iff_heq.mpr HEq.rfl

theorem after_v22 (c : Dev nD) : Wf m c (Proc.devRef .tc main_v22) = val_main_v22 (F := Ideal) (m ((c.tc : Thread nD τ).loc main_arg0)) (m ((c.tc : Thread nD τ).loc main_arg1)) := by
  have h0 : U m 70 c (Proc.devRef .tc main_v20) = val_main_v20 (F := Ideal) (m ((c.tc : Thread nD τ).loc main_arg0)) (m ((c.tc : Thread nD τ).loc main_arg1)) := (U_eq_final m c 24 70 (by decide) (by decide)).trans (after_v20 m c)
  have h1 : U m 70 c (Proc.devRef .tc main_call1_v16) = val_main_call1_v16 (F := Ideal) := (U_eq_final m c 69 70 (by decide) (by decide)).trans (after_call1_v16 m c)
  have e0 : (TRef.of (sig := sig) (T := ⟨S8192x8192, .f32⟩) main_v20).ofBuf (Val := Elt Ideal) (val_main_v20 (F := Ideal) (m ((c.tc : Thread nD τ).loc main_arg0)) (m ((c.tc : Thread nD τ).loc main_arg1))) = val_main_v20 (F := Ideal) (m ((c.tc : Thread nD τ).loc main_arg0)) (m ((c.tc : Thread nD τ).loc main_arg1)) := cast_eq_iff_heq.mpr HEq.rfl
  have e1 : (TRef.of (sig := sig) (T := ⟨S4096x2, .i32⟩) main_call1_v16).ofBuf (Val := Elt Ideal) (val_main_call1_v16 (F := Ideal)) = val_main_call1_v16 (F := Ideal) := cast_eq_iff_heq.mpr HEq.rfl
  refine (final m c 70 (by decide)).trans ?_
  show (TRef.binary (TRef.of (T := ⟨S8192x8192, .f32⟩) main_v20) (TRef.of (T := ⟨S4096x2, .i32⟩) main_call1_v16) (TRef.of (T := ⟨S4096, .f32⟩) main_v22) (fun x i => Host.gather gather_S8192x8192_S4096x2_S4096_n_01_n_n_01_1_11 x i) : HloOp τ sig (Elt Ideal)).result (U m 70 c) (Proc.devRef .tc main_v22) = _
  rw [binary_result]
  dsimp only
  rw [h0, h1, e0, e1]
  unfold val_main_v22
  exact cast_eq_iff_heq.mpr HEq.rfl

theorem after_v23 (c : Dev nD) : Wf m c (Proc.devRef .tc main_v23) = val_main_v23 (F := Ideal) (m ((c.tc : Thread nD τ).loc main_arg0)) (m ((c.tc : Thread nD τ).loc main_arg1)) := by
  have h0 : U m 71 c (Proc.devRef .tc main_v21) = val_main_v21 (F := Ideal) (m ((c.tc : Thread nD τ).loc main_arg0)) (m ((c.tc : Thread nD τ).loc main_arg1)) := (U_eq_final m c 47 71 (by decide) (by decide)).trans (after_v21 m c)
  have h1 : U m 71 c (Proc.devRef .tc main_v22) = val_main_v22 (F := Ideal) (m ((c.tc : Thread nD τ).loc main_arg0)) (m ((c.tc : Thread nD τ).loc main_arg1)) := (U_eq_final m c 70 71 (by decide) (by decide)).trans (after_v22 m c)
  refine (final m c 71 (by decide)).trans ?_
  show (binary main_v21 main_v22 main_v23 ((fun a b => concatenate S8192 0 [⟨S4096, a⟩, ⟨S4096, b⟩] concatenates_S4096_S4096_S8192_d0) : (⟨S4096, .f32⟩ : BufTy).Contents (Elt Ideal) → (⟨S4096, .f32⟩ : BufTy).Contents (Elt Ideal) → (⟨S8192, .f32⟩ : BufTy).Contents (Elt Ideal)) : HloOp τ sig (Elt Ideal)).result (U m 71 c) (Proc.devRef .tc main_v23) = _
  rw [binary_result]
  rw [h0, h1]
  rfl

theorem after_v24 (c : Dev nD) : Wf m c (Proc.devRef .tc main_v24) = val_main_v24 (F := Ideal) (m ((c.tc : Thread nD τ).loc main_arg0)) (m ((c.tc : Thread nD τ).loc main_arg1)) := by
  have h0 : U m 72 c (Proc.devRef .tc main_v20) = val_main_v20 (F := Ideal) (m ((c.tc : Thread nD τ).loc main_arg0)) (m ((c.tc : Thread nD τ).loc main_arg1)) := (U_eq_final m c 24 72 (by decide) (by decide)).trans (after_v20 m c)
  refine (final m c 72 (by decide)).trans ?_
  show (reshape main_v20 main_v24 rfl shapeCasts_S8192x8192_S67108864 : HloOp τ sig (Elt Ideal)).result (U m 72 c) (Proc.devRef .tc main_v24) = _
  rw [reshape_result]
  rw [h0]
  rfl

theorem after_v25 (c : Dev nD) : Wf m c (Proc.devRef .tc main_v25) = val_main_v25 (F := Ideal) (m ((c.tc : Thread nD τ).loc main_arg0)) (m ((c.tc : Thread nD τ).loc main_arg1)) := by
  have h0 : U m 73 c (Proc.devRef .tc main_v24) = val_main_v24 (F := Ideal) (m ((c.tc : Thread nD τ).loc main_arg0)) (m ((c.tc : Thread nD τ).loc main_arg1)) := (U_eq_final m c 72 73 (by decide) (by decide)).trans (after_v24 m c)
  refine (final m c 73 (by decide)).trans ?_
  show (unary main_v24 main_v25 ((extractStridedSlice S67108863 ![0] · slices_S67108864_S67108863_0) : (⟨S67108864, .f32⟩ : BufTy).Contents (Elt Ideal) → (⟨S67108863, .f32⟩ : BufTy).Contents (Elt Ideal)) : HloOp τ sig (Elt Ideal)).result (U m 73 c) (Proc.devRef .tc main_v25) = _
  rw [unary_result]
  rw [h0]
  rfl

theorem after_v26 (c : Dev nD) : Wf m c (Proc.devRef .tc main_v26) = val_main_v26 (F := Ideal) (m ((c.tc : Thread nD τ).loc main_arg0)) (m ((c.tc : Thread nD τ).loc main_arg1)) := by
  have h0 : U m 74 c (Proc.devRef .tc main_v25) = val_main_v25 (F := Ideal) (m ((c.tc : Thread nD τ).loc main_arg0)) (m ((c.tc : Thread nD τ).loc main_arg1)) := (U_eq_final m c 73 74 (by decide) (by decide)).trans (after_v25 m c)
  refine (final m c 74 (by decide)).trans ?_
  show (reshape main_v25 main_v26 rfl shapeCasts_S67108863_S8191x8193 : HloOp τ sig (Elt Ideal)).result (U m 74 c) (Proc.devRef .tc main_v26) = _
  rw [reshape_result]
  rw [h0]
  rfl

theorem after_v27 (c : Dev nD) : Wf m c (Proc.devRef .tc main_v27) = val_main_v27 (F := Ideal) (m ((c.tc : Thread nD τ).loc main_arg0)) (m ((c.tc : Thread nD τ).loc main_arg1)) := by
  have h0 : U m 75 c (Proc.devRef .tc main_v26) = val_main_v26 (F := Ideal) (m ((c.tc : Thread nD τ).loc main_arg0)) (m ((c.tc : Thread nD τ).loc main_arg1)) := (U_eq_final m c 74 75 (by decide) (by decide)).trans (after_v26 m c)
  refine (final m c 75 (by decide)).trans ?_
  show (unary main_v26 main_v27 ((extractStridedSlice S8191x8192 ![0, 1] · slices_S8191x8193_S8191x8192_0_1) : (⟨S8191x8193, .f32⟩ : BufTy).Contents (Elt Ideal) → (⟨S8191x8192, .f32⟩ : BufTy).Contents (Elt Ideal)) : HloOp τ sig (Elt Ideal)).result (U m 75 c) (Proc.devRef .tc main_v27) = _
  rw [unary_result]
  rw [h0]
  rfl

theorem after_v28 (c : Dev nD) : Wf m c (Proc.devRef .tc main_v28) = val_main_v28 (F := Ideal) (m ((c.tc : Thread nD τ).loc main_arg0)) (m ((c.tc : Thread nD τ).loc main_arg1)) := by
  have h0 : U m 76 c (Proc.devRef .tc main_v27) = val_main_v27 (F := Ideal) (m ((c.tc : Thread nD τ).loc main_arg0)) (m ((c.tc : Thread nD τ).loc main_arg1)) := (U_eq_final m c 75 76 (by decide) (by decide)).trans (after_v27 m c)
  refine (final m c 76 (by decide)).trans ?_
  show (reshape main_v27 main_v28 rfl shapeCasts_S8191x8192_S8192x8191 : HloOp τ sig (Elt Ideal)).result (U m 76 c) (Proc.devRef .tc main_v28) = _
  rw [reshape_result]
  rw [h0]
  rfl

theorem after_v29 (c : Dev nD) : Wf m c (Proc.devRef .tc main_v29) = val_main_v29 (F := Ideal) (m ((c.tc : Thread nD τ).loc main_arg0)) (m ((c.tc : Thread nD τ).loc main_arg1)) := by
  have h0 : U m 77 c (Proc.devRef .tc main_v23) = val_main_v23 (F := Ideal) (m ((c.tc : Thread nD τ).loc main_arg0)) (m ((c.tc : Thread nD τ).loc main_arg1)) := (U_eq_final m c 71 77 (by decide) (by decide)).trans (after_v23 m c)
  refine (final m c 77 (by decide)).trans ?_
  show (unary main_v23 main_v29 (broadcastInDim S8192x1 ![0] bcast_S8192_S8192x1_0 : (⟨S8192, .f32⟩ : BufTy).Contents (Elt Ideal) → (⟨S8192x1, .f32⟩ : BufTy).Contents (Elt Ideal)) : HloOp τ sig (Elt Ideal)).result (U m 77 c) (Proc.devRef .tc main_v29) = _
  rw [unary_result]
  rw [h0]
  rfl

theorem after_v30 (c : Dev nD) : Wf m c (Proc.devRef .tc main_v30) = val_main_v30 (F := Ideal) (m ((c.tc : Thread nD τ).loc main_arg0)) (m ((c.tc : Thread nD τ).loc main_arg1)) := by
  have h0 : U m 78 c (Proc.devRef .tc main_v29) = val_main_v29 (F := Ideal) (m ((c.tc : Thread nD τ).loc main_arg0)) (m ((c.tc : Thread nD τ).loc main_arg1)) := (U_eq_final m c 77 78 (by decide) (by decide)).trans (after_v29 m c)
  have h1 : U m 78 c (Proc.devRef .tc main_v28) = val_main_v28 (F := Ideal) (m ((c.tc : Thread nD τ).loc main_arg0)) (m ((c.tc : Thread nD τ).loc main_arg1)) := (U_eq_final m c 76 78 (by decide) (by decide)).trans (after_v28 m c)
  refine (final m c 78 (by decide)).trans ?_
  show (binary main_v29 main_v28 main_v30 ((fun a b => concatenate S8192x8192 1 [⟨S8192x1, a⟩, ⟨S8192x8191, b⟩] concatenates_S8192x1_S8192x8191_S8192x8192_d1) : (⟨S8192x1, .f32⟩ : BufTy).Contents (Elt Ideal) → (⟨S8192x8191, .f32⟩ : BufTy).Contents (Elt Ideal) → (⟨S8192x8192, .f32⟩ : BufTy).Contents (Elt Ideal)) : HloOp τ sig (Elt Ideal)).result (U m 78 c) (Proc.devRef .tc main_v30) = _
  rw [binary_result]
  rw [h0, h1]
  rfl

theorem after_cst_3 (c : Dev nD) : Wf m c (Proc.devRef .tc main_cst_3) = val_main_cst_3 (F := Ideal) := by
  refine (final m c 79 (by decide)).trans ?_
  show (nullary main_cst_3 (constant (F := Ideal) S_ .f32 0x3F000000#32) : HloOp τ sig (Elt Ideal)).result (U m 79 c) (Proc.devRef .tc main_cst_3) = _
  rw [nullary_result]
  rfl

theorem after_v31 (c : Dev nD) : Wf m c (Proc.devRef .tc main_v31) = val_main_v31 (F := Ideal) := by
  have h0 : U m 80 c (Proc.devRef .tc main_cst_3) = val_main_cst_3 (F := Ideal) := (U_eq_final m c 79 80 (by decide) (by decide)).trans (after_cst_3 m c)
  refine (final m c 80 (by decide)).trans ?_
  show (unary main_cst_3 main_v31 (broadcastInDim S8192x8192 ![] bcast_S_S8192x8192 : (⟨S_, .f32⟩ : BufTy).Contents (Elt Ideal) → (⟨S8192x8192, .f32⟩ : BufTy).Contents (Elt Ideal)) : HloOp τ sig (Elt Ideal)).result (U m 80 c) (Proc.devRef .tc main_v31) = _
  rw [unary_result]
  rw [h0]
  rfl

theorem after_v32 (c : Dev nD) : Wf m c (Proc.devRef .tc main_v32) = val_main_v32 (F := Ideal) (m ((c.tc : Thread nD τ).loc main_arg0)) (m ((c.tc : Thread nD τ).loc main_arg1)) := by
  have h0 : U m 81 c (Proc.devRef .tc main_v30) = val_main_v30 (F := Ideal) (m ((c.tc : Thread nD τ).loc main_arg0)) (m ((c.tc : Thread nD τ).loc main_arg1)) := (U_eq_final m c 78 81 (by decide) (by decide)).trans (after_v30 m c)
  have h1 : U m 81 c (Proc.devRef .tc main_v31) = val_main_v31 (F := Ideal) := (U_eq_final m c 80 81 (by decide) (by decide)).trans (after_v31 m c)
  refine (final m c 81 (by decide)).trans ?_
  show (binary main_v30 main_v31 main_v32 (Host.divf (F := Ideal) : (⟨S8192x8192, .f32⟩ : BufTy).Contents (Elt Ideal) → (⟨S8192x8192, .f32⟩ : BufTy).Contents (Elt Ideal) → (⟨S8192x8192, .f32⟩ : BufTy).Contents (Elt Ideal)) : HloOp τ sig (Elt Ideal)).result (U m 81 c) (Proc.devRef .tc main_v32) = _
  rw [binary_result]
  rw [h0, h1]
  rfl

theorem after_call2_cst (c : Dev nD) : Wf m c (Proc.devRef .tc main_call2_cst) = val_main_call2_cst (F := Ideal) := by
  refine (final m c 82 (by decide)).trans ?_
  show (TRef.nullary (TRef.of (T := ⟨S_, .f32⟩) main_call2_cst) (constant (F := Ideal) S_ .f32 0xFF800000#32) : HloOp τ sig (Elt Ideal)).result (U m 82 c) (Proc.devRef .tc main_call2_cst) = _
  rw [nullary_result]
  unfold val_main_call2_cst
  exact cast_eq_iff_heq.mpr HEq.rfl

theorem after_call2_v0 (c : Dev nD) : Wf m c (Proc.devRef .tc main_call2_v0) = val_main_call2_v0 (F := Ideal) (m ((c.tc : Thread nD τ).loc main_arg0)) (m ((c.tc : Thread nD τ).loc main_arg1)) := by
  have h0 : U m 83 c (Proc.devRef .tc main_v32) = val_main_v32 (F := Ideal) (m ((c.tc : Thread nD τ).loc main_arg0)) (m ((c.tc : Thread nD τ).loc main_arg1)) := (U_eq_final m c 81 83 (by decide) (by decide)).trans (after_v32 m c)
  have h1 : U m 83 c (Proc.devRef .tc main_call2_cst) = val_main_call2_cst (F := Ideal) := (U_eq_final m c 82 83 (by decide) (by decide)).trans (after_call2_cst m c)
  have e0 : (TRef.of (sig := sig) (T := ⟨S8192x8192, .f32⟩) main_v32).ofBuf (Val := Elt Ideal) (val_main_v32 (F := Ideal) (m ((c.tc : Thread nD τ).loc main_arg0)) (m ((c.tc : Thread nD τ).loc main_arg1))) = val_main_v32 (F := Ideal) (m ((c.tc : Thread nD τ).loc main_arg0)) (m ((c.tc : Thread nD τ).loc main_arg1)) := cast_eq_iff_heq.mpr HEq.rfl
  have e1 : (TRef.of (sig := sig) (T := ⟨S_, .f32⟩) main_call2_cst).ofBuf (Val := Elt Ideal) (val_main_call2_cst (F := Ideal)) = val_main_call2_cst (F := Ideal) := cast_eq_iff_heq.mpr HEq.rfl
  refine (final m c 83 (by decide)).trans ?_
  show (TRef.binary (TRef.of (T := ⟨S8192x8192, .f32⟩) main_v32) (TRef.of (T := ⟨S_, .f32⟩) main_call2_cst) (TRef.of (T := ⟨S8192, .f32⟩) main_call2_v0) (fun x v => Host.reduce (FloatOps.maximumf (F := Ideal) (φ := .f32)) x v reducesTo_S8192x8192_S8192_d1 h_S_) : HloOp τ sig (Elt Ideal)).result (U m 83 c) (Proc.devRef .tc main_call2_v0) = _
  rw [binary_result]
  dsimp only
  rw [h0, h1, e0, e1]
  unfold val_main_call2_v0
  exact cast_eq_iff_heq.mpr HEq.rfl

theorem after_call2_cst_0 (c : Dev nD) : Wf m c (Proc.devRef .tc main_call2_cst_0) = val_main_call2_cst_0 (F := Ideal) := by
  refine (final m c 84 (by decide)).trans ?_
  show (TRef.nullary (TRef.of (T := ⟨S_, .f32⟩) main_call2_cst_0) (constant (F := Ideal) S_ .f32 0xFF800000#32) : HloOp τ sig (Elt Ideal)).result (U m 84 c) (Proc.devRef .tc main_call2_cst_0) = _
  rw [nullary_result]
  unfold val_main_call2_cst_0
  exact cast_eq_iff_heq.mpr HEq.rfl

theorem after_call2_v1 (c : Dev nD) : Wf m c (Proc.devRef .tc main_call2_v1) = val_main_call2_v1 (F := Ideal) := by
  have h0 : U m 85 c (Proc.devRef .tc main_call2_cst_0) = val_main_call2_cst_0 (F := Ideal) := (U_eq_final m c 84 85 (by decide) (by decide)).trans (after_call2_cst_0 m c)
  have e0 : (TRef.of (sig := sig) (T := ⟨S_, .f32⟩) main_call2_cst_0).ofBuf (Val := Elt Ideal) (val_main_call2_cst_0 (F := Ideal)) = val_main_call2_cst_0 (F := Ideal) := cast_eq_iff_heq.mpr HEq.rfl
  refine (final m c 85 (by decide)).trans ?_
  show (TRef.unary (TRef.of (T := ⟨S_, .f32⟩) main_call2_cst_0) (TRef.of (T := ⟨S8192, .f32⟩) main_call2_v1) (broadcastInDim S8192 ![] bcast_S_S8192) : HloOp τ sig (Elt Ideal)).result (U m 85 c) (Proc.devRef .tc main_call2_v1) = _
  rw [unary_result]
  dsimp only
  rw [h0, e0]
  unfold val_main_call2_v1
  exact cast_eq_iff_heq.mpr HEq.rfl

theorem after_call2_v2 (c : Dev nD) : Wf m c (Proc.devRef .tc main_call2_v2) = val_main_call2_v2 (F := Ideal) (m ((c.tc : Thread nD τ).loc main_arg0)) (m ((c.tc : Thread nD τ).loc main_arg1)) := by
  have h0 : U m 86 c (Proc.devRef .tc main_call2_v1) = val_main_call2_v1 (F := Ideal) := (U_eq_final m c 85 86 (by decide) (by decide)).trans (after_call2_v1 m c)
  have h1 : U m 86 c (Proc.devRef .tc main_call2_v0) = val_main_call2_v0 (F := Ideal) (m ((c.tc : Thread nD τ).loc main_arg0)) (m ((c.tc : Thread nD τ).loc main_arg1)) := (U_eq_final m c 83 86 (by decide) (by decide)).trans (after_call2_v0 m c)
  have e0 : (TRef.of (sig := sig) (T := ⟨S8192, .f32⟩) main_call2_v1).ofBuf (Val := Elt Ideal) (val_main_call2_v1 (F := Ideal)) = val_main_call2_v1 (F := Ideal) := cast_eq_iff_heq.mpr HEq.rfl
  have e1 : (TRef.of (sig := sig) (T := ⟨S8192, .f32⟩) main_call2_v0).ofBuf (Val := Elt Ideal) (val_main_call2_v0 (F := Ideal) (m ((c.tc : Thread nD τ).loc main_arg0)) (m ((c.tc : Thread nD τ).loc main_arg1))) = val_main_call2_v0 (F := Ideal) (m ((c.tc : Thread nD τ).loc main_arg0)) (m ((c.tc : Thread nD τ).loc main_arg1)) := cast_eq_iff_heq.mpr HEq.rfl
  refine (final m c 86 (by decide)).trans ?_
  show (TRef.binary (TRef.of (T := ⟨S8192, .f32⟩) main_call2_v1) (TRef.of (T := ⟨S8192, .f32⟩) main_call2_v0) (TRef.of (T := ⟨S8192, .f32⟩) main_call2_v2) (maximumf (F := Ideal)) : HloOp τ sig (Elt Ideal)).result (U m 86 c) (Proc.devRef .tc main_call2_v2) = _
  rw [binary_result]
  dsimp only
  rw [h0, h1, e0, e1]
  unfold val_main_call2_v2
  exact cast_eq_iff_heq.mpr HEq.rfl

theorem after_call2_v3 (c : Dev nD) : Wf m c (Proc.devRef .tc main_call2_v3) = val_main_call2_v3 (F := Ideal) (m ((c.tc : Thread nD τ).loc main_arg0)) (m ((c.tc : Thread nD τ).loc main_arg1)) := by
  have h0 : U m 87 c (Proc.devRef .tc main_call2_v2) = val_main_call2_v2 (F := Ideal) (m ((c.tc : Thread nD τ).loc main_arg0)) (m ((c.tc : Thread nD τ).loc main_arg1)) := (U_eq_final m c 86 87 (by decide) (by decide)).trans (after_call2_v2 m c)
  have e0 : (TRef.of (sig := sig) (T := ⟨S8192, .f32⟩) main_call2_v2).ofBuf (Val := Elt Ideal) (val_main_call2_v2 (F := Ideal) (m ((c.tc : Thread nD τ).loc main_arg0)) (m ((c.tc : Thread nD τ).loc main_arg1))) = val_main_call2_v2 (F := Ideal) (m ((c.tc : Thread nD τ).loc main_arg0)) (m ((c.tc : Thread nD τ).loc main_arg1)) := cast_eq_iff_heq.mpr HEq.rfl
  refine (final m c 87 (by decide)).trans ?_
  show (TRef.unary (TRef.of (T := ⟨S8192, .f32⟩) main_call2_v2) (TRef.of (T := ⟨S8192x1, .f32⟩) main_call2_v3) (broadcastInDim S8192x1 ![0] bcast_S8192_S8192x1_0) : HloOp τ sig (Elt Ideal)).result (U m 87 c) (Proc.devRef .tc main_call2_v3) = _
  rw [unary_result]
  dsimp only
  rw [h0, e0]
  unfold val_main_call2_v3
  exact cast_eq_iff_heq.mpr HEq.rfl

theorem after_call2_v4 (c : Dev nD) : Wf m c (Proc.devRef .tc main_call2_v4) = val_main_call2_v4 (F := Ideal) (m ((c.tc : Thread nD τ).loc main_arg0)) (m ((c.tc : Thread nD τ).loc main_arg1)) := by
  have h0 : U m 88 c (Proc.devRef .tc main_call2_v3) = val_main_call2_v3 (F := Ideal) (m ((c.tc : Thread nD τ).loc main_arg0)) (m ((c.tc : Thread nD τ).loc main_arg1)) := (U_eq_final m c 87 88 (by decide) (by decide)).trans (after_call2_v3 m c)
  have e0 : (TRef.of (sig := sig) (T := ⟨S8192x1, .f32⟩) main_call2_v3).ofBuf (Val := Elt Ideal) (val_main_call2_v3 (F := Ideal) (m ((c.tc : Thread nD τ).loc main_arg0)) (m ((c.tc : Thread nD τ).loc main_arg1))) = val_main_call2_v3 (F := Ideal) (m ((c.tc : Thread nD τ).loc main_arg0)) (m ((c.tc : Thread nD τ).loc main_arg1)) := cast_eq_iff_heq.mpr HEq.rfl
  refine (final m c 88 (by decide)).trans ?_
  show (TRef.unary (TRef.of (T := ⟨S8192x1, .f32⟩) main_call2_v3) (TRef.of (T := ⟨S8192x8192, .f32⟩) main_call2_v4) (broadcastInDim S8192x8192 ![0, 1] bcast_S8192x1_S8192x8192_0_1) : HloOp τ sig (Elt Ideal)).result (U m 88 c) (Proc.devRef .tc main_call2_v4) = _
  rw [unary_result]
  dsimp only
  rw [h0, e0]
  unfold val_main_call2_v4
  exact cast_eq_iff_heq.mpr HEq.rfl

theorem after_call2_v5 (c : Dev nD) : Wf m c (Proc.devRef .tc main_call2_v5) = val_main_call2_v5 (F := Ideal) (m ((c.tc : Thread nD τ).loc main_arg0)) (m ((c.tc : Thread nD τ).loc main_arg1)) := by
  have h0 : U m 89 c (Proc.devRef .tc main_v32) = val_main_v32 (F := Ideal) (m ((c.tc : Thread nD τ).loc main_arg0)) (m ((c.tc : Thread nD τ).loc main_arg1)) := (U_eq_final m c 81 89 (by decide) (by decide)).trans (after_v32 m c)
  have h1 : U m 89 c (Proc.devRef .tc main_call2_v4) = val_main_call2_v4 (F := Ideal) (m ((c.tc : Thread nD τ).loc main_arg0)) (m ((c.tc : Thread nD τ).loc main_arg1)) := (U_eq_final m c 88 89 (by decide) (by decide)).trans (after_call2_v4 m c)
  have e0 : (TRef.of (sig := sig) (T := ⟨S8192x8192, .f32⟩) main_v32).ofBuf (Val := Elt Ideal) (val_main_v32 (F := Ideal) (m ((c.tc : Thread nD τ).loc main_arg0)) (m ((c.tc : Thread nD τ).loc main_arg1))) = val_main_v32 (F := Ideal) (m ((c.tc : Thread nD τ).loc main_arg0)) (m ((c.tc : Thread nD τ).loc main_arg1)) := cast_eq_iff_heq.mpr HEq.rfl
  have e1 : (TRef.of (sig := sig) (T := ⟨S8192x8192, .f32⟩) main_call2_v4).ofBuf (Val := Elt Ideal) (val_main_call2_v4 (F := Ideal) (m ((c.tc : Thread nD τ).loc main_arg0)) (m ((c.tc : Thread nD τ).loc main_arg1))) = val_main_call2_v4 (F := Ideal) (m ((c.tc : Thread nD τ).loc main_arg0)) (m ((c.tc : Thread nD τ).loc main_arg1)) := cast_eq_iff_heq.mpr HEq.rfl
  refine (final m c 89 (by decide)).trans ?_
  show (TRef.binary (TRef.of (T := ⟨S8192x8192, .f32⟩) main_v32) (TRef.of (T := ⟨S8192x8192, .f32⟩) main_call2_v4) (TRef.of (T := ⟨S8192x8192, .f32⟩) main_call2_v5) (subf (F := Ideal)) : HloOp τ sig (Elt Ideal)).result (U m 89 c) (Proc.devRef .tc main_call2_v5) = _
  rw [binary_result]
  dsimp only
  rw [h0, h1, e0, e1]
  unfold val_main_call2_v5
  exact cast_eq_iff_heq.mpr HEq.rfl

theorem after_call2_v6 (c : Dev nD) : Wf m c (Proc.devRef .tc main_call2_v6) = val_main_call2_v6 (F := Ideal) (m ((c.tc : Thread nD τ).loc main_arg0)) (m ((c.tc : Thread nD τ).loc main_arg1)) := by
  have h0 : U m 90 c (Proc.devRef .tc main_call2_v5) = val_main_call2_v5 (F := Ideal) (m ((c.tc : Thread nD τ).loc main_arg0)) (m ((c.tc : Thread nD τ).loc main_arg1)) := (U_eq_final m c 89 90 (by decide) (by decide)).trans (after_call2_v5 m c)
  have e0 : (TRef.of (sig := sig) (T := ⟨S8192x8192, .f32⟩) main_call2_v5).ofBuf (Val := Elt Ideal) (val_main_call2_v5 (F := Ideal) (m ((c.tc : Thread nD τ).loc main_arg0)) (m ((c.tc : Thread nD τ).loc main_arg1))) = val_main_call2_v5 (F := Ideal) (m ((c.tc : Thread nD τ).loc main_arg0)) (m ((c.tc : Thread nD τ).loc main_arg1)) := cast_eq_iff_heq.mpr HEq.rfl
  refine (final m c 90 (by decide)).trans ?_
  show (TRef.unary (TRef.of (T := ⟨S8192x8192, .f32⟩) main_call2_v5) (TRef.of (T := ⟨S8192x8192, .f32⟩) main_call2_v6) (Host.exp (F := Ideal)) : HloOp τ sig (Elt Ideal)).result (U m 90 c) (Proc.devRef .tc main_call2_v6) = _
  rw [unary_result]
  dsimp only
  rw [h0, e0]
  unfold val_main_call2_v6
  exact cast_eq_iff_heq.mpr HEq.rfl

theorem after_call2_cst_1 (c : Dev nD) : Wf m c (Proc.devRef .tc main_call2_cst_1) = val_main_call2_cst_1 (F := Ideal) := by
  refine (final m c 91 (by decide)).trans ?_
  show (TRef.nullary (TRef.of (T := ⟨S_, .f32⟩) main_call2_cst_1) (constant (F := Ideal) S_ .f32 0x00000000#32) : HloOp τ sig (Elt Ideal)).result (U m 91 c) (Proc.devRef .tc main_call2_cst_1) = _
  rw [nullary_result]
  unfold val_main_call2_cst_1
  exact cast_eq_iff_heq.mpr HEq.rfl

theorem after_call2_v7 (c : Dev nD) : Wf m c (Proc.devRef .tc main_call2_v7) = val_main_call2_v7 (F := Ideal) (m ((c.tc : Thread nD τ).loc main_arg0)) (m ((c.tc : Thread nD τ).loc main_arg1)) := by
  have h0 : U m 92 c (Proc.devRef .tc main_call2_v6) = val_main_call2_v6 (F := Ideal) (m ((c.tc : Thread nD τ).loc main_arg0)) (m ((c.tc : Thread nD τ).loc main_arg1)) := (U_eq_final m c 90 92 (by decide) (by decide)).trans (after_call2_v6 m c)
  have h1 : U m 92 c (Proc.devRef .tc main_call2_cst_1) = val_main_call2_cst_1 (F := Ideal) := (U_eq_final m c 91 92 (by decide) (by decide)).trans (after_call2_cst_1 m c)
  have e0 : (TRef.of (sig := sig) (T := ⟨S8192x8192, .f32⟩) main_call2_v6).ofBuf (Val := Elt Ideal) (val_main_call2_v6 (F := Ideal) (m ((c.tc : Thread nD τ).loc main_arg0)) (m ((c.tc : Thread nD τ).loc main_arg1))) = val_main_call2_v6 (F := Ideal) (m ((c.tc : Thread nD τ).loc main_arg0)) (m ((c.tc : Thread nD τ).loc main_arg1)) := cast_eq_iff_heq.mpr HEq.rfl
  have e1 : (TRef.of (sig := sig) (T := ⟨S_, .f32⟩) main_call2_cst_1).ofBuf (Val := Elt Ideal) (val_main_call2_cst_1 (F := Ideal)) = val_main_call2_cst_1 (F := Ideal) := cast_eq_iff_heq.mpr HEq.rfl
  refine (final m c 92 (by decide)).trans ?_
  show (TRef.binary (TRef.of (T := ⟨S8192x8192, .f32⟩) main_call2_v6) (TRef.of (T := ⟨S_, .f32⟩) main_call2_cst_1) (TRef.of (T := ⟨S8192, .f32⟩) main_call2_v7) (fun x v => Host.reduceAdd (F := Ideal) x v reducesTo_S8192x8192_S8192_d1 h_S_) : HloOp τ sig (Elt Ideal)).result (U m 92 c) (Proc.devRef .tc main_call2_v7) = _
  rw [binary_result]
  dsimp only
  rw [h0, h1, e0, e1]
  unfold val_main_call2_v7
  exact cast_eq_iff_heq.mpr HEq.rfl

theorem after_call2_v8 (c : Dev nD) : Wf m c (Proc.devRef .tc main_call2_v8) = val_main_call2_v8 (F := Ideal) (m ((c.tc : Thread nD τ).loc main_arg0)) (m ((c.tc : Thread nD τ).loc main_arg1)) := by
  have h0 : U m 93 c (Proc.devRef .tc main_call2_v7) = val_main_call2_v7 (F := Ideal) (m ((c.tc : Thread nD τ).loc main_arg0)) (m ((c.tc : Thread nD τ).loc main_arg1)) := (U_eq_final m c 92 93 (by decide) (by decide)).trans (after_call2_v7 m c)
  have e0 : (TRef.of (sig := sig) (T := ⟨S8192, .f32⟩) main_call2_v7).ofBuf (Val := Elt Ideal) (val_main_call2_v7 (F := Ideal) (m ((c.tc : Thread nD τ).loc main_arg0)) (m ((c.tc : Thread nD τ).loc main_arg1))) = val_main_call2_v7 (F := Ideal) (m ((c.tc : Thread nD τ).loc main_arg0)) (m ((c.tc : Thread nD τ).loc main_arg1)) := cast_eq_iff_heq.mpr HEq.rfl
  refine (final m c 93 (by decide)).trans ?_
  show (TRef.unary (TRef.of (T := ⟨S8192, .f32⟩) main_call2_v7) (TRef.of (T := ⟨S8192x1, .f32⟩) main_call2_v8) (broadcastInDim S8192x1 ![0] bcast_S8192_S8192x1_0) : HloOp τ sig (Elt Ideal)).result (U m 93 c) (Proc.devRef .tc main_call2_v8) = _
  rw [unary_result]
  dsimp only
  rw [h0, e0]
  unfold val_main_call2_v8
  exact cast_eq_iff_heq.mpr HEq.rfl

theorem after_call2_v9 (c : Dev nD) : Wf m c (Proc.devRef .tc main_call2_v9) = val_main_call2_v9 (F := Ideal) (m ((c.tc : Thread nD τ).loc main_arg0)) (m ((c.tc : Thread nD τ).loc main_arg1)) := by
  have h0 : U m 94 c (Proc.devRef .tc main_call2_v8) = val_main_call2_v8 (F := Ideal) (m ((c.tc : Thread nD τ).loc main_arg0)) (m ((c.tc : Thread nD τ).loc main_arg1)) := (U_eq_final m c 93 94 (by decide) (by decide)).trans (after_call2_v8 m c)
  have e0 : (TRef.of (sig := sig) (T := ⟨S8192x1, .f32⟩) main_call2_v8).ofBuf (Val := Elt Ideal) (val_main_call2_v8 (F := Ideal) (m ((c.tc : Thread nD τ).loc main_arg0)) (m ((c.tc : Thread nD τ).loc main_arg1))) = val_main_call2_v8 (F := Ideal) (m ((c.tc : Thread nD τ).loc main_arg0)) (m ((c.tc : Thread nD τ).loc main_arg1)) := cast_eq_iff_heq.mpr HEq.rfl
  refine (final m c 94 (by decide)).trans ?_
  show (TRef.unary (TRef.of (T := ⟨S8192x1, .f32⟩) main_call2_v8) (TRef.of (T := ⟨S8192x1, .f32⟩) main_call2_v9) (Host.log (F := Ideal)) : HloOp τ sig (Elt Ideal)).result (U m 94 c) (Proc.devRef .tc main_call2_v9) = _
  rw [unary_result]
  dsimp only
  rw [h0, e0]
  unfold val_main_call2_v9
  exact cast_eq_iff_heq.mpr HEq.rfl

theorem after_call2_v10 (c : Dev nD) : Wf m c (Proc.devRef .tc main_call2_v10) = val_main_call2_v10 (F := Ideal) (m ((c.tc : Thread nD τ).loc main_arg0)) (m ((c.tc : Thread nD τ).loc main_arg1)) := by
  have h0 : U m 95 c (Proc.devRef .tc main_call2_v9) = val_main_call2_v9 (F := Ideal) (m ((c.tc : Thread nD τ).loc main_arg0)) (m ((c.tc : Thread nD τ).loc main_arg1)) := (U_eq_final m c 94 95 (by decide) (by decide)).trans (after_call2_v9 m c)
  have e0 : (TRef.of (sig := sig) (T := ⟨S8192x1, .f32⟩) main_call2_v9).ofBuf (Val := Elt Ideal) (val_main_call2_v9 (F := Ideal) (m ((c.tc : Thread nD τ).loc main_arg0)) (m ((c.tc : Thread nD τ).loc main_arg1))) = val_main_call2_v9 (F := Ideal) (m ((c.tc : Thread nD τ).loc main_arg0)) (m ((c.tc : Thread nD τ).loc main_arg1)) := cast_eq_iff_heq.mpr HEq.rfl
  refine (final m c 95 (by decide)).trans ?_
  show (TRef.unary (TRef.of (T := ⟨S8192x1, .f32⟩) main_call2_v9) (TRef.of (T := ⟨S8192x8192, .f32⟩) main_call2_v10) (broadcastInDim S8192x8192 ![0, 1] bcast_S8192x1_S8192x8192_0_1) : HloOp τ sig (Elt Ideal)).result (U m 95 c) (Proc.devRef .tc main_call2_v10) = _
  rw [unary_result]
  dsimp only
  rw [h0, e0]
  unfold val_main_call2_v10
  exact cast_eq_iff_heq.mpr HEq.rfl

theorem after_v33 (c : Dev nD) : Wf m c (Proc.devRef .tc main_v33) = val_main_v33 (F := Ideal) (m ((c.tc : Thread nD τ).loc main_arg0)) (m ((c.tc : Thread nD τ).loc main_arg1)) := by
  have h0 : U m 96 c (Proc.devRef .tc main_call2_v5) = val_main_call2_v5 (F := Ideal) (m ((c.tc : Thread nD τ).loc main_arg0)) (m ((c.tc : Thread nD τ).loc main_arg1)) := (U_eq_final m c 89 96 (by decide) (by decide)).trans (after_call2_v5 m c)
  have h1 : U m 96 c (Proc.devRef .tc main_call2_v10) = val_main_call2_v10 (F := Ideal) (m ((c.tc : Thread nD τ).loc main_arg0)) (m ((c.tc : Thread nD τ).loc main_arg1)) := (U_eq_final m c 95 96 (by decide) (by decide)).trans (after_call2_v10 m c)
  have e0 : (TRef.of (sig := sig) (T := ⟨S8192x8192, .f32⟩) main_call2_v5).ofBuf (Val := Elt Ideal) (val_main_call2_v5 (F := Ideal) (m ((c.tc : Thread nD τ).loc main_arg0)) (m ((c.tc : Thread nD τ).loc main_arg1))) = val_main_call2_v5 (F := Ideal) (m ((c.tc : Thread nD τ).loc main_arg0)) (m ((c.tc : Thread nD τ).loc main_arg1)) := cast_eq_iff_heq.mpr HEq.rfl
  have e1 : (TRef.of (sig := sig) (T := ⟨S8192x8192, .f32⟩) main_call2_v10).ofBuf (Val := Elt Ideal) (val_main_call2_v10 (F := Ideal) (m ((c.tc : Thread nD τ).loc main_arg0)) (m ((c.tc : Thread nD τ).loc main_arg1))) = val_main_call2_v10 (F := Ideal) (m ((c.tc : Thread nD τ).loc main_arg0)) (m ((c.tc : Thread nD τ).loc main_arg1)) := cast_eq_iff_heq.mpr HEq.rfl
  refine (final m c 96 (by decide)).trans ?_
  show (TRef.binary (TRef.of (T := ⟨S8192x8192, .f32⟩) main_call2_v5) (TRef.of (T := ⟨S8192x8192, .f32⟩) main_call2_v10) (TRef.of (T := ⟨S8192x8192, .f32⟩) main_v33) (subf (F := Ideal)) : HloOp τ sig (Elt Ideal)).result (U m 96 c) (Proc.devRef .tc main_v33) = _
  rw [binary_result]
  dsimp only
  rw [h0, h1, e0, e1]
  unfold val_main_v33
  exact cast_eq_iff_heq.mpr HEq.rfl

theorem after_v34 (c : Dev nD) : Wf m c (Proc.devRef .tc main_v34) = val_main_v34 (F := Ideal) (m ((c.tc : Thread nD τ).loc main_arg0)) (m ((c.tc : Thread nD τ).loc main_arg1)) := by
  have h0 : U m 97 c (Proc.devRef .tc main_v33) = val_main_v33 (F := Ideal) (m ((c.tc : Thread nD τ).loc main_arg0)) (m ((c.tc : Thread nD τ).loc main_arg1)) := (U_eq_final m c 96 97 (by decide) (by decide)).trans (after_v33 m c)
  refine (final m c 97 (by decide)).trans ?_
  show (unary main_v33 main_v34 ((extractStridedSlice S8192x1 ![0, 0] · slices_S8192x8192_S8192x1_0_0) : (⟨S8192x8192, .f32⟩ : BufTy).Contents (Elt Ideal) → (⟨S8192x1, .f32⟩ : BufTy).Contents (Elt Ideal)) : HloOp τ sig (Elt Ideal)).result (U m 97 c) (Proc.devRef .tc main_v34) = _
  rw [unary_result]
  rw [h0]
  rfl

theorem after_v35 (c : Dev nD) : Wf m c (Proc.devRef .tc main_v35) = val_main_v35 (F := Ideal) (m ((c.tc : Thread nD τ).loc main_arg0)) (m ((c.tc : Thread nD τ).loc main_arg1)) := by
  have h0 : U m 98 c (Proc.devRef .tc main_v34) = val_main_v34 (F := Ideal) (m ((c.tc : Thread nD τ).loc main_arg0)) (m ((c.tc : Thread nD τ).loc main_arg1)) := (U_eq_final m c 97 98 (by decide) (by decide)).trans (after_v34 m c)
  refine (final m c 98 (by decide)).trans ?_
  show (reshape main_v34 main_v35 rfl shapeCasts_S8192x1_S8192 : HloOp τ sig (Elt Ideal)).result (U m 98 c) (Proc.devRef .tc main_v35) = _
  rw [reshape_result]
  rw [h0]
  rfl

theorem after_v36 (c : Dev nD) : Wf m c (Proc.devRef .tc main_v36) = val_main_v36 (F := Ideal) (m ((c.tc : Thread nD τ).loc main_arg0)) (m ((c.tc : Thread nD τ).loc main_arg1)) := by
  have h0 : U m 99 c (Proc.devRef .tc main_v35) = val_main_v35 (F := Ideal) (m ((c.tc : Thread nD τ).loc main_arg0)) (m ((c.tc : Thread nD τ).loc main_arg1)) := (U_eq_final m c 98 99 (by decide) (by decide)).trans (after_v35 m c)
  refine (final m c 99 (by decide)).trans ?_
  show (unary main_v35 main_v36 (Host.negf (F := Ideal) : (⟨S8192, .f32⟩ : BufTy).Contents (Elt Ideal) → (⟨S8192, .f32⟩ : BufTy).Contents (Elt Ideal)) : HloOp τ sig (Elt Ideal)).result (U m 99 c) (Proc.devRef .tc main_v36) = _
  rw [unary_result]
  rw [h0]
  rfl

theorem after_cst_4 (c : Dev nD) : Wf m c (Proc.devRef .tc main_cst_4) = val_main_cst_4 (F := Ideal) := by
  refine (final m c 100 (by decide)).trans ?_
  show (nullary main_cst_4 (constant (F := Ideal) S_ .f32 0x00000000#32) : HloOp τ sig (Elt Ideal)).result (U m 100 c) (Proc.devRef .tc main_cst_4) = _
  rw [nullary_result]
  rfl

theorem after_v37 (c : Dev nD) : Wf m c (Proc.devRef .tc main_v37) = val_main_v37 (F := Ideal) (m ((c.tc : Thread nD τ).loc main_arg0)) (m ((c.tc : Thread nD τ).loc main_arg1)) := by
  have h0 : U m 101 c (Proc.devRef .tc main_v36) = val_main_v36 (F := Ideal) (m ((c.tc : Thread nD τ).loc main_arg0)) (m ((c.tc : Thread nD τ).loc main_arg1)) := (U_eq_final m c 99 101 (by decide) (by decide)).trans (after_v36 m c)
  have h1 : U m 101 c (Proc.devRef .tc main_cst_4) = val_main_cst_4 (F := Ideal) := (U_eq_final m c 100 101 (by decide) (by decide)).trans (after_cst_4 m c)
  refine (final m c 101 (by decide)).trans ?_
  show (binary main_v36 main_cst_4 main_v37 ((fun x v => Host.reduceAdd (F := Ideal) x v reducesTo_S8192_S_d0 h_S_) : (⟨S8192, .f32⟩ : BufTy).Contents (Elt Ideal) → (⟨S_, .f32⟩ : BufTy).Contents (Elt Ideal) → (⟨S_, .f32⟩ : BufTy).Contents (Elt Ideal)) : HloOp τ sig (Elt Ideal)).result (U m 101 c) (Proc.devRef .tc main_v37) = _
  rw [binary_result]
  rw [h0, h1]
  rfl

theorem after_cst_5 (c : Dev nD) : Wf m c (Proc.devRef .tc main_cst_5) = val_main_cst_5 (F := Ideal) := by
  refine (final m c 102 (by decide)).trans ?_
  show (nullary main_cst_5 (constant (F := Ideal) S_ .f32 0x46000000#32) : HloOp τ sig (Elt Ideal)).result (U m 102 c) (Proc.devRef .tc main_cst_5) = _
  rw [nullary_result]
  rfl

theorem after_v38 (c : Dev nD) : Wf m c (Proc.devRef .tc main_v38) = val_main_v38 (F := Ideal) (m ((c.tc : Thread nD τ).loc main_arg0)) (m ((c.tc : Thread nD τ).loc main_arg1)) := by
  have h0 : U m 103 c (Proc.devRef .tc main_v37) = val_main_v37 (F := Ideal) (m ((c.tc : Thread nD τ).loc main_arg0)) (m ((c.tc : Thread nD τ).loc main_arg1)) := (U_eq_final m c 101 103 (by decide) (by decide)).trans (after_v37 m c)
  have h1 : U m 103 c (Proc.devRef .tc main_cst_5) = val_main_cst_5 (F := Ideal) := (U_eq_final m c 102 103 (by decide) (by decide)).trans (after_cst_5 m c)
  refine (final m c 103 (by decide)).trans ?_
  show (binary main_v37 main_cst_5 main_v38 (Host.divf (F := Ideal) : (⟨S_, .f32⟩ : BufTy).Contents (Elt Ideal) → (⟨S_, .f32⟩ : BufTy).Contents (Elt Ideal) → (⟨S_, .f32⟩ : BufTy).Contents (Elt Ideal)) : HloOp τ sig (Elt Ideal)).result (U m 103 c) (Proc.devRef .tc main_v38) = _
  rw [binary_result]
  rw [h0, h1]
  rfl

/-! ## The result and the arguments after all the operations -/

/-- The result buffer ends at the reference's last stage of the two inputs. -/
theorem after_v38' (c : Dev nD) :
    StableHlo.after (ops (F := Ideal)) (StableHlo.launchContents m c) (Proc.devRef .tc main_v38)
      = val_main_v38 (F := Ideal) (m ((c.tc : Thread nD τ).loc main_arg0)) (m ((c.tc : Thread nD τ).loc main_arg1)) := after_v38 m c

/-- No operation writes the first argument. -/
theorem after_arg0 (c : Dev nD) :
    StableHlo.after (ops (F := Ideal)) (StableHlo.launchContents m c) (Proc.devRef .tc main_arg0) = m ((c.tc : Thread nD τ).loc main_arg0) := by
  have h := U_arg m c main_arg0 (by decide) 104 (by decide)
  rw [U_all] at h
  exact h

/-- No operation writes the second argument. -/
theorem after_arg1 (c : Dev nD) :
    StableHlo.after (ops (F := Ideal)) (StableHlo.launchContents m c) (Proc.devRef .tc main_arg1) = m ((c.tc : Thread nD τ).loc main_arg1) := by
  have h := U_arg m c main_arg1 (by decide) 104 (by decide)
  rw [U_all] at h
  exact h

/-- Every weakly fair execution of the reference terminates with its result at the last stage of the two inputs and the
    inputs unchanged. -/
theorem run (ρ : Dev nD → PrngReg) :
    θ_run Cert.ReferenceIdeal.defs (onTc (τ := τ) (main (F := Ideal))) ⟨m, fun _ => 0, ρ⟩ (fun r => ∀ c : Dev nD,
      r.2.mem ((c.tc : Thread nD τ).loc main_v38) = val_main_v38 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.ReferenceIdeal.defs _ _).mono (fun _ h c => ⟨(h c main_v38).trans (after_v38' m c),
      (h c main_arg0).trans (after_arg0 m c), (h c main_arg1).trans (after_arg1 m c)⟩) (run_after (F := Ideal) m ρ)

end Cert.ReferenceIdeal.HandRun

end
-- ==== Proof.KBKit.lean ====
/-
  The launch side of the region, for any float instance: what the core's buffers hold when the region is entered (the host
  operations before it applied to the launch memory), @main as those operations, the region, and the four operations after
  it; each input window's block at a grid point read off its array as the region finds it; and that an input window's
  current staging buffer holds that block at every point, fetched there or kept from the point before.
-/
import proofs.«164084_j41266045780374_2_alg».proof.Proof.Gen.Kernel.Launch
import proofs.«164084_j41266045780374_2_alg».proof.Proof.Gen.Kernel.Skeleton
import proofs.«164084_j41266045780374_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the 32 host operations before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the four operations after it: it reduces to the region
    continued by those four. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The positive logits' window: its current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The query rows' window: likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The resident key matrix's window, fetched at the first point only and kept since: likewise. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0_0 (t : Fin cfg0.N) : Memref sig .tc .vmem S1024x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The row accumulator: a whole scoped buffer of the kernel's own. -/
abbrev scM0_0 : Memref sig .tc .vmem S1024x1 .f32 := Memref.whole cc0_scratch0

/-- What the region's invariant holds between points: the row accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KBLoop.lean ====
/-
  The body's counted loop over the eight blocks of 1024 key rows, by its invariant, for any float instance.
  One trip loads the trip's key block, the query block and the row accumulator, and stores the accumulator back whole at
  the trip's value: the old accumulator plus, row by row, the masked exponentials of that block's 1024 logits. So before
  trip `k` the accumulator holds the `k` trips' stores, last first, written over what it held when the loop was entered.
-/
import proofs.«164084_j41266045780374_2_alg».proof.Proof.Gen.Kernel.Skeleton
import Idealize.ShloMosaic.Lib.Exec
import Idealize.ShloMosaic.Lib.Tactic
import Idealize.ShloMosaic.Lib.Pipeline.Kit

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The whole rectangle of the row accumulator, of the positive logits' block and of the output block. -/
abbrev rCol : Rect S1024x1 := Rect.unit (s := S1024x1) ![0, 0] S1024x1.size inb_S1024x1_S1024x1_0_0
/-- The whole rectangle of the query block. -/
abbrev rQ : Rect S1024x128 := Rect.unit (s := S1024x128) ![0, 0] S1024x128.size inb_S1024x128_S1024x128_0_0
/-- Trip `k`'s block of 1024 key rows inside the resident key matrix. -/
abbrev rK (k : Fin k0_t1_loop.trips) : Rect S8192x128 := Rect.unit (s := S8192x128) (k0_off1 k) S1024x128.size (k0_off1_inb k)

/-- The class of the loop's invariants at the run's algebra. -/
abbrev LoopTy (𝒱 : Variants) (c : Dev nD) (bd : Option 𝒱.V) (E : Set ℕ) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) :=
  Idealize.ShloMosaic.LoopInv (M := 𝕄G) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5)

/-- One trip's resources: the query block and the key matrix at their contents, the accumulator at `f`. -/
abbrev Trip (c : Dev nD) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (f_arg5 : BufTy.Contents (Elt F) arg5.view.ty) : sProp 𝕄G :=
  iprop((arg2.view.loc (c : Thread nD τ) ↦[arg2.view.set]{fullShare} X_arg2) ∗ (arg3.view.loc (c : Thread nD τ) ↦[arg3.view.set]{fullShare} X_arg3) ∗ (arg5.view.loc (c : Thread nD τ) ↦[arg5.view.set]{fullShare} f_arg5))

/-- Trip `k`'s one store: the accumulator whole, at the trip's value of the key block, the query block and the accumulator found. -/
def tripPiece (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (k : Fin k0_t1_loop.trips) (f_arg5 : BufTy.Contents (Elt F) arg5.view.ty) : List (View.Piece (Elt F) S1024x1 .f32) :=
  [⟨rCol, k0_pay2 i k (View.readAt (Elt F) arg3.view (rK k).toLoadRect X_arg3) (View.readAt (Elt F) arg2.view rQ.toLoadRect X_arg2) (View.readAt (Elt F) arg5.view rCol.toLoadRect f_arg5)⟩]

/-- One trip at a symbolic `k`. -/
theorem trip_sound (𝒱 : Variants) (c : Dev nD) (bd : Option 𝒱.V) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (X_arg2 : BufTy.Contents (Elt F) arg2.view.ty) (X_arg3 : BufTy.Contents (Elt F) arg3.view.ty) (k : Fin k0_t1_loop.trips) (E : Set ℕ) (f_arg5 : BufTy.Contents (Elt F) arg5.view.ty) :
    Trip (F := F) c arg2 arg3 arg5 X_arg2 X_arg3 f_arg5
      ⊢ wp frame (wpE (defs₀ (F := F)) 𝒱 (c : Thread nD τ) bd) E (k0_t1_body (F := F) i arg1 harg1 arg2 harg2 arg3 harg3 arg4 harg4 arg5 harg5 k PUnit.unit)
          (fun _ => Trip (F := F) c arg2 arg3 arg5 X_arg2 X_arg3 (arg5.view.writes (Elt F) f_arg5 (tripPiece i arg2 arg3 arg5 X_arg2 X_arg3 k f_arg5))) := by
  have hk : k.val < 8 := Nat.lt_of_lt_of_le k.isLt k0_t1_abs.2.1
  unfold k0_t1_body tripPiece
  iintro ⟨HR_arg2, HR_arg3, HW_arg5⟩
  sl_exec
  sl_step
  isplitl [HR_arg2]; · iexact HR_arg2
  isplitl [HR_arg3]; · iexact HR_arg3
  iexact HW_arg5

/-- The stores of the trips before `k`, last first, each taken at what the earlier ones left, from contents `G` at loop entry. -/
def pbE (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (G_arg5 : BufTy.Contents (Elt F) arg5.view.ty) : ℕ → List (View.Piece (Elt F) S1024x1 .f32)
  | 0 => []
  | k + 1 =>
    if h : k < k0_t1_loop.trips then
      tripPiece i arg2 arg3 arg5 X_arg2 X_arg3 ⟨k, h⟩ (arg5.view.writes (Elt F) G_arg5 (pbE i arg2 arg3 arg5 X_arg2 X_arg3 G_arg5 k)) ++ pbE i arg2 arg3 arg5 X_arg2 X_arg3 G_arg5 k
    else pbE i arg2 arg3 arg5 X_arg2 X_arg3 G_arg5 k

theorem pbE_succ (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (G_arg5 : BufTy.Contents (Elt F) arg5.view.ty) (k : Fin k0_t1_loop.trips) :
    pbE (F := F) i arg2 arg3 arg5 X_arg2 X_arg3 G_arg5 (k.val + 1)
      = tripPiece i arg2 arg3 arg5 X_arg2 X_arg3 k (arg5.view.writes (Elt F) G_arg5 (pbE i arg2 arg3 arg5 X_arg2 X_arg3 G_arg5 k.val)) ++ pbE i arg2 arg3 arg5 X_arg2 X_arg3 G_arg5 k.val := by
  rw [pbE.eq_2]; exact dif_pos k.isLt

/-- The invariant before trip `k`. -/
abbrev invE (c : Dev nD) (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (G_arg5 : BufTy.Contents (Elt F) arg5.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (pbE (F := F) i arg2 arg3 arg5 X_arg2 X_arg3 G_arg5 k)⌝))

set_option warn.classDefReducibility false in
/-- The loop by its invariant. -/
@[sl_loop] def loopInvE (𝒱 : Variants) (c : Dev nD) (bd : Option 𝒱.V) (E : Set ℕ) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (X_arg2 : BufTy.Contents (Elt F) arg2.view.ty) (X_arg3 : BufTy.Contents (Elt F) arg3.view.ty) (G_arg5 : BufTy.Contents (Elt F) arg5.view.ty) :
    LoopTy (F := F) 𝒱 c bd E i arg1 harg1 arg2 harg2 arg3 harg3 arg4 harg4 arg5 harg5 where
  inv := invE (F := F) c i arg2 arg3 arg5 X_arg2 X_arg3 G_arg5
  step k acc := by
    iintro ⟨HR_arg2, HR_arg3, ⟨%f_arg5, HW_arg5, %h_arg5⟩⟩
    iapply (wp_wand_r Idealize.ShloMosaic.frame (wpE (defs₀ (F := F)) 𝒱 (c : Thread nD τ) bd) E)
    isplitl [HR_arg2 HR_arg3 HW_arg5]
    · iapply (trip_sound (F := F) 𝒱 c bd i arg1 harg1 arg2 harg2 arg3 harg3 arg4 harg4 arg5 harg5 X_arg2 X_arg3 k E f_arg5)
      isplitl [HR_arg2]; · iexact HR_arg2
      isplitl [HR_arg3]; · iexact HR_arg3
      iexact HW_arg5
    · iintro %_ ⟨HR_arg2, HR_arg3, HW_arg5⟩
      isplitl [HR_arg2]; · iexact HR_arg2
      isplitl [HR_arg3]; · iexact HR_arg3
      rw [pbE_succ]
      iexists _; isplitl [HW_arg5]; · iexact HW_arg5
      ipureintro; rw [h_arg5, ← View.writes_append]

end Cert.Kernel.Hand

end
-- ==== Proof.KBRun.lean ====
/-
  The kernel body on any whole staging memrefs, for any float instance: from the positive logits' block, the query block
  and the key matrix at their contents, the output block and the row accumulator at anything, the body runs and leaves the
  three inputs as they were, the output block stored whole at the final value (minus the positive logit, plus the logarithm
  of the accumulated sum and the positive logit's exponential), and the accumulator at the eight trips' stores.
-/
import proofs.«164084_j41266045780374_2_alg».proof.Proof.KBKit
import proofs.«164084_j41266045780374_2_alg».proof.Proof.KBLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output block (`L3`) and in the row accumulator (`LS0`), as pieces, last first, with
    the proof that the body runs to the continuation holding them written. -/
noncomputable def kernelRun0 (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1024x128 .bf16) (x2 : Vec F S8192x128 .bf16) :
    Σ' (L3 : List (View.Piece (Elt F) S1024x1 .f32)), { LS0 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0_ntxent_kernel i arg1 harg1 arg2 harg2 arg3 harg3 arg4 harg4 arg5 harg5) K } := by
  refine ⟨?_, ?_, fun E K => ?run⟩
  case run =>
    simp only [cc0_ntxent_kernel_eq_skeleton]; unfold cc0_ntxent_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.Kernel.Hand

end
-- ==== Proof.KBDat.lean ====
/-
  The region's proof data, for any float instance. The windows' arrays are as the region finds them; after the body at a
  grid point each input's staging buffer still holds its block, and the output's holds the point's 1024 row losses as the
  body's run leaves them; between points the region keeps only the row accumulator (at anything: every point clears it)
  and the generator register. The normalised matrix is handed to the kernel twice — 1024 query rows at a time, and whole as
  the keys — so those two input windows each hold half of that one array's share.
-/
import proofs.«164084_j41266045780374_2_alg».proof.Proof.KBRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- One staging buffer of the output window, through which its contents are stated. -/
abbrev VO0_3 : View sig .tc .vmem S1024x1 .f32 := (Memref.whole cc0_stg3_0 : Memref sig .tc .vmem S1024x1 .f32).view

/-- The body's one store into the output block covers it. -/
theorem cover0_3 (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (x0 : Vec F S1024x1 .f32) (x1 : Vec F S1024x128 .bf16) (x2 : Vec F S8192x128 .bf16) (y : S1024x1.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S1024x1.size (by sl_kernel_rfl) y

/-- What the body leaves in the output block: its store read back. -/
def out0_3 (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (x0 : Vec F S1024x1 .f32) (x1 : Vec F S1024x128 .bf16) (x2 : Vec F S8192x128 .bf16) : Vec F S1024x1 .f32 :=
  VO0_3.read (Elt F) (VO0_3.writes (Elt F) VO0_3.junk (kernelRun0 c i arg1 harg1 arg2 harg2 arg3 harg3 arg4 harg4 arg5 harg5 x0 x1 x2).1)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  unfold out0_3
  iintro ⟨⟨HS0, Hg⟩, Ho, ⟨%d0, H0⟩, ⟨%d1, H1⟩, ⟨%d2, H2⟩, ⟨%d3, H3⟩⟩
  iapply ((kernelRun0 c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

end Cert.Kernel.Hand

end
-- ==== Proof.KBLaunch.lean ====
/-
  The launch of the region, for any float instance. The kernel is handed one array twice (the normalised matrix: as query
  blocks and, whole, as keys), so the launch splits that array's points-to in two halves, one per window, and after the
  last grid point puts the halves together again; the four host operations after the region then run on the core's
  unscoped buffers as the region leaves them: the output array at its final contents, every other buffer as it was found.
-/
import proofs.«164084_j41266045780374_2_alg».proof.Proof.KBDat

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three buffers behind the four windows -/

theorem arrRefs_eq : (Finset.univ.image (Pipeline.arrRef spec0) : Finset (Ref sig .tc)) = [main_v25, main_v19, main_v26].toFinset := by decide

theorem arrBufs_eq (c : Dev nD) (W : (b : Ref sig .tc) → Buf (Elt F) ((c : Thread nD τ).loc b)) :
    (Pipeline.arrBufs spec0 c W : sProp 𝕄)
      = iprop((((c : Thread nD τ).loc main_v25) ↦{fullShare} W main_v25) ∗ (((c : Thread nD τ).loc main_v19) ↦{fullShare} W main_v19) ∗ (((c : Thread nD τ).loc main_v26) ↦{fullShare} W main_v26)) := by
  unfold Pipeline.arrBufs
  rw [Idealize.SL.BI.bigSep_eq_bigSepL_of_eq [main_v25, main_v19, main_v26] arrRefs_eq (by decide)]
  rfl

/-- The proof data's arrays, window by window: the two windows on the normalised matrix hold a half each. -/
theorem arrays_eq4 (c : Dev nD) (G : (w : Fin cfg0.W) → Buf (Elt F) ((cfg0.win w).arr.view.loc (c.tc : Thread nD τ))) :
    ((dats m 0 c).arrays G : sProp 𝕄)
      = iprop((((c : Thread nD τ).loc main_v25) ↦{fullShare} G 0) ∗ (((c : Thread nD τ).loc main_v19) ↦{fullShare.left} G 1)
          ∗ (((c : Thread nD τ).loc main_v19) ↦{fullShare.right} G 2) ∗ (((c : Thread nD τ).loc main_v26) ↦{fullShare} G 3)) := by
  unfold Dat.arrays
  rw [bigSep_W0, (arr_whole0 0).set_eq_univ, (arr_whole0 1).set_eq_univ, (arr_whole0 3).set_eq_univ]
  rfl

/-- ENTRY: the three buffers at the region-entry contents make the four windows' arrays. -/
theorem hsplit (c : Dev nD) : (Pipeline.arrBufs spec0 c (V m c) : sProp 𝕄) ⊢ (dats m 0 c).arrays ((dats m 0 c).arrAt · 0) := by
  rw [arrBufs_eq, arrays_eq4]
  iintro ⟨H25, H19, H26⟩
  icases (pointsTo_share (PosShare.mem_left_op_right fullShare)).1 $$ H19 with ⟨HL, HR⟩
  isplitl [H25]; · iexact H25
  isplitl [HL]; · iexact HL
  isplitl [HR]; · iexact HR
  iexact H26

/-! ## After the region -/

/-- The core's buffers as the region leaves them: the output array at its final contents, every other buffer as found. -/
def Wexit (c : Dev nD) : Valuation τ sig (Elt F) :=
  Function.update (V0 m c) (Proc.devRef .tc main_v26) ((dats m 0 c).arrAt 3 cfg0.N)

/-- and after the four host operations that follow the region. -/
def Wend (c : Dev nD) : Valuation τ sig (Elt F) := StableHlo.after (List.flatten [hostOps1]) (Wexit m c)

theorem Wexit_out (c : Dev nD) : Wexit m c (Proc.devRef .tc main_v26) = (dats m 0 c).arrAt 3 cfg0.N := by
  unfold Wexit; exact Function.update_self _ _ _

theorem Wexit_of_ne (c : Dev nD) (b : Ref sig .tc) (hb : b ≠ main_v26) : Wexit m c (Proc.devRef .tc b) = V m c b := by
  unfold Wexit
  exact Function.update_of_ne (fun h => hb (Proc.devRef_injective _ h)) _ _

/-- The four operations write none of the three buffers behind the windows, nor an argument. -/
theorem Wend_v25 (c : Dev nD) : Wend m c (Proc.devRef .tc main_v25) = Wexit m c (Proc.devRef .tc main_v25) :=
  StableHlo.after_of_forall_not_mem (b := Proc.devRef .tc main_v25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_v19 (c : Dev nD) : Wend m c (Proc.devRef .tc main_v19) = Wexit m c (Proc.devRef .tc main_v19) :=
  StableHlo.after_of_forall_not_mem (b := Proc.devRef .tc main_v19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_v26 (c : Dev nD) : Wend m c (Proc.devRef .tc main_v26) = Wexit m c (Proc.devRef .tc main_v26) :=
  StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_arg0 (c : Dev nD) : Wend m c (Proc.devRef .tc main_arg0) = Wexit m c (Proc.devRef .tc main_arg0) :=
  StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_arg1 (c : Dev nD) : Wend m c (Proc.devRef .tc main_arg1) = Wexit m c (Proc.devRef .tc main_arg1) :=
  StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No host operation before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The three input windows' arrays end as they were found. -/
theorem arrAt0 (c : Dev nD) : (dats m 0 c).arrAt 0 cfg0.N = V m c main_v25 := ((dats m 0 c).arrAt_in 0 rfl _).trans (A_eq m c 0)
theorem arrAt1 (c : Dev nD) : (dats m 0 c).arrAt 1 cfg0.N = V m c main_v19 := ((dats m 0 c).arrAt_in 1 rfl _).trans (A_eq m c 1)
theorem arrAt2 (c : Dev nD) : (dats m 0 c).arrAt 2 cfg0.N = V m c main_v19 := ((dats m 0 c).arrAt_in 2 rfl _).trans (A_eq m c 2)

/-- Off the windows' arrays the exit contents are the entry contents. -/
theorem rest_exit (c : Dev nD) :
    (Pipeline.unscopedRest spec0 c (fun b => Wexit m c (Proc.devRef .tc b)) : sProp 𝕄) = Pipeline.unscopedRest spec0 c (V m c) := by
  unfold Pipeline.unscopedRest
  exact bigSep_congr fun b hb => by
    beta_reduce
    rw [Wexit_of_ne m c b fun h => (Finset.mem_sdiff.mp hb).2 (Finset.mem_image.mpr ⟨3, Finset.mem_univ _, h.symm⟩)]

/-- EXIT, inward: the windows' arrays at their final contents and the bypassing buffers are the core's unscoped buffers at
    the exit contents — the two halves of the normalised matrix put together again. -/
theorem exit_in (c : Dev nD) :
    iprop((dats m 0 c).arrays ((dats m 0 c).arrAt · cfg0.N) ∗ Pipeline.unscopedRestP Pipeline.Prefetch.none spec0 c (V m c))
      ⊢ (StableHlo.held (c.tc : Thread nD τ) (Pipeline.ucRefs τ sig) (Wexit m c) : sProp 𝕄) := by
  rw [← Pipeline.unscopedBufs_held, Pipeline.unscopedBufs_split₀ cfgs 0 winFacts₀0.arr_unscoped c, arrBufs_eq, arrays_eq4,
    arrAt0, arrAt1, arrAt2, Pipeline.unscopedRestP_none, rest_exit, Wexit_of_ne m c main_v25 (by decide), Wexit_of_ne m c main_v19 (by decide), Wexit_out]
  iintro ⟨⟨H25, HL, HR, H26⟩, HZ⟩
  isplitr [HZ]
  · isplitl [H25]; · iexact H25
    isplitl [HL HR]
    · iapply (pointsTo_share (PosShare.mem_left_op_right fullShare)).2
      isplitl [HL]; · iexact HL
      iexact HR
    iexact H26
  iexact HZ

/-- EXIT, outward: after the four operations the unscoped buffers give the windows' arrays back, unchanged, and the rest. -/
theorem exit_out (c : Dev nD) :
    (StableHlo.held (c.tc : Thread nD τ) (Pipeline.ucRefs τ sig) (Wend m c) : sProp 𝕄)
      ⊢ iprop((dats m 0 c).arrays ((dats m 0 c).arrAt · cfg0.N) ∗ Pipeline.unscopedRestP Pipeline.Prefetch.none spec0 c (fun b => Wend m c (Proc.devRef .tc b))) := by
  rw [← Pipeline.unscopedBufs_held, Pipeline.unscopedBufs_split₀ cfgs 0 winFacts₀0.arr_unscoped c, arrBufs_eq, arrays_eq4,
    arrAt0, arrAt1, arrAt2, Pipeline.unscopedRestP_none, Wend_v25, Wend_v19, Wend_v26, Wexit_of_ne m c main_v25 (by decide), Wexit_of_ne m c main_v19 (by decide), Wexit_out]
  iintro ⟨⟨H25, H19, H26⟩, HZ⟩
  icases (pointsTo_share (PosShare.mem_left_op_right fullShare)).1 $$ H19 with ⟨HL, HR⟩
  isplitr [HZ]
  · isplitl [H25]; · iexact H25
    isplitl [HL]; · iexact HL
    isplitl [HR]; · iexact HR
    iexact H26
  iexact HZ

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- THE LINES AFTER THE REGION: from the region's exit the four host operations run on the core's unscoped buffers and hand
    back the windows' arrays and the bypassing buffers at what the operations leave. -/
theorem htail (c : Dev nD) (Q' : PUnit → sProp 𝕄) :
    iprop((iprop((dats m 0 c).arrays ((dats m 0 c).arrAt · cfg0.N) ∗ Pipeline.unscopedRestP Pipeline.Prefetch.none spec0 c (fun b => Wend m c (Proc.devRef .tc b))) -∗ Q' ⟨⟩)
        ∗ boundary (c.tc : Thread nD τ) ∗ (dats m 0 c).arrays ((dats m 0 c).arrAt · cfg0.N) ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [show ([StableHlo.seq hostOps1] : List (Prog _ PUnit)) = ([hostOps1] : List (List (HloOp τ sig (Elt F)))).map StableHlo.seq ++ [] from rfl]
  iintro ⟨Hk, Hb, HA, HZ⟩
  iapply (Pipeline.wp_seqs_then (fun q => (cfgs q).toPCfg (Val := Elt F)) defs₀ Variants.none c (Pipeline.ucRefs τ sig) [] [hostOps1] sfx_sub sfx_fresh (Wexit m c)) $$ [Hb HA HZ]
  · isplitl [Hb]; · iexact Hb
    iapply (exit_in m c)
    isplitl [HA]; · iexact HA
    iexact HZ
  iintro ⟨Hb, HH⟩
  rw [Pipeline.chain_nil, wp_pure]
  imodintro
  iapply Hk
  iapply (exit_out m c)
  iexact HH

end Cert.Kernel.Hand

end
-- ==== Proof.KBMain.lean ====
/-
  The run of the whole program, for any float instance: every weakly fair execution terminates without a fault, and at the
  end every buffer that bypasses the region — the arguments and the result among them — holds what the four host operations
  after the region leave, computed from the output array's final contents. In particular both arguments end unchanged.
-/
import proofs.«164084_j41266045780374_2_alg».proof.Proof.KBLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (fun r => ∀ c : Dev nD,
      ∀ b ∈ Pipeline.restRefsP sig Pipeline.Prefetch.none spec0, r.2.mem ((c.tc : Thread nD τ).loc b) = Wend m c (Proc.devRef .tc b)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => (h c).2.2)

/-- What the run's post says of one bypassing buffer. -/
theorem rest_end (r : PUnit × MemSt nD τ sig (Elt F))
    (h : ∀ c : Dev nD, ∀ b ∈ Pipeline.restRefsP sig Pipeline.Prefetch.none spec0, r.2.mem ((c.tc : Thread nD τ).loc b) = Wend m c (Proc.devRef .tc b))
    (c : Dev nD) (b : Ref sig .tc) (hs : b.isScoped = false) (ha : ∀ w, (spec0 w).arr.view.ref ≠ b) :
    r.2.mem ((c.tc : Thread nD τ).loc b) = Wend m c (Proc.devRef .tc b) :=
  Pipeline.rest_of_restP Pipeline.Prefetch.none spec0 (fun k => k.elim0) c (fun b => Wend m c (Proc.devRef .tc b)) r.2
    (fun k => k.elim0) (fun k => k.elim0) (h c) b (Pipeline.mem_restRefs_of b hs ha)

/-- An argument ends as launched: no host operation writes it, before or after the region, and the region stages neither. -/
theorem Wend_arg0_eq (c : Dev nD) : Wend m c (Proc.devRef .tc main_arg0) = m ((c : Thread nD τ).loc main_arg0) :=
  (Wend_arg0 m c).trans ((Wexit_of_ne m c main_arg0 (by decide)).trans (V_main_arg0 m c))
theorem Wend_arg1_eq (c : Dev nD) : Wend m c (Proc.devRef .tc main_arg1) = m ((c : Thread nD τ).loc main_arg1) :=
  (Wend_arg1 m c).trans ((Wexit_of_ne m c main_arg1 (by decide)).trans (V_main_arg1 m c))

/-- THE RUN with the result named: the result buffer at what the four operations after the region compute from the
    output array's final contents, both arguments unchanged. -/
theorem run_value : θ_run defs (onTc (τ := τ) (main (F := F))) ⟨m, fun _ => 0, ρ⟩ (fun r => ∀ c : Dev nD,
      r.2.mem ((c.tc : Thread nD τ).loc main_v28) = Wend m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨rest_end m r h c main_v28 (by decide) (by decide),
     (rest_end m r h c main_arg0 (by decide) (by decide)).trans (Wend_arg0_eq m c),
     (rest_end m r h c main_arg1 (by decide) (by decide)).trans (Wend_arg1_eq m c)⟩) (run_main m ρ)

/-- THE FRAME: the program runs to the end without a fault and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.Kernel.Hand

end
-- ==== Proof.KIKit.lean ====
/-
  The launch side of the region, for any float instance: what the core's buffers hold when the region is entered (the host
  operations before it applied to the launch memory), @main as those operations, the region, and the four operations after
  it; each input window's block at a grid point read off its array as the region finds it; and that an input window's
  current staging buffer holds that block at every point, fetched there or kept from the point before.
-/
import proofs.«164084_j41266045780374_2_alg».proof.Proof.Gen.KernelIdeal.Launch
import proofs.«164084_j41266045780374_2_alg».proof.Proof.Gen.KernelIdeal.Skeleton
import proofs.«164084_j41266045780374_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the 32 host operations before it applied to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the four operations after it: it reduces to the region
    continued by those four. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The positive logits' window: its current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The query rows' window: likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The resident key matrix's window, fetched at the first point only and kept since: likewise. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is called with -/

abbrev ms0_0 (t : Fin cfg0.N) : Memref sig .tc .vmem S1024x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
/-- The row accumulator: a whole scoped buffer of the kernel's own. -/
abbrev scM0_0 : Memref sig .tc .vmem S1024x1 .f32 := Memref.whole cc0_scratch0

/-- What the region's invariant holds between points: the row accumulator at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KILoop.lean ====
/-
  The body's counted loop over the eight blocks of 1024 key rows, by its invariant, for any float instance.
  One trip loads the trip's key block, the query block and the row accumulator, and stores the accumulator back whole at
  the trip's value: the old accumulator plus, row by row, the masked exponentials of that block's 1024 logits. So before
  trip `k` the accumulator holds the `k` trips' stores, last first, written over what it held when the loop was entered.
-/
import proofs.«164084_j41266045780374_2_alg».proof.Proof.Gen.KernelIdeal.Skeleton
import Idealize.ShloMosaic.Lib.Exec
import Idealize.ShloMosaic.Lib.Tactic
import Idealize.ShloMosaic.Lib.Pipeline.Kit

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The whole rectangle of the row accumulator, of the positive logits' block and of the output block. -/
abbrev rCol : Rect S1024x1 := Rect.unit (s := S1024x1) ![0, 0] S1024x1.size inb_S1024x1_S1024x1_0_0
/-- The whole rectangle of the query block. -/
abbrev rQ : Rect S1024x128 := Rect.unit (s := S1024x128) ![0, 0] S1024x128.size inb_S1024x128_S1024x128_0_0
/-- Trip `k`'s block of 1024 key rows inside the resident key matrix. -/
abbrev rK (k : Fin k0_t1_loop.trips) : Rect S8192x128 := Rect.unit (s := S8192x128) (k0_off1 k) S1024x128.size (k0_off1_inb k)

/-- The class of the loop's invariants at the run's algebra. -/
abbrev LoopTy (𝒱 : Variants) (c : Dev nD) (bd : Option 𝒱.V) (E : Set ℕ) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) :=
  Idealize.ShloMosaic.LoopInv (M := 𝕄G) Idealize.ShloMosaic.frame (wpE defs₀ 𝒱 (c : Thread nD τ) bd) E
    k0_t1_loop.lb k0_t1_loop.ub k0_t1_loop.st k0_t1_ok () (k0_t1_body (F := F) i arg1 harg1 arg2 harg2 arg3 harg3 arg4 harg4 arg5 harg5)

/-- One trip's resources: the query block and the key matrix at their contents, the accumulator at `f`. -/
abbrev Trip (c : Dev nD) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (f_arg5 : BufTy.Contents (Elt F) arg5.view.ty) : sProp 𝕄G :=
  iprop((arg2.view.loc (c : Thread nD τ) ↦[arg2.view.set]{fullShare} X_arg2) ∗ (arg3.view.loc (c : Thread nD τ) ↦[arg3.view.set]{fullShare} X_arg3) ∗ (arg5.view.loc (c : Thread nD τ) ↦[arg5.view.set]{fullShare} f_arg5))

/-- Trip `k`'s one store: the accumulator whole, at the trip's value of the key block, the query block and the accumulator found. -/
def tripPiece (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (k : Fin k0_t1_loop.trips) (f_arg5 : BufTy.Contents (Elt F) arg5.view.ty) : List (View.Piece (Elt F) S1024x1 .f32) :=
  [⟨rCol, k0_pay2 i k (View.readAt (Elt F) arg3.view (rK k).toLoadRect X_arg3) (View.readAt (Elt F) arg2.view rQ.toLoadRect X_arg2) (View.readAt (Elt F) arg5.view rCol.toLoadRect f_arg5)⟩]

/-- One trip at a symbolic `k`. -/
theorem trip_sound (𝒱 : Variants) (c : Dev nD) (bd : Option 𝒱.V) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (X_arg2 : BufTy.Contents (Elt F) arg2.view.ty) (X_arg3 : BufTy.Contents (Elt F) arg3.view.ty) (k : Fin k0_t1_loop.trips) (E : Set ℕ) (f_arg5 : BufTy.Contents (Elt F) arg5.view.ty) :
    Trip (F := F) c arg2 arg3 arg5 X_arg2 X_arg3 f_arg5
      ⊢ wp frame (wpE (defs₀ (F := F)) 𝒱 (c : Thread nD τ) bd) E (k0_t1_body (F := F) i arg1 harg1 arg2 harg2 arg3 harg3 arg4 harg4 arg5 harg5 k PUnit.unit)
          (fun _ => Trip (F := F) c arg2 arg3 arg5 X_arg2 X_arg3 (arg5.view.writes (Elt F) f_arg5 (tripPiece i arg2 arg3 arg5 X_arg2 X_arg3 k f_arg5))) := by
  have hk : k.val < 8 := Nat.lt_of_lt_of_le k.isLt k0_t1_abs.2.1
  unfold k0_t1_body tripPiece
  iintro ⟨HR_arg2, HR_arg3, HW_arg5⟩
  sl_exec
  sl_step
  isplitl [HR_arg2]; · iexact HR_arg2
  isplitl [HR_arg3]; · iexact HR_arg3
  iexact HW_arg5

/-- The stores of the trips before `k`, last first, each taken at what the earlier ones left, from contents `G` at loop entry. -/
def pbE (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (G_arg5 : BufTy.Contents (Elt F) arg5.view.ty) : ℕ → List (View.Piece (Elt F) S1024x1 .f32)
  | 0 => []
  | k + 1 =>
    if h : k < k0_t1_loop.trips then
      tripPiece i arg2 arg3 arg5 X_arg2 X_arg3 ⟨k, h⟩ (arg5.view.writes (Elt F) G_arg5 (pbE i arg2 arg3 arg5 X_arg2 X_arg3 G_arg5 k)) ++ pbE i arg2 arg3 arg5 X_arg2 X_arg3 G_arg5 k
    else pbE i arg2 arg3 arg5 X_arg2 X_arg3 G_arg5 k

theorem pbE_succ (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (G_arg5 : BufTy.Contents (Elt F) arg5.view.ty) (k : Fin k0_t1_loop.trips) :
    pbE (F := F) i arg2 arg3 arg5 X_arg2 X_arg3 G_arg5 (k.val + 1)
      = tripPiece i arg2 arg3 arg5 X_arg2 X_arg3 k (arg5.view.writes (Elt F) G_arg5 (pbE i arg2 arg3 arg5 X_arg2 X_arg3 G_arg5 k.val)) ++ pbE i arg2 arg3 arg5 X_arg2 X_arg3 G_arg5 k.val := by
  rw [pbE.eq_2]; exact dif_pos k.isLt

/-- The invariant before trip `k`. -/
abbrev invE (c : Dev nD) (i : grid0.Coords) (arg2 : Memref sig .tc .vmem S1024x128 .bf16) (arg3 : Memref sig .tc .vmem S8192x128 .bf16) (arg5 : Memref sig .tc .vmem S1024x1 .f32) (X_arg2 : BufTy.Contents (Elt F) arg2.view.ty) (X_arg3 : BufTy.Contents (Elt F) arg3.view.ty) (G_arg5 : BufTy.Contents (Elt F) arg5.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (∃ f, (arg5.view.loc (c : Thread nD τ) ↦[arg5.view.set]{fullShare} f) ∗ ⌜f = arg5.view.writes (Elt F) G_arg5 (pbE (F := F) i arg2 arg3 arg5 X_arg2 X_arg3 G_arg5 k)⌝))

set_option warn.classDefReducibility false in
/-- The loop by its invariant. -/
@[sl_loop] def loopInvE (𝒱 : Variants) (c : Dev nD) (bd : Option 𝒱.V) (E : Set ℕ) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (X_arg2 : BufTy.Contents (Elt F) arg2.view.ty) (X_arg3 : BufTy.Contents (Elt F) arg3.view.ty) (G_arg5 : BufTy.Contents (Elt F) arg5.view.ty) :
    LoopTy (F := F) 𝒱 c bd E i arg1 harg1 arg2 harg2 arg3 harg3 arg4 harg4 arg5 harg5 where
  inv := invE (F := F) c i arg2 arg3 arg5 X_arg2 X_arg3 G_arg5
  step k acc := by
    iintro ⟨HR_arg2, HR_arg3, ⟨%f_arg5, HW_arg5, %h_arg5⟩⟩
    iapply (wp_wand_r Idealize.ShloMosaic.frame (wpE (defs₀ (F := F)) 𝒱 (c : Thread nD τ) bd) E)
    isplitl [HR_arg2 HR_arg3 HW_arg5]
    · iapply (trip_sound (F := F) 𝒱 c bd i arg1 harg1 arg2 harg2 arg3 harg3 arg4 harg4 arg5 harg5 X_arg2 X_arg3 k E f_arg5)
      isplitl [HR_arg2]; · iexact HR_arg2
      isplitl [HR_arg3]; · iexact HR_arg3
      iexact HW_arg5
    · iintro %_ ⟨HR_arg2, HR_arg3, HW_arg5⟩
      isplitl [HR_arg2]; · iexact HR_arg2
      isplitl [HR_arg3]; · iexact HR_arg3
      rw [pbE_succ]
      iexists _; isplitl [HW_arg5]; · iexact HW_arg5
      ipureintro; rw [h_arg5, ← View.writes_append]

end Cert.KernelIdeal.Hand

end
-- ==== Proof.KIRun.lean ====
/-
  The kernel body on any whole staging memrefs, for any float instance: from the positive logits' block, the query block
  and the key matrix at their contents, the output block and the row accumulator at anything, the body runs and leaves the
  three inputs as they were, the output block stored whole at the final value (minus the positive logit, plus the logarithm
  of the accumulated sum and the positive logit's exponential), and the accumulator at the eight trips' stores.
-/
import proofs.«164084_j41266045780374_2_alg».proof.Proof.KIKit
import proofs.«164084_j41266045780374_2_alg».proof.Proof.KILoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- What the body's stores leave in the output block (`L3`) and in the row accumulator (`LS0`), as pieces, last first, with
    the proof that the body runs to the continuation holding them written. -/
noncomputable def kernelRun0 (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole)
    (x0 : Vec F S1024x1 .f32) (x1 : Vec F S1024x128 .bf16) (x2 : Vec F S8192x128 .bf16) :
    Σ' (L3 : List (View.Piece (Elt F) S1024x1 .f32)), { LS0 : List (View.Piece (Elt F) S1024x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f LS0)) -∗ K ⟨⟩))
          ⊢ wp frame (wpE (defs₀ (F := F)) Variants.none c none) E (cc0_ntxent_kernel i arg1 harg1 arg2 harg2 arg3 harg3 arg4 harg4 arg5 harg5) K } := by
  refine ⟨?_, ?_, fun E K => ?run⟩
  case run =>
    simp only [cc0_ntxent_kernel_eq_skeleton]; unfold cc0_ntxent_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexact HS0

end Cert.KernelIdeal.Hand

end
-- ==== Proof.KIDat.lean ====
/-
  The region's proof data, for any float instance. The windows' arrays are as the region finds them; after the body at a
  grid point each input's staging buffer still holds its block, and the output's holds the point's 1024 row losses as the
  body's run leaves them; between points the region keeps only the row accumulator (at anything: every point clears it)
  and the generator register. The normalised matrix is handed to the kernel twice — 1024 query rows at a time, and whole as
  the keys — so those two input windows each hold half of that one array's share.
-/
import proofs.«164084_j41266045780374_2_alg».proof.Proof.KIRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in the output block -/

/-- One staging buffer of the output window, through which its contents are stated. -/
abbrev VO0_3 : View sig .tc .vmem S1024x1 .f32 := (Memref.whole cc0_stg3_0 : Memref sig .tc .vmem S1024x1 .f32).view

/-- The body's one store into the output block covers it. -/
theorem cover0_3 (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (x0 : Vec F S1024x1 .f32) (x1 : Vec F S1024x128 .bf16) (x2 : Vec F S8192x128 .bf16) (y : S1024x1.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S1024x1.size (by sl_kernel_rfl) y

/-- What the body leaves in the output block: its store read back. -/
def out0_3 (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (x0 : Vec F S1024x1 .f32) (x1 : Vec F S1024x128 .bf16) (x2 : Vec F S8192x128 .bf16) : Vec F S1024x1 .f32 :=
  VO0_3.read (Elt F) (VO0_3.writes (Elt F) VO0_3.junk (kernelRun0 c i arg1 harg1 arg2 harg2 arg3 harg3 arg4 harg4 arg5 harg5 x0 x1 x2).1)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  unfold out0_3
  iintro ⟨⟨HS0, Hg⟩, Ho, ⟨%d0, H0⟩, ⟨%d1, H1⟩, ⟨%d2, H2⟩, ⟨%d3, H3⟩⟩
  iapply ((kernelRun0 c (grid0.coords t) _ _ _ _ _ _ _ _ _ _ (iblk m c 0 t) (iblk m c 1 t) (iblk m c 2 t)).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

end Cert.KernelIdeal.Hand

end
-- ==== Proof.KILaunch.lean ====
/-
  The launch of the region, for any float instance. The kernel is handed one array twice (the normalised matrix: as query
  blocks and, whole, as keys), so the launch splits that array's points-to in two halves, one per window, and after the
  last grid point puts the halves together again; the four host operations after the region then run on the core's
  unscoped buffers as the region leaves them: the output array at its final contents, every other buffer as it was found.
-/
import proofs.«164084_j41266045780374_2_alg».proof.Proof.KIDat

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three buffers behind the four windows -/

theorem arrRefs_eq : (Finset.univ.image (Pipeline.arrRef spec0) : Finset (Ref sig .tc)) = [main_v25, main_v19, main_v26].toFinset := by decide

theorem arrBufs_eq (c : Dev nD) (W : (b : Ref sig .tc) → Buf (Elt F) ((c : Thread nD τ).loc b)) :
    (Pipeline.arrBufs spec0 c W : sProp 𝕄)
      = iprop((((c : Thread nD τ).loc main_v25) ↦{fullShare} W main_v25) ∗ (((c : Thread nD τ).loc main_v19) ↦{fullShare} W main_v19) ∗ (((c : Thread nD τ).loc main_v26) ↦{fullShare} W main_v26)) := by
  unfold Pipeline.arrBufs
  rw [Idealize.SL.BI.bigSep_eq_bigSepL_of_eq [main_v25, main_v19, main_v26] arrRefs_eq (by decide)]
  rfl

/-- The proof data's arrays, window by window: the two windows on the normalised matrix hold a half each. -/
theorem arrays_eq4 (c : Dev nD) (G : (w : Fin cfg0.W) → Buf (Elt F) ((cfg0.win w).arr.view.loc (c.tc : Thread nD τ))) :
    ((dats m 0 c).arrays G : sProp 𝕄)
      = iprop((((c : Thread nD τ).loc main_v25) ↦{fullShare} G 0) ∗ (((c : Thread nD τ).loc main_v19) ↦{fullShare.left} G 1)
          ∗ (((c : Thread nD τ).loc main_v19) ↦{fullShare.right} G 2) ∗ (((c : Thread nD τ).loc main_v26) ↦{fullShare} G 3)) := by
  unfold Dat.arrays
  rw [bigSep_W0, (arr_whole0 0).set_eq_univ, (arr_whole0 1).set_eq_univ, (arr_whole0 3).set_eq_univ]
  rfl

/-- ENTRY: the three buffers at the region-entry contents make the four windows' arrays. -/
theorem hsplit (c : Dev nD) : (Pipeline.arrBufs spec0 c (V m c) : sProp 𝕄) ⊢ (dats m 0 c).arrays ((dats m 0 c).arrAt · 0) := by
  rw [arrBufs_eq, arrays_eq4]
  iintro ⟨H25, H19, H26⟩
  icases (pointsTo_share (PosShare.mem_left_op_right fullShare)).1 $$ H19 with ⟨HL, HR⟩
  isplitl [H25]; · iexact H25
  isplitl [HL]; · iexact HL
  isplitl [HR]; · iexact HR
  iexact H26

/-! ## After the region -/

/-- The core's buffers as the region leaves them: the output array at its final contents, every other buffer as found. -/
def Wexit (c : Dev nD) : Valuation τ sig (Elt F) :=
  Function.update (V0 m c) (Proc.devRef .tc main_v26) ((dats m 0 c).arrAt 3 cfg0.N)

/-- and after the four host operations that follow the region. -/
def Wend (c : Dev nD) : Valuation τ sig (Elt F) := StableHlo.after (List.flatten [hostOps1]) (Wexit m c)

theorem Wexit_out (c : Dev nD) : Wexit m c (Proc.devRef .tc main_v26) = (dats m 0 c).arrAt 3 cfg0.N := by
  unfold Wexit; exact Function.update_self _ _ _

theorem Wexit_of_ne (c : Dev nD) (b : Ref sig .tc) (hb : b ≠ main_v26) : Wexit m c (Proc.devRef .tc b) = V m c b := by
  unfold Wexit
  exact Function.update_of_ne (fun h => hb (Proc.devRef_injective _ h)) _ _

/-- The four operations write none of the three buffers behind the windows, nor an argument. -/
theorem Wend_v25 (c : Dev nD) : Wend m c (Proc.devRef .tc main_v25) = Wexit m c (Proc.devRef .tc main_v25) :=
  StableHlo.after_of_forall_not_mem (b := Proc.devRef .tc main_v25) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_v19 (c : Dev nD) : Wend m c (Proc.devRef .tc main_v19) = Wexit m c (Proc.devRef .tc main_v19) :=
  StableHlo.after_of_forall_not_mem (b := Proc.devRef .tc main_v19) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_v26 (c : Dev nD) : Wend m c (Proc.devRef .tc main_v26) = Wexit m c (Proc.devRef .tc main_v26) :=
  StableHlo.after_of_forall_not_mem (b := Proc.devRef .tc main_v26) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_arg0 (c : Dev nD) : Wend m c (Proc.devRef .tc main_arg0) = Wexit m c (Proc.devRef .tc main_arg0) :=
  StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wend_arg1 (c : Dev nD) : Wend m c (Proc.devRef .tc main_arg1) = Wexit m c (Proc.devRef .tc main_arg1) :=
  StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No host operation before the region writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- The three input windows' arrays end as they were found. -/
theorem arrAt0 (c : Dev nD) : (dats m 0 c).arrAt 0 cfg0.N = V m c main_v25 := ((dats m 0 c).arrAt_in 0 rfl _).trans (A_eq m c 0)
theorem arrAt1 (c : Dev nD) : (dats m 0 c).arrAt 1 cfg0.N = V m c main_v19 := ((dats m 0 c).arrAt_in 1 rfl _).trans (A_eq m c 1)
theorem arrAt2 (c : Dev nD) : (dats m 0 c).arrAt 2 cfg0.N = V m c main_v19 := ((dats m 0 c).arrAt_in 2 rfl _).trans (A_eq m c 2)

/-- Off the windows' arrays the exit contents are the entry contents. -/
theorem rest_exit (c : Dev nD) :
    (Pipeline.unscopedRest spec0 c (fun b => Wexit m c (Proc.devRef .tc b)) : sProp 𝕄) = Pipeline.unscopedRest spec0 c (V m c) := by
  unfold Pipeline.unscopedRest
  exact bigSep_congr fun b hb => by
    beta_reduce
    rw [Wexit_of_ne m c b fun h => (Finset.mem_sdiff.mp hb).2 (Finset.mem_image.mpr ⟨3, Finset.mem_univ _, h.symm⟩)]

/-- EXIT, inward: the windows' arrays at their final contents and the bypassing buffers are the core's unscoped buffers at
    the exit contents — the two halves of the normalised matrix put together again. -/
theorem exit_in (c : Dev nD) :
    iprop((dats m 0 c).arrays ((dats m 0 c).arrAt · cfg0.N) ∗ Pipeline.unscopedRestP Pipeline.Prefetch.none spec0 c (V m c))
      ⊢ (StableHlo.held (c.tc : Thread nD τ) (Pipeline.ucRefs τ sig) (Wexit m c) : sProp 𝕄) := by
  rw [← Pipeline.unscopedBufs_held, Pipeline.unscopedBufs_split₀ cfgs 0 winFacts₀0.arr_unscoped c, arrBufs_eq, arrays_eq4,
    arrAt0, arrAt1, arrAt2, Pipeline.unscopedRestP_none, rest_exit, Wexit_of_ne m c main_v25 (by decide), Wexit_of_ne m c main_v19 (by decide), Wexit_out]
  iintro ⟨⟨H25, HL, HR, H26⟩, HZ⟩
  isplitr [HZ]
  · isplitl [H25]; · iexact H25
    isplitl [HL HR]
    · iapply (pointsTo_share (PosShare.mem_left_op_right fullShare)).2
      isplitl [HL]; · iexact HL
      iexact HR
    iexact H26
  iexact HZ

/-- EXIT, outward: after the four operations the unscoped buffers give the windows' arrays back, unchanged, and the rest. -/
theorem exit_out (c : Dev nD) :
    (StableHlo.held (c.tc : Thread nD τ) (Pipeline.ucRefs τ sig) (Wend m c) : sProp 𝕄)
      ⊢ iprop((dats m 0 c).arrays ((dats m 0 c).arrAt · cfg0.N) ∗ Pipeline.unscopedRestP Pipeline.Prefetch.none spec0 c (fun b => Wend m c (Proc.devRef .tc b))) := by
  rw [← Pipeline.unscopedBufs_held, Pipeline.unscopedBufs_split₀ cfgs 0 winFacts₀0.arr_unscoped c, arrBufs_eq, arrays_eq4,
    arrAt0, arrAt1, arrAt2, Pipeline.unscopedRestP_none, Wend_v25, Wend_v19, Wend_v26, Wexit_of_ne m c main_v25 (by decide), Wexit_of_ne m c main_v19 (by decide), Wexit_out]
  iintro ⟨⟨H25, H19, H26⟩, HZ⟩
  icases (pointsTo_share (PosShare.mem_left_op_right fullShare)).1 $$ H19 with ⟨HL, HR⟩
  isplitr [HZ]
  · isplitl [H25]; · iexact H25
    isplitl [HL]; · iexact HL
    isplitl [HR]; · iexact HR
    iexact H26
  iexact HZ

theorem sfx_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- THE LINES AFTER THE REGION: from the region's exit the four host operations run on the core's unscoped buffers and hand
    back the windows' arrays and the bypassing buffers at what the operations leave. -/
theorem htail (c : Dev nD) (Q' : PUnit → sProp 𝕄) :
    iprop((iprop((dats m 0 c).arrays ((dats m 0 c).arrAt · cfg0.N) ∗ Pipeline.unscopedRestP Pipeline.Prefetch.none spec0 c (fun b => Wend m c (Proc.devRef .tc b))) -∗ Q' ⟨⟩)
        ∗ boundary (c.tc : Thread nD τ) ∗ (dats m 0 c).arrays ((dats m 0 c).arrAt · cfg0.N) ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [show ([StableHlo.seq hostOps1] : List (Prog _ PUnit)) = ([hostOps1] : List (List (HloOp τ sig (Elt F)))).map StableHlo.seq ++ [] from rfl]
  iintro ⟨Hk, Hb, HA, HZ⟩
  iapply (Pipeline.wp_seqs_then (fun q => (cfgs q).toPCfg (Val := Elt F)) defs₀ Variants.none c (Pipeline.ucRefs τ sig) [] [hostOps1] sfx_sub sfx_fresh (Wexit m c)) $$ [Hb HA HZ]
  · isplitl [Hb]; · iexact Hb
    iapply (exit_in m c)
    isplitl [HA]; · iexact HA
    iexact HZ
  iintro ⟨Hb, HH⟩
  rw [Pipeline.chain_nil, wp_pure]
  imodintro
  iapply Hk
  iapply (exit_out m c)
  iexact HH

end Cert.KernelIdeal.Hand

end
-- ==== Proof.KIMain.lean ====
/-
  The run of the whole program, for any float instance: every weakly fair execution terminates without a fault, and at the
  end every buffer that bypasses the region — the arguments and the result among them — holds what the four host operations
  after the region leave, computed from the output array's final contents. In particular both arguments end unchanged.
-/
import proofs.«164084_j41266045780374_2_alg».proof.Proof.KILaunch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (fun r => ∀ c : Dev nD,
      ∀ b ∈ Pipeline.restRefsP sig Pipeline.Prefetch.none spec0, r.2.mem ((c.tc : Thread nD τ).loc b) = Wend m c (Proc.devRef .tc b)) :=
  Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m c (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m c (Proc.devRef .tc b)) s')
      isplitl [HU] <;> iassumption)
    (hQ := fun s h c => (h c).2.2)

/-- What the run's post says of one bypassing buffer. -/
theorem rest_end (r : PUnit × MemSt nD τ sig (Elt F))
    (h : ∀ c : Dev nD, ∀ b ∈ Pipeline.restRefsP sig Pipeline.Prefetch.none spec0, r.2.mem ((c.tc : Thread nD τ).loc b) = Wend m c (Proc.devRef .tc b))
    (c : Dev nD) (b : Ref sig .tc) (hs : b.isScoped = false) (ha : ∀ w, (spec0 w).arr.view.ref ≠ b) :
    r.2.mem ((c.tc : Thread nD τ).loc b) = Wend m c (Proc.devRef .tc b) :=
  Pipeline.rest_of_restP Pipeline.Prefetch.none spec0 (fun k => k.elim0) c (fun b => Wend m c (Proc.devRef .tc b)) r.2
    (fun k => k.elim0) (fun k => k.elim0) (h c) b (Pipeline.mem_restRefs_of b hs ha)

/-- An argument ends as launched: no host operation writes it, before or after the region, and the region stages neither. -/
theorem Wend_arg0_eq (c : Dev nD) : Wend m c (Proc.devRef .tc main_arg0) = m ((c : Thread nD τ).loc main_arg0) :=
  (Wend_arg0 m c).trans ((Wexit_of_ne m c main_arg0 (by decide)).trans (V_main_arg0 m c))
theorem Wend_arg1_eq (c : Dev nD) : Wend m c (Proc.devRef .tc main_arg1) = m ((c : Thread nD τ).loc main_arg1) :=
  (Wend_arg1 m c).trans ((Wexit_of_ne m c main_arg1 (by decide)).trans (V_main_arg1 m c))

/-- THE RUN with the result named: the result buffer at what the four operations after the region compute from the
    output array's final contents, both arguments unchanged. -/
theorem run_value : θ_run defs (onTc (τ := τ) (main (F := F))) ⟨m, fun _ => 0, ρ⟩ (fun r => ∀ c : Dev nD,
      r.2.mem ((c.tc : Thread nD τ).loc main_v28) = Wend m c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨rest_end m r h c main_v28 (by decide) (by decide),
     (rest_end m r h c main_arg0 (by decide) (by decide)).trans (Wend_arg0_eq m c),
     (rest_end m r h c main_arg1 (by decide) (by decide)).trans (Wend_arg1_eq m c)⟩) (run_main m ρ)

/-- THE FRAME: the program runs to the end without a fault and its two arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_value m ρ)

end Cert.KernelIdeal.Hand

end
-- ==== Proof.KerPay13.lean ====
/-
  The first and the last stored value of the kernel body at an index, at the ideal instance.

  The first store writes the zero splat into the row accumulator. The last one combines the positive logit `x` of a
  row with the accumulated sum `a` of its masked exponentials: (0 - x) + log (a + exp x).
-/
import proofs.«164084_j41266045780374_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.KerValue

open Idealize.ShloMosaic Idealize.ShloMosaic.ValueIdx Cert.KernelIdeal.Gen

/-- The first store's value: zero at every row. -/
theorem pay1_apply (y : S1024x1.Idx) : Gen.k0_pay1 (F := Ideal) y = ((0 : ℝ) : EReal) := by
  unfold Gen.k0_pay1
  rw [shapeCast_self]
  exact Ideal.ofBits_zero_f32.trans EReal.coe_zero.symm

/-- The last store's value at a row: (0 - pos) + log (acc + exp pos). -/
theorem pay3_apply (pos acc : FVec Ideal S1024x1 .f32) (y : S1024x1.Idx) :
    Gen.k0_pay3 (F := Ideal) pos acc y
      = (Ideal.ofBits .f32 0x00000000#32 - pos y) + Ideal.log (acc y + Ideal.exp (pos y)) := by
  unfold Gen.k0_pay3
  rw [shapeCast_self]
  rfl

end Cert.KernelIdeal.KerValue

end
-- ==== Proof.LibTransposedDot.lean ====
/-
  A matrix product M×K by N×K — the right operand contracted on its LAST axis, so that no transpose is formed — into a
  zero accumulator, read at an entry over the extended reals: entry (p, q) is the sum over c of lhs (p, c) · rhs (q, c).
  The contraction index, a one-axis multi-index, is re-indexed to its one coordinate.
-/
import Idealize.ShloMosaic.Lib.ValueIdx
import Idealize.ShloMosaic.PureOps.Ideal.Laws

namespace Cert.LibTransposedDot

open Idealize.ShloMosaic Idealize.ShloMosaic.ValueIdx

/-- The left operand's index at result entry `(p, q)` and contraction coordinate `c` is `(p, c)`. -/
theorem tr_lhsIdx (M K N : ℕ) (p : Fin M) (q : Fin N) (c : Fin K) :
    (DotDims.transposedRhs M K N).lhsIdx (ix2 p q) ((contrEquiv1 (DotDims.transposedRhs M K N) K rfl rfl).symm c) = ix2 p c := by
  funext a
  refine Fin.ext ?_
  match a with
  | ⟨0, _⟩ => rfl
  | ⟨1, _⟩ =>
    show ((DotDims.transposedRhs M K N).lhsIdx (ix2 p q) ((contrEquiv1 (DotDims.transposedRhs M K N) K rfl rfl).symm c) 1).val = c.val
    rw [(DotDims.transposedRhs M K N).lhsIdx_val_of_single (cl := 1) rfl]
    exact contrEquiv1_symm_val (DotDims.transposedRhs M K N) K rfl rfl c

/-- The right operand's index there is `(q, c)`: its rows are the result's columns. -/
theorem tr_rhsIdx (M K N : ℕ) (p : Fin M) (q : Fin N) (c : Fin K) :
    (DotDims.transposedRhs M K N).rhsIdx (ix2 p q) ((contrEquiv1 (DotDims.transposedRhs M K N) K rfl rfl).symm c) = ix2 q c := by
  funext a
  refine Fin.ext ?_
  match a with
  | ⟨0, _⟩ => rfl
  | ⟨1, _⟩ =>
    show ((DotDims.transposedRhs M K N).rhsIdx (ix2 p q) ((contrEquiv1 (DotDims.transposedRhs M K N) K rfl rfl).symm c) 1).val = c.val
    rw [(DotDims.transposedRhs M K N).rhsIdx_val_of_single (cr := 1) rfl]
    exact contrEquiv1_symm_val (DotDims.transposedRhs M K N) K rfl rfl c

/-- Entry `(p, q)` of the product into the zero accumulator is `∑ c, lhs (p, c) · rhs (q, c)`. -/
theorem matmul_transposedRhs_zero_apply {φ₁ φ₂ : FTy} (M K N : ℕ) (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ c : Fin K, lhs (ix2 p c) * rhs (ix2 q c) := by
  rw [Ideal.matmul_constant_zero_apply, ← Equiv.sum_comp (contrEquiv1 (DotDims.transposedRhs M K N) K rfl rfl).symm]
  refine Finset.sum_congr rfl fun c _ => ?_
  rw [tr_lhsIdx, tr_rhsIdx]

end Cert.LibTransposedDot
-- ==== Proof.LibKerWords.lean ====
/-
  Words at a cell: comparisons of small naturals read as 32-bit words, the conjunction and the selection on a
  decided bit, and a bit or the zero word as a float.
-/
import Idealize.ShloMosaic.PureOps.Ideal
import Idealize.ShloMosaic.Lib.ValueIdx
import Idealize.ShloMosaic.Lib.ValueLayout
import Idealize.ShloMosaic.Lib.IdealHost

noncomputable section

namespace Cert.KernelIdeal.HostValue

open Idealize.ShloMosaic Idealize.ShloMosaic.ValueIdx

/-- Equality of two small naturals read as 32-bit words. -/
theorem cmpi_eq_ofNat (n k : ℕ) (hn : n < 2 ^ 32) (hk : k < 2 ^ 32) :
    IntOp.cmpi .eq (BitVec.ofNat 32 n) (BitVec.ofNat 32 k) = if n = k then 1#1 else 0#1 := by
  unfold IntOp.cmpi
  by_cases h : n = k
  · subst h; simp
  · have : BitVec.ofNat 32 n ≠ BitVec.ofNat 32 k := fun e => h (by
      have := congrArg BitVec.toNat e
      simp only [BitVec.toNat_ofNat] at this
      rwa [Nat.mod_eq_of_lt hn, Nat.mod_eq_of_lt hk] at this)
    rw [if_neg h, beq_eq_false_iff_ne.mpr this]; rfl

theorem cmpi_ne_ofNat (x y : BitVec 32) :
    IntOp.cmpi .ne x y = if x ≠ y then 1#1 else 0#1 := by
  unfold IntOp.cmpi
  by_cases h : x = y
  · subst h; simp
  · rw [if_pos h, bne_iff_ne.mpr h]; rfl

/-- Signed "at least" of two naturals below 2^31 read as words. -/
theorem cmpi_sge_ofNat (n k : ℕ) (hn : n < 2 ^ 31) (hk : k < 2 ^ 31) :
    IntOp.cmpi .sge (BitVec.ofNat 32 n) (BitVec.ofNat 32 k) = if k ≤ n then 1#1 else 0#1 := by
  unfold IntOp.cmpi
  have e : (BitVec.ofNat 32 k).sle (BitVec.ofNat 32 n) = decide (k ≤ n) := by
    have h1 : (BitVec.ofNat 32 k).toInt = (k : Int) := by
      rw [BitVec.toInt_eq_toNat_cond, BitVec.toNat_ofNat, Nat.mod_eq_of_lt (by omega)]
      rw [if_pos (by omega)]
    have h2 : (BitVec.ofNat 32 n).toInt = (n : Int) := by
      rw [BitVec.toInt_eq_toNat_cond, BitVec.toNat_ofNat, Nat.mod_eq_of_lt (by omega)]
      rw [if_pos (by omega)]
    rw [BitVec.sle, h1, h2]; simp
  simp only [e]
  by_cases h : k ≤ n <;> simp [h]

theorem andi_bit (p q : Prop) [Decidable p] [Decidable q] :
    IntOp.andi (if p then 1#1 else 0#1) (if q then 1#1 else 0#1) = if p ∧ q then 1#1 else 0#1 := by
  unfold IntOp.andi
  by_cases hp : p <;> by_cases hq : q <;> simp [hp, hq]

theorem select_bit {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

theorem uitofp_bit (p : Prop) [Decidable p] :
    FloatOps.uitofp (F := Ideal) .f32 (if p then 1#1 else 0#1) = if p then (1 : EReal) else 0 := by
  by_cases hp : p
  · rw [if_pos hp, if_pos hp]; show ((BitVec.toNat (1#1) : ℝ) : EReal) = 1; simp
  · rw [if_neg hp, if_neg hp]; show ((BitVec.toNat (0#1) : ℝ) : EReal) = 0; simp

theorem sitofp_zero : FloatOps.sitofp (F := Ideal) .f32 (0#32) = (0 : EReal) := by
  show ((BitVec.toInt (0#32) : ℝ) : EReal) = 0; simp

end Cert.KernelIdeal.HostValue
end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.KerPay2.lean ====
/-
  The loop trip's stored value of the kernel body at a row, at the ideal instance.

  For grid point i (1024 query rows) and trip c (1024 key rows) the trip adds to the accumulator of row p the sum over
  the block's columns u of
      0                                   where the global row i·1024 + p equals the global column c·1024 + u,
      exp (2 · Σ_d q (p, d) · k (u, d))   elsewhere.
  The row and column numbers are computed as 32-bit words; both are below 2^13, so the comparison of the words is the
  comparison of the naturals.
-/
import proofs.«164084_j41266045780374_2_alg».proof.Proof.Gen.KernelIdeal.Skeleton
import proofs.«164084_j41266045780374_2_alg».proof.Proof.LibTransposedDot
import proofs.«164084_j41266045780374_2_alg».proof.Proof.LibKerWords
import proofs.«164084_j41266045780374_2_alg».proof.Proof.LibKeepdims
import Idealize.ShloMosaic.Lib.ValueIdx
import Idealize.ShloMosaic.Lib.Pipeline.Value
import Idealize.ShloMosaic.PureOps.Ideal.Laws

noncomputable section
namespace Cert.KernelIdeal.KerValue
open Idealize.ShloMosaic Idealize.ShloMosaic.ValueIdx Cert.KernelIdeal.Gen

theorem trips_eq : k0_t1_loop.trips = 8 := by decide

/-- The row word at cell (p, u): the grid point's first row plus the row inside the block. -/
theorem rowWord_apply (i0 : ℕ) (p u : Fin 1024) :
    addi (broadcast S1024x1024 (Scalar.muli (BitVec.ofNat 32 i0) 1024#32))
        (iota Kind.tc S1024x1024 32 [0] iota_S1024x1024_d0_w32) (ix2 p u)
      = BitVec.ofNat 32 (i0 * 1024 + p.val) := by
  show IntOp.addi (Scalar.muli (BitVec.ofNat 32 i0) 1024#32) (iota Kind.tc S1024x1024 32 [0] iota_S1024x1024_d0_w32 (ix2 p u)) = _
  rw [iota_single_apply]
  show BitVec.ofNat 32 i0 * BitVec.ofNat 32 1024 + BitVec.ofNat 32 p.val = _
  rw [← BitVec.ofNat_mul, ← BitVec.ofNat_add]

/-- The column word at cell (p, u): the trip's first column plus the column inside the block. -/
theorem colWord_apply (c : ℕ) (p u : Fin 1024) :
    addi (broadcast S1024x1024 (Scalar.muli (Scalar.addi (0#32) (Scalar.muli (Scf.iv 0#32 1#32 c) 1#32)) 1024#32))
        (iota Kind.tc S1024x1024 32 [1] iota_S1024x1024_d1_w32) (ix2 p u)
      = BitVec.ofNat 32 (c * 1024 + u.val) := by
  show IntOp.addi (Scalar.muli (Scalar.addi (0#32) (Scalar.muli (Scf.iv 0#32 1#32 c) 1#32)) 1024#32) (iota Kind.tc S1024x1024 32 [1] iota_S1024x1024_d1_w32 (ix2 p u)) = _
  rw [iota_single_apply]
  show (0#32 + (0#32 + BitVec.ofNat 32 c * 1#32) * 1#32) * BitVec.ofNat 32 1024 + BitVec.ofNat 32 u.val = _
  rw [BitVec.zero_add, BitVec.zero_add, BitVec.mul_one, BitVec.mul_one, ← BitVec.ofNat_mul, ← BitVec.ofNat_add]

/-- The mask bit at cell (p, u): set exactly where the global row equals the global column. -/
theorem maskBit_apply (i0 c : ℕ) (hi : i0 < 8) (hc : c < 8) (p u : Fin 1024) :
    cmpi CmpIPredicate.eq
        (addi (broadcast S1024x1024 (Scalar.muli (BitVec.ofNat 32 i0) 1024#32))
          (iota Kind.tc S1024x1024 32 [0] iota_S1024x1024_d0_w32))
        (addi (broadcast S1024x1024 (Scalar.muli (Scalar.addi (0#32) (Scalar.muli (Scf.iv 0#32 1#32 c) 1#32)) 1024#32))
          (iota Kind.tc S1024x1024 32 [1] iota_S1024x1024_d1_w32)) (ix2 p u)
      = if i0 * 1024 + p.val = c * 1024 + u.val then 1#1 else 0#1 := by
  show IntOp.cmpi CmpIPredicate.eq (addi _ _ (ix2 p u)) (addi _ _ (ix2 p u)) = _
  rw [rowWord_apply, colWord_apply]
  have := p.isLt; have := u.isLt
  exact Cert.KernelIdeal.HostValue.cmpi_eq_ofNat _ _ (by omega) (by omega)

/-- The product of the query block with the key block, both contracted on their last axis, at cell (p, u). -/
theorem logits_apply (kb q : FVec Ideal S1024x128 .bf16) (p u : Fin 1024) :
    matmul dot_S1024x128_S1024x128_S1024x1024_1_1_0_0_n_n none q kb (constant S1024x1024 FTy.f32 0#32) (ix2 p u)
      = ∑ d : Fin 128, q (ix2 p d) * kb (ix2 u d) :=
  Cert.LibTransposedDot.matmul_transposedRhs_zero_apply 1024 128 1024 none q kb p u

/-- The lane sum of a 1024 × 1024 array along its second axis, at row p. -/
theorem laneSum_apply (src : FVec Ideal S1024x1024 .f32) (hφ : FKind.Formats .f32)
    (hacc : (0#32 : BitVec 32) = FKind.add.neutral .f32 hφ) (p : Fin 1024) :
    multiReduction FKind.add [1] S1024 src (0#32) reduces_S1024x1024_S1024 hφ hacc (ix1 p)
      = ∑ u : Fin 1024, src (ix2 p u) := by
  refine (Ideal.multiReduction_add_single src _ reduces_S1024x1024_S1024 hφ hacc (ix1 p)).trans ?_
  refine Finset.sum_congr rfl fun u _ => congrArg src ?_
  funext a
  refine Fin.ext ?_
  match a with
  | ⟨0, _⟩ => rfl
  | ⟨1, _⟩ => rfl

/-- The loop trip's stored value at row p: the accumulator's entry plus the sum over the block's 1024 columns of the
    masked exponentials of twice the inner products. -/
theorem pay2_apply (i : grid0.Coords) (c : Fin k0_t1_loop.trips) (kb q : FVec Ideal S1024x128 .bf16)
    (acc : FVec Ideal S1024x1 .f32) (p : Fin 1024) :
    Gen.k0_pay2 (F := Ideal) i c kb q acc (ix2 p (0 : Fin 1))
      = acc (ix2 p 0) + ∑ u : Fin 1024,
          if (i 0).val * 1024 + p.val = c.val * 1024 + u.val then Ideal.ofBits .f32 0x00000000#32
          else Ideal.exp ((∑ d : Fin 128, q (ix2 p d) * kb (ix2 u d)) * Ideal.ofBits .f32 0x40000000#32) := by
  have hi : (i 0).val < 8 := (i 0).isLt
  have hc : c.val < 8 := lt_of_lt_of_eq c.isLt trips_eq
  unfold Gen.k0_pay2
  dsimp only
  rw [shapeCast_self, shapeCast_self, shapeCast_self]
  show acc (ix2 p 0) + shapeCast S1024x1 _ shapeCasts_S1024_S1024x1 (ix2 p (0 : Fin 1)) = _
  refine congrArg (acc (ix2 p 0) + ·) ?_
  refine (shapeCast_a_a1_apply _ _ p 0).trans ?_
  refine (laneSum_apply _ _ _ p).trans ?_
  refine Finset.sum_congr rfl fun u _ => ?_
  show Scalar.select (cmpi CmpIPredicate.eq _ _ (ix2 p u)) (Ideal.ofBits .f32 0x00000000#32)
      (Ideal.exp (matmul dot_S1024x128_S1024x128_S1024x1024_1_1_0_0_n_n none q kb (constant S1024x1024 FTy.f32 0#32) (ix2 p u)
        * Ideal.ofBits .f32 0x40000000#32)) = _
  rw [maskBit_apply _ _ hi hc, Cert.KernelIdeal.HostValue.select_bit, logits_apply]

end Cert.KernelIdeal.KerValue
end
-- ==== Proof.Spec.lean ====
/-
  The loss both programs compute, as one real number.

  From the two inputs the rows are L2-normalised and stacked into a matrix `r` of 8192 rows and 128 columns.
  `sim r i j` is the inner product of rows `i` and `j`; row `i`'s partner is the row 4096 places away (mod 8192), and
  its positive logit is twice their inner product (division by the temperature 1/2). Row `i`'s loss is the cross entropy
  of the positive logit against all logits `2 * sim r i j` with `j ≠ i`, the positive one counted once more:
      -p + log (∑_{j ≠ i} exp (2 * sim r i j) + exp p).
  The result is the mean of the 8192 row losses.
-/
import Mathlib.Analysis.SpecialFunctions.Log.Basic
import Mathlib.Analysis.SpecialFunctions.Exp

noncomputable section

namespace Cert.NTX

/-- Inner product of rows `i` and `j` of the normalised matrix. -/
def sim (r : Fin 8192 → Fin 128 → ℝ) (i j : Fin 8192) : ℝ := ∑ k : Fin 128, r i k * r j k

/-- The row 4096 places away, cyclically: the other view of the same sample. -/
def partner (i : Fin 8192) : Fin 8192 := ⟨(i.val + 4096) % 8192, Nat.mod_lt _ (by norm_num)⟩

/-- The positive pair's logit: the inner product with the partner row over the temperature 1/2. -/
def posLogit (r : Fin 8192 → Fin 128 → ℝ) (i : Fin 8192) : ℝ := sim r i (partner i) * 2

/-- The sum of the exponentiated logits of row `i` against every other row. -/
def negSum (r : Fin 8192 → Fin 128 → ℝ) (i : Fin 8192) : ℝ :=
  ∑ j : Fin 8192, if j = i then 0 else Real.exp (sim r i j * 2)

/-- Row `i`'s cross-entropy loss. -/
def rowLoss (r : Fin 8192 → Fin 128 → ℝ) (i : Fin 8192) : ℝ :=
  -posLogit r i + Real.log (negSum r i + Real.exp (posLogit r i))

/-- The mean row loss. -/
def loss (r : Fin 8192 → Fin 128 → ℝ) : ℝ := (∑ i : Fin 8192, rowLoss r i) / 8192

theorem sim_comm (r : Fin 8192 → Fin 128 → ℝ) (i j : Fin 8192) : sim r i j = sim r j i := by
  unfold sim; exact Finset.sum_congr rfl fun k _ => mul_comm _ _

theorem negSum_pos (r : Fin 8192 → Fin 128 → ℝ) (i : Fin 8192) : 0 ≤ negSum r i := by
  unfold negSum
  exact Finset.sum_nonneg fun j _ => by split <;> [exact le_rfl; exact (Real.exp_pos _).le]

end Cert.NTX

end
-- ==== Proof.Algebra.lean ====
/-
  The algebra shared by both programs' value computations, over ℝ, and the ideal instance's operations at real
  arguments.

  * sums: a cast of a finite real sum to the extended reals is the sum of the casts; a sum over 8192 columns is the
    sum over 8 chunks of 1024 columns; the sum over the 8191 columns of a row with its diagonal entry removed is the
    sum over all columns with the diagonal term replaced by 0;
  * the log-sum-exp shift: subtracting any real M from every logit before exponentiating and from the chosen logit
    leaves the negated log-softmax unchanged;
  * the two programs' rows both equal the specification's row loss;
  * logarithm and division of the ideal instance at real arguments, the float words the programs spell, and the
    running maximum from -∞ of finitely many reals.
-/
import proofs.«164084_j41266045780374_2_alg».proof.Proof.Spec
import Idealize.ShloMosaic.PureOps.Ideal

noncomputable section

namespace Cert.NTX

open Idealize.ShloMosaic

/-! ### Sums -/

/-- The cast ℝ → EReal commutes with finite sums. -/
theorem coe_sum {ι : Type} (s : Finset ι) (f : ι → ℝ) :
    ((∑ i ∈ s, f i : ℝ) : EReal) = ∑ i ∈ s, ((f i : ℝ) : EReal) := by
  induction s using Finset.cons_induction with
  | empty => simp
  | cons a s ha ih => rw [Finset.sum_cons, Finset.sum_cons, EReal.coe_add, ih]

/-- A sum over 8192 columns, taken as 8 chunks of 1024 consecutive columns. -/
theorem sum_chunks (f : Fin 8192 → ℝ) :
    ∑ c : Fin 8, ∑ q : Fin 1024, f ⟨c.val * 1024 + q.val, by omega⟩ = ∑ j : Fin 8192, f j := by
  rw [← Finset.sum_product', Finset.univ_product_univ]
  refine Fintype.sum_equiv (finProdFinEquiv (m := 8) (n := 1024)) _ _ fun x => ?_
  refine congrArg f (Fin.ext ?_)
  simp only [finProdFinEquiv_apply_val]
  omega

/-- row i with its diagonal entry removed, indexed by the 8191 remaining columns in order -/
def skip (i : Fin 8192) (j' : Fin 8191) : Fin 8192 :=
  ⟨if j'.val < i.val then j'.val else j'.val + 1, by split <;> omega⟩

/-- `skip i` is the order embedding of the 8191 columns that misses column `i`. -/
theorem skip_eq_succAbove (i : Fin 8192) (j' : Fin 8191) : skip i j' = Fin.succAbove (n := 8191) i j' := by
  refine Fin.ext ?_
  unfold skip Fin.succAbove
  by_cases h : j'.val < i.val
  · have h' : Fin.castSucc j' < i := by rw [Fin.lt_def]; simpa using h
    simp [h, h']
  · have h' : ¬ Fin.castSucc j' < i := by rw [Fin.lt_def]; simpa using h
    simp [h, h']

/-- Summing over the columns other than `i`, in order, is summing over all columns with column `i`'s term set to 0. -/
theorem sum_skip (i : Fin 8192) (f : Fin 8192 → ℝ) :
    ∑ j' : Fin 8191, f (skip i j') = ∑ j : Fin 8192, if j = i then 0 else f j := by
  rw [Fin.sum_univ_succAbove (n := 8191) (fun j : Fin 8192 => if j = i then 0 else f j) i, if_pos rfl, zero_add]
  refine Finset.sum_congr rfl fun j' _ => ?_
  rw [skip_eq_succAbove, if_neg (Fin.succAbove_ne i j')]

/-! ### The log-sum-exp shift -/

theorem lse_shift {ι : Type} [Fintype ι] [Nonempty ι] (x : ι → ℝ) (x0 M : ℝ) :
    -((x0 - M) - Real.log (∑ j, Real.exp (x j - M))) = -x0 + Real.log (∑ j, Real.exp (x j)) := by
  have hpos : 0 < ∑ j, Real.exp (x j) := Finset.sum_pos (fun j _ => Real.exp_pos _) Finset.univ_nonempty
  have h : ∑ j, Real.exp (x j - M) = (∑ j, Real.exp (x j)) * Real.exp (-M) := by
    rw [Finset.sum_mul]
    exact Finset.sum_congr rfl fun j _ => by rw [← Real.exp_add, sub_eq_add_neg]
  rw [h, Real.log_mul hpos.ne' (Real.exp_pos _).ne', Real.log_exp]
  ring

/-- the reference's row: log-softmax of the row (positive logit first, then the 8191 off-diagonal logits), shifted by
    any real M, at column 0, negated -/
theorem ref_row (r : Fin 8192 → Fin 128 → ℝ) (i : Fin 8192) (M : ℝ) :
    -((posLogit r i - M) - Real.log (Real.exp (posLogit r i - M)
        + ∑ j' : Fin 8191, Real.exp (sim r i (skip i j') * 2 - M))) = rowLoss r i := by
  have hs : ∑ j' : Fin 8191, Real.exp (sim r i (skip i j') * 2 - M) = negSum r i * Real.exp (-M) := by
    unfold negSum
    rw [← sum_skip i (fun j => Real.exp (sim r i j * 2)), Finset.sum_mul]
    exact Finset.sum_congr rfl fun j' _ => by rw [← Real.exp_add, sub_eq_add_neg]
  have hp : Real.exp (posLogit r i - M) = Real.exp (posLogit r i) * Real.exp (-M) := by
    rw [← Real.exp_add, sub_eq_add_neg]
  have hpos : 0 < negSum r i + Real.exp (posLogit r i) :=
    add_pos_of_nonneg_of_pos (negSum_pos r i) (Real.exp_pos _)
  have harg : Real.exp (posLogit r i - M) + ∑ j' : Fin 8191, Real.exp (sim r i (skip i j') * 2 - M)
      = (negSum r i + Real.exp (posLogit r i)) * Real.exp (-M) := by
    rw [hs, hp]; ring
  rw [harg, Real.log_mul hpos.ne' (Real.exp_pos _).ne', Real.log_exp]
  unfold rowLoss
  ring

/-- the kernel's row: the masked exponentials accumulated chunk by chunk (8 chunks of 1024 columns) from 0 -/
theorem ker_row (r : Fin 8192 → Fin 128 → ℝ) (i : Fin 8192) :
    (0 - posLogit r i) + Real.log ((∑ c : Fin 8, ∑ q : Fin 1024,
        if (⟨c.val * 1024 + q.val, by omega⟩ : Fin 8192) = i then 0
        else Real.exp (sim r i ⟨c.val * 1024 + q.val, by omega⟩ * 2)) + Real.exp (posLogit r i)) = rowLoss r i := by
  have h := sum_chunks (fun j : Fin 8192 => if j = i then 0 else Real.exp (sim r i j * 2))
  rw [h, zero_sub]
  rfl

/-! ### The ideal instance at real arguments -/

theorem log_coe_pos {x : ℝ} (h : 0 < x) : Ideal.log ((x : ℝ) : EReal) = ((Real.log x : ℝ) : EReal) := by
  rw [Ideal.log_coe, if_neg (not_le.mpr h)]

theorem div_coe_coe {x y : ℝ} (h : y ≠ 0) :
    Ideal.div ((x : ℝ) : EReal) ((y : ℝ) : EReal) = ((x / y : ℝ) : EReal) := by
  rw [Ideal.div_coe h, ← EReal.coe_mul, mul_one_div]

/-! ### The float words the two programs spell -/

theorem ofBits_zero : Ideal.ofBits .f32 0x00000000#32 = ((0 : ℝ) : EReal) := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

/-! ### The running maximum -/

/-- The running maximum from -∞ over a non-empty finite set of reals is a real. -/
theorem fold_max_real_finset {ι : Type} (x : ι → ℝ) (s : Finset ι) (hs : s.Nonempty) :
    ∃ M : ℝ, s.fold max (⊥ : EReal) (fun j => ((x j : ℝ) : EReal)) = ((M : ℝ) : EReal) := by
  induction hs using Finset.Nonempty.cons_induction with
  | singleton a => exact ⟨x a, by rw [Finset.fold_singleton]; exact max_eq_left bot_le⟩
  | cons a s ha hs ih =>
    obtain ⟨M, hM⟩ := ih
    exact ⟨max (x a) M, by rw [Finset.fold_cons, hM]; exact (EReal.coe_strictMono.monotone.map_max).symm⟩

/-- the running maximum from -∞ of finitely many reals (non-empty) is a real -/
theorem fold_max_real {ι : Type} [Fintype ι] [Nonempty ι] (x : ι → ℝ) :
    ∃ M : ℝ, Finset.univ.fold max (⊥ : EReal) (fun j => ((x j : ℝ) : EReal)) = ((M : ℝ) : EReal) :=
  fold_max_real_finset x Finset.univ Finset.univ_nonempty

end Cert.NTX

end
-- ==== Proof.KerReal.lean ====
/-
  The kernel body's stored values at real arguments.

  When the query block, the key block and the accumulator hold (casts of) real numbers, the loop trip's stored value at
  row p is the real  a + Σ_u (0 on the diagonal, else exp (2 · Σ_d q (p, d) · k (u, d))); and when the positive logit x
  is real and the accumulated sum a is a non-negative real, the last stored value is the real
  (0 - x) + log (a + exp x): the argument of the logarithm is positive.
-/
import proofs.«164084_j41266045780374_2_alg».proof.Proof.KerPay13
import proofs.«164084_j41266045780374_2_alg».proof.Proof.KerPay2
import proofs.«164084_j41266045780374_2_alg».proof.Proof.Algebra

noncomputable section

namespace Cert.KernelIdeal.KerValue

open Idealize.ShloMosaic Idealize.ShloMosaic.ValueIdx Cert.KernelIdeal.Gen

/-- The loop trip's stored value at row p, for real-valued blocks and a real accumulator entry. -/
theorem pay2_real (i : grid0.Coords) (c : Fin k0_t1_loop.trips) (kb q : FVec Ideal S1024x128 .bf16)
    (acc : FVec Ideal S1024x1 .f32) (p : Fin 1024) (qr kr : Fin 1024 → Fin 128 → ℝ) (a : ℝ)
    (hq : ∀ d : Fin 128, q (ix2 p d) = ((qr p d : ℝ) : EReal))
    (hk : ∀ (u : Fin 1024) (d : Fin 128), kb (ix2 u d) = ((kr u d : ℝ) : EReal))
    (ha : acc (ix2 p (0 : Fin 1)) = ((a : ℝ) : EReal)) :
    Gen.k0_pay2 (F := Ideal) i c kb q acc (ix2 p (0 : Fin 1))
      = ((a + ∑ u : Fin 1024, if (i 0).val * 1024 + p.val = c.val * 1024 + u.val then 0
            else Real.exp ((∑ d : Fin 128, qr p d * kr u d) * 2) : ℝ) : EReal) := by
  rw [pay2_apply, ha, EReal.coe_add, Cert.NTX.coe_sum]
  refine congrArg ((a : EReal) + ·) (Finset.sum_congr rfl fun u _ => ?_)
  have hdot : (∑ d : Fin 128, q (ix2 p d) * kb (ix2 u d)) = (((∑ d : Fin 128, qr p d * kr u d) : ℝ) : EReal) := by
    rw [Cert.NTX.coe_sum]
    exact Finset.sum_congr rfl fun d _ => by rw [hq d, hk u d, EReal.coe_mul]
  by_cases h : (i 0).val * 1024 + p.val = c.val * 1024 + u.val
  · rw [if_pos h, if_pos h, Cert.NTX.ofBits_zero]
  · rw [if_neg h, if_neg h, hdot, Cert.NTX.ofBits_two, ← EReal.coe_mul, Ideal.exp_coe]

/-- The last stored value at a row with a real positive logit x and a real accumulated sum a ≥ 0. -/
theorem pay3_real (pos acc : FVec Ideal S1024x1 .f32) (y : S1024x1.Idx) (x a : ℝ)
    (hx : pos y = ((x : ℝ) : EReal)) (ha : acc y = ((a : ℝ) : EReal)) (h0 : 0 ≤ a) :
    Gen.k0_pay3 (F := Ideal) pos acc y = (((0 - x) + Real.log (a + Real.exp x) : ℝ) : EReal) := by
  rw [pay3_apply, hx, ha, Ideal.exp_coe, Cert.NTX.ofBits_zero, ← EReal.coe_add,
    Cert.NTX.log_coe_pos (add_pos_of_nonneg_of_pos h0 (Real.exp_pos x)), ← EReal.coe_sub, ← EReal.coe_add]

end Cert.KernelIdeal.KerValue

end
-- ==== Proof.KerFold.lean ====
/-
  The kernel body's eight loop trips as a fold over pure functions, and the row loss it leaves.

  For grid point i the body holds the query block q (1024 rows) and the whole key matrix K (8192 rows). Trip k loads
  the k-th block of 1024 key rows and adds, to the accumulator of row p, the masked exponentials of that block. After n
  trips the accumulator of row p is the sum over the first n blocks; after all eight it is the sum over every column
  other than the row's own, and the last stored value is the row's cross-entropy loss.
-/
import proofs.«164084_j41266045780374_2_alg».proof.Proof.KerReal
import proofs.«164084_j41266045780374_2_alg».proof.Proof.Algebra
import proofs.«164084_j41266045780374_2_alg».proof.Proof.Spec
import Idealize.ShloMosaic.Lib.Pipeline.FrameBody

noncomputable section

namespace Cert.KernelIdeal.KerValue

open Idealize.ShloMosaic Idealize.ShloMosaic.ValueIdx Cert.KernelIdeal.Gen

/-- A grid coordinate is below 8. -/
theorem i0_lt (i : grid0.Coords) : (i 0).val < 8 := (i 0).isLt

/-- A trip number is below 8. -/
theorem trip_lt (k : Fin k0_t1_loop.trips) : k.val < 8 := lt_of_lt_of_eq k.isLt trips_eq

/-- The global row of row p of grid point i. -/
abbrev gRow (i : grid0.Coords) (p : Fin 1024) : Fin 8192 :=
  ⟨(i 0).val * 1024 + p.val, by have := i0_lt i; omega⟩

/-- The global column of column u of block c. -/
abbrev gCol (c : ℕ) (hc : c < 8) (u : Fin 1024) : Fin 8192 := ⟨c * 1024 + u.val, by omega⟩

/-- Trip k's block of 1024 key rows inside the resident key matrix. -/
abbrev rK (k : Fin k0_t1_loop.trips) : Rect S8192x128 :=
  Rect.unit (s := S8192x128) (k0_off1 k) S1024x128.size (k0_off1_inb k)

/-- The row accumulator after k trips, from the query block q and the whole key matrix K. -/
def accAt (i : grid0.Coords) (q : Vec Ideal S1024x128 .bf16) (K : Vec Ideal S8192x128 .bf16) :
    ℕ → FVec Ideal S1024x1 .f32
  | 0 => Gen.k0_pay1
  | k + 1 =>
    if h : k < k0_t1_loop.trips then
      Gen.k0_pay2 i ⟨k, h⟩ (View.ld (Val := Elt Ideal) K (rK ⟨k, h⟩)) q (accAt i q K k)
    else accAt i q K k

/-- Row u of trip k's key block is row k · 1024 + u of the key matrix. -/
theorem keyBlock_apply (K : Vec Ideal S8192x128 .bf16) (k : Fin k0_t1_loop.trips) (u : Fin 1024) (d : Fin 128) :
    View.ld (Val := Elt Ideal) K (rK k) (ix2 u d) = K (ix2 (gCol k.val (trip_lt k) u) d) := by
  refine congrArg K (funext fun a => Fin.ext ?_)
  match a with
  | ⟨0, _⟩ =>
    show k0_off1 k 0 + 1 * u.val = k.val * 1024 + u.val
    rw [k0_off1_eq k]
    show 1024 * k.val + 1 * u.val = _
    omega
  | ⟨1, _⟩ =>
    show k0_off1 k 1 + 1 * d.val = d.val
    rw [k0_off1_eq k]
    show 0 + 1 * d.val = d.val
    omega

/-- After n ≤ 8 trips the accumulator of row p is the sum, over the first n blocks of 1024 columns, of the masked
    exponentials of twice the inner products of the row with the columns. -/
theorem accAt_real (i : grid0.Coords) (q : FVec Ideal S1024x128 .bf16) (K : Vec Ideal S8192x128 .bf16)
    (r : Fin 8192 → Fin 128 → ℝ) (p : Fin 1024)
    (hq : ∀ d : Fin 128, q (ix2 p d) = ((r (gRow i p) d : ℝ) : EReal))
    (hK : ∀ (j : Fin 8192) (d : Fin 128), K (ix2 j d) = ((r j d : ℝ) : EReal)) :
    ∀ (n : ℕ) (hn : n ≤ 8), accAt i q K n (ix2 p (0 : Fin 1))
      = ((∑ c : Fin n, ∑ u : Fin 1024,
            if (i 0).val * 1024 + p.val = c.val * 1024 + u.val then 0
            else Real.exp (Cert.NTX.sim r (gRow i p) (gCol c.val (lt_of_lt_of_le c.isLt hn) u) * 2) : ℝ) : EReal)
  | 0, _ => by
    show Gen.k0_pay1 (F := Ideal) _ = _
    rw [pay1_apply, Finset.univ_eq_empty, Finset.sum_empty]
  | n + 1, hn => by
    have hlt : n < k0_t1_loop.trips := by rw [trips_eq]; omega
    have ih := accAt_real i q K r p hq hK n (by omega)
    rw [accAt, dif_pos hlt,
      pay2_real i ⟨n, hlt⟩ _ q _ p (fun p' d => r (gRow i p') d) (fun u d => r (gCol n (by omega) u) d) _ hq
        (fun u d => (keyBlock_apply K ⟨n, hlt⟩ u d).trans (hK _ d)) ih,
      Fin.sum_univ_castSucc (n := n)]
    rfl

/-- After all eight trips the last stored value at row p is the row's cross-entropy loss. -/
theorem out_real (i : grid0.Coords) (pos : FVec Ideal S1024x1 .f32) (q : FVec Ideal S1024x128 .bf16)
    (K : Vec Ideal S8192x128 .bf16) (r : Fin 8192 → Fin 128 → ℝ) (p : Fin 1024)
    (hq : ∀ d : Fin 128, q (ix2 p d) = ((r (gRow i p) d : ℝ) : EReal))
    (hK : ∀ (j : Fin 8192) (d : Fin 128), K (ix2 j d) = ((r j d : ℝ) : EReal))
    (hpos : pos (ix2 p (0 : Fin 1)) = ((Cert.NTX.posLogit r (gRow i p) : ℝ) : EReal)) :
    Gen.k0_pay3 (F := Ideal) pos (accAt i q K 8) (ix2 p (0 : Fin 1))
      = ((Cert.NTX.rowLoss r (gRow i p) : ℝ) : EReal) := by
  have hacc := accAt_real i q K r p hq hK 8 le_rfl
  have h0 : (0 : ℝ) ≤ ∑ c : Fin 8, ∑ u : Fin 1024,
      if (i 0).val * 1024 + p.val = c.val * 1024 + u.val then 0
      else Real.exp (Cert.NTX.sim r (gRow i p) (gCol c.val (lt_of_lt_of_le c.isLt le_rfl) u) * 2) :=
    Finset.sum_nonneg fun c _ => Finset.sum_nonneg fun u _ => by
      split <;> [exact le_rfl; exact (Real.exp_pos _).le]
  have hsum : (∑ c : Fin 8, ∑ u : Fin 1024,
        if (i 0).val * 1024 + p.val = c.val * 1024 + u.val then (0 : ℝ)
        else Real.exp (Cert.NTX.sim r (gRow i p) (gCol c.val (lt_of_lt_of_le c.isLt le_rfl) u) * 2))
      = ∑ c : Fin 8, ∑ u : Fin 1024,
        if (⟨c.val * 1024 + u.val, by omega⟩ : Fin 8192) = gRow i p then (0 : ℝ)
        else Real.exp (Cert.NTX.sim r (gRow i p) ⟨c.val * 1024 + u.val, by omega⟩ * 2) :=
    Finset.sum_congr rfl fun c _ => Finset.sum_congr rfl fun u _ => by
      by_cases h : (i 0).val * 1024 + p.val = c.val * 1024 + u.val
      · rw [if_pos h, if_pos (Fin.ext h.symm)]
      · rw [if_neg h, if_neg (fun e => h (congrArg Fin.val e).symm)]
  rw [pay3_real pos _ _ _ _ hpos hacc h0, hsum]
  exact congrArg _ (Cert.NTX.ker_row r (gRow i p))

end Cert.KernelIdeal.KerValue

end
-- ==== Proof.KerBridge.lean ====
/-
  What the kernel body leaves in the output block, as pure functions of the three input blocks.

  The body's run leaves one store covering the output block: the last stored value of the positive logits' block and
  of the row accumulator read back after the loop. The accumulator is cleared before the loop and stored whole by every
  trip, so reading it back after the clearing store and the first n trips' stores gives the n-trip fold of the query
  block and the key matrix; after all eight trips it is the fold the last stored value takes.
-/
import proofs.«164084_j41266045780374_2_alg».proof.Proof.KIDat
import proofs.«164084_j41266045780374_2_alg».proof.Proof.KerFold
import Idealize.ShloMosaic.Lib.Pipeline.Value

set_option maxRecDepth 16384

noncomputable section

namespace Cert.KernelIdeal.Hand

open Cert.KernelIdeal Cert.KernelIdeal.Gen Cert.KernelIdeal.KerValue
open Idealize.ShloMosaic Idealize.ShloMosaic.TcCoe Idealize.ShloMosaic.Tactic
open Idealize.SL.Sem

/-- The zero offsets of a whole rank-2 rectangle. -/
theorem bridge_hz : (![0, 0] : Fin 2 → Nat) = fun _ => 0 := funext fun a => by fin_cases a <;> rfl

/-- The store that clears the row accumulator before the loop. -/
abbrev clearPiece : View.Piece (Elt Ideal) S1024x1 .f32 := ⟨rCol, Gen.k0_pay1 (F := Ideal)⟩

/-- The row accumulator read back whole after the clearing store and the first n trips' stores is the n-trip fold. -/
theorem acc_read (i : grid0.Coords) (arg2 : Memref sig .tc .vmem S1024x128 .bf16) (harg2 : arg2.IsWhole)
    (arg3 : Memref sig .tc .vmem S8192x128 .bf16) (harg3 : arg3.IsWhole) (arg5 : Memref sig .tc .vmem S1024x1 .f32)
    (x1 : Vec Ideal S1024x128 .bf16) (x2 : Vec Ideal S8192x128 .bf16) :
    ∀ n : ℕ, n ≤ k0_t1_loop.trips →
      arg5.view.readCov
          (pbE (F := Ideal) i arg2 arg3 arg5 (harg2.unread x1) (harg3.unread x2)
              (arg5.view.writes (Elt Ideal) arg5.view.junk [clearPiece]) n ++ [clearPiece])
          rCol.toLoadRect
        = accAt i x1 x2 n
  | 0, _ => by
    show arg5.view.readCov ([] ++ [clearPiece]) rCol.toLoadRect = Gen.k0_pay1 (F := Ideal)
    rw [List.nil_append]
    exact View.readCov_unit_zero (S := S1024x1) arg5.view bridge_hz _ _
  | n + 1, hn => by
    have hlt : n < k0_t1_loop.trips := hn
    have ih := acc_read i arg2 harg2 arg3 harg3 arg5 x1 x2 n (Nat.le_of_lt hlt)
    rw [pbE_succ (F := Ideal) i arg2 arg3 arg5 _ _ _ ⟨n, hlt⟩]
    unfold tripPiece
    rw [List.append_assoc, List.singleton_append, View.readCov_cons_toLoadRect]
    have e5 : View.readAt (Elt Ideal) arg5.view rCol.toLoadRect
          (arg5.view.writes (Elt Ideal) (arg5.view.writes (Elt Ideal) arg5.view.junk [clearPiece])
            (pbE (F := Ideal) i arg2 arg3 arg5 (harg2.unread x1) (harg3.unread x2)
              (arg5.view.writes (Elt Ideal) arg5.view.junk [clearPiece]) n))
        = accAt i x1 x2 n := by
      rw [← View.writes_append]; exact ih
    have e3 : View.readAt (Elt Ideal) arg3.view (rK ⟨n, hlt⟩).toLoadRect (harg3.unread x2)
        = View.ld (Val := Elt Ideal) x2 (KerValue.rK ⟨n, hlt⟩) := by
      rw [View.readAt_eq_ld, harg3.read_unread]
    have e2 : View.readAt (Elt Ideal) arg2.view rQ.toLoadRect (harg2.unread x1) = x1 := by
      rw [View.readAt_eq_ld, harg2.read_unread]; exact View.ld_unit_zero (S := S1024x128) bridge_hz _ x1
    rw [accAt, dif_pos hlt, e3, e2]
    exact congrArg _ e5

/-- What the body leaves in the output block is the last stored value of the positive logits' block and the eight-trip
    fold of the query block and the key matrix. -/
theorem out0_3_eq (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (x0 : Vec Ideal S1024x1 .f32) (x1 : Vec Ideal S1024x128 .bf16) (x2 : Vec Ideal S8192x128 .bf16) :
    out0_3 (F := Ideal) c i arg1 harg1 arg2 harg2 arg3 harg3 arg4 harg4 arg5 harg5 x0 x1 x2
      = Gen.k0_pay3 (F := Ideal) x0 (accAt i x1 x2 8) := by
  unfold out0_3
  rw [View.read_writes_eq_canon _ _ _ (cover0_3 c i arg1 harg1 arg2 harg2 arg3 harg3 arg4 harg4 arg5 harg5 x0 x1 x2)]
  unfold kernelRun0
  dsimp only
  rw [View.canon_unit_zero (S := S1024x1) bridge_hz]
  simp only [View.readAt_eq_ld, harg1.read_unread, View.ld_unit_zero (S := S1024x1) bridge_hz]
  refine congrArg (Gen.k0_pay3 (F := Ideal) x0) ?_
  sl_unfold_run_names
  exact (acc_read i arg2 harg2 arg3 harg3 arg5 x1 x2 _ le_rfl).trans (congrArg (accAt i x1 x2) trips_eq)

end Cert.KernelIdeal.Hand
end
-- ==== Proof.KerArray.lean ====
/-
  From the blocks to the array: after the region the output array holds the 8192 row losses.

  At grid point t the three blocked windows sit at block t of their arrays (1024 rows each) and the key matrix's window
  is the whole normalised matrix. So, when the normalised matrix holds (casts of) the reals r and the positive logits'
  array holds the positive logits of r, the body at point t leaves in the output block the losses of rows
  t · 1024 … t · 1024 + 1023; every point writes its block back, the eight blocks tile the array, and row j is written
  by point j / 1024.
-/
import proofs.«164084_j41266045780374_2_alg».proof.Proof.KerBridge
import Idealize.ShloMosaic.Lib.Pipeline.Value

set_option maxRecDepth 16384

noncomputable section

namespace Cert.KernelIdeal.Hand

open Cert.KernelIdeal Cert.KernelIdeal.Gen Cert.KernelIdeal.KerValue
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ)

/-- The printed index maps, decided over the grid: the three blocked windows sit at block t of their arrays at point t,
    the key matrix's window at block 0, and point t's grid coordinate is t. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ ((grid0.coords t) 0).val = t.val :=
  (by decide +kernel : ∀ t : Fin grid0.N, _)

/-- Row p of the positive logits' block at point t is row t · 1024 + p of their array. -/
theorem blk0_read (c : Dev nD) (X : Buf (Elt Ideal) ((c : Thread nD τ).loc main_v25)) (t : Fin cfg0.N) (p : Fin 1024) :
    ((cfg0.win 0).blk t).view.read (Elt Ideal) X (ix2 p (0 : Fin 1))
      = X (ix2 (⟨t.val * 1024 + p.val, by have := t.isLt; have hN : cfg0.N = 8 := N_0; omega⟩ : Fin 8192) (0 : Fin 1)) := by
  obtain ⟨e0, e1, -⟩ := idx_facts t
  rw [View.read_apply]
  show X (((cfg0.win 0).blk t).view.emb (ix2 p 0)) = _
  refine congrArg X (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 1 + 1 * 0 = 0; rw [e1]

/-- Row p of the query block at point t is row t · 1024 + p of the normalised matrix. -/
theorem blk1_read (c : Dev nD) (X : Buf (Elt Ideal) ((c : Thread nD τ).loc main_v19)) (t : Fin cfg0.N) (p : Fin 1024) (d : Fin 128) :
    ((cfg0.win 1).blk t).view.read (Elt Ideal) X (ix2 p d)
      = X (ix2 (⟨t.val * 1024 + p.val, by have := t.isLt; have hN : cfg0.N = 8 := N_0; omega⟩ : Fin 8192) d) := by
  obtain ⟨-, -, e0, e1, -⟩ := idx_facts t
  rw [View.read_apply]
  show X (((cfg0.win 1).blk t).view.emb (ix2 p d)) = _
  refine congrArg X (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 128 + 1 * d.val = d.val; rw [e1]; omega

/-- The key matrix's block at every point is the whole normalised matrix. -/
theorem blk2_read (c : Dev nD) (X : Buf (Elt Ideal) ((c : Thread nD τ).loc main_v19)) (t : Fin cfg0.N) (j : Fin 8192) (d : Fin 128) :
    ((cfg0.win 2).blk t).view.read (Elt Ideal) X (ix2 j d) = X (ix2 j d) := by
  obtain ⟨-, -, -, -, e0, e1, -⟩ := idx_facts t
  rw [View.read_apply]
  show X (((cfg0.win 2).blk t).view.emb (ix2 j d)) = _
  refine congrArg X (funext fun a => Fin.ext ?_)
  match a with
  | ⟨0, _⟩ => show win0_2.index t (0 : Fin 2) * 8192 + 1 * j.val = j.val; rw [e0]; omega
  | ⟨1, _⟩ => show win0_2.index t (1 : Fin 2) * 128 + 1 * d.val = d.val; rw [e1]; omega

/-- What the body leaves in the output block at row p, for real-valued input blocks: the row's loss. -/
theorem out0_3_real (c : Dev nD) (i : grid0.Coords) (arg1 : Memref sig .tc .vmem S1024x1 .f32) (harg1 : arg1.IsWhole) (arg2 : Memref sig .tc .vmem S1024x128 .bf16) (harg2 : arg2.IsWhole) (arg3 : Memref sig .tc .vmem S8192x128 .bf16) (harg3 : arg3.IsWhole) (arg4 : Memref sig .tc .vmem S1024x1 .f32) (harg4 : arg4.IsWhole) (arg5 : Memref sig .tc .vmem S1024x1 .f32) (harg5 : arg5.IsWhole) (x0 : Vec Ideal S1024x1 .f32) (x1 : Vec Ideal S1024x128 .bf16) (x2 : Vec Ideal S8192x128 .bf16)
    (r : Fin 8192 → Fin 128 → ℝ) (p : Fin 1024)
    (hq : ∀ d : Fin 128, x1 (ix2 p d) = ((r (gRow i p) d : ℝ) : EReal))
    (hK : ∀ (j : Fin 8192) (d : Fin 128), x2 (ix2 j d) = ((r j d : ℝ) : EReal))
    (hpos : x0 (ix2 p (0 : Fin 1)) = ((Cert.NTX.posLogit r (gRow i p) : ℝ) : EReal)) :
    out0_3 (F := Ideal) c i arg1 harg1 arg2 harg2 arg3 harg3 arg4 harg4 arg5 harg5 x0 x1 x2 (ix2 p (0 : Fin 1))
      = ((Cert.NTX.rowLoss r (gRow i p) : ℝ) : EReal) :=
  (congrFun (out0_3_eq c i arg1 harg1 arg2 harg2 arg3 harg3 arg4 harg4 arg5 harg5 x0 x1 x2) (ix2 p (0 : Fin 1))).trans
    (out_real i x0 x1 x2 r p hq hK hpos)

/-- The row losses as contents of the output array. -/
def lossArr (r : Fin 8192 → Fin 128 → ℝ) : S8192x1.Idx → EReal :=
  fun y => ((Cert.NTX.rowLoss r ⟨(y 0).val, (y 0).isLt⟩ : ℝ) : EReal)

/-- What point t writes back is block t of the row losses. -/
theorem flushed3_eq (c : Dev nD) (r : Fin 8192 → Fin 128 → ℝ)
    (hK : ∀ (j : Fin 8192) (d : Fin 128), V m c main_v19 (ix2 j d) = ((r j d : ℝ) : EReal))
    (hpos : ∀ j : Fin 8192, V m c main_v25 (ix2 j (0 : Fin 1)) = ((Cert.NTX.posLogit r j : ℝ) : EReal))
    (t : Fin cfg0.N) :
    (dats m 0 c).flushed 3 t = ((cfg0.win 3).blk t).view.read (Elt Ideal) (lossArr r) := by
  show (cfg0.win 3).cut (grid0.coords t) ((dats m 0 c).after 3 t) = _
  rw [after0_3]
  obtain ⟨-, -, -, -, -, -, e0, e1, eg⟩ := idx_facts t
  funext y
  obtain ⟨p, u, rfl⟩ : ∃ (p : Fin 1024) (u : Fin 1), y = ix2 p u := ⟨y 0, y 1, eq_ix2 y⟩
  obtain rfl : u = 0 := Subsingleton.elim _ _
  rw [View.read_apply]
  have hN : cfg0.N = 8 := N_0
  have hg : gRow (grid0.coords t) p = (⟨t.val * 1024 + p.val, by have := t.isLt; omega⟩ : Fin 8192) :=
    Fin.ext (by show (grid0.coords t 0).val * 1024 + p.val = t.val * 1024 + p.val; rw [eg])
  have h := out0_3_real c (grid0.coords t) (ms0_0 t) (hs0_0 t) (ms0_1 t) (hs0_1 t) (ms0_2 t) (hs0_2 t) (ms0_3 t) (hs0_3 t)
    scM0_0 (Memref.isWhole_whole _) (iblk m c 0 t) (iblk m c 1 t) (iblk m c 2 t) r p
    (fun d => by rw [hg]; exact (blk1_read c (V m c main_v19) t p d).trans (hK _ d))
    (fun j d => (blk2_read c (V m c main_v19) t j d).trans (hK j d))
    (by rw [hg]; exact (blk0_read c (V m c main_v25) t p).trans (hpos _))
  show out0_3 (F := Ideal) c (grid0.coords t) (ms0_0 t) (hs0_0 t) (ms0_1 t) (hs0_1 t) (ms0_2 t) (hs0_2 t) (ms0_3 t) (hs0_3 t)
      scM0_0 (Memref.isWhole_whole _) (iblk m c 0 t) (iblk m c 1 t) (iblk m c 2 t) (ix2 p (0 : Fin 1))
    = lossArr r (((cfg0.win 3).blk t).view.emb (ix2 p 0))
  refine h.trans ?_
  rw [hg]
  refine congrArg (fun j => ((Cert.NTX.rowLoss r j : ℝ) : EReal)) (Fin.ext ?_)
  show t.val * 1024 + p.val = win0_3.index t (0 : Fin 2) * 1024 + 1 * p.val
  rw [e0]; omega

/-- An index of the output array is in point t's block iff each coordinate is in the block's range on its axis. -/
theorem mem_blk3 (t : Fin cfg0.N) (i : S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v26).slice (win0_3.rect t)).set ↔ _
  rw [View.set_slice_whole, Rect.mem_set_unit]
  exact Iff.rfl

/-- Every row of the output array is written back by the point that holds it: row j by point j / 1024. -/
theorem cover3 (i : S8192x1.Idx) : ∃ t : Fin cfg0.N, (cfg0.win 3).flush t = true ∧ i ∈ ((cfg0.win 3).blk t).view.set := by
  have hN : cfg0.N = 8 := N_0
  have hi0 : (i 0).val < 8192 := (i 0).isLt
  have hi1 : (i 1).val < 1 := (i 1).isLt
  obtain ⟨t, ht⟩ : ∃ t : Fin cfg0.N, t.val = (i 0).val / 1024 := ⟨⟨(i 0).val / 1024, by omega⟩, rfl⟩
  obtain ⟨-, -, -, -, -, -, e0, e1, -⟩ := idx_facts t
  refine ⟨t, flush0_3 t, ?_⟩
  rw [mem_blk3]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1 ≤ (i 1).val ∧ (i 1).val < win0_3.index t (1 : Fin 2) * 1 + 1
    rw [e1]; omega

/-- After the region the output array holds the row losses. -/
theorem arrAt3_eq (c : Dev nD) (r : Fin 8192 → Fin 128 → ℝ)
    (hK : ∀ (j : Fin 8192) (d : Fin 128), V m c main_v19 (ix2 j d) = ((r j d : ℝ) : EReal))
    (hpos : ∀ j : Fin 8192, V m c main_v25 (ix2 j (0 : Fin 1)) = ((Cert.NTX.posLogit r j : ℝ) : EReal)) :
    (dats m 0 c).arrAt 3 cfg0.N = lossArr r :=
  (dats m 0 c).arrAt_eq_of_cover 3 (lossArr r) (fun t _ => flushed3_eq m c r hK hpos t) cover3

/-- Entry j of the output array after the region is row j's loss. -/
theorem arrAt3_real (c : Dev nD) (r : Fin 8192 → Fin 128 → ℝ)
    (hK : ∀ (j : Fin 8192) (d : Fin 128), V m c main_v19 (ix2 j d) = ((r j d : ℝ) : EReal))
    (hpos : ∀ j : Fin 8192, V m c main_v25 (ix2 j (0 : Fin 1)) = ((Cert.NTX.posLogit r j : ℝ) : EReal)) (j : Fin 8192) :
    (dats m 0 c).arrAt 3 cfg0.N (ix2 j (0 : Fin 1)) = ((Cert.NTX.rowLoss r j : ℝ) : EReal) := by
  rw [arrAt3_eq m c r hK hpos]
  rfl

end Cert.KernelIdeal.Hand
end
-- ==== Proof.KerTail.lean ====
/-
  The value of the four host operations after the region, at the ideal instance: the output array the region leaves, an
  [8192, 1] column, is summed over both axes from the zero word and the sum is divided by the word of 8192. When the
  column holds the 8192 row losses as reals, the result is their mean, the loss.
-/
import proofs.«164084_j41266045780374_2_alg».proof.Proof.KILaunch
import proofs.«164084_j41266045780374_2_alg».proof.Proof.Algebra
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ)

/-- The four operations after the region, as one term of the output array the region leaves: the sum of the array over
    both axes from the zero word, divided by the word of 8192. -/
theorem Wend_v28_term (c : Dev nD) :
    (Wend (F := Ideal) m c (Proc.devRef .tc main_v28) : S_.Idx → EReal)
      = Host.divf (F := Ideal)
          (Host.reduceAdd (F := Ideal) (Wexit (F := Ideal) m c (Proc.devRef .tc main_v26) : FVec Ideal S8192x1 .f32)
            (constant (F := Ideal) S_ .f32 0x00000000#32) reducesTo_S8192x1_S_d0_1 h_S_)
          (constant (F := Ideal) S_ .f32 0x46000000#32) := by
  unfold Wend
  simp only [hostOps1, List.flatten_cons, List.flatten_nil, List.append_nil]
  after_results

/-- The mean of a column of 8192 reals: the host's sum over both axes of an [8192, 1] array of reals from 0, divided by
    8192, is the real mean, at the one index of the scalar shape. -/
theorem tail_value (y : FVec Ideal S8192x1 .f32) (r : Fin 8192 → Fin 128 → ℝ)
    (hy : ∀ j : Fin 8192, y (ValueIdx.ix2 j (0 : Fin 1)) = ((Cert.NTX.rowLoss r j : ℝ) : EReal)) :
    Host.divf (F := Ideal)
        (Host.reduceAdd (F := Ideal) y (constant (F := Ideal) S_ .f32 0x00000000#32) reducesTo_S8192x1_S_d0_1 h_S_)
        (constant (F := Ideal) S_ .f32 0x46000000#32)
      = fun _ => ((Cert.NTX.loss r : ℝ) : EReal) := by
  funext i
  show Ideal.div (Ideal.hostReduceAdd reducesTo_S8192x1_S_d0_1 y (Ideal.ofBits .f32 0x00000000#32) i)
      (Ideal.ofBits .f32 0x46000000#32) = _
  rw [Ideal.hostReduceAdd_total reducesTo_S8192x1_S_d0_1 (fun b => b.elim0) y _ i, ValueIdx.sum_idx2]
  simp only [Fin.sum_univ_one, hy]
  rw [← Cert.NTX.coe_sum, Cert.NTX.ofBits_zero, ← EReal.coe_add, zero_add, Cert.NTX.ofBits_8192,
    Cert.NTX.div_coe_coe (by norm_num)]
  rfl

/-- After the four host operations the result buffer holds the mean row loss, when the output array the region leaves
    holds the row losses. -/
theorem Wend_v28 (c : Dev nD) (r : Fin 8192 → Fin 128 → ℝ)
    (hout : ∀ j : Fin 8192, (dats m 0 c).arrAt 3 cfg0.N (ValueIdx.ix2 j (0 : Fin 1)) = ((Cert.NTX.rowLoss r j : ℝ) : EReal)) :
    Wend (F := Ideal) m c (Proc.devRef .tc main_v28) = fun _ => ((Cert.NTX.loss r : ℝ) : EReal) := by
  refine (Wend_v28_term m c).trans ?_
  rw [Wexit_out]
  exact tail_value _ r hout

end Cert.KernelIdeal.Hand
end
-- ==== Proof.KerStages.lean ====
/-
  The 32 operations the program applies to its two inputs before the region, read one buffer at a time at the ideal
  instance. The operations form a straight line in which every operation writes one buffer of its own, once, from
  buffers written earlier or from the inputs. So what the region finds in a buffer is the operation that wrote it applied
  to what the region finds in that operation's operands: the row normalisation of each input (squares, row sums, square
  root, the larger of that and a small positive constant, division), the stack of the two blocks of normalised rows and
  its copy in the narrower format, and the positive logits (inner products of corresponding rows, laid twice end to end,
  times two).
-/
import proofs.«164084_j41266045780374_2_alg».proof.Proof.KIKit
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ)

/-- Two blocks of 4096 rows, the second under the first. -/
def stackRows (a b : FVec Ideal S4096x128 .f32) : FVec Ideal S8192x128 .f32 :=
  concatenate S8192x128 0 [⟨S4096x128, a⟩, ⟨S4096x128, b⟩] concatenates_S4096x128_S4096x128_S8192x128_d0
/-- Two vectors of 4096 entries end to end. -/
def stackVec (a b : FVec Ideal S4096 .f32) : FVec Ideal S8192 .f32 :=
  concatenate S8192 0 [⟨S4096, a⟩, ⟨S4096, b⟩] concatenates_S4096_S4096_S8192_d0

/-- The first argument array on core `c`. -/
abbrev X0 (c : Dev nD) : FVec Ideal S32x128x128 .f32 := m ((c : Thread nD τ).loc main_arg0)
/-- The second argument array on core `c`. -/
abbrev X1 (c : Dev nD) : FVec Ideal S32x128x128 .f32 := m ((c : Thread nD τ).loc main_arg1)
abbrev K_v0 (c : Dev nD) : FVec Ideal S4096x128 .f32 := V m c main_v0
abbrev K_v1 (c : Dev nD) : FVec Ideal S4096x128 .f32 := V m c main_v1
abbrev K_v2 (c : Dev nD) : FVec Ideal S4096x128 .f32 := V m c main_v2
abbrev K_cst (c : Dev nD) : FVec Ideal S_ .f32 := V m c main_cst
abbrev K_v3 (c : Dev nD) : FVec Ideal S4096 .f32 := V m c main_v3
abbrev K_v4 (c : Dev nD) : FVec Ideal S4096x1 .f32 := V m c main_v4
abbrev K_v5 (c : Dev nD) : FVec Ideal S4096x1 .f32 := V m c main_v5
abbrev K_cst_0 (c : Dev nD) : FVec Ideal S_ .f32 := V m c main_cst_0
abbrev K_v6 (c : Dev nD) : FVec Ideal S4096x1 .f32 := V m c main_v6
abbrev K_v7 (c : Dev nD) : FVec Ideal S4096x1 .f32 := V m c main_v7
abbrev K_v8 (c : Dev nD) : FVec Ideal S4096x128 .f32 := V m c main_v8
abbrev K_v9 (c : Dev nD) : FVec Ideal S4096x128 .f32 := V m c main_v9
abbrev K_v10 (c : Dev nD) : FVec Ideal S4096x128 .f32 := V m c main_v10
abbrev K_cst_1 (c : Dev nD) : FVec Ideal S_ .f32 := V m c main_cst_1
abbrev K_v11 (c : Dev nD) : FVec Ideal S4096 .f32 := V m c main_v11
abbrev K_v12 (c : Dev nD) : FVec Ideal S4096x1 .f32 := V m c main_v12
abbrev K_v13 (c : Dev nD) : FVec Ideal S4096x1 .f32 := V m c main_v13
abbrev K_cst_2 (c : Dev nD) : FVec Ideal S_ .f32 := V m c main_cst_2
abbrev K_v14 (c : Dev nD) : FVec Ideal S4096x1 .f32 := V m c main_v14
abbrev K_v15 (c : Dev nD) : FVec Ideal S4096x1 .f32 := V m c main_v15
abbrev K_v16 (c : Dev nD) : FVec Ideal S4096x128 .f32 := V m c main_v16
abbrev K_v17 (c : Dev nD) : FVec Ideal S4096x128 .f32 := V m c main_v17
abbrev K_v18 (c : Dev nD) : FVec Ideal S8192x128 .f32 := V m c main_v18
abbrev K_v19 (c : Dev nD) : FVec Ideal S8192x128 .bf16 := V m c main_v19
abbrev K_v20 (c : Dev nD) : FVec Ideal S4096x128 .f32 := V m c main_v20
abbrev K_cst_3 (c : Dev nD) : FVec Ideal S_ .f32 := V m c main_cst_3
abbrev K_v21 (c : Dev nD) : FVec Ideal S4096 .f32 := V m c main_v21
abbrev K_v22 (c : Dev nD) : FVec Ideal S8192 .f32 := V m c main_v22
abbrev K_v23 (c : Dev nD) : FVec Ideal S8192x1 .f32 := V m c main_v23
abbrev K_cst_4 (c : Dev nD) : FVec Ideal S_ .f32 := V m c main_cst_4
abbrev K_v24 (c : Dev nD) : FVec Ideal S8192x1 .f32 := V m c main_v24
abbrev K_v25 (c : Dev nD) : FVec Ideal S8192x1 .f32 := V m c main_v25

/-! ## The 32 operations as a straight line: each writes one buffer of its own, once -/

/-- The operations before the region, at the ideal instance. -/
abbrev ops : List (HloOp τ sig (Elt Ideal)) := hostOps0
/-- Their result buffers, in order. -/
def outs : List (Ref sig .tc) :=
  [main_v0, main_v1, main_v2, main_cst, main_v3, main_v4, main_v5, main_cst_0, main_v6, main_v7, main_v8, main_v9, main_v10, main_cst_1, main_v11, main_v12, main_v13, main_cst_2, main_v14, main_v15, main_v16, main_v17, main_v18, main_v19, main_v20, main_cst_3, main_v21, main_v22, main_v23, main_cst_4, main_v24, main_v25]

theorem ops_len : (ops).length = 32 := rfl
theorem outs_len : outs.length = 32 := rfl
theorem outs_nodup : outs.Nodup := by decide

/-- Operation `j` writes result buffer `j` and nothing else. -/
theorem writes_outs (j : Nat) (hj : j < 32) :
    ((ops)[j]'(by rw [ops_len]; exact hj)).writes = {Proc.devRef (τ := τ) .tc (outs[j]'(by rw [outs_len]; exact hj))} := by
  interval_cases j <;> rfl

/-- Core `c`'s buffer contents after the first `n` operations. -/
def U (n : Nat) (c : Dev nD) : Valuation τ sig (Elt Ideal) := after ((ops).take n) (fun b => m (c, b))

/-- After all 32 the contents are those the region finds. -/
theorem U_all (c : Dev nD) : U m 32 c = V0 m c := rfl

/-- One more operation. -/
theorem U_succ (n : Nat) (hn : n < 32) (c : Dev nD) :
    U m (n + 1) c = ((ops)[n]'(by rw [ops_len]; exact hn)).result (U m n c) := by
  unfold U
  rw [List.take_succ, List.getElem?_eq_getElem (by rw [ops_len]; exact hn), Option.toList_some, StableHlo.after_append,
    after_cons, after_nil]

/-- A result buffer is not written again by later operations. -/
theorem U_stable (c : Dev nD) (k : Nat) (hk : k < 32) : ∀ d, k + 1 + d ≤ 32 →
    U m (k + 1 + d) c (Proc.devRef .tc (outs[k]'(by rw [outs_len]; exact hk)))
      = U m (k + 1) c (Proc.devRef .tc (outs[k]'(by rw [outs_len]; exact hk)))
  | 0, _ => rfl
  | d + 1, h => by
    have hn : k + 1 + d < 32 := by omega
    rw [show k + 1 + (d + 1) = (k + 1 + d) + 1 from rfl, U_succ m (k + 1 + d) hn c, HloOp.result_of_not_mem,
      U_stable c k hk d (by omega)]
    rw [writes_outs _ hn, Finset.mem_singleton]
    refine devRef_ne_of_ne fun e => ?_
    have := (List.Nodup.getElem_inj_iff outs_nodup).mp e
    omega

/-- What the region finds in result buffer `k` is what operation `k` computes from the contents before it. -/
theorem final (c : Dev nD) (k : Nat) (hk : k < 32) :
    V0 m c (Proc.devRef .tc (outs[k]'(by rw [outs_len]; exact hk)))
      = ((ops)[k]'(by rw [ops_len]; exact hk)).result (U m k c) (Proc.devRef .tc (outs[k]'(by rw [outs_len]; exact hk))) := by
  have h := U_stable m c k hk (32 - (k + 1)) (by omega)
  rw [show k + 1 + (32 - (k + 1)) = 32 by omega, U_all] at h
  rw [h, U_succ m k hk c]

/-- Before operation `n` an earlier result buffer `k` already holds what the region finds in it. -/
theorem U_eq_final (c : Dev nD) (k n : Nat) (hk : k < n) (hn : n ≤ 32) :
    U m n c (Proc.devRef .tc (outs[k]'(by rw [outs_len]; omega))) = V0 m c (Proc.devRef .tc (outs[k]'(by rw [outs_len]; omega))) := by
  have h1 := U_stable m c k (by omega) (n - (k + 1)) (by omega)
  have h2 := U_stable m c k (by omega) (32 - (k + 1)) (by omega)
  rw [show k + 1 + (n - (k + 1)) = n by omega] at h1
  rw [show k + 1 + (32 - (k + 1)) = 32 by omega, U_all] at h2
  rw [h1, h2]

/-- A buffer no operation writes keeps the launch memory's contents. -/
theorem U_arg (c : Dev nD) (r : Ref sig .tc) (hr : r ∉ outs) : ∀ n, n ≤ 32 → U m n c (Proc.devRef .tc r) = m (c, Proc.devRef .tc r)
  | 0, _ => rfl
  | n + 1, h => by
    have hn : n < 32 := by omega
    rw [U_succ m n hn c, HloOp.result_of_not_mem, U_arg c r hr n (by omega)]
    rw [writes_outs _ hn, Finset.mem_singleton]
    exact devRef_ne_of_ne fun e => hr (e ▸ List.getElem_mem _)

/-! ## Each buffer the region finds, from the buffers it is computed from -/

/-- `main_v0`: the first input as 4096 rows. -/
theorem stage_v0 (c : Dev nD) : K_v0 m c = shapeCast _ (X0 m c) shapeCasts_S32x128x128_S4096x128 := by
  have h0 : U m 0 c (Proc.devRef .tc main_arg0) = X0 m c := U_arg m c main_arg0 (by decide) 0 (by decide)
  rw [← h0]
  refine (final m c 0 (by decide)).trans ?_
  show (StableHlo.reshape main_arg0 main_v0 rfl shapeCasts_S32x128x128_S4096x128 : HloOp τ sig (Elt Ideal)).result (U m 0 c) (Proc.devRef .tc main_v0) = _
  rw [reshape_result]
  rfl

/-- `main_v1`: the second input as 4096 rows. -/
theorem stage_v1 (c : Dev nD) : K_v1 m c = shapeCast _ (X1 m c) shapeCasts_S32x128x128_S4096x128 := by
  have h0 : U m 1 c (Proc.devRef .tc main_arg1) = X1 m c := U_arg m c main_arg1 (by decide) 1 (by decide)
  rw [← h0]
  refine (final m c 1 (by decide)).trans ?_
  show (StableHlo.reshape main_arg1 main_v1 rfl shapeCasts_S32x128x128_S4096x128 : HloOp τ sig (Elt Ideal)).result (U m 1 c) (Proc.devRef .tc main_v1) = _
  rw [reshape_result]
  rfl

/-- `main_v2`: its squares. -/
theorem stage_v2 (c : Dev nD) : K_v2 m c = mulf (K_v0 m c) (K_v0 m c) := by
  have h0 : U m 2 c (Proc.devRef .tc main_v0) = K_v0 m c := U_eq_final m c 0 2 (by decide) (by decide)
  rw [← h0]
  refine (final m c 2 (by decide)).trans ?_
  show (StableHlo.binary main_v0 main_v0 main_v2 (mulf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 2 c) (Proc.devRef .tc main_v2) = _
  rw [binary_result]

/-- `main_cst`: the zero the row sums start from. -/
theorem stage_cst (c : Dev nD) : K_cst m c = constant (F := Ideal) S_ .f32 0x00000000#32 := by
  refine (final m c 3 (by decide)).trans ?_
  show (StableHlo.nullary main_cst (constant (F := Ideal) S_ .f32 0x00000000#32) : HloOp τ sig (Elt Ideal)).result (U m 3 c) (Proc.devRef .tc main_cst) = _
  rw [nullary_result]

/-- `main_v3`: the rows' sums of squares. -/
theorem stage_v3 (c : Dev nD) : K_v3 m c = Host.reduceAdd (K_v2 m c) (K_cst m c) reducesTo_S4096x128_S4096_d1 h_S_ := by
  have h0 : U m 4 c (Proc.devRef .tc main_v2) = K_v2 m c := U_eq_final m c 2 4 (by decide) (by decide)
  have h1 : U m 4 c (Proc.devRef .tc main_cst) = K_cst m c := U_eq_final m c 3 4 (by decide) (by decide)
  rw [← h0, ← h1]
  refine (final m c 4 (by decide)).trans ?_
  show (StableHlo.binary main_v2 main_cst main_v3 ((fun x v => Host.reduceAdd (F := Ideal) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) : HloOp τ sig (Elt Ideal)).result (U m 4 c) (Proc.devRef .tc main_v3) = _
  rw [binary_result]

/-- `main_v4`: as a column. -/
theorem stage_v4 (c : Dev nD) : K_v4 m c = broadcastInDim S4096x1 ![0] bcast_S4096_S4096x1_0 (K_v3 m c) := by
  have h0 : U m 5 c (Proc.devRef .tc main_v3) = K_v3 m c := U_eq_final m c 4 5 (by decide) (by decide)
  rw [← h0]
  refine (final m c 5 (by decide)).trans ?_
  show (StableHlo.unary main_v3 main_v4 (broadcastInDim S4096x1 ![0] bcast_S4096_S4096x1_0 : (⟨S4096, .f32⟩ : BufTy).Contents (Elt Ideal) → (⟨S4096x1, .f32⟩ : BufTy).Contents (Elt Ideal)) : HloOp τ sig (Elt Ideal)).result (U m 5 c) (Proc.devRef .tc main_v4) = _
  rw [unary_result]

/-- `main_v5`: the rows' norms. -/
theorem stage_v5 (c : Dev nD) : K_v5 m c = Host.sqrt (K_v4 m c) := by
  have h0 : U m 6 c (Proc.devRef .tc main_v4) = K_v4 m c := U_eq_final m c 5 6 (by decide) (by decide)
  rw [← h0]
  refine (final m c 6 (by decide)).trans ?_
  show (StableHlo.unary main_v4 main_v5 (Host.sqrt (F := Ideal) : (⟨S4096x1, .f32⟩ : BufTy).Contents (Elt Ideal) → (⟨S4096x1, .f32⟩ : BufTy).Contents (Elt Ideal)) : HloOp τ sig (Elt Ideal)).result (U m 6 c) (Proc.devRef .tc main_v5) = _
  rw [unary_result]

/-- `main_cst_0`: the small positive constant. -/
theorem stage_cst_0 (c : Dev nD) : K_cst_0 m c = constant (F := Ideal) S_ .f32 0x2B8CBCCC#32 := by
  refine (final m c 7 (by decide)).trans ?_
  show (StableHlo.nullary main_cst_0 (constant (F := Ideal) S_ .f32 0x2B8CBCCC#32) : HloOp τ sig (Elt Ideal)).result (U m 7 c) (Proc.devRef .tc main_cst_0) = _
  rw [nullary_result]

/-- `main_v6`: as a column. -/
theorem stage_v6 (c : Dev nD) : K_v6 m c = broadcastInDim S4096x1 ![] bcast_S_S4096x1 (K_cst_0 m c) := by
  have h0 : U m 8 c (Proc.devRef .tc main_cst_0) = K_cst_0 m c := U_eq_final m c 7 8 (by decide) (by decide)
  rw [← h0]
  refine (final m c 8 (by decide)).trans ?_
  show (StableHlo.unary main_cst_0 main_v6 (broadcastInDim S4096x1 ![] bcast_S_S4096x1 : (⟨S_, .f32⟩ : BufTy).Contents (Elt Ideal) → (⟨S4096x1, .f32⟩ : BufTy).Contents (Elt Ideal)) : HloOp τ sig (Elt Ideal)).result (U m 8 c) (Proc.devRef .tc main_v6) = _
  rw [unary_result]

/-- `main_v7`: the clamped norms. -/
theorem stage_v7 (c : Dev nD) : K_v7 m c = maximumf (K_v5 m c) (K_v6 m c) := by
  have h0 : U m 9 c (Proc.devRef .tc main_v5) = K_v5 m c := U_eq_final m c 6 9 (by decide) (by decide)
  have h1 : U m 9 c (Proc.devRef .tc main_v6) = K_v6 m c := U_eq_final m c 8 9 (by decide) (by decide)
  rw [← h0, ← h1]
  refine (final m c 9 (by decide)).trans ?_
  show (StableHlo.binary main_v5 main_v6 main_v7 (maximumf (F := Ideal) : (⟨S4096x1, .f32⟩ : BufTy).Contents (Elt Ideal) → (⟨S4096x1, .f32⟩ : BufTy).Contents (Elt Ideal) → (⟨S4096x1, .f32⟩ : BufTy).Contents (Elt Ideal)) : HloOp τ sig (Elt Ideal)).result (U m 9 c) (Proc.devRef .tc main_v7) = _
  rw [binary_result]

/-- `main_v8`: spread along the rows. -/
theorem stage_v8 (c : Dev nD) : K_v8 m c = broadcastInDim S4096x128 ![0, 1] bcast_S4096x1_S4096x128_0_1 (K_v7 m c) := by
  have h0 : U m 10 c (Proc.devRef .tc main_v7) = K_v7 m c := U_eq_final m c 9 10 (by decide) (by decide)
  rw [← h0]
  refine (final m c 10 (by decide)).trans ?_
  show (StableHlo.unary main_v7 main_v8 (broadcastInDim S4096x128 ![0, 1] bcast_S4096x1_S4096x128_0_1 : (⟨S4096x1, .f32⟩ : BufTy).Contents (Elt Ideal) → (⟨S4096x128, .f32⟩ : BufTy).Contents (Elt Ideal)) : HloOp τ sig (Elt Ideal)).result (U m 10 c) (Proc.devRef .tc main_v8) = _
  rw [unary_result]

/-- `main_v9`: the first input's normalised rows. -/
theorem stage_v9 (c : Dev nD) : K_v9 m c = Host.divf (K_v0 m c) (K_v8 m c) := by
  have h0 : U m 11 c (Proc.devRef .tc main_v0) = K_v0 m c := U_eq_final m c 0 11 (by decide) (by decide)
  have h1 : U m 11 c (Proc.devRef .tc main_v8) = K_v8 m c := U_eq_final m c 10 11 (by decide) (by decide)
  rw [← h0, ← h1]
  refine (final m c 11 (by decide)).trans ?_
  show (StableHlo.binary main_v0 main_v8 main_v9 (Host.divf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 11 c) (Proc.devRef .tc main_v9) = _
  rw [binary_result]

/-- `main_v10`: the second input's squares. -/
theorem stage_v10 (c : Dev nD) : K_v10 m c = mulf (K_v1 m c) (K_v1 m c) := by
  have h0 : U m 12 c (Proc.devRef .tc main_v1) = K_v1 m c := U_eq_final m c 1 12 (by decide) (by decide)
  rw [← h0]
  refine (final m c 12 (by decide)).trans ?_
  show (StableHlo.binary main_v1 main_v1 main_v10 (mulf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 12 c) (Proc.devRef .tc main_v10) = _
  rw [binary_result]

/-- `main_cst_1`: zero. -/
theorem stage_cst_1 (c : Dev nD) : K_cst_1 m c = constant (F := Ideal) S_ .f32 0x00000000#32 := by
  refine (final m c 13 (by decide)).trans ?_
  show (StableHlo.nullary main_cst_1 (constant (F := Ideal) S_ .f32 0x00000000#32) : HloOp τ sig (Elt Ideal)).result (U m 13 c) (Proc.devRef .tc main_cst_1) = _
  rw [nullary_result]

/-- `main_v11`: its rows' sums of squares. -/
theorem stage_v11 (c : Dev nD) : K_v11 m c = Host.reduceAdd (K_v10 m c) (K_cst_1 m c) reducesTo_S4096x128_S4096_d1 h_S_ := by
  have h0 : U m 14 c (Proc.devRef .tc main_v10) = K_v10 m c := U_eq_final m c 12 14 (by decide) (by decide)
  have h1 : U m 14 c (Proc.devRef .tc main_cst_1) = K_cst_1 m c := U_eq_final m c 13 14 (by decide) (by decide)
  rw [← h0, ← h1]
  refine (final m c 14 (by decide)).trans ?_
  show (StableHlo.binary main_v10 main_cst_1 main_v11 ((fun x v => Host.reduceAdd (F := Ideal) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) : HloOp τ sig (Elt Ideal)).result (U m 14 c) (Proc.devRef .tc main_v11) = _
  rw [binary_result]

/-- `main_v12`: as a column. -/
theorem stage_v12 (c : Dev nD) : K_v12 m c = broadcastInDim S4096x1 ![0] bcast_S4096_S4096x1_0 (K_v11 m c) := by
  have h0 : U m 15 c (Proc.devRef .tc main_v11) = K_v11 m c := U_eq_final m c 14 15 (by decide) (by decide)
  rw [← h0]
  refine (final m c 15 (by decide)).trans ?_
  show (StableHlo.unary main_v11 main_v12 (broadcastInDim S4096x1 ![0] bcast_S4096_S4096x1_0 : (⟨S4096, .f32⟩ : BufTy).Contents (Elt Ideal) → (⟨S4096x1, .f32⟩ : BufTy).Contents (Elt Ideal)) : HloOp τ sig (Elt Ideal)).result (U m 15 c) (Proc.devRef .tc main_v12) = _
  rw [unary_result]

/-- `main_v13`: the norms. -/
theorem stage_v13 (c : Dev nD) : K_v13 m c = Host.sqrt (K_v12 m c) := by
  have h0 : U m 16 c (Proc.devRef .tc main_v12) = K_v12 m c := U_eq_final m c 15 16 (by decide) (by decide)
  rw [← h0]
  refine (final m c 16 (by decide)).trans ?_
  show (StableHlo.unary main_v12 main_v13 (Host.sqrt (F := Ideal) : (⟨S4096x1, .f32⟩ : BufTy).Contents (Elt Ideal) → (⟨S4096x1, .f32⟩ : BufTy).Contents (Elt Ideal)) : HloOp τ sig (Elt Ideal)).result (U m 16 c) (Proc.devRef .tc main_v13) = _
  rw [unary_result]

/-- `main_cst_2`: the small positive constant. -/
theorem stage_cst_2 (c : Dev nD) : K_cst_2 m c = constant (F := Ideal) S_ .f32 0x2B8CBCCC#32 := by
  refine (final m c 17 (by decide)).trans ?_
  show (StableHlo.nullary main_cst_2 (constant (F := Ideal) S_ .f32 0x2B8CBCCC#32) : HloOp τ sig (Elt Ideal)).result (U m 17 c) (Proc.devRef .tc main_cst_2) = _
  rw [nullary_result]

/-- `main_v14`: as a column. -/
theorem stage_v14 (c : Dev nD) : K_v14 m c = broadcastInDim S4096x1 ![] bcast_S_S4096x1 (K_cst_2 m c) := by
  have h0 : U m 18 c (Proc.devRef .tc main_cst_2) = K_cst_2 m c := U_eq_final m c 17 18 (by decide) (by decide)
  rw [← h0]
  refine (final m c 18 (by decide)).trans ?_
  show (StableHlo.unary main_cst_2 main_v14 (broadcastInDim S4096x1 ![] bcast_S_S4096x1 : (⟨S_, .f32⟩ : BufTy).Contents (Elt Ideal) → (⟨S4096x1, .f32⟩ : BufTy).Contents (Elt Ideal)) : HloOp τ sig (Elt Ideal)).result (U m 18 c) (Proc.devRef .tc main_v14) = _
  rw [unary_result]

/-- `main_v15`: the clamped norms. -/
theorem stage_v15 (c : Dev nD) : K_v15 m c = maximumf (K_v13 m c) (K_v14 m c) := by
  have h0 : U m 19 c (Proc.devRef .tc main_v13) = K_v13 m c := U_eq_final m c 16 19 (by decide) (by decide)
  have h1 : U m 19 c (Proc.devRef .tc main_v14) = K_v14 m c := U_eq_final m c 18 19 (by decide) (by decide)
  rw [← h0, ← h1]
  refine (final m c 19 (by decide)).trans ?_
  show (StableHlo.binary main_v13 main_v14 main_v15 (maximumf (F := Ideal) : (⟨S4096x1, .f32⟩ : BufTy).Contents (Elt Ideal) → (⟨S4096x1, .f32⟩ : BufTy).Contents (Elt Ideal) → (⟨S4096x1, .f32⟩ : BufTy).Contents (Elt Ideal)) : HloOp τ sig (Elt Ideal)).result (U m 19 c) (Proc.devRef .tc main_v15) = _
  rw [binary_result]

/-- `main_v16`: spread along the rows. -/
theorem stage_v16 (c : Dev nD) : K_v16 m c = broadcastInDim S4096x128 ![0, 1] bcast_S4096x1_S4096x128_0_1 (K_v15 m c) := by
  have h0 : U m 20 c (Proc.devRef .tc main_v15) = K_v15 m c := U_eq_final m c 19 20 (by decide) (by decide)
  rw [← h0]
  refine (final m c 20 (by decide)).trans ?_
  show (StableHlo.unary main_v15 main_v16 (broadcastInDim S4096x128 ![0, 1] bcast_S4096x1_S4096x128_0_1 : (⟨S4096x1, .f32⟩ : BufTy).Contents (Elt Ideal) → (⟨S4096x128, .f32⟩ : BufTy).Contents (Elt Ideal)) : HloOp τ sig (Elt Ideal)).result (U m 20 c) (Proc.devRef .tc main_v16) = _
  rw [unary_result]

/-- `main_v17`: the second input's normalised rows. -/
theorem stage_v17 (c : Dev nD) : K_v17 m c = Host.divf (K_v1 m c) (K_v16 m c) := by
  have h0 : U m 21 c (Proc.devRef .tc main_v1) = K_v1 m c := U_eq_final m c 1 21 (by decide) (by decide)
  have h1 : U m 21 c (Proc.devRef .tc main_v16) = K_v16 m c := U_eq_final m c 20 21 (by decide) (by decide)
  rw [← h0, ← h1]
  refine (final m c 21 (by decide)).trans ?_
  show (StableHlo.binary main_v1 main_v16 main_v17 (Host.divf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 21 c) (Proc.devRef .tc main_v17) = _
  rw [binary_result]

/-- `main_v18`: the stack of the two blocks of rows. -/
theorem stage_v18 (c : Dev nD) : K_v18 m c = stackRows (K_v9 m c) (K_v17 m c) := by
  have h0 : U m 22 c (Proc.devRef .tc main_v9) = K_v9 m c := U_eq_final m c 11 22 (by decide) (by decide)
  have h1 : U m 22 c (Proc.devRef .tc main_v17) = K_v17 m c := U_eq_final m c 21 22 (by decide) (by decide)
  rw [← h0, ← h1]
  refine (final m c 22 (by decide)).trans ?_
  show (StableHlo.binary main_v9 main_v17 main_v18 ((fun a b => concatenate S8192x128 0 [⟨S4096x128, a⟩, ⟨S4096x128, b⟩] concatenates_S4096x128_S4096x128_S8192x128_d0) : (⟨S4096x128, .f32⟩ : BufTy).Contents (Elt Ideal) → (⟨S4096x128, .f32⟩ : BufTy).Contents (Elt Ideal) → (⟨S8192x128, .f32⟩ : BufTy).Contents (Elt Ideal)) : HloOp τ sig (Elt Ideal)).result (U m 22 c) (Proc.devRef .tc main_v18) = _
  rw [binary_result]
  rfl

/-- `main_v19`: the stack in the narrower format. -/
theorem stage_v19 (c : Dev nD) : K_v19 m c = truncf .bf16 (K_v18 m c) bitsLt_bf16_f32 := by
  have h0 : U m 23 c (Proc.devRef .tc main_v18) = K_v18 m c := U_eq_final m c 22 23 (by decide) (by decide)
  rw [← h0]
  refine (final m c 23 (by decide)).trans ?_
  show (StableHlo.unary main_v18 main_v19 ((truncf (F := Ideal) .bf16 · bitsLt_bf16_f32) : (⟨S8192x128, .f32⟩ : BufTy).Contents (Elt Ideal) → (⟨S8192x128, .bf16⟩ : BufTy).Contents (Elt Ideal)) : HloOp τ sig (Elt Ideal)).result (U m 23 c) (Proc.devRef .tc main_v19) = _
  rw [unary_result]

/-- `main_v20`: the entrywise products of corresponding normalised rows. -/
theorem stage_v20 (c : Dev nD) : K_v20 m c = mulf (K_v9 m c) (K_v17 m c) := by
  have h0 : U m 24 c (Proc.devRef .tc main_v9) = K_v9 m c := U_eq_final m c 11 24 (by decide) (by decide)
  have h1 : U m 24 c (Proc.devRef .tc main_v17) = K_v17 m c := U_eq_final m c 21 24 (by decide) (by decide)
  rw [← h0, ← h1]
  refine (final m c 24 (by decide)).trans ?_
  show (StableHlo.binary main_v9 main_v17 main_v20 (mulf (F := Ideal) : (⟨S4096x128, .f32⟩ : BufTy).Contents (Elt Ideal) → (⟨S4096x128, .f32⟩ : BufTy).Contents (Elt Ideal) → (⟨S4096x128, .f32⟩ : BufTy).Contents (Elt Ideal)) : HloOp τ sig (Elt Ideal)).result (U m 24 c) (Proc.devRef .tc main_v20) = _
  rw [binary_result]

/-- `main_cst_3`: zero. -/
theorem stage_cst_3 (c : Dev nD) : K_cst_3 m c = constant (F := Ideal) S_ .f32 0x00000000#32 := by
  refine (final m c 25 (by decide)).trans ?_
  show (StableHlo.nullary main_cst_3 (constant (F := Ideal) S_ .f32 0x00000000#32) : HloOp τ sig (Elt Ideal)).result (U m 25 c) (Proc.devRef .tc main_cst_3) = _
  rw [nullary_result]

/-- `main_v21`: the inner products of corresponding rows. -/
theorem stage_v21 (c : Dev nD) : K_v21 m c = Host.reduceAdd (K_v20 m c) (K_cst_3 m c) reducesTo_S4096x128_S4096_d1 h_S_ := by
  have h0 : U m 26 c (Proc.devRef .tc main_v20) = K_v20 m c := U_eq_final m c 24 26 (by decide) (by decide)
  have h1 : U m 26 c (Proc.devRef .tc main_cst_3) = K_cst_3 m c := U_eq_final m c 25 26 (by decide) (by decide)
  rw [← h0, ← h1]
  refine (final m c 26 (by decide)).trans ?_
  show (StableHlo.binary main_v20 main_cst_3 main_v21 ((fun x v => Host.reduceAdd (F := Ideal) x v reducesTo_S4096x128_S4096_d1 h_S_) : (⟨S4096x128, .f32⟩ : BufTy).Contents (Elt Ideal) → (⟨S_, .f32⟩ : BufTy).Contents (Elt Ideal) → (⟨S4096, .f32⟩ : BufTy).Contents (Elt Ideal)) : HloOp τ sig (Elt Ideal)).result (U m 26 c) (Proc.devRef .tc main_v21) = _
  rw [binary_result]

/-- `main_v22`: laid twice end to end. -/
theorem stage_v22 (c : Dev nD) : K_v22 m c = stackVec (K_v21 m c) (K_v21 m c) := by
  have h0 : U m 27 c (Proc.devRef .tc main_v21) = K_v21 m c := U_eq_final m c 26 27 (by decide) (by decide)
  rw [← h0]
  refine (final m c 27 (by decide)).trans ?_
  show (StableHlo.binary main_v21 main_v21 main_v22 ((fun a b => concatenate S8192 0 [⟨S4096, a⟩, ⟨S4096, b⟩] concatenates_S4096_S4096_S8192_d0) : (⟨S4096, .f32⟩ : BufTy).Contents (Elt Ideal) → (⟨S4096, .f32⟩ : BufTy).Contents (Elt Ideal) → (⟨S8192, .f32⟩ : BufTy).Contents (Elt Ideal)) : HloOp τ sig (Elt Ideal)).result (U m 27 c) (Proc.devRef .tc main_v22) = _
  rw [binary_result]
  rfl

/-- `main_v23`: as a column. -/
theorem stage_v23 (c : Dev nD) : K_v23 m c = broadcastInDim S8192x1 ![0] bcast_S8192_S8192x1_0 (K_v22 m c) := by
  have h0 : U m 28 c (Proc.devRef .tc main_v22) = K_v22 m c := U_eq_final m c 27 28 (by decide) (by decide)
  rw [← h0]
  refine (final m c 28 (by decide)).trans ?_
  show (StableHlo.unary main_v22 main_v23 (broadcastInDim S8192x1 ![0] bcast_S8192_S8192x1_0 : (⟨S8192, .f32⟩ : BufTy).Contents (Elt Ideal) → (⟨S8192x1, .f32⟩ : BufTy).Contents (Elt Ideal)) : HloOp τ sig (Elt Ideal)).result (U m 28 c) (Proc.devRef .tc main_v23) = _
  rw [unary_result]

/-- `main_cst_4`: the constant two. -/
theorem stage_cst_4 (c : Dev nD) : K_cst_4 m c = constant (F := Ideal) S_ .f32 0x40000000#32 := by
  refine (final m c 29 (by decide)).trans ?_
  show (StableHlo.nullary main_cst_4 (constant (F := Ideal) S_ .f32 0x40000000#32) : HloOp τ sig (Elt Ideal)).result (U m 29 c) (Proc.devRef .tc main_cst_4) = _
  rw [nullary_result]

/-- `main_v24`: as a column. -/
theorem stage_v24 (c : Dev nD) : K_v24 m c = broadcastInDim S8192x1 ![] bcast_S_S8192x1 (K_cst_4 m c) := by
  have h0 : U m 30 c (Proc.devRef .tc main_cst_4) = K_cst_4 m c := U_eq_final m c 29 30 (by decide) (by decide)
  rw [← h0]
  refine (final m c 30 (by decide)).trans ?_
  show (StableHlo.unary main_cst_4 main_v24 (broadcastInDim S8192x1 ![] bcast_S_S8192x1 : (⟨S_, .f32⟩ : BufTy).Contents (Elt Ideal) → (⟨S8192x1, .f32⟩ : BufTy).Contents (Elt Ideal)) : HloOp τ sig (Elt Ideal)).result (U m 30 c) (Proc.devRef .tc main_v24) = _
  rw [unary_result]

/-- `main_v25`: the positive logits. -/
theorem stage_v25 (c : Dev nD) : K_v25 m c = mulf (K_v23 m c) (K_v24 m c) := by
  have h0 : U m 31 c (Proc.devRef .tc main_v23) = K_v23 m c := U_eq_final m c 28 31 (by decide) (by decide)
  have h1 : U m 31 c (Proc.devRef .tc main_v24) = K_v24 m c := U_eq_final m c 30 31 (by decide) (by decide)
  rw [← h0, ← h1]
  refine (final m c 31 (by decide)).trans ?_
  show (StableHlo.binary main_v23 main_v24 main_v25 (mulf (F := Ideal) : (⟨S8192x1, .f32⟩ : BufTy).Contents (Elt Ideal) → (⟨S8192x1, .f32⟩ : BufTy).Contents (Elt Ideal) → (⟨S8192x1, .f32⟩ : BufTy).Contents (Elt Ideal)) : HloOp τ sig (Elt Ideal)).result (U m 31 c) (Proc.devRef .tc main_v25) = _
  rw [binary_result]

end Cert.KernelIdeal.Hand

end
-- ==== Proof.LibRealClosure.lean ====
/-
  Real numbers inside the extended reals: the coercion of a finite sum, closure of "is a real number" (neither −∞ nor +∞)
  under sums and sums of products, and the one law of the extended reals' division used to trade a reciprocal for a
  quotient: `a · (1 / b) = a / b` off a zero divisor (at `b = 0 = a` the left side is `0`, the right side `−∞`).
-/
import Idealize.ShloMosaic.PureOps.Ideal

noncomputable section

namespace Cert.RealClosure

open Idealize.ShloMosaic

/-- Multiplying by the reciprocal is dividing, off a zero divisor. -/
theorem mul_div_one (a b : EReal) (hb : b ≠ 0) : a * Ideal.div 1 b = Ideal.div a b := by
  unfold Ideal.div; rw [if_neg hb, if_neg hb, one_mul]

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of two reals is real. -/
theorem add_real {a b : EReal} (ha : a ≠ ⊥ ∧ a ≠ ⊤) (hb : b ≠ ⊥ ∧ b ≠ ⊤) : a + b ≠ ⊥ ∧ a + b ≠ ⊤ := by
  lift a to ℝ using ⟨ha.2, ha.1⟩
  lift b to ℝ using ⟨hb.2, hb.1⟩
  rw [← EReal.coe_add]
  exact ⟨EReal.coe_ne_bot _, EReal.coe_ne_top _⟩

/-- A finite sum of products of reals is real. -/
theorem sum_mul_real {ι : Type} (s : Finset ι) (f g : ι → EReal) (hf : ∀ i, f i ≠ ⊥ ∧ f i ≠ ⊤) (hg : ∀ i, g i ≠ ⊥ ∧ g i ≠ ⊤) :
    (∑ i ∈ s, f i * g i) ≠ ⊥ ∧ (∑ i ∈ s, f i * g i) ≠ ⊤ := by
  lift f to ι → ℝ using fun n => ⟨(hf n).2, (hf n).1⟩
  lift g to ι → ℝ using fun n => ⟨(hg n).2, (hg n).1⟩
  have : (∑ i ∈ s, (f i : EReal) * (g i : EReal)) = ((∑ i ∈ s, f i * g i : ℝ) : EReal) := by
    rw [coe_sum]; exact Finset.sum_congr rfl fun i _ => (EReal.coe_mul _ _).symm
  rw [this]
  exact ⟨EReal.coe_ne_bot _, EReal.coe_ne_top _⟩

end Cert.RealClosure

end
-- ==== Proof.FiniteStack.lean ====
/-
  The stacked matrix of normalised rows, entry by entry. The reference normalises each of the two inputs, reshaped to
  4096 rows of 128 entries, by dividing a row by the larger of its Euclidean norm and a small positive constant, and lays
  the second block of rows under the first. Rows 0 … 4095 of the stack are the first input's normalised rows, rows
  4096 … 8191 the second's. When the inputs' entries are real numbers so are the stack's: a sum of squares of reals is a
  real that is not negative, its square root is real, the larger of that and a positive real is a positive real, and a
  real divided by a real that is not zero is real.
-/
import proofs.«164084_j41266045780374_2_alg».proof.Proof.ReadP
import proofs.«164084_j41266045780374_2_alg».proof.Proof.LibRealClosure
import proofs.«164084_j41266045780374_2_alg».proof.Proof.Spec

noncomputable section

namespace Cert.ReferenceIdeal.Finite

open Cert.ReferenceIdeal Cert.ReferenceIdeal.Gen Idealize.ShloMosaic Idealize.ShloMosaic.ValueIdx

/-! ## The two halves of the stack -/

/-- Row `i < 4096` of the stack is row `i` of the first input's normalised rows. -/
theorem v18_top (x0 x1 : (⟨S32x128x128, .f32⟩ : BufTy).Contents (Elt Ideal)) (i : Fin 4096) (k : Fin 128) :
    Read.val_main_v18 (F := Ideal) x0 x1 (ValueIdx.ix2 (⟨i.val, by omega⟩ : Fin 8192) k)
      = Read.val_main_v8 x0 (ValueIdx.ix2 i k) := by
  unfold Read.val_main_v18
  exact concatenate_pair_apply_left (t := S8192x128) (s₁ := S4096x128) (s₂ := S4096x128) 0
    (Read.val_main_v8 (F := Ideal) x0) (Read.val_main_v17 (F := Ideal) x1)
    concatenates_S4096x128_S4096x128_S8192x128_d0 (ValueIdx.ix2 (⟨i.val, by omega⟩ : Fin 8192) k) rfl
    (ValueIdx.ix2 i k) (fun b => match b with | ⟨0, _⟩ => rfl | ⟨1, _⟩ => rfl)

/-- Row `i + 4096` of the stack is row `i` of the second input's normalised rows. -/
theorem v18_bot (x0 x1 : (⟨S32x128x128, .f32⟩ : BufTy).Contents (Elt Ideal)) (i : Fin 4096) (k : Fin 128) :
    Read.val_main_v18 (F := Ideal) x0 x1 (ValueIdx.ix2 (⟨i.val + 4096, by omega⟩ : Fin 8192) k)
      = Read.val_main_v17 x1 (ValueIdx.ix2 i k) := by
  unfold Read.val_main_v18
  exact concatenate_pair_apply_right (t := S8192x128) (s₁ := S4096x128) (s₂ := S4096x128) 0
    (Read.val_main_v8 (F := Ideal) x0) (Read.val_main_v17 (F := Ideal) x1)
    concatenates_S4096x128_S4096x128_S8192x128_d0 (ValueIdx.ix2 (⟨i.val + 4096, by omega⟩ : Fin 8192) k) rfl rfl
    (ValueIdx.ix2 i k)
    (fun b hb => match b, hb with
      | ⟨0, _⟩, hb => absurd rfl hb
      | ⟨1, _⟩, _ => rfl)
    (by show i.val + 4096 = i.val + 4096; rfl)

/-! ## Real entries -/

/-- The f32 word 0x2B8CBCCC denotes the real 9223372 · 2⁻⁶³ (about 1e-12). -/
theorem eps_eq : Ideal.ofBits .f32 0x2B8CBCCC#32 = (((9223372 : ℝ) * ((2 : ℝ) ^ 63)⁻¹ : ℝ) : EReal) := by
  simp [Ideal.ofBits, Ideal.ieee]

/-- That real is positive. -/
theorem eps_pos : (0 : ℝ) < (9223372 : ℝ) * ((2 : ℝ) ^ 63)⁻¹ := by positivity

/-- A real over the larger of the square root of a real that is not negative and a positive real is real. -/
theorem div_norm_real (a s c : ℝ) (hs : 0 ≤ s) (hc : 0 < c) :
    ∃ r : ℝ, Ideal.div (a : EReal) (max (Ideal.sqrt (s : EReal)) (c : EReal)) = ((r : ℝ) : EReal) := by
  have h1 : Ideal.sqrt (s : EReal) = ((Real.sqrt s : ℝ) : EReal) := by
    rw [Ideal.sqrt_coe, if_neg (not_lt.mpr hs)]
  have h2 : max ((Real.sqrt s : ℝ) : EReal) (c : EReal) = ((max (Real.sqrt s) c : ℝ) : EReal) :=
    (EReal.coe_strictMono.monotone.map_max).symm
  have h3 : max (Real.sqrt s) c ≠ 0 := (lt_of_lt_of_le hc (le_max_right _ _)).ne'
  rw [h1, h2, Ideal.div_coe h3, ← EReal.coe_mul]
  exact ⟨_, rfl⟩

/-- Zero plus a sum of squares of reals is a real that is not negative. -/
theorem sumsq_real {ι : Type} [Fintype ι] (f : ι → EReal) (hf : ∀ k, ∃ a : ℝ, f k = ((a : ℝ) : EReal)) :
    ∃ s : ℝ, 0 ≤ s ∧ (0 : EReal) + ∑ k, f k * f k = ((s : ℝ) : EReal) := by
  choose g hg using hf
  refine ⟨∑ k, g k * g k, Finset.sum_nonneg fun k _ => mul_self_nonneg _, ?_⟩
  rw [zero_add, Cert.RealClosure.coe_sum]
  exact Finset.sum_congr rfl fun k _ => by rw [hg k, EReal.coe_mul]

/-- An entry of a row of reals over the row's clamped norm — the shape of every entry of the stack — is real. -/
theorem normalised_entry_real (a : EReal) (f : Fin 128 → EReal) (ha : ∃ r : ℝ, a = ((r : ℝ) : EReal))
    (hf : ∀ k, ∃ r : ℝ, f k = ((r : ℝ) : EReal)) :
    ∃ r : ℝ, Ideal.div a (max (Ideal.sqrt (Ideal.ofBits .f32 0x00000000#32 + ∑ k, f k * f k))
      (Ideal.ofBits .f32 0x2B8CBCCC#32)) = ((r : ℝ) : EReal) := by
  obtain ⟨a, rfl⟩ := ha
  obtain ⟨s, hs, e⟩ := sumsq_real f hf
  rw [Ideal.ofBits_zero_f32, e, eps_eq]
  exact div_norm_real a s _ hs eps_pos

/-- The first input's normalised rows have real entries when the input has. -/
theorem v8_real (x0 : (⟨S32x128x128, .f32⟩ : BufTy).Contents (Elt Ideal))
    (h0 : ∀ j, ∃ a : ℝ, x0 j = ((a : ℝ) : EReal)) (i : Fin 4096) (k : Fin 128) :
    ∃ r : ℝ, Read.val_main_v8 (F := Ideal) x0 (ValueIdx.ix2 i k) = ((r : ℝ) : EReal) := by
  rw [Read.val_main_v8_apply, Read.val_main_v7_apply, Read.val_main_v6_apply, Read.val_main_v4_apply,
    Read.val_main_v3_apply, Read.val_main_v2_apply, Read.val_main_v5_apply, Read.val_main_cst_0_apply,
    Read.val_main_cst_apply]
  simp only [Read.val_main_v1_apply, Ideal.hostDivf_def, Ideal.maximumf_def, Ideal.hostUnary_sqrt_def,
    Ideal.mulf_def, Ideal.ofBits_def]
  exact normalised_entry_real _ _ (by rw [Read.val_main_v0_apply]; exact h0 _)
    (fun k' => by rw [Read.val_main_v0_apply]; exact h0 _)

/-- The second input's normalised rows have real entries when the input has. -/
theorem v17_real (x1 : (⟨S32x128x128, .f32⟩ : BufTy).Contents (Elt Ideal))
    (h1 : ∀ j, ∃ a : ℝ, x1 j = ((a : ℝ) : EReal)) (i : Fin 4096) (k : Fin 128) :
    ∃ r : ℝ, Read.val_main_v17 (F := Ideal) x1 (ValueIdx.ix2 i k) = ((r : ℝ) : EReal) := by
  rw [Read.val_main_v17_apply, Read.val_main_v16_apply, Read.val_main_v15_apply, Read.val_main_v13_apply,
    Read.val_main_v12_apply, Read.val_main_v11_apply, Read.val_main_v14_apply, Read.val_main_cst_2_apply,
    Read.val_main_cst_1_apply]
  simp only [Read.val_main_v10_apply, Ideal.hostDivf_def, Ideal.maximumf_def, Ideal.hostUnary_sqrt_def,
    Ideal.mulf_def, Ideal.ofBits_def]
  exact normalised_entry_real _ _ (by rw [Read.val_main_v9_apply]; exact h1 _)
    (fun k' => by rw [Read.val_main_v9_apply]; exact h1 _)

/-- The stack is a matrix of reals when both inputs have real entries. -/
theorem v18_real (x0 x1 : (⟨S32x128x128, .f32⟩ : BufTy).Contents (Elt Ideal))
    (h0 : ∀ j, ∃ a : ℝ, x0 j = ((a : ℝ) : EReal)) (h1 : ∀ j, ∃ a : ℝ, x1 j = ((a : ℝ) : EReal)) :
    ∃ r : Fin 8192 → Fin 128 → ℝ, ∀ (i : Fin 8192) (k : Fin 128),
      Read.val_main_v18 (F := Ideal) x0 x1 (ValueIdx.ix2 i k) = ((r i k : ℝ) : EReal) := by
  have H : ∀ (i : Fin 8192) (k : Fin 128),
      ∃ r : ℝ, Read.val_main_v18 (F := Ideal) x0 x1 (ValueIdx.ix2 i k) = ((r : ℝ) : EReal) := by
    intro i k
    by_cases hi : i.val < 4096
    · obtain ⟨r, hr⟩ := v8_real x0 h0 ⟨i.val, hi⟩ k
      exact ⟨r, (v18_top x0 x1 ⟨i.val, hi⟩ k).trans hr⟩
    · have hlt : i.val - 4096 < 4096 := by omega
      have e : i = ⟨(⟨i.val - 4096, hlt⟩ : Fin 4096).val + 4096, by omega⟩ :=
        Fin.ext (by show i.val = i.val - 4096 + 4096; omega)
      obtain ⟨r, hr⟩ := v17_real x1 h1 ⟨i.val - 4096, hlt⟩ k
      refine ⟨r, ?_⟩
      rw [e]
      exact (v18_bot x0 x1 ⟨i.val - 4096, hlt⟩ k).trans hr
  choose r hr using H
  exact ⟨r, hr⟩

end Cert.ReferenceIdeal.Finite

end
-- ==== Proof.KerPrefix.lean ====
/-
  What the region finds in the two buffers the kernel reads, in the reference's and the specification's terms.

  The 32 operations before the region are, buffer for buffer, the reference's own normalisation of the two inputs and
  their stack, so the stack in the narrower format (a change of format is the identity on extended reals) is the
  reference's stack entry for entry. The positive logits: the inner product of row `i` of the first block of normalised
  rows with row `i` of the second, for the 4096 values of `i`, laid twice end to end and doubled. Rows `i` and
  `i + 4096` of the stack are each other's partners, and the inner product is symmetric, so entry `j` is the
  specification's positive logit of row `j` in both halves.
-/
import proofs.«164084_j41266045780374_2_alg».proof.Proof.KerStages
import proofs.«164084_j41266045780374_2_alg».proof.Proof.FiniteStack
import proofs.«164084_j41266045780374_2_alg».proof.Proof.Spec
import proofs.«164084_j41266045780374_2_alg».proof.Proof.Algebra
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem
open Cert.ReferenceIdeal.Read

variable (m : (ℓ : Loc nD τ sig) → Buf (Elt Ideal) ℓ)

/-! ## The normalisation, buffer for buffer the reference's -/

theorem K_v0_eq (c : Dev nD) : K_v0 m c = val_main_v0 (F := Ideal) (X0 m c) := by
  rw [stage_v0]; rfl
theorem K_v2_eq (c : Dev nD) : K_v2 m c = val_main_v1 (F := Ideal) (X0 m c) := by
  rw [stage_v2, K_v0_eq]; rfl
theorem K_cst_eq (c : Dev nD) : K_cst m c = val_main_cst (F := Ideal) := by
  rw [stage_cst]; rfl
theorem K_v3_eq (c : Dev nD) : K_v3 m c = val_main_v2 (F := Ideal) (X0 m c) := by
  rw [stage_v3, K_v2_eq, K_cst_eq]; rfl
theorem K_v4_eq (c : Dev nD) : K_v4 m c = val_main_v3 (F := Ideal) (X0 m c) := by
  rw [stage_v4, K_v3_eq]; rfl
theorem K_v5_eq (c : Dev nD) : K_v5 m c = val_main_v4 (F := Ideal) (X0 m c) := by
  rw [stage_v5, K_v4_eq]; rfl
theorem K_cst_0_eq (c : Dev nD) : K_cst_0 m c = val_main_cst_0 (F := Ideal) := by
  rw [stage_cst_0]; rfl
theorem K_v6_eq (c : Dev nD) : K_v6 m c = val_main_v5 (F := Ideal) := by
  rw [stage_v6, K_cst_0_eq]; rfl
theorem K_v7_eq (c : Dev nD) : K_v7 m c = val_main_v6 (F := Ideal) (X0 m c) := by
  rw [stage_v7, K_v5_eq, K_v6_eq]; rfl
theorem K_v8_eq (c : Dev nD) : K_v8 m c = val_main_v7 (F := Ideal) (X0 m c) := by
  rw [stage_v8, K_v7_eq]; rfl
theorem K_v9_eq (c : Dev nD) : K_v9 m c = val_main_v8 (F := Ideal) (X0 m c) := by
  rw [stage_v9, K_v0_eq, K_v8_eq]; rfl
theorem K_v1_eq (c : Dev nD) : K_v1 m c = val_main_v9 (F := Ideal) (X1 m c) := by
  rw [stage_v1]; rfl
theorem K_v10_eq (c : Dev nD) : K_v10 m c = val_main_v10 (F := Ideal) (X1 m c) := by
  rw [stage_v10, K_v1_eq]; rfl
theorem K_cst_1_eq (c : Dev nD) : K_cst_1 m c = val_main_cst_1 (F := Ideal) := by
  rw [stage_cst_1]; rfl
theorem K_v11_eq (c : Dev nD) : K_v11 m c = val_main_v11 (F := Ideal) (X1 m c) := by
  rw [stage_v11, K_v10_eq, K_cst_1_eq]; rfl
theorem K_v12_eq (c : Dev nD) : K_v12 m c = val_main_v12 (F := Ideal) (X1 m c) := by
  rw [stage_v12, K_v11_eq]; rfl
theorem K_v13_eq (c : Dev nD) : K_v13 m c = val_main_v13 (F := Ideal) (X1 m c) := by
  rw [stage_v13, K_v12_eq]; rfl
theorem K_cst_2_eq (c : Dev nD) : K_cst_2 m c = val_main_cst_2 (F := Ideal) := by
  rw [stage_cst_2]; rfl
theorem K_v14_eq (c : Dev nD) : K_v14 m c = val_main_v14 (F := Ideal) := by
  rw [stage_v14, K_cst_2_eq]; rfl
theorem K_v15_eq (c : Dev nD) : K_v15 m c = val_main_v15 (F := Ideal) (X1 m c) := by
  rw [stage_v15, K_v13_eq, K_v14_eq]; rfl
theorem K_v16_eq (c : Dev nD) : K_v16 m c = val_main_v16 (F := Ideal) (X1 m c) := by
  rw [stage_v16, K_v15_eq]; rfl
theorem K_v17_eq (c : Dev nD) : K_v17 m c = val_main_v17 (F := Ideal) (X1 m c) := by
  rw [stage_v17, K_v1_eq, K_v16_eq]; rfl
theorem K_v18_eq (c : Dev nD) : K_v18 m c = val_main_v18 (F := Ideal) (X0 m c) (X1 m c) := by
  rw [stage_v18, K_v9_eq, K_v17_eq]; rfl

/-- The stack the kernel reads, in the narrower format, is the reference's stack of normalised rows. -/
theorem V_v19_apply (c : Dev nD) (j : Fin 8192) (d : Fin 128) :
    V m c main_v19 (ValueIdx.ix2 j d)
      = Cert.ReferenceIdeal.Read.val_main_v18 (F := Ideal) (m ((c : Thread nD τ).loc main_arg0)) (m ((c : Thread nD τ).loc main_arg1))
          (ValueIdx.ix2 j d) := by
  have h := stage_v19 m c
  rw [K_v18_eq] at h
  show K_v19 m c (ValueIdx.ix2 j d) = _
  rw [h]
  rfl

/-! ## The positive logits -/

/-- A row sum from an initial value: the initial value plus the sum of the row's 128 entries. -/
theorem rowSum_apply (y : FVec Ideal S4096x128 .f32) (z : FVec Ideal S_ .f32) (j : Fin 4096) :
    Host.reduceAdd (F := Ideal) y z reducesTo_S4096x128_S4096_d1 h_S_ (ValueIdx.ix1 j)
      = z (Shape.Idx.first h_S_) + ∑ k : Fin 128, y (ValueIdx.ix2 j k) := by
  rw [ValueIdx.hostReduceAdd_apply, Ideal.hostReduceAdd_single reducesTo_S4096x128_S4096_d1 (by decide)]
  refine congrArg (_ + ·) (Finset.sum_congr rfl fun k _ => congrArg y (funext fun a => Fin.ext ?_))
  match a with
  | ⟨0, _⟩ => rfl
  | ⟨1, _⟩ => rfl

/-- The first 4096 entries of two vectors laid end to end are the first vector's. -/
theorem stackVec_top (a b : FVec Ideal S4096 .f32) (i : Fin 4096) :
    stackVec a b (ValueIdx.ix1 (⟨i.val, by omega⟩ : Fin 8192)) = a (ValueIdx.ix1 i) := by
  unfold stackVec
  exact concatenate_pair_apply_left (t := S8192) (s₁ := S4096) (s₂ := S4096) 0 a b concatenates_S4096_S4096_S8192_d0
    (ValueIdx.ix1 (⟨i.val, by omega⟩ : Fin 8192)) rfl (ValueIdx.ix1 i) (fun b => match b with | ⟨0, _⟩ => rfl)

/-- The last 4096 are the second vector's. -/
theorem stackVec_bot (a b : FVec Ideal S4096 .f32) (i : Fin 4096) :
    stackVec a b (ValueIdx.ix1 (⟨i.val + 4096, by omega⟩ : Fin 8192)) = b (ValueIdx.ix1 i) := by
  unfold stackVec
  exact concatenate_pair_apply_right (t := S8192) (s₁ := S4096) (s₂ := S4096) 0 a b concatenates_S4096_S4096_S8192_d0
    (ValueIdx.ix1 (⟨i.val + 4096, by omega⟩ : Fin 8192)) rfl rfl (ValueIdx.ix1 i)
    (fun b hb => match b, hb with | ⟨0, _⟩, hb => absurd rfl hb)
    (by show i.val + 4096 = i.val + 4096; rfl)

section Logits

variable (c : Dev nD) (r : Fin 8192 → Fin 128 → ℝ)
  (hr : ∀ (i : Fin 8192) (k : Fin 128),
    Cert.ReferenceIdeal.Read.val_main_v18 (F := Ideal) (m ((c : Thread nD τ).loc main_arg0)) (m ((c : Thread nD τ).loc main_arg1))
      (ValueIdx.ix2 i k) = ((r i k : ℝ) : EReal))
include hr

/-- Entry `i` of the 4096 inner products: row `i` of the stack against row `i + 4096`. -/
theorem K_v21_apply (i : Fin 4096) :
    K_v21 m c (ValueIdx.ix1 i) = ((Cert.NTX.sim r ⟨i.val, by omega⟩ ⟨i.val + 4096, by omega⟩ : ℝ) : EReal) := by
  rw [stage_v21, rowSum_apply, stage_cst_3, ValueIdx.constant_apply, Ideal.ofBits_zero_f32, zero_add]
  unfold Cert.NTX.sim
  rw [Cert.NTX.coe_sum]
  refine Finset.sum_congr rfl fun k _ => ?_
  rw [stage_v20, ValueIdx.mulf_apply, K_v9_eq, K_v17_eq,
    ← Cert.ReferenceIdeal.Finite.v18_top (X0 m c) (X1 m c) i k, ← Cert.ReferenceIdeal.Finite.v18_bot (X0 m c) (X1 m c) i k,
    hr, hr, EReal.coe_mul]

/-- Entry `j` of the inner products laid twice end to end: row `j` of the stack against its partner. -/
theorem K_v22_apply (j : Fin 8192) :
    K_v22 m c (ValueIdx.ix1 j) = ((Cert.NTX.sim r j (Cert.NTX.partner j) : ℝ) : EReal) := by
  rw [stage_v22]
  by_cases hj : j.val < 4096
  · have e : Cert.NTX.partner j = ⟨j.val + 4096, by omega⟩ :=
      Fin.ext (by show (j.val + 4096) % 8192 = j.val + 4096; omega)
    rw [e]
    exact (stackVec_top _ _ ⟨j.val, hj⟩).trans (K_v21_apply m c r hr ⟨j.val, hj⟩)
  · have hlt : j.val - 4096 < 4096 := by omega
    have ej : j = ⟨(⟨j.val - 4096, hlt⟩ : Fin 4096).val + 4096, by omega⟩ :=
      Fin.ext (by show j.val = j.val - 4096 + 4096; omega)
    have e : Cert.NTX.partner j = ⟨(⟨j.val - 4096, hlt⟩ : Fin 4096).val, by omega⟩ :=
      Fin.ext (by show (j.val + 4096) % 8192 = j.val - 4096; omega)
    rw [e, Cert.NTX.sim_comm]
    have h := (stackVec_bot (K_v21 m c) (K_v21 m c) ⟨j.val - 4096, hlt⟩).trans (K_v21_apply m c r hr ⟨j.val - 4096, hlt⟩)
    rw [← ej] at h
    exact h

/-- The positive logits the kernel reads are the specification's. -/
theorem V_v25_apply (j : Fin 8192) :
    V m c main_v25 (ValueIdx.ix2 j (0 : Fin 1)) = ((Cert.NTX.posLogit r j : ℝ) : EReal) := by
  show K_v25 m c (ValueIdx.ix2 j (0 : Fin 1)) = _
  have h23 : K_v23 m c (ValueIdx.ix2 j (0 : Fin 1)) = K_v22 m c (ValueIdx.ix1 j) := by
    rw [stage_v23]
    exact broadcastInDim_apply _ bcast_S8192_S8192x1_0 (K_v22 m c) (ValueIdx.ix2 j (0 : Fin 1)) (ValueIdx.ix1 j)
      (fun a => match a with
        | ⟨0, _⟩ => by show j.val = if (8192 : Nat) = 1 then 0 else j.val; rw [if_neg (by decide)])
  have h24 : K_v24 m c (ValueIdx.ix2 j (0 : Fin 1)) = ((2 : ℝ) : EReal) := by
    rw [stage_v24, ValueIdx.broadcastInDim_scalar_apply, stage_cst_4, ValueIdx.constant_apply, Cert.NTX.ofBits_two]
  rw [stage_v25, ValueIdx.mulf_apply, h23, h24, K_v22_apply m c r hr j, ← EReal.coe_mul]
  rfl

end Logits

end Cert.KernelIdeal.Hand

end
-- ==== Proof.LibFiniteEntries.lean ====
/-
  "Every entry is finite", decoded on the extended reals. A precondition `all(|a| < +∞)` prints as a reduction by `and`,
  into a rank-0 result, of the comparison of `|a|` with the f32 word of +∞ spread over the array's shape. When that
  reduction is 1, every entry of `a` is a real number: neither −∞ nor +∞.
-/
import Idealize.ShloMosaic.PureOps.Ideal
import Idealize.ShloMosaic.Lib.ReduceAll
import Idealize.ShloMosaic.Lib.ValueIdx

noncomputable section

namespace Cert.FiniteEntries

open Idealize.ShloMosaic

/-- The rank-0 shape has one index. -/
instance : Subsingleton (⟨0, ![]⟩ : Shape).Idx := ⟨fun a b => funext fun d => d.elim0⟩

/-- An entry whose absolute value compares below the f32 word of +∞ is real. -/
theorem elt_real (x : EReal)
    (h : FloatOps.cmpf (F := Ideal) (φ := .f32) .olt (FloatOps.hostAbsf (F := Ideal) (φ := .f32) x) (Ideal.ofBits .f32 0x7F800000#32) = 1#1) :
    x ≠ ⊥ ∧ x ≠ ⊤ := by
  have htop : Ideal.ofBits .f32 0x7F800000#32 = ⊤ := by simp [Ideal.ofBits, Ideal.ieee]
  rw [htop] at h
  have hlt : max x (-x) < ⊤ := by
    by_contra hn
    have h0 : FloatOps.cmpf (F := Ideal) (φ := .f32) .olt (FloatOps.hostAbsf (F := Ideal) (φ := .f32) x) (⊤ : EReal) = 0#1 := by
      show BitVec.ofBool (decide (max x (-x) < ⊤)) = 0#1
      rw [decide_eq_false hn]; rfl
    rw [h0] at h; exact absurd h (by decide)
  constructor
  · rintro rfl; simp at hlt
  · rintro rfl; simp at hlt

/-- An f32 array whose `all(|a| < +∞)` is 1 has real entries. -/
theorem arr_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a) (broadcastInDim s ![] hb (constant (⟨0, ![]⟩ : Shape) .f32 0x7F800000#32)))
      (constantI (⟨0, ![]⟩ : Shape) 1 1#1) hr hu ValueIdx.ix0 = 1#1) (i : s.Idx) : a i ≠ ⊥ ∧ a i ≠ ⊤ :=
  elt_real (a i) (Host.reduce_andi_all _ _ hr hu _ e i)

end Cert.FiniteEntries

end
-- ==== Proof.FiniteInputs.lean ====
/-
  The precondition, decoded: when `all(|x0| < +∞) ∧ all(|x1| < +∞)` is 1, every entry of both input arrays is a real
  number (neither −∞ nor +∞), hence the coercion of some real.
-/
import proofs.«164084_j41266045780374_2_alg».proof.Proof.Gen.Pre_finite_inputs
import proofs.«164084_j41266045780374_2_alg».proof.ReferenceIdeal
import proofs.«164084_j41266045780374_2_alg».proof.Proof.LibFiniteEntries

noncomputable section

namespace Cert.ReferenceIdeal.Finite

open Cert.ReferenceIdeal Idealize.ShloMosaic

/-- An extended real that is neither −∞ nor +∞ is the coercion of a real. -/
theorem exists_real {x : EReal} (h : x ≠ ⊥ ∧ x ≠ ⊤) : ∃ a : ℝ, x = ((a : ℝ) : EReal) := by
  induction x using EReal.rec with
  | bot => exact absurd rfl h.1
  | coe a => exact ⟨a, rfl⟩
  | top => exact absurd rfl h.2

/-- Under the precondition both input arrays have real entries. -/
theorem inputs_real (x0 x1 : (⟨S32x128x128, .f32⟩ : BufTy).Contents (Elt Ideal))
    (hpre : Cert.Pre_finite_inputs.fn (F := Ideal) x0 x1 = fun _ => 1#1) :
    (∀ j, ∃ a : ℝ, x0 j = ((a : ℝ) : EReal)) ∧ (∀ j, ∃ a : ℝ, x1 j = ((a : ℝ) : EReal)) := by
  have h := congrFun hpre ValueIdx.ix0
  dsimp only [Cert.Pre_finite_inputs.fn] at h
  obtain ⟨h0, h1⟩ := IntOp.andi_eq_one.mp h
  exact ⟨fun j => exists_real (Cert.FiniteEntries.arr_real x0 _ _ _ h0 j),
    fun j => exists_real (Cert.FiniteEntries.arr_real x1 _ _ _ h1 j)⟩

end Cert.ReferenceIdeal.Finite

end
-- ==== Proof.LibIdxOne.lean ====
/-
  Indices of the smallest shapes. The indices of a vector `[n]` are its coordinates, so a sum over them is a sum over
  `Fin n` (what a reduction of a vector to a scalar sums over); and a `[1, 1]` array has exactly one index.
-/
import Idealize.ShloMosaic.Lib.ValueIdx

namespace Idealize.ShloMosaic.ValueIdx

open Idealize.ShloMosaic

/-- The indices of a vector are its coordinates. -/
def idxEquiv1 {n : Nat} : (⟨1, ![n]⟩ : Shape).Idx ≃ Fin n where
  toFun j := j 0
  invFun := ix1
  left_inv j := (eq_ix1 j).symm
  right_inv _ := rfl

/-- A sum over a vector's indices is the sum over its coordinates. -/
theorem sum_idx1 {M : Type*} [AddCommMonoid M] {n : Nat} (f : (⟨1, ![n]⟩ : Shape).Idx → M) :
    ∑ j : (⟨1, ![n]⟩ : Shape).Idx, f j = ∑ r : Fin n, f (ix1 r) :=
  Fintype.sum_equiv idxEquiv1 f (fun r => f (ix1 r)) fun j => congrArg f (eq_ix1 j)

/-- A `[1, 1]` array has one index. -/
theorem idx_1x1_unique (y : (⟨2, ![1, 1]⟩ : Shape).Idx) : y = ix2 (0 : Fin 1) (0 : Fin 1) := by
  funext a
  apply Fin.ext
  match a with
  | ⟨0, _⟩ => have := idx2_lt0 y; show (y 0).val = 0; omega
  | ⟨1, _⟩ => have := idx2_lt1 y; show (y 1).val = 0; omega

end Idealize.ShloMosaic.ValueIdx
-- ==== Proof.RefRowAlg.lean ====
/-
  One row of the reference's log-softmax, apart from any program term.

  Row i of the reference's logits has 8192 entries: the positive logit first, then the 8191 logits against the other
  rows in order (the diagonal skipped). When every entry is a real, the running maximum M from -∞ is a real, the
  shifted entries, their exponentials, the sum, its logarithm and the difference are all reals, and the negated
  log-softmax at column 0 is the specification's row loss (the shift by M cancels).
-/
import proofs.«164084_j41266045780374_2_alg».proof.Proof.Algebra

noncomputable section

namespace Cert.ReferenceIdeal.RefValue

open Idealize.ShloMosaic Cert.NTX

/-- Row i of the reference's logits over the reals: the positive logit, then the off-diagonal logits in order. -/
def logit (r : Fin 8192 → Fin 128 → ℝ) (i k : Fin 8192) : ℝ :=
  if k.val = 0 then posLogit r i else sim r i (skip i ⟨k.val - 1, by have := k.isLt; omega⟩) * 2

theorem logit_zero (r : Fin 8192 → Fin 128 → ℝ) (i k : Fin 8192) (hk : k.val = 0) : logit r i k = posLogit r i :=
  if_pos hk

theorem logit_succ (r : Fin 8192 → Fin 128 → ℝ) (i k : Fin 8192) (j' : Fin 8191) (hk : k.val = j'.val + 1) :
    logit r i k = sim r i (skip i j') * 2 := by
  unfold logit
  rw [if_neg (by omega)]
  have e : (⟨k.val - 1, by have := k.isLt; omega⟩ : Fin 8191) = j' := Fin.ext (by show k.val - 1 = j'.val; omega)
  rw [e]

/-- A sum over the row's 8192 entries: the positive logit's term and the 8191 off-diagonal terms. -/
theorem sum_logit (r : Fin 8192 → Fin 128 → ℝ) (i : Fin 8192) (g : ℝ → ℝ) :
    ∑ k : Fin 8192, g (logit r i k) = g (posLogit r i) + ∑ j' : Fin 8191, g (sim r i (skip i j') * 2) := by
  rw [Fin.sum_univ_succ (n := 8191) (fun k : Fin 8192 => g (logit r i k))]
  refine congrArg₂ (· + ·) ?_ (Finset.sum_congr rfl fun j' _ => ?_)
  · rw [logit_zero r i 0 rfl]
  · rw [logit_succ r i (Fin.succ j') j' rfl]

/-- The row's chain on the extended reals: shift by the running maximum from -∞, exponentiate, sum from 0, take the
    logarithm, subtract, read column 0, negate. At real logits this is the row loss. -/
theorem row_chain (r : Fin 8192 → Fin 128 → ℝ) (i : Fin 8192) (L : Fin 8192 → EReal)
    (hL : ∀ k, L k = ((logit r i k : ℝ) : EReal)) (k0 : Fin 8192) (hk0 : k0.val = 0) :
    -((L k0 - Finset.univ.fold max (⊥ : EReal) L)
        - Ideal.log (((0 : ℝ) : EReal) + ∑ k : Fin 8192, Ideal.exp (L k - Finset.univ.fold max (⊥ : EReal) L)))
      = ((rowLoss r i : ℝ) : EReal) := by
  obtain ⟨M, hM⟩ := fold_max_real (logit r i)
  have hfun : L = fun k => ((logit r i k : ℝ) : EReal) := funext hL
  rw [hfun, hM]
  have e1 : ∀ k, Ideal.exp (((logit r i k : ℝ) : EReal) - ((M : ℝ) : EReal))
      = ((Real.exp (logit r i k - M) : ℝ) : EReal) := fun k => by
    rw [← EReal.coe_sub, Ideal.exp_coe]
  have e2 : (∑ k : Fin 8192, Ideal.exp (((logit r i k : ℝ) : EReal) - ((M : ℝ) : EReal)))
      = ((∑ k : Fin 8192, Real.exp (logit r i k - M) : ℝ) : EReal) := by
    rw [coe_sum]
    exact Finset.sum_congr rfl fun k _ => e1 k
  have hpos : 0 < ∑ k : Fin 8192, Real.exp (logit r i k - M) :=
    Finset.sum_pos (fun k _ => Real.exp_pos _) Finset.univ_nonempty
  rw [e2, ← EReal.coe_add, zero_add, log_coe_pos hpos, ← EReal.coe_sub, ← EReal.coe_sub, ← EReal.coe_neg]
  refine congrArg _ ?_
  rw [sum_logit r i (fun y => Real.exp (y - M)), logit_zero r i k0 hk0]
  exact ref_row r i M

end Cert.ReferenceIdeal.RefValue

end
-- ==== Proof.RefMaxRow.lean ====
/-
  The host's row maximum of a matrix, read at a row: a reduction with a maximum body along the columns, started
  from -∞, is at row i the running maximum from -∞ over the entries (i, k) of that row.
-/
import Idealize.ShloMosaic.PureOps.Ideal
import Idealize.ShloMosaic.PureOps.Ideal.Laws
import Idealize.ShloMosaic.PureOps.Reduce
import Idealize.ShloMosaic.Lib.ValueIdx

noncomputable section

namespace Cert.ReferenceIdeal.RefValue

open Idealize.ShloMosaic Idealize.ShloMosaic.ValueIdx

/-- The row maximum at row i is the fold of max from ⊥ over the row's entries. -/
theorem reduce_max_rows {m n : ℕ} (x : (⟨2, ![m, n]⟩ : Shape).Idx → EReal) {u : Shape} (init : u.Idx → EReal)
    (h' : (⟨2, ![m, n]⟩ : Shape).ReducesTo [(1 : Fin 2)] ⟨1, ![m]⟩)
    (h : (⟨2, ![m, n]⟩ : Shape).Reduces [(1 : Fin 2)] ⟨1, ![m]⟩) (hu : 0 < u.numel) (i : Fin m)
    (hinit : init (Shape.Idx.first hu) = ⊥) :
    Host.reduce (FloatOps.maximumf (F := Ideal) (φ := .f32)) x init h' hu (ix1 i)
      = (Finset.univ : Finset (Fin n)).fold max (⊥ : EReal) (fun k => x (ix2 i k)) := by
  rw [Host.reduce_eq_fold_single (FloatOps.maximumf (F := Ideal) (φ := .f32)) x init h' h hu (ix1 i), hinit]
  show (Finset.univ : Finset (Fin n)).fold max (⊥ : EReal) (fun k => x (h.lift (ix1 i) k)) = _
  refine congrArg (fun f => Finset.fold max (⊥ : EReal) f (Finset.univ : Finset (Fin n))) (funext fun k => congrArg x (funext fun c => Fin.ext ?_))
  match c with
  | ⟨0, _⟩ => rfl
  | ⟨1, _⟩ => rfl

end Cert.ReferenceIdeal.RefValue

end
-- ==== Proof.LibKerLayout.lean ====
/-
  Rank-2 layout operations of the host read at a cell: a two-piece concatenation along either axis, a reversal
  along either axis, and zero-or-value padding on the right.
-/
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.HostValue

open Idealize.ShloMosaic Idealize.ShloMosaic.ValueIdx

variable {α : Type}

/-- Two blocks of rows stacked: a row of the first block. -/
theorem concat2_d0_left {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hlt : i.val < a1) :
    concatenate ⟨2, ![n, b]⟩ (0 : Fin 2) [⟨⟨2, ![a1, b]⟩, x₁⟩, ⟨⟨2, ![a2, b]⟩, x₂⟩] h (ix2 i q) = x₁ (ix2 ⟨i.val, hlt⟩ q) :=
  concatenate_pair_apply_left (0 : Fin 2) x₁ x₂ h (ix2 i q) rfl (ix2 ⟨i.val, hlt⟩ q) (fun b => by
    match b with
    | ⟨0, _⟩ => rfl
    | ⟨1, _⟩ => rfl)

/-- Two blocks of rows stacked: a row of the second block. -/
theorem concat2_d0_right {a1 a2 n b : ℕ} (x₁ : (⟨2, ![a1, b]⟩ : Shape).Idx → α) (x₂ : (⟨2, ![a2, b]⟩ : Shape).Idx → α)
    (h : Shape.Concatenates [⟨2, ![a1, b]⟩, ⟨2, ![a2, b]⟩] ⟨2, ![n, b]⟩ (0 : Fin 2)) (i : Fin n) (q : Fin b) (hge : a1 ≤ i.val)
    (hlt : i.val - a1 < a2) :
    concatenate ⟨2, ![n, b]⟩ (0 : Fin 2) [⟨⟨2, ![a1, b]⟩, x₁⟩, ⟨⟨2, ![a2, b]⟩, x₂⟩] h (ix2 i q) = x₂ (ix2 ⟨i.val - a1, hlt⟩ q) :=
  concatenate_pair_apply_right (0 : Fin 2) x₁ x₂ h (ix2 i q) rfl rfl (ix2 ⟨i.val - a1, hlt⟩ q) (fun b hb => by
    match b with
    | ⟨0, _⟩ => exact absurd rfl hb
    | ⟨1, _⟩ => rfl) (by show (i.val - a1) + a1 = i.val; omega)

/-- Two blocks of columns side by side: a column of the first block. -/
theorem concat2_d1_left {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hlt : q.val < b1) :
    concatenate ⟨2, ![a, n]⟩ (1 : Fin 2) [⟨⟨2, ![a, b1]⟩, x₁⟩, ⟨⟨2, ![a, b2]⟩, x₂⟩] h (ix2 i q) = x₁ (ix2 i ⟨q.val, hlt⟩) :=
  concatenate_pair_apply_left (1 : Fin 2) x₁ x₂ h (ix2 i q) rfl (ix2 i ⟨q.val, hlt⟩) (fun b => by
    match b with
    | ⟨0, _⟩ => rfl
    | ⟨1, _⟩ => rfl)

/-- Two blocks of columns side by side: a column of the second block. -/
theorem concat2_d1_right {a b1 b2 n : ℕ} (x₁ : (⟨2, ![a, b1]⟩ : Shape).Idx → α) (x₂ : (⟨2, ![a, b2]⟩ : Shape).Idx → α)
    (h : Shape.Concatenates [⟨2, ![a, b1]⟩, ⟨2, ![a, b2]⟩] ⟨2, ![a, n]⟩ (1 : Fin 2)) (i : Fin a) (q : Fin n) (hge : b1 ≤ q.val)
    (hlt : q.val - b1 < b2) :
    concatenate ⟨2, ![a, n]⟩ (1 : Fin 2) [⟨⟨2, ![a, b1]⟩, x₁⟩, ⟨⟨2, ![a, b2]⟩, x₂⟩] h (ix2 i q) = x₂ (ix2 i ⟨q.val - b1, hlt⟩) :=
  concatenate_pair_apply_right (1 : Fin 2) x₁ x₂ h (ix2 i q) rfl rfl (ix2 i ⟨q.val - b1, hlt⟩) (fun b hb => by
    match b with
    | ⟨0, _⟩ => rfl
    | ⟨1, _⟩ => exact absurd rfl hb) (by show (q.val - b1) + b1 = q.val; omega)

/-- The rows in reverse order. -/
theorem reverse2_d0 {a b : ℕ} (x : (⟨2, ![a, b]⟩ : Shape).Idx → α) (i : Fin a) (q : Fin b) :
    Host.reverse (s := ⟨2, ![a, b]⟩) [(0 : Fin 2)] x (ix2 i q) = x (ix2 i.rev q) := by
  unfold Host.reverse
  refine congrArg x (funext fun ax => ?_)
  match ax with
  | ⟨0, _⟩ => exact if_pos (List.mem_singleton.mpr (Fin.ext rfl))
  | ⟨1, _⟩ => exact if_neg (fun hm => absurd (congrArg Fin.val (List.mem_singleton.mp hm)) Nat.one_ne_zero)

/-- The columns in reverse order. -/
theorem reverse2_d1 {a b : ℕ} (x : (⟨2, ![a, b]⟩ : Shape).Idx → α) (i : Fin a) (q : Fin b) :
    Host.reverse (s := ⟨2, ![a, b]⟩) [(1 : Fin 2)] x (ix2 i q) = x (ix2 i q.rev) := by
  unfold Host.reverse
  refine congrArg x (funext fun ax => ?_)
  match ax with
  | ⟨0, _⟩ => exact if_neg (fun hm => absurd (congrArg Fin.val (List.mem_singleton.mp hm)) Nat.zero_ne_one)
  | ⟨1, _⟩ => exact if_pos (List.mem_singleton.mpr (Fin.ext rfl))

/-- Padding on the right by `p` columns: a column of the operand. -/
theorem pad2_right_inside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hlt : q.val < b) :
    pad ⟨2, ![a, n]⟩ ![0, 0] ![0, p] ![0, 0] x v h hu (ix2 i q) = x (ix2 i ⟨q.val, hlt⟩) :=
  pad_apply_of_inside _ _ _ x v h hu (ix2 i q) (ix2 i ⟨q.val, hlt⟩) (fun ax => by
    match ax with
    | ⟨0, _⟩ => show i.val = 0 + i.val * (0 + 1); omega
    | ⟨1, _⟩ => show q.val = 0 + q.val * (0 + 1); omega)

/-- Padding on the right by `p` columns: a padding column holds the padding value. -/
theorem pad2_right_outside {a b n p : ℕ} (x : (⟨2, ![a, b]⟩ : Shape).Idx → α) {u : Shape} (v : u.Idx → α)
    (h : (⟨2, ![a, b]⟩ : Shape).Pads ![0, 0] ![0, p] ![0, 0] ⟨2, ![a, n]⟩) (hu : 0 < u.numel) (i : Fin a) (q : Fin n) (hge : b ≤ q.val) :
    pad ⟨2, ![a, n]⟩ ![0, 0] ![0, p] ![0, 0] x v h hu (ix2 i q) = v (Shape.Idx.first hu) :=
  pad_apply_of_not_inside _ _ _ x v h hu (ix2 i q) (1 : Fin 2) (fun hin => by
    have h3 : (q.val - 0) / (0 + 1) < b := hin.2.2
    simp at h3; omega)

end Cert.KernelIdeal.HostValue

end
-- ==== Proof.RefIdx.lean ====
/-
  Index arithmetic of the reference, apart from any program term.

  * The off-diagonal relayout. The [8192, 8192] matrix is flattened, its last entry dropped, the rest read as
    [8191, 8193], column 0 dropped, and the remaining [8191, 8192] entries read as [8192, 8191]. Entry (i, j') of the
    result sits at flat position f = i * 8191 + j' of the [8191, 8192] array, that is row a = f / 8192 and column
    b = f % 8192 there, which is entry (a, 1 + b) of the [8191, 8193] array, flat position a * 8193 + (1 + b) = f + a + 1
    of the matrix: row i, and column j' when j' < i, column j' + 1 otherwise. Row i of the result is row i of the
    matrix with its diagonal entry removed.
  * The two diagonals at distance 4096. Their start indices are 32-bit words i and 4096 + i (i < 4096), wrapped by
    "add 8192 when negative"; both are non-negative, so the wrap is the identity and they read, signed, as i and 4096 + i.
-/
import Idealize.ShloMosaic.Lib.Affine
import Idealize.ShloMosaic.Lib.ValueIdx

namespace Cert.ReferenceIdeal.RefValue

open Idealize.ShloMosaic

/-! ### The off-diagonal relayout -/

/-- The matrix row that entry (i, j') of the relaid array comes from is i. -/
theorem offdiag_row (i j' : ℕ) (hi : i < 8192) (hj : j' < 8191) :
    ((i * 8191 + j') / 8192 * 8193 + (1 + (i * 8191 + j') % 8192)) / 8192 = i := by
  omega

/-- The matrix column that entry (i, j') of the relaid array comes from skips the diagonal. -/
theorem offdiag_col (i j' : ℕ) (hi : i < 8192) (hj : j' < 8191) :
    ((i * 8191 + j') / 8192 * 8193 + (1 + (i * 8191 + j') % 8192)) % 8192 = if j' < i then j' else j' + 1 := by
  by_cases h : j' < i
  · have hc : (i * 8191 + j') / 8192 + 1 = i := by
      have h1 : (i * 8191 + j') / 8192 < i := Nat.div_lt_of_lt_mul (by omega)
      have h2 : i - 1 ≤ (i * 8191 + j') / 8192 := (Nat.le_div_iff_mul_le (by norm_num)).mpr (by omega)
      omega
    have hrow := offdiag_row i j' hi hj
    rw [if_pos h]
    omega
  · have hc : (i * 8191 + j') / 8192 = i := by
      have h1 : (i * 8191 + j') / 8192 < i + 1 := Nat.div_lt_of_lt_mul (by omega)
      have h2 : i ≤ (i * 8191 + j') / 8192 := (Nat.le_div_iff_mul_le (by norm_num)).mpr (by omega)
      omega
    have hrow := offdiag_row i j' hi hj
    rw [if_neg h]
    omega

/-! ### The partner row -/

theorem partner_lo (i : ℕ) (h : i < 4096) : (i + 4096) % 8192 = i + 4096 := by omega

theorem partner_hi (i : ℕ) (h1 : 4096 ≤ i) (h2 : i < 8192) : (i + 4096) % 8192 = i - 4096 := by omega

/-! ### The diagonals' start-index words -/

/-- A small word reads, signed, as itself. -/
theorem toInt_ofNat_small (n : ℕ) (h : n < 4096) : (BitVec.ofNat 32 n).toInt = (n : ℤ) := by
  rw [BitVec.toInt_eq_toNat_of_lt (by rw [BitVec.toNat_ofNat]; omega), BitVec.toNat_ofNat]
  congr 1
  omega

/-- 4096 plus a small word reads, signed, as the sum. -/
theorem toInt_add_4096 (n : ℕ) (h : n < 4096) : (IntOp.addi 4096#32 (BitVec.ofNat 32 n)).toInt = ((4096 + n : ℕ) : ℤ) := by
  have e : IntOp.addi 4096#32 (BitVec.ofNat 32 n) = BitVec.ofNat 32 (4096 + n) := by
    unfold IntOp.addi
    rw [← BitVec.ofNat_add]
  rw [e, BitVec.toInt_eq_toNat_of_lt (by rw [BitVec.toNat_ofNat]; omega), BitVec.toNat_ofNat]
  congr 1
  omega

/-- "Add 8192 when negative" leaves a non-negative word alone. -/
theorem wrap_nonneg (x : BitVec 32) (h : 0 ≤ x.toInt) :
    Scalar.select (IntOp.cmpi .slt x 0#32) (IntOp.addi x 8192#32) x = x := by
  have hz : IntOp.cmpi .slt x 0#32 = 0#1 := by
    refine ValueIdx.eq_zero_of_ne_one fun h1 => ?_
    rw [IntOp.cmpi_slt] at h1
    have : (0#32 : BitVec 32).toInt = 0 := by decide
    omega
  rw [hz, ValueIdx.select_zero]

end Cert.ReferenceIdeal.RefValue
-- ==== Proof.RefGather.lean ====
/-
  A gather of single entries of a matrix at pairs of start indices, read at an index.

  What jnp.diagonal lowers to: the operand is [N0, N1], the start indices are [E, 2] (row e holds the pair of
  coordinates), both operand axes are collapsed and both are named by the start index, every slice is one entry.
  Result entry e is the operand at (idx[e, 0], idx[e, 1]), each start index read signed and clamped into its axis.
-/
import Idealize.ShloMosaic.Lib.ValueIdx

noncomputable section

namespace Cert.ReferenceIdeal.RefValue

open Idealize.ShloMosaic Idealize.ShloMosaic.ValueIdx

variable {α : Type}

/-- Those dimension numbers for an operand [N0, N1], start indices [E, 2] and result [E]. -/
abbrev pairDims (N0 N1 E : Nat)
    (wf : GatherDims.WF ⟨2, ![N0, N1]⟩ ⟨2, ![E, 2]⟩ ⟨1, ![E]⟩ [] [0, 1] [] [0, 1] [] 1 ![1, 1]) :
    GatherDims ⟨2, ![N0, N1]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- The gather read at entry e: the operand at the pair of start indices of row e, each read signed and clamped
    into its axis. -/
theorem gather_pair_apply {N0 N1 E w : Nat} (h0 : 0 < N0) (h1 : 0 < N1)
    (wf : GatherDims.WF ⟨2, ![N0, N1]⟩ ⟨2, ![E, 2]⟩ ⟨1, ![E]⟩ [] [0, 1] [] [0, 1] [] 1 ![1, 1])
    (x : (⟨2, ![N0, N1]⟩ : Shape).Idx → α) (idx : IVec ⟨2, ![E, 2]⟩ w) (e : Fin E) :
    Host.gather (pairDims N0 N1 E wf) x idx (ix1 e)
      = x (ix2 (⟨min (idx (ix2 e (0 : Fin 2))).toInt.toNat (N0 - 1), by omega⟩ : Fin N0)
               (⟨min (idx (ix2 e (1 : Fin 2))).toInt.toNat (N1 - 1), by omega⟩ : Fin N1)) := by
  unfold Host.gather
  refine congrArg x (funext fun a => Fin.ext ?_)
  have hm0 : (0 : Fin 2) ∈ (pairDims N0 N1 E wf).startIndexMap := List.mem_cons_self
  have hm1 : (1 : Fin 2) ∈ (pairDims N0 N1 E wf).startIndexMap := List.mem_cons_of_mem _ List.mem_cons_self
  match a with
  | ⟨0, _⟩ =>
    show (pairDims N0 N1 E wf).start (ix1 e) idx 0 + (pairDims N0 N1 E wf).batchCoord (ix1 e) 0
      + (pairDims N0 N1 E wf).offCoord (ix1 e) 0 = _
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos hm0]
    have hsi : (pairDims N0 N1 E wf).siIdx (ix1 e) ⟨List.idxOf (0 : Fin 2) (pairDims N0 N1 E wf).startIndexMap,
        List.idxOf_lt_length_iff.2 hm0⟩ = ix2 e (0 : Fin 2) := by
      funext b; refine Fin.ext ?_
      match b with
      | ⟨0, _⟩ => rfl
      | ⟨1, _⟩ => rfl
    rw [hsi]
    rfl
  | ⟨1, _⟩ =>
    show (pairDims N0 N1 E wf).start (ix1 e) idx 1 + (pairDims N0 N1 E wf).batchCoord (ix1 e) 1
      + (pairDims N0 N1 E wf).offCoord (ix1 e) 1 = _
    rw [GatherDims.batchCoord_eq_zero _ _ _ List.not_mem_nil,
      GatherDims.offCoord_eq_zero _ _ _ (fun h => ((GatherDims.mem_sKept _ _).mp h).1
        (List.mem_cons_of_mem _ List.mem_cons_self))]
    simp only [Nat.add_zero]
    unfold GatherDims.start
    rw [dif_pos hm1]
    have hsi : (pairDims N0 N1 E wf).siIdx (ix1 e) ⟨List.idxOf (1 : Fin 2) (pairDims N0 N1 E wf).startIndexMap,
        List.idxOf_lt_length_iff.2 hm1⟩ = ix2 e (1 : Fin 2) := by
      funext b; refine Fin.ext ?_
      match b with
      | ⟨0, _⟩ => rfl
      | ⟨1, _⟩ => rfl
    rw [hsi]
    rfl

/-- The gather read at entry e when both start indices of row e name positions of their axes: the operand there. -/
theorem gather_pair_apply_of_inRange {N0 N1 E w : Nat}
    (wf : GatherDims.WF ⟨2, ![N0, N1]⟩ ⟨2, ![E, 2]⟩ ⟨1, ![E]⟩ [] [0, 1] [] [0, 1] [] 1 ![1, 1])
    (x : (⟨2, ![N0, N1]⟩ : Shape).Idx → α) (idx : IVec ⟨2, ![E, 2]⟩ w) (e : Fin E) (p : Fin N0) (q : Fin N1)
    (hp : (idx (ix2 e (0 : Fin 2))).toInt = (p.val : ℤ)) (hq : (idx (ix2 e (1 : Fin 2))).toInt = (q.val : ℤ)) :
    Host.gather (pairDims N0 N1 E wf) x idx (ix1 e) = x (ix2 p q) := by
  rw [gather_pair_apply (Fin.pos p) (Fin.pos q) wf x idx e]
  refine congrArg x (funext fun a => Fin.ext ?_)
  match a with
  | ⟨0, _⟩ =>
    show min (idx (ix2 e (0 : Fin 2))).toInt.toNat (N0 - 1) = p.val
    rw [hp, Int.toNat_natCast]
    have := p.isLt
    omega
  | ⟨1, _⟩ =>
    show min (idx (ix2 e (1 : Fin 2))).toInt.toNat (N1 - 1) = q.val
    rw [hq, Int.toNat_natCast]
    have := q.isLt
    omega

end Cert.ReferenceIdeal.RefValue

end
-- ==== Proof.RefConcat.lean ====
/-
  A two-piece concatenation of vectors read at an index: an index below the first piece's length reads the first
  piece there, an index from that length on reads the second piece at the index less that length.
-/
import Idealize.ShloMosaic.Lib.Pipeline.Value
import Idealize.ShloMosaic.Lib.ValueIdx

noncomputable section

namespace Cert.ReferenceIdeal.RefValue

open Idealize.ShloMosaic Idealize.ShloMosaic.ValueIdx

variable {α : Type}

/-- Two vectors joined: an entry of the first. -/
theorem concat1_left {a1 a2 n : ℕ} (x₁ : (⟨1, ![a1]⟩ : Shape).Idx → α) (x₂ : (⟨1, ![a2]⟩ : Shape).Idx → α)
    (h : Shape.Concatenates [⟨1, ![a1]⟩, ⟨1, ![a2]⟩] ⟨1, ![n]⟩ (0 : Fin 1)) (i : Fin n) (hlt : i.val < a1) :
    concatenate ⟨1, ![n]⟩ (0 : Fin 1) [⟨⟨1, ![a1]⟩, x₁⟩, ⟨⟨1, ![a2]⟩, x₂⟩] h (ix1 i) = x₁ (ix1 ⟨i.val, hlt⟩) :=
  concatenate_pair_apply_left (0 : Fin 1) x₁ x₂ h (ix1 i) rfl (ix1 ⟨i.val, hlt⟩) (fun b => by
    match b with
    | ⟨0, _⟩ => rfl)

/-- Two vectors joined: an entry of the second. -/
theorem concat1_right {a1 a2 n : ℕ} (x₁ : (⟨1, ![a1]⟩ : Shape).Idx → α) (x₂ : (⟨1, ![a2]⟩ : Shape).Idx → α)
    (h : Shape.Concatenates [⟨1, ![a1]⟩, ⟨1, ![a2]⟩] ⟨1, ![n]⟩ (0 : Fin 1)) (i : Fin n) (hge : a1 ≤ i.val)
    (hlt : i.val - a1 < a2) :
    concatenate ⟨1, ![n]⟩ (0 : Fin 1) [⟨⟨1, ![a1]⟩, x₁⟩, ⟨⟨1, ![a2]⟩, x₂⟩] h (ix1 i) = x₂ (ix1 ⟨i.val - a1, hlt⟩) :=
  concatenate_pair_apply_right (0 : Fin 1) x₁ x₂ h (ix1 i) rfl rfl (ix1 ⟨i.val - a1, hlt⟩) (fun b hb => by
    match b with
    | ⟨0, _⟩ => exact absurd rfl hb) (by show (i.val - a1) + a1 = i.val; omega)

end Cert.ReferenceIdeal.RefValue

end
-- ==== Proof.RefSim.lean ====
/-
  The reference's similarity matrix at an entry. The matrix product of the stacked normalised rows with their
  transpose has at (i, j) the sum over the 128 columns of row i's entry times row j's entry; when the stacked rows
  are the reals r, that is the inner product of rows i and j of r.
-/
import proofs.«164084_j41266045780374_2_alg».proof.Proof.ReadP
import proofs.«164084_j41266045780374_2_alg».proof.Proof.Spec
import proofs.«164084_j41266045780374_2_alg».proof.Proof.Algebra

noncomputable section

namespace Cert.ReferenceIdeal.RefValue

open Cert.ReferenceIdeal Cert.ReferenceIdeal.Gen Cert.ReferenceIdeal.Read Idealize.ShloMosaic Idealize.ShloMosaic.ValueIdx Cert.NTX

/-- Entry (i, j) of the similarity matrix is the inner product of rows i and j. -/
theorem sim_entry (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) (i j : Fin 8192) :
    Read.val_main_v20 (F := Ideal) x0 x1 (ix2 i j) = ((sim r i j : ℝ) : EReal) := by
  rw [val_main_v20_apply]
  unfold sim
  rw [coe_sum]
  refine Finset.sum_congr rfl fun k _ => ?_
  have e1 : lidx_main_v20 (ix2 i j) k = ix2 i k := funext fun a => Fin.ext (by
    match a with
    | ⟨0, _⟩ => rfl
    | ⟨1, _⟩ => rfl)
  have e2 : idx_main_v19 (ridx_main_v20 (ix2 i j) k) = ix2 j k := funext fun a => Fin.ext (by
    match a with
    | ⟨0, _⟩ => rfl
    | ⟨1, _⟩ => rfl)
  rw [val_main_v19_apply, e1, e2, hr, hr, EReal.coe_mul]

end Cert.ReferenceIdeal.RefValue

end
-- ==== Proof.RefPos.lean ====
/-
  The reference's positive column. The two diagonals of the similarity matrix at distance 4096 are gathered at the
  index pairs (e, 4096 + e) and (4096 + e, e) for e < 4096 and joined: entry i of the result is the similarity of
  row i and the row 4096 places away cyclically, its partner.
-/
import proofs.«164084_j41266045780374_2_alg».proof.Proof.ReadP
import proofs.«164084_j41266045780374_2_alg».proof.Proof.Spec
import proofs.«164084_j41266045780374_2_alg».proof.Proof.RefIdx
import proofs.«164084_j41266045780374_2_alg».proof.Proof.RefGather
import proofs.«164084_j41266045780374_2_alg».proof.Proof.RefConcat
import proofs.«164084_j41266045780374_2_alg».proof.Proof.LibKerLayout
import proofs.«164084_j41266045780374_2_alg».proof.Proof.RefSim

noncomputable section

namespace Cert.ReferenceIdeal.RefValue

open Cert.ReferenceIdeal Cert.ReferenceIdeal.Gen Cert.ReferenceIdeal.Read Idealize.ShloMosaic Idealize.ShloMosaic.ValueIdx Cert.NTX Cert.KernelIdeal.HostValue

/-! ### The start indices of the upper diagonal: row e, column 4096 + e -/

theorem upper_row_word (e : Fin 4096) :
    Read.val_main_call0_v16 (F := Ideal) (ix2 e (0 : Fin 2)) = BitVec.ofNat 32 e.val := by
  unfold val_main_call0_v16
  refine (concat2_d1_left (val_main_call0_v14 (F := Ideal)) (val_main_call0_v15 (F := Ideal))
    concatenates_S4096x1_S4096x1_S4096x2_d1 e (0 : Fin 2) Nat.one_pos).trans ?_
  rw [val_main_call0_v14_apply, val_main_call0_v8_apply, val_main_call0_v5_apply, val_main_call0_v7_apply,
    val_main_call0_v0_apply, val_main_call0_v4_apply, val_main_call0_c_0_apply, val_main_call0_v6_apply,
    val_main_call0_c_1_apply]
  exact wrap_nonneg _ (by rw [toInt_ofNat_small _ e.isLt]; exact Int.natCast_nonneg _)

theorem upper_col_word (e : Fin 4096) :
    Read.val_main_call0_v16 (F := Ideal) (ix2 e (1 : Fin 2)) = IntOp.addi 4096#32 (BitVec.ofNat 32 e.val) := by
  unfold val_main_call0_v16
  refine (concat2_d1_right (val_main_call0_v14 (F := Ideal)) (val_main_call0_v15 (F := Ideal))
    concatenates_S4096x1_S4096x1_S4096x2_d1 e (1 : Fin 2) (Nat.le_refl 1) Nat.one_pos).trans ?_
  rw [val_main_call0_v15_apply, val_main_call0_v13_apply, val_main_call0_v10_apply, val_main_call0_v12_apply,
    val_main_call0_v3_apply, val_main_call0_v2_apply, val_main_call0_c_apply, val_main_call0_v1_apply,
    val_main_call0_v9_apply, val_main_call0_c_2_apply, val_main_call0_v11_apply, val_main_call0_c_3_apply]
  exact wrap_nonneg _ (by rw [toInt_add_4096 _ e.isLt]; exact Int.natCast_nonneg _)

/-! ### The start indices of the lower diagonal: row 4096 + e, column e -/

theorem lower_row_word (e : Fin 4096) :
    Read.val_main_call1_v16 (F := Ideal) (ix2 e (0 : Fin 2)) = IntOp.addi 4096#32 (BitVec.ofNat 32 e.val) := by
  unfold val_main_call1_v16
  refine (concat2_d1_left (val_main_call1_v14 (F := Ideal)) (val_main_call1_v15 (F := Ideal))
    concatenates_S4096x1_S4096x1_S4096x2_d1 e (0 : Fin 2) Nat.one_pos).trans ?_
  rw [val_main_call1_v14_apply, val_main_call1_v8_apply, val_main_call1_v5_apply, val_main_call1_v7_apply,
    val_main_call1_v3_apply, val_main_call1_v2_apply, val_main_call1_c_apply, val_main_call1_v1_apply,
    val_main_call1_v4_apply, val_main_call1_c_0_apply, val_main_call1_v6_apply, val_main_call1_c_1_apply]
  exact wrap_nonneg _ (by rw [toInt_add_4096 _ e.isLt]; exact Int.natCast_nonneg _)

theorem lower_col_word (e : Fin 4096) :
    Read.val_main_call1_v16 (F := Ideal) (ix2 e (1 : Fin 2)) = BitVec.ofNat 32 e.val := by
  unfold val_main_call1_v16
  refine (concat2_d1_right (val_main_call1_v14 (F := Ideal)) (val_main_call1_v15 (F := Ideal))
    concatenates_S4096x1_S4096x1_S4096x2_d1 e (1 : Fin 2) (Nat.le_refl 1) Nat.one_pos).trans ?_
  rw [val_main_call1_v15_apply, val_main_call1_v13_apply, val_main_call1_v10_apply, val_main_call1_v12_apply,
    val_main_call1_v0_apply, val_main_call1_v9_apply, val_main_call1_c_2_apply, val_main_call1_v11_apply,
    val_main_call1_c_3_apply]
  exact wrap_nonneg _ (by rw [toInt_ofNat_small _ e.isLt]; exact Int.natCast_nonneg _)

/-! ### The two diagonals and their join -/

/-- The program's gather dimension numbers are those of a gather of single entries at index pairs. -/
theorem gather_dims_eq : gather_S8192x8192_S4096x2_S4096_n_01_n_n_01_1_11
    = pairDims 8192 8192 4096 gather_S8192x8192_S4096x2_S4096_n_01_n_n_01_1_11_wf := rfl

/-- Entry e of the upper diagonal is the similarity of rows e and 4096 + e. -/
theorem upper_diag (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) (e : Fin 4096) (p q : Fin 8192) (hp : p.val = e.val) (hq : q.val = 4096 + e.val) :
    Read.val_main_v21 (F := Ideal) x0 x1 (ix1 e) = ((sim r p q : ℝ) : EReal) := by
  unfold val_main_v21
  rw [gather_dims_eq]
  refine (gather_pair_apply_of_inRange _ (val_main_v20 (F := Ideal) x0 x1) (val_main_call0_v16 (F := Ideal)) e p q
    ?_ ?_).trans (sim_entry x0 x1 r hr p q)
  · rw [upper_row_word, toInt_ofNat_small _ e.isLt, hp]
  · rw [upper_col_word, toInt_add_4096 _ e.isLt, hq]

/-- Entry e of the lower diagonal is the similarity of rows 4096 + e and e. -/
theorem lower_diag (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) (e : Fin 4096) (p q : Fin 8192) (hp : p.val = 4096 + e.val) (hq : q.val = e.val) :
    Read.val_main_v22 (F := Ideal) x0 x1 (ix1 e) = ((sim r p q : ℝ) : EReal) := by
  unfold val_main_v22
  rw [gather_dims_eq]
  refine (gather_pair_apply_of_inRange _ (val_main_v20 (F := Ideal) x0 x1) (val_main_call1_v16 (F := Ideal)) e p q
    ?_ ?_).trans (sim_entry x0 x1 r hr p q)
  · rw [lower_row_word, toInt_add_4096 _ e.isLt, hp]
  · rw [lower_col_word, toInt_ofNat_small _ e.isLt, hq]

/-- Entry i of the positive column is the similarity of row i and its partner. -/
theorem pos_entry (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) (i : Fin 8192) :
    Read.val_main_v23 (F := Ideal) x0 x1 (ix1 i) = ((sim r i (partner i) : ℝ) : EReal) := by
  unfold val_main_v23
  by_cases h : i.val < 4096
  · refine (concat1_left (val_main_v21 (F := Ideal) x0 x1) (val_main_v22 (F := Ideal) x0 x1)
      concatenates_S4096_S4096_S8192_d0 i h).trans ?_
    exact upper_diag x0 x1 r hr ⟨i.val, h⟩ i (partner i) rfl (by
      show (i.val + 4096) % 8192 = 4096 + i.val
      rw [partner_lo i.val h, Nat.add_comm])
  · have hge : 4096 ≤ i.val := Nat.le_of_not_lt h
    have hlt : i.val - 4096 < 4096 := by have := i.isLt; omega
    refine (concat1_right (val_main_v21 (F := Ideal) x0 x1) (val_main_v22 (F := Ideal) x0 x1)
      concatenates_S4096_S4096_S8192_d0 i hge hlt).trans ?_
    exact lower_diag x0 x1 r hr ⟨i.val - 4096, hlt⟩ i (partner i) (by show i.val = 4096 + (i.val - 4096); omega) (by
      show (i.val + 4096) % 8192 = i.val - 4096
      exact partner_hi i.val hge i.isLt)

end Cert.ReferenceIdeal.RefValue

end
-- ==== Proof.RefOff.lean ====
/-
  The reference's off-diagonal columns. The similarity matrix is flattened, its last entry dropped, the rest read as
  [8191, 8193], column 0 dropped, and the remaining entries read as [8192, 8191]: entry (i, j') of the result is the
  similarity of row i and the j'-th of the other rows in order.
-/
import proofs.«164084_j41266045780374_2_alg».proof.Proof.ReadP
import proofs.«164084_j41266045780374_2_alg».proof.Proof.Spec
import proofs.«164084_j41266045780374_2_alg».proof.Proof.Algebra
import proofs.«164084_j41266045780374_2_alg».proof.Proof.RefIdx
import proofs.«164084_j41266045780374_2_alg».proof.Proof.RefSim

noncomputable section

namespace Cert.ReferenceIdeal.RefValue

open Cert.ReferenceIdeal Cert.ReferenceIdeal.Gen Cert.ReferenceIdeal.Read Idealize.ShloMosaic Idealize.ShloMosaic.ValueIdx Cert.NTX

/-- Entry (i, j') of the relaid array is entry (i, skip i j') of the similarity matrix. -/
theorem off_entry (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) (i : Fin 8192) (j' : Fin 8191) :
    Read.val_main_v28 (F := Ideal) x0 x1 (ix2 i j') = ((sim r i (skip i j') : ℝ) : EReal) := by
  rw [val_main_v28_apply, val_main_v27_apply, val_main_v26_apply, val_main_v25_apply, val_main_v24_apply]
  have e : idx_main_v24 (idx_main_v25 (idx_main_v26 (idx_main_v27 (idx_main_v28 (ix2 i j'))))) = ix2 i (skip i j') := by
    funext a
    refine Fin.ext ?_
    match a with
    | ⟨0, _⟩ =>
      show ((i.val * 8191 + j'.val) / 8192 * 8193 + (1 + (i.val * 8191 + j'.val) % 8192)) / 8192 = i.val
      exact offdiag_row i.val j'.val i.isLt j'.isLt
    | ⟨1, _⟩ =>
      show ((i.val * 8191 + j'.val) / 8192 * 8193 + (1 + (i.val * 8191 + j'.val) % 8192)) % 8192
        = if j'.val < i.val then j'.val else j'.val + 1
      exact offdiag_col i.val j'.val i.isLt j'.isLt
  rw [e]
  exact sim_entry x0 x1 r hr i (skip i j')

end Cert.ReferenceIdeal.RefValue

end
-- ==== Proof.RefLogits.lean ====
/-
  The reference's logits. Row i is the positive column's entry followed by the 8191 off-diagonal entries, each
  divided by the temperature 1/2: entry (i, k) is the k-th real logit of row i.
-/
import proofs.«164084_j41266045780374_2_alg».proof.Proof.ReadP
import proofs.«164084_j41266045780374_2_alg».proof.Proof.Spec
import proofs.«164084_j41266045780374_2_alg».proof.Proof.Algebra
import proofs.«164084_j41266045780374_2_alg».proof.Proof.LibKerLayout
import proofs.«164084_j41266045780374_2_alg».proof.Proof.RefRowAlg
import proofs.«164084_j41266045780374_2_alg».proof.Proof.RefPos
import proofs.«164084_j41266045780374_2_alg».proof.Proof.RefOff

noncomputable section

namespace Cert.ReferenceIdeal.RefValue

open Cert.ReferenceIdeal Cert.ReferenceIdeal.Gen Cert.ReferenceIdeal.Read Idealize.ShloMosaic Idealize.ShloMosaic.ValueIdx Cert.NTX Cert.KernelIdeal.HostValue

/-- Dividing a real by the word for 1/2 doubles it. -/
theorem div_half (x : ℝ) :
    FloatOps.hostDivf (F := Ideal) (φ := .f32) ((x : ℝ) : EReal) (FloatOps.ofBits (F := Ideal) .f32 0x3F000000#32)
      = ((x * 2 : ℝ) : EReal) := by
  rw [Ideal.hostDivf_def, Ideal.ofBits_def, ofBits_half, div_coe_coe (by norm_num)]
  refine congrArg _ ?_
  ring

/-- Entry (i, k) of the logits is the k-th logit of row i. -/
theorem logits_entry (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) (i k : Fin 8192) :
    Read.val_main_v32 (F := Ideal) x0 x1 (ix2 i k) = ((logit r i k : ℝ) : EReal) := by
  rw [val_main_v32_apply, val_main_v31_apply, val_main_cst_3_apply]
  by_cases hk : k.val = 0
  · have e30 : val_main_v30 (F := Ideal) x0 x1 (ix2 i k) = ((sim r i (partner i) : ℝ) : EReal) := by
      unfold val_main_v30
      refine (concat2_d1_left (val_main_v29 (F := Ideal) x0 x1) (val_main_v28 (F := Ideal) x0 x1)
        concatenates_S8192x1_S8192x8191_S8192x8192_d1 i k (by omega)).trans ?_
      rw [val_main_v29_apply]
      have e : idx_main_v29 (ix2 i (⟨k.val, by omega⟩ : Fin 1)) = ix1 i := funext fun a => Fin.ext (by
        match a with
        | ⟨0, _⟩ => rfl)
      rw [e]
      exact pos_entry x0 x1 r hr i
    rw [e30, div_half, logit_zero r i k hk]
    rfl
  · have hge : 1 ≤ k.val := Nat.one_le_iff_ne_zero.mpr hk
    have hlt : k.val - 1 < 8191 := by have := k.isLt; omega
    have e30 : val_main_v30 (F := Ideal) x0 x1 (ix2 i k)
        = ((sim r i (skip i ⟨k.val - 1, hlt⟩) : ℝ) : EReal) := by
      unfold val_main_v30
      refine (concat2_d1_right (val_main_v29 (F := Ideal) x0 x1) (val_main_v28 (F := Ideal) x0 x1)
        concatenates_S8192x1_S8192x8191_S8192x8192_d1 i k hge hlt).trans ?_
      exact off_entry x0 x1 r hr i ⟨k.val - 1, hlt⟩
    rw [e30, div_half, logit_succ r i k ⟨k.val - 1, hlt⟩ (by show k.val = k.val - 1 + 1; omega)]

end Cert.ReferenceIdeal.RefValue

end
-- ==== Proof.RefSoftmax.lean ====
/-
  The reference's row losses. Along each row of the logits the log-softmax subtracts the row maximum (started from
  -∞), exponentiates, sums from 0, takes the logarithm and subtracts it; column 0 of the result, negated, is the
  row's cross-entropy loss.
-/
import proofs.«164084_j41266045780374_2_alg».proof.Proof.ReadP
import proofs.«164084_j41266045780374_2_alg».proof.Proof.Spec
import proofs.«164084_j41266045780374_2_alg».proof.Proof.Algebra
import proofs.«164084_j41266045780374_2_alg».proof.Proof.RefRowAlg
import proofs.«164084_j41266045780374_2_alg».proof.Proof.RefMaxRow
import proofs.«164084_j41266045780374_2_alg».proof.Proof.RefLogits

noncomputable section

namespace Cert.ReferenceIdeal.RefValue

open Cert.ReferenceIdeal Cert.ReferenceIdeal.Gen Cert.ReferenceIdeal.Read Idealize.ShloMosaic Idealize.ShloMosaic.ValueIdx Cert.NTX

/-- The row maximum at row i: the running maximum from -∞ of the row's logits. -/
theorem rowmax_entry (x0 x1 : (⟨S32x128x128, .f32⟩ : BufTy).Contents (Elt Ideal)) (i : Fin 8192) :
    Read.val_main_call2_v2 (F := Ideal) x0 x1 (ix1 i)
      = (Finset.univ : Finset (Fin 8192)).fold max (⊥ : EReal) (fun k => Read.val_main_v32 (F := Ideal) x0 x1 (ix2 i k)) := by
  rw [val_main_call2_v2_apply, val_main_call2_v1_apply, val_main_call2_cst_0_apply]
  have h0 : Read.val_main_call2_v0 (F := Ideal) x0 x1 (ix1 i)
      = (Finset.univ : Finset (Fin 8192)).fold max (⊥ : EReal) (fun k => Read.val_main_v32 (F := Ideal) x0 x1 (ix2 i k)) := by
    unfold val_main_call2_v0
    exact reduce_max_rows (m := 8192) (n := 8192) (val_main_v32 (F := Ideal) x0 x1) (val_main_call2_cst (F := Ideal))
      reducesTo_S8192x8192_S8192_d1 (by decide) h_S_ i (by
        rw [val_main_call2_cst_apply, Ideal.ofBits_def, ofBits_neg_inf])
  rw [h0, Ideal.ofBits_def, ofBits_neg_inf, Ideal.maximumf_def]
  exact max_eq_right bot_le

/-- The shifted logits: entry (i, k) less the row maximum. -/
theorem shifted_entry (x0 x1 : (⟨S32x128x128, .f32⟩ : BufTy).Contents (Elt Ideal)) (i k : Fin 8192) :
    Read.val_main_call2_v5 (F := Ideal) x0 x1 (ix2 i k)
      = Read.val_main_v32 (F := Ideal) x0 x1 (ix2 i k)
        - (Finset.univ : Finset (Fin 8192)).fold max (⊥ : EReal) (fun k => Read.val_main_v32 (F := Ideal) x0 x1 (ix2 i k)) := by
  rw [val_main_call2_v5_apply, val_main_call2_v4_apply, val_main_call2_v3_apply]
  have e : idx_main_call2_v3 (idx_main_call2_v4 (ix2 i k)) = ix1 i := funext fun a => Fin.ext (by
    match a with
    | ⟨0, _⟩ => rfl)
  rw [e, rowmax_entry, Ideal.subf_def]

/-- The sum of the exponentials along row i, from 0. -/
theorem sumexp_entry (x0 x1 : (⟨S32x128x128, .f32⟩ : BufTy).Contents (Elt Ideal)) (i : Fin 8192) :
    Read.val_main_call2_v7 (F := Ideal) x0 x1 (ix1 i)
      = ((0 : ℝ) : EReal) + ∑ k : Fin 8192, Ideal.exp (Read.val_main_call2_v5 (F := Ideal) x0 x1 (ix2 i k)) := by
  rw [val_main_call2_v7_apply, val_main_call2_cst_1_apply, Ideal.ofBits_def, ofBits_zero]
  refine congrArg (_ + ·) (Finset.sum_congr rfl fun k _ => ?_)
  rw [val_main_call2_v6_apply, Ideal.hostUnary_exp_def]
  refine congrArg (fun j => Ideal.exp (Read.val_main_call2_v5 (F := Ideal) x0 x1 j)) (funext fun a => Fin.ext ?_)
  match a with
  | ⟨0, _⟩ => rfl
  | ⟨1, _⟩ => rfl

/-- Entry i of the negated column 0 of the log-softmax is row i's loss. -/
theorem row_entry (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) (i : Fin 8192) :
    Read.val_main_v36 (F := Ideal) x0 x1 (ix1 i) = ((rowLoss r i : ℝ) : EReal) := by
  rw [val_main_v36_apply, val_main_v35_apply, val_main_v34_apply, val_main_v33_apply]
  have e0 : idx_main_v34 (idx_main_v35 (ix1 i)) = ix2 i (0 : Fin 8192) := funext fun a => Fin.ext (by
    match a with
    | ⟨0, _⟩ => exact Nat.div_one i.val
    | ⟨1, _⟩ => rfl)
  rw [e0, val_main_call2_v10_apply, val_main_call2_v9_apply, val_main_call2_v8_apply]
  have e1 : idx_main_call2_v8 (idx_main_call2_v10 (ix2 i (0 : Fin 8192))) = ix1 i := funext fun a => Fin.ext (by
    match a with
    | ⟨0, _⟩ => rfl)
  rw [e1, sumexp_entry, shifted_entry x0 x1 i (0 : Fin 8192), Ideal.hostUnary_log_def, Ideal.subf_def,
    Ideal.hostNegf_def, Ideal.negf_def]
  simp only [shifted_entry x0 x1 i]
  exact row_chain r i (fun k => Read.val_main_v32 (F := Ideal) x0 x1 (ix2 i k))
    (fun k => logits_entry x0 x1 r hr i k) (0 : Fin 8192) rfl

end Cert.ReferenceIdeal.RefValue

end
-- ==== Proof.RefValue.lean ====
/-
  The reference's result. The negated column 0 of the log-softmax holds the 8192 row losses; they are summed from 0
  and the sum is divided by 8192: the mean row loss of the specification.
-/
import proofs.«164084_j41266045780374_2_alg».proof.Proof.ReadP
import proofs.«164084_j41266045780374_2_alg».proof.Proof.Spec
import proofs.«164084_j41266045780374_2_alg».proof.Proof.Algebra
import proofs.«164084_j41266045780374_2_alg».proof.Proof.LibIdxOne
import proofs.«164084_j41266045780374_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx Cert.NTX

/-- The reference computes the mean row loss of the stacked normalised rows. -/
theorem result_eq (x0 x1 : (⟨S32x128x128, .f32⟩ : BufTy).Contents (Elt Ideal)) (r : Fin 8192 → Fin 128 → ℝ)
    (hr : ∀ (i : Fin 8192) (k : Fin 128), Read.val_main_v18 (F := Ideal) x0 x1 (ValueIdx.ix2 i k) = ((r i k : ℝ) : EReal)) :
    Read.val_main_v38 (F := Ideal) x0 x1 = fun _ => ((Cert.NTX.loss r : ℝ) : EReal) := by
  funext j
  rw [val_main_v38_apply, val_main_v37_apply, val_main_cst_4_apply, val_main_cst_5_apply, Ideal.ofBits_def,
    Ideal.ofBits_def, ofBits_zero, ofBits_8192, Ideal.hostDivf_def]
  have hs : (∑ q : S8192.Idx, Read.val_main_v36 (F := Ideal) x0 x1 q)
      = ((∑ i : Fin 8192, rowLoss r i : ℝ) : EReal) := by
    rw [sum_idx1 (n := 8192) (fun q => Read.val_main_v36 (F := Ideal) x0 x1 q), coe_sum]
    exact Finset.sum_congr rfl fun i _ => row_entry x0 x1 r hr i
  rw [hs, ← EReal.coe_add, zero_add, div_coe_coe (by norm_num)]
  rfl

end Cert.ReferenceIdeal.RefValue

end
-- ==== Proof.lean ====
/-
  A contrastive loss over 8192 L2-normalised rows (two views of 4096 samples), computed two ways, agrees.

  Both programs normalise the rows of the two inputs and stack them into one matrix `r`. The reference forms all inner
  products `r rᵀ`, reads each row's positive logit off the diagonals 4096 places from the main one, removes the main
  diagonal, divides by the temperature 1/2 and takes the row-wise log-softmax (shifted by the row maximum) at the positive
  column. The kernel never forms the matrix: for 1024 query rows at a time it accumulates, over eight blocks of 1024 key
  rows, the exponentials of twice the inner products with the row's own column masked out, adds the exponential of the
  positive logit (computed beforehand as a row-wise inner product of the two halves), and takes minus the positive logit
  plus the logarithm. Over the reals, with every input entry finite, both are the mean over rows of
      -p_i + log (∑_{j ≠ i} exp (2 r_i·r_j) + exp p_i),       p_i = 2 r_i·r_{partner i}
  (the shift by the row maximum cancels; dividing by 1/2 is multiplying by 2). Finiteness matters: it makes every
  normalised entry a real number, so that exponentials, sums and logarithms stay real and the shift cancels.

  The kernel hands the normalised matrix to its body through two windows at once (query blocks and the whole key matrix);
  its run therefore holds that one array as two half shares during the region and rejoins them before the host
  operations that follow. That run is proved once for any float instance and used at the word-level instance for the
  kernel's frame and at the extended reals for the idealized kernel's frame and value.
-/
import proofs.«164084_j41266045780374_2_alg».proof.Defs
import proofs.«164084_j41266045780374_2_alg».proof.Proof.Gen.Kernel
import proofs.«164084_j41266045780374_2_alg».proof.Proof.Gen.KernelIdeal
import proofs.«164084_j41266045780374_2_alg».proof.Proof.Gen.ReferenceIdeal
import proofs.«164084_j41266045780374_2_alg».proof.Proof.ReadP
import proofs.«164084_j41266045780374_2_alg».proof.Proof.RefAfter
import proofs.«164084_j41266045780374_2_alg».proof.Proof.Gen.Pre_finite_inputs
import proofs.«164084_j41266045780374_2_alg».proof.Proof.KBMain
import proofs.«164084_j41266045780374_2_alg».proof.Proof.KIMain
import proofs.«164084_j41266045780374_2_alg».proof.Proof.KerArray
import proofs.«164084_j41266045780374_2_alg».proof.Proof.KerTail
import proofs.«164084_j41266045780374_2_alg».proof.Proof.KerPrefix
import proofs.«164084_j41266045780374_2_alg».proof.Proof.FiniteInputs
import proofs.«164084_j41266045780374_2_alg».proof.Proof.FiniteStack
import proofs.«164084_j41266045780374_2_alg».proof.Proof.RefValue
import Idealize.ShloMosaic.Adequacy
import Idealize.ShloMosaic.Init

noncomputable section

namespace Cert.Proof

open Idealize.ShloMosaic Idealize.SL.Sem

/-- The word-level kernel runs to the end, faults nowhere and leaves its two arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.HandRun.run m ρ)

/-- Nothing was rewritten when the kernel was idealized. -/
theorem preserves : Cert.preserves_Kernel_KernelIdeal := trivial

/-- From finite inputs both programs end at the mean row loss of the same real matrix of normalised rows. -/
theorem algebraic : Cert.algebraic_KernelIdeal_ReferenceIdeal := by
  intro m ρ m' ρ' hpre hagree
  have hreal : ∀ c : Dev Cert.KernelIdeal.nD, ∃ r : Fin 8192 → Fin 128 → ℝ, ∀ (i : Fin 8192) (k : Fin 128),
      Cert.ReferenceIdeal.Read.val_main_v18 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (ValueIdx.ix2 i k)
        = ((r i k : ℝ) : EReal) := fun c => by
    obtain ⟨h0, h1⟩ := Cert.ReferenceIdeal.Finite.inputs_real _ _ (hpre c)
    exact Cert.ReferenceIdeal.Finite.v18_real _ _ h0 h1
  choose r hr using hreal
  refine ⟨fun c => fun _ => ((Cert.NTX.loss (r c) : ℝ) : EReal), ?_, ?_⟩
  · refine (θ_run Cert.KernelIdeal.defs _ _).mono (fun _ h c => ⟨(h c).1.trans ?_, (h c).2⟩) (Cert.KernelIdeal.Hand.run_value (F := Ideal) m ρ)
    exact Cert.KernelIdeal.Hand.Wend_v28 m c (r c) (fun j =>
      Cert.KernelIdeal.Hand.arrAt3_real m c (r c)
        (fun j d => (Cert.KernelIdeal.Hand.V_v19_apply m c j d).trans (hr c j d))
        (fun j => Cert.KernelIdeal.Hand.V_v25_apply m c (r c) (hr c) j) j)
  · refine (θ_run Cert.ReferenceIdeal.defs _ _).mono (fun _ h c => ⟨(h c).1.trans ?_, (h c).2⟩) (Cert.ReferenceIdeal.HandRun.run m' ρ')
    rw [(hagree c).1, (hagree c).2]
    exact Cert.ReferenceIdeal.RefValue.result_eq _ _ (r c) (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
